-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S64x128 : Shape := ⟨2, ![64, 128]⟩
abbrev S64 : Shape := ⟨1, ![64]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S200000x128 .f32) (main_arg1 : FVec F S64x128 .f32) (main_arg2 : FVec F S64 .f32) (main_arg3 : FVec F S64x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S200000x128 : Shape := ⟨2, ![200000, 128]⟩
abbrev S64x128 : Shape := ⟨2, ![64, 128]⟩
abbrev S64 : Shape := ⟨1, ![64]⟩
abbrev S2x1x128 : Shape := ⟨3, ![2, 1, 128]⟩
abbrev S10000x128 : Shape := ⟨2, ![10000, 128]⟩
abbrev S1x1x128 : Shape := ⟨3, ![1, 1, 128]⟩
abbrev S1x128 : Shape := ⟨2, ![1, 128]⟩
abbrev S128 : Shape := ⟨1, ![128]⟩
abbrev S128x64 : Shape := ⟨2, ![128, 64]⟩
abbrev S1x64 : Shape := ⟨2, ![1, 64]⟩
abbrev S2x64x128 : Shape := ⟨3, ![2, 64, 128]⟩
abbrev S2x1x64 : Shape := ⟨3, ![2, 1, 64]⟩
abbrev S1x64x128 : Shape := ⟨3, ![1, 64, 128]⟩
abbrev S1x1x64 : Shape := ⟨3, ![1, 1, 64]⟩
abbrev S10000x64 : Shape := ⟨2, ![10000, 64]⟩
abbrev S10000 : Shape := ⟨1, ![10000]⟩
abbrev S10000x1 : Shape := ⟨2, ![10000, 1]⟩
abbrev S64x1 : Shape := ⟨2, ![64, 1]⟩
abbrev S_ : Shape := ⟨0, ![]⟩

abbrev nBuf : Space → Nat
  | .hbm => 40
  | .vmem => 17
  | .smem => 0
  | _ => 0

abbrev bufTy : (tb : Table) → Fin (tcTables nBuf tb) → BufTy
  | .hbm, ⟨0, _⟩ => ⟨S200000x128, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S2x1x128, .f32⟩
  | .hbm, ⟨5, _⟩ => ⟨S1x1x128, .f32⟩
  | .hbm, ⟨6, _⟩ => ⟨S1x128, .f32⟩
  | .hbm, ⟨7, _⟩ => ⟨S1x1x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S128x64, .f32⟩
  | .hbm, ⟨12, _⟩ => ⟨S1x64, .f32⟩
  | .hbm, ⟨13, _⟩ => ⟨S2x64x128, .f32⟩
  | .hbm, ⟨14, _⟩ => ⟨S2x1x64, .f32⟩
  | .hbm, ⟨15, _⟩ => ⟨S1x64x128, .f32⟩
  | .hbm, ⟨16, _⟩ => ⟨S64x128, .f32⟩
  | .hbm, ⟨17, _⟩ => ⟨S1x64x128, .f32⟩
  | .hbm, ⟨18, _⟩ => ⟨S64x128, .f32⟩
  | .hbm, ⟨19, _⟩ => ⟨S64x128, .f32⟩
  | .hbm, ⟨20, _⟩ => ⟨S1x1x64, .f32⟩
  | .hbm, ⟨21, _⟩ => ⟨S1x64, .f32⟩
  | .hbm, ⟨22, _⟩ => ⟨S1x1x64, .f32⟩
  | .hbm, ⟨23, _⟩ => ⟨S1x64, .f32⟩
  | .hbm, ⟨24, _⟩ => ⟨S1x64, .f32⟩
  | .hbm, ⟨25, _⟩ => ⟨S64x1, .f32⟩
  | .hbm, ⟨26, _⟩ => ⟨S64x128, .f32⟩
  | .hbm, ⟨27, _⟩ => ⟨S64x128, .f32⟩
  | .hbm, ⟨28, _⟩ => ⟨S64x128, .f32⟩
  | .hbm, ⟨29, _⟩ => ⟨S64x128, .f32⟩
  | .hbm, ⟨30, _⟩ => ⟨S_, .f32⟩
  | .hbm, ⟨31, _⟩ => ⟨S128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S64x128, .f32⟩
  | .hbm, ⟨38, _⟩ => ⟨S64x128, .f32⟩
  | .hbm, ⟨39, _⟩ => ⟨S1x64x128, .f32⟩
  | .local _ .vmem, ⟨0, _⟩ => ⟨S10000x128, .f32⟩
  | .local _ .vmem, ⟨1, _⟩ => ⟨S10000x128, .f32⟩
  | .local _ .vmem, ⟨2, _⟩ => ⟨S1x1x128, .f32⟩
  | .local _ .vmem, ⟨3, _⟩ => ⟨S1x1x128, .f32⟩
  | .local _ .vmem, ⟨4, _⟩ => ⟨S1x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S64x128, .f32⟩
  | .local _ .vmem, ⟨11, _⟩ => ⟨S1x64x128, .f32⟩
  | .local _ .vmem, ⟨12, _⟩ => ⟨S1x64x128, .f32⟩
  | .local _ .vmem, ⟨13, _⟩ => ⟨S1x1x64, .f32⟩
  | .local _ .vmem, ⟨14, _⟩ => ⟨S1x1x64, .f32⟩
  | .local _ .vmem, ⟨15, _⟩ => ⟨S64x128, .f32⟩
  | .local _ .vmem, ⟨16, _⟩ => ⟨S1x64, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v12 : BitVec 1 := Scalar.cmpi .eq arg1 c9_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 10], ![false, false]⟩

def k1_cond2 (i : grid1.Coords) : BitVec 1 :=
  let arg1 : BitVec 32 := BitVec.ofNat 32 (i 1).val
  let c9_i32 : BitVec 32 := 9#32
  let v44 : BitVec 1 := Scalar.cmpi .eq arg1 c9_i32
  let v45 : BitVec 32 := Scalar.extui v44
  let c0_i32_22 : BitVec 32 := 0#32
  let v46 : BitVec 1 := Scalar.cmpi .ne v45 c0_i32_22
  v46

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  slices_S2x1x128_S1x1x128_0_0_0 : S2x1x128.Slices ![0, 0, 0] S1x1x128
  shapeCasts_S1x1x128_S1x128 : S1x1x128.ShapeCasts S1x128
  slices_S2x1x128_S1x1x128_1_0_0 : S2x1x128.Slices ![1, 0, 0] S1x1x128
  transposes_S64x128_S128x64_1_0 : S64x128.Transposes [1, 0] S128x64
  shapeCasts_S64_S1x64 : S64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x128_S10000x128 : S1x128.Broadcasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  reduces_S10000x64_S64 : S10000x64.Reduces [0] S64
  shapeCasts_S64x128_S1x64x128 : S64x128.ShapeCasts S1x64x128
  inb_S1x64x128_S1x64x128_0_0_0 : ∀ a, (![0, 0, 0] : Fin 3 → Nat) a + S1x64x128.size a ≤ S1x64x128.size a
  h_S1x64x128 : 0 < S1x64x128.numel
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  slices_S2x64x128_S1x64x128_0_0_0 : S2x64x128.Slices ![0, 0, 0] S1x64x128
  shapeCasts_S1x64x128_S64x128 : S1x64x128.ShapeCasts S64x128
  slices_S2x64x128_S1x64x128_1_0_0 : S2x64x128.Slices ![1, 0, 0] S1x64x128
  slices_S2x1x64_S1x1x64_0_0_0 : S2x1x64.Slices ![0, 0, 0] S1x1x64
  shapeCasts_S1x1x64_S1x64 : S1x1x64.ShapeCasts S1x64
  slices_S2x1x64_S1x1x64_1_0_0 : S2x1x64.Slices ![1, 0, 0] S1x1x64
  transposes_S1x64_S64x1_1_0 : S1x64.Transposes [1, 0] S64x1
  bcast_S64x1_S64x128_0_1 : S64x1.BroadcastsInDim S64x128 (![0, 1] : Fin 2 → Fin S64x128.rank)
  reducesTo_S64x128_S128_d0 : S64x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S64x128_0_1 : S1x128.BroadcastsInDim S64x128 (![0, 1] : Fin 2 → Fin S64x128.rank)
  dot_S10000x128_S128x64_S10000x64_1_0_0_1_n_n_wf : DotDims.WF S10000x128 S128x64 S10000x64 [1] [0] [0] [1] [] []
  dot_S10000x64_S10000x128_S64x128_0_0_1_1_n_n_wf : DotDims.WF S10000x64 S10000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S2x1x128.size a
  hwx0_1 : ∀ i : grid0.Coords, EltTy.bits .f32 = 32 ∨ (Rect.block (s := S2x1x128) S1x1x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .f32 = 32 ∨ (Rect.block (s := S200000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x128.size a ≤ S2x64x128.size a
  hwx1_5 : ∀ i : grid1.Coords, EltTy.bits .f32 = 32 ∨ (Rect.block (s := S2x64x128) S1x64x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x64.size a ≤ S2x1x64.size a
  hwx1_6 : ∀ i : grid1.Coords, EltTy.bits .f32 = 32 ∨ (Rect.block (s := S2x1x64) S1x1x64.size (cc1_transform_6 i) (hinb1_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9_0) S1x64x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_1) S1x1x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S200000x128 : Shape := ⟨2, ![200000, 128]⟩
abbrev S64x128 : Shape := ⟨2, ![64, 128]⟩
abbrev S64 : Shape := ⟨1, ![64]⟩
abbrev S_ : Shape := ⟨0, ![]⟩
abbrev S128 : Shape := ⟨1, ![128]⟩
abbrev S1x128 : Shape := ⟨2, ![1, 128]⟩
abbrev S128x64 : Shape := ⟨2, ![128, 64]⟩
abbrev S200000x64 : Shape := ⟨2, ![200000, 64]⟩
abbrev S1x64 : Shape := ⟨2, ![1, 64]⟩
abbrev S200000 : Shape := ⟨1, ![200000]⟩
abbrev S200000x1 : Shape := ⟨2, ![200000, 1]⟩
abbrev S64x200000 : Shape := ⟨2, ![64, 200000]⟩
abbrev S64x1 : Shape := ⟨2, ![64, 1]⟩
abbrev S1x64x128 : Shape := ⟨3, ![1, 64, 128]⟩
abbrev S1x1x128 : Shape := ⟨3, ![1, 1, 128]⟩

abbrev nBuf : Space → Nat
  | .hbm => 52
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S200000x128, .f32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S200000x128, .f32⟩
  | .hbm, ⟨13, _⟩ => ⟨S200000x128, .f32⟩
  | .hbm, ⟨14, _⟩ => ⟨S128x64, .f32⟩
  | .hbm, ⟨15, _⟩ => ⟨S200000x64, .f32⟩
  | .hbm, ⟨16, _⟩ => ⟨S1x64, .f32⟩
  | .hbm, ⟨17, _⟩ => ⟨S200000x64, .f32⟩
  | .hbm, ⟨18, _⟩ => ⟨S200000x64, .f32⟩
  | .hbm, ⟨19, _⟩ => ⟨S_, .f32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S200000x1, .f32⟩
  | .hbm, ⟨25, _⟩ => ⟨S200000x64, .f32⟩
  | .hbm, ⟨26, _⟩ => ⟨S200000x64, .f32⟩
  | .hbm, ⟨27, _⟩ => ⟨S200000x64, .f32⟩
  | .hbm, ⟨28, _⟩ => ⟨S_, .f32⟩
  | .hbm, ⟨29, _⟩ => ⟨S200000, .f32⟩
  | .hbm, ⟨30, _⟩ => ⟨S200000x1, .f32⟩
  | .hbm, ⟨31, _⟩ => ⟨S200000x64, .f32⟩
  | .hbm, ⟨32, _⟩ => ⟨S200000x64, .f32⟩
  | .hbm, ⟨33, _⟩ => ⟨S64x200000, .f32⟩
  | .hbm, ⟨34, _⟩ => ⟨S64x128, .f32⟩
  | .hbm, ⟨35, _⟩ => ⟨S_, .f32⟩
  | .hbm, ⟨36, _⟩ => ⟨S64, .f32⟩
  | .hbm, ⟨37, _⟩ => ⟨S64x1, .f32⟩
  | .hbm, ⟨38, _⟩ => ⟨S64x128, .f32⟩
  | .hbm, ⟨39, _⟩ => ⟨S64x128, .f32⟩
  | .hbm, ⟨40, _⟩ => ⟨S64x128, .f32⟩
  | .hbm, ⟨41, _⟩ => ⟨S1x64x128, .f32⟩
  | .hbm, ⟨42, _⟩ => ⟨S1x64x128, .f32⟩
  | .hbm, ⟨43, _⟩ => ⟨S_, .f32⟩
  | .hbm, ⟨44, _⟩ => ⟨S1x128, .f32⟩
  | .hbm, ⟨45, _⟩ => ⟨S1x1x128, .f32⟩
  | .hbm, ⟨46, _⟩ => ⟨S1x1x128, .f32⟩
  | .hbm, ⟨47, _⟩ => ⟨S_, .f32⟩
  | .hbm, ⟨48, _⟩ => ⟨S1x1x128, .f32⟩
  | .hbm, ⟨49, _⟩ => ⟨S1x1x128, .f32⟩
  | .hbm, ⟨50, _⟩ => ⟨S1x64x128, .f32⟩
  | .hbm, ⟨51, _⟩ => ⟨S1x64x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  reducesTo_S200000x128_S128_d0 : S200000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S200000x128_0_1 : S1x128.BroadcastsInDim S200000x128 (![0, 1] : Fin 2 → Fin S200000x128.rank)
  transposes_S64x128_S128x64_1_0 : S64x128.Transposes [1, 0] S128x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  reducesTo_S200000x64_S200000_d1 : S200000x64.ReducesTo [1] S200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  transposes_S200000x64_S64x200000_1_0 : S200000x64.Transposes [1, 0] S64x200000
  reducesTo_S200000x64_S64_d0 : S200000x64.ReducesTo [0] S64
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64x128_S1x64x128_1_2 : S64x128.BroadcastsInDim S1x64x128 (![1, 2] : Fin 2 → Fin S1x64x128.rank)
  reducesTo_S1x64x128_S1x128_d1 : S1x64x128.ReducesTo [1] S1x128
  bcast_S1x128_S1x1x128_0_2 : S1x128.BroadcastsInDim S1x1x128 (![0, 2] : Fin 2 → Fin S1x1x128.rank)
  bcast_S_S1x1x128 : S_.BroadcastsInDim S1x1x128 (![] : Fin 0 → Fin S1x1x128.rank)
  bcast_S1x1x128_S1x64x128_0_1_2 : S1x1x128.BroadcastsInDim S1x64x128 (![0, 1, 2] : Fin 3 → Fin S1x64x128.rank)
  dot_S200000x128_S128x64_S200000x64_1_0_0_1_n_n_wf : DotDims.WF S200000x128 S128x64 S200000x64 [1] [0] [0] [1] [] []
  dot_S64x200000_S200000x128_S64x128_1_0_0_1_n_n_wf : DotDims.WF S64x200000 S200000x128 S64x128 [1] [0] [0] [1] [] []

variable [Facts₀]

def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S64x200000_S200000x128_S64x128_1_0_0_1_n_n : DotDims S64x200000 S200000x128 S64x128 where
  lhsContracting := [1]
  rhsContracting := [0]
  lhsNonContracting := [0]
  rhsNonContracting := [1]
  lhsBatch := []
  rhsBatch := []
  wf := dot_S64x200000_S200000x128_S64x128_1_0_0_1_n_n_wf

class Facts : Prop extends Facts₀ where

variable [Facts]
-- ==== Proof.WordWholeFold.lean ====
/-
  The whole run of the program from its two kernel regions.

  @main is: kernel region 0 (the per-half column sums of squares), eight host operations (the two halves added, the
  square root, the transposed weights, the bias as a row), kernel region 1 (the per-half aggregation), twenty-five host
  operations (the halves added, the centroids subtracted, the column norms over the clusters, the division). Given, for
  each region and for ANY contents V of the TensorCore's buffers at its entry, proof data for its pipeline — arrays at
  V, the body's obligation at every grid point, an invariant the class invariant enters and leaves, full shares, nothing
  owed — every weakly fair execution of @main terminates without a fault, and every unscoped buffer ends holding the
  fold below: the launch contents, then region 0's arrays at what its write-backs leave, then the first host stretch,
  then region 1's arrays, then the second host stretch. Both the frame (the arguments end as launched) and the value of
  the result buffer are read off that fold.
-/
import proofs.«111807_j45552423141540_2_alg».proof.Proof.Gen.Kernel.Launch
import proofs.«111807_j45552423141540_2_alg».proof.Proof.Gen.Kernel.Skeleton
import proofs.«111807_j45552423141540_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the TensorCore's buffers on each core, read at the TensorCore's references. -/
abbrev Contents (F : FTy → Type) : Type := (c : Dev nD) → (b : Ref sig .tc) → Buf (Elt F) ((c : Thread nD τ).loc b)

/-- What a region's half supplies for any entry contents: the proof data of its pipeline. -/
abbrev Half (F : FTy → Type) [FloatOps F] (cfg : Pipeline.Cfg sig Λ₀) : Type :=
  Contents F → (c : Dev nD) → Dat τ (Elt F) Unit ℕ (UR sig nD τ) ℕ cfg c

variable (m : (ℓ : Loc nD τ sig) → Buf (Elt F) ℓ) (ρ : Dev nD → PrngReg)
variable (colsq : Half F cfg0) (aggr : Half F cfg1)

/-! ## The buffers' contents at each boundary -/

/-- At launch. -/
abbrev W0 : Dev nD → Valuation τ sig (Elt F) := fun c b => m ((c : Dev nD), b)
abbrev V0 : Contents F := fun c b => W0 m c b
/-- After region 0: its arrays at what the pipeline leaves, every other buffer as launched. -/
def W1 (c : Dev nD) : Valuation τ sig (Elt F) :=
  Pipeline.withArrays spec0 c (W0 m c) fun w => (colsq (V0 m) c).arrAt w cfg0.N
abbrev V1 : Contents F := fun c b => W1 m colsq c b
/-- After the first host stretch (region 1's entry). -/
abbrev W2 : Dev nD → Valuation τ sig (Elt F) := fun c => StableHlo.after hostOps1 (W1 m colsq c)
abbrev V2 : Contents F := fun c b => W2 m colsq c b
/-- After region 1. -/
def W3 (c : Dev nD) : Valuation τ sig (Elt F) :=
  Pipeline.withArrays spec1 c (W2 m colsq c) fun w => (aggr (V2 m colsq) c).arrAt w cfg1.N
abbrev V3 : Contents F := fun c b => W3 m colsq aggr c b
/-- After the second host stretch: the end. -/
abbrev W4 : Dev nD → Valuation τ sig (Elt F) := fun c => StableHlo.after hostOps2 (W3 m colsq aggr c)

theorem W1_arr (c : Dev nD) (w : Fin cfg0.W) :
    W1 m colsq c (Proc.devRef .tc (Pipeline.arrRef spec0 w)) = (colsq (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m colsq c (Proc.devRef .tc b) = W0 m c (Proc.devRef .tc b) := by
  unfold W1; exact Pipeline.withArrays_of_ne spec0 c _ _ b hb
theorem W3_arr (c : Dev nD) (w : Fin cfg1.W) :
    W3 m colsq aggr c (Proc.devRef .tc (Pipeline.arrRef spec1 w)) = (aggr (V2 m colsq) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m colsq aggr c (Proc.devRef .tc b) = W2 m colsq c (Proc.devRef .tc b) := by
  unfold W3; exact Pipeline.withArrays_of_ne spec1 c _ _ b hb

theorem exit0 (c : Dev nD) (w : Fin cfg0.W) : (colsq (V0 m) c).arrAt w cfg0.N = V1 m colsq c (Pipeline.arrRef spec0 w) :=
  (W1_arr m colsq c w).symm
theorem rest0 (c : Dev nD) : ∀ b, b ∉ Finset.univ.image (Pipeline.arrRef spec0) → V1 m colsq c b = V0 m c b :=
  fun b hb => W1_of_ne m colsq c b fun w e => hb (Finset.mem_image.mpr ⟨w, Finset.mem_univ _, e⟩)
theorem exit1 (c : Dev nD) (w : Fin cfg1.W) : (aggr (V2 m colsq) c).arrAt w cfg1.N = V3 m colsq aggr c (Pipeline.arrRef spec1 w) :=
  (W3_arr m colsq aggr c w).symm
theorem rest1 (c : Dev nD) : ∀ b, b ∉ Finset.univ.image (Pipeline.arrRef spec1) → V3 m colsq aggr c b = V2 m colsq c b :=
  fun b hb => W3_of_ne m colsq aggr c b fun w e => hb (Finset.mem_image.mpr ⟨w, Finset.mem_univ _, e⟩)

/-! ## The proof data family and what rides beside the buffers -/

abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => colsq (V0 m) c
  | ⟨1, _⟩ => fun c => aggr (V2 m colsq) c

abbrev 𝒱₀ : Variants := Variants.none
abbrev L : GSem nD τ sig → Finset Unit := fun _ => ∅
abbrev lv : GSem nD τ sig → Unit → ℕ := fun _ _ => 0

/-- Beside the buffers: the generator register at some state, and the core owing nothing. -/
abbrev Beside (c : Dev nD) : sProp 𝕄 := iprop((∃ r, prngReg c r) ∗ ∃ W, owes (c : Thread nD τ) (0 : CellTallies nD τ sig Unit) W)

abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Whole

end
-- ==== Proof.WordWholeRun.lean ====
/-
  The two kernel regions as segments of @main, and the run.

  Each region is entered from "every unscoped buffer at the boundary's contents, the generator register at some state,
  nothing owed" and left in the same form at the next boundary's contents: its arrays are split out of the unscoped
  buffers and put back at what the pipeline's write-backs leave; the generator register and the scoped buffers no window
  stages enter the class invariant, from which the half's own invariant (the carried scratch at named contents) is
  entered and to which it returns.
-/
import proofs.«111807_j45552423141540_2_alg».proof.Proof.WordWholeFold
import proofs.«111807_j45552423141540_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (colsq : Half F cfg0) (aggr : Half F cfg1)

/-- What a region's half proves of its proof data, at every entry contents. -/
structure HalfOk0 (colsq : Half F cfg0) : Prop where
  arrays : ∀ (V : Contents F) c w, (colsq V c).A w = V c (Pipeline.arrRef spec0 w)
  full : ∀ (V : Contents F) c w, (colsq V c).q w = fullShare
  owes_nothing : ∀ (V : Contents F) c t, (colsq V c).owed t = 0
  recorded_all : ∀ (V : Contents F) c t, (colsq V c).recorded t = Set.univ
  body : ∀ (V : Contents F) c, BodyObligation (colsq V c) (defs₀ (F := F)) Variants.none () Set.univ
  enter : ∀ (V : Contents F) c, (Pipeline.ΦA spec0 c : sProp 𝕄) ⊢ (colsq V c).Φ 0
  leave : ∀ (V : Contents F) c, (colsq V c).Φ (Fin.last cfg0.N) ⊢ (Pipeline.ΦA spec0 c : sProp 𝕄)

structure HalfOk1 (aggr : Half F cfg1) : Prop where
  arrays : ∀ (V : Contents F) c w, (aggr V c).A w = V c (Pipeline.arrRef spec1 w)
  full : ∀ (V : Contents F) c w, (aggr V c).q w = fullShare
  owes_nothing : ∀ (V : Contents F) c t, (aggr V c).owed t = 0
  recorded_all : ∀ (V : Contents F) c t, (aggr V c).recorded t = Set.univ
  body : ∀ (V : Contents F) c, BodyObligation (aggr V c) (defs₀ (F := F)) Variants.none () Set.univ
  enter : ∀ (V : Contents F) c, (Pipeline.ΦA spec1 c : sProp 𝕄) ⊢ (aggr V c).Φ 0
  leave : ∀ (V : Contents F) c, (aggr V c).Φ (Fin.last cfg1.N) ⊢ (Pipeline.ΦA spec1 c : sProp 𝕄)

variable (ok0 : HalfOk0 colsq) (ok1 : HalfOk1 aggr)

set_option backward.isDefEq.respectTransparency.types false in
/-- Region 0 between the launch contents and its exit contents. -/
def reg0 : Pipeline.RegionSeg (pcfgs (F := F)) adm (pdats m colsq aggr) () defs₀ 𝒱₀ L lv 0 where
  win := launch0.win.to₀
  block_pos := launch0.block_pos
  stage_whole := launch0.stage_whole
  K := PEmpty
  osem k := k.elim
  ho := Pipeline.OwnSemFacts.none _
  hbody c := (ok0.body (V0 m) c).loose
  hwaits := Pipeline.hwaits_of_owed_zero _ _ _ _ L lv 0 fun c t => ok0.owes_nothing (V0 m) c t
  pre c := iprop(StableHlo.held (c : Thread nD τ) (Pipeline.ucRefs τ sig) (W0 m c) ∗ Beside c)
  post c := iprop(StableHlo.held (c : Thread nD τ) (Pipeline.ucRefs τ sig) (W1 m colsq c) ∗ Beside c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m colsq aggr) launch0.win launch0.arr_whole c
      ((pdats m colsq aggr 0 c).share_full fun w => ok0.full (V0 m) c w) (V0 m c) fun w => ok0.arrays (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m colsq aggr 0 c).owed 0 = 0 from ok0.owes_nothing (V0 m) c 0]
      icases HO with ⟨%W, HO⟩; iexists W; isplitr
      · ipureintro
        exact fun _ _ => Or.inl (by
          rw [show (pdats m colsq aggr 0 c).recorded 0 = Set.univ from ok0.recorded_all (V0 m) c 0]; exact Set.mem_univ _)
      iexact HO
    isplitl [Hp]; · iexact Hp
    iexact Hrest
  hin c := by
    have h := ok0.enter (V0 m) c
    unfold Pipeline.ΦA at h
    rw [show (pdats m colsq aggr 0 c).Φ 0 = (colsq (V0 m) c).Φ 0 from rfl]
    iintro ⟨Hp, -, Hr⟩
    iapply h
    isplitl [Hr]; · iexact Hr
    iexact Hp
  hout c := by
    rw [Pipeline.ownSems0_none]
    have h := ok0.leave (V0 m) c
    unfold Pipeline.ΦA at h
    rw [show (pdats m colsq aggr 0 c).Φ (Fin.last (Pipeline.pin (pcfgs (F := F)) adm 0).N) = (colsq (V0 m) c).Φ (Fin.last cfg0.N) from rfl]
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m colsq aggr) ((pdats m colsq aggr 0 c).share_full fun w => ok0.full (V0 m) c w)
      (V0 m c) (V1 m colsq c) ((pdats m colsq aggr 0 c).arrAt · cfg0.N) (exit0 m colsq c) (rest0 m colsq c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m colsq aggr 0 c).owed (Fin.last (Pipeline.pin (pcfgs (F := F)) adm 0).N) = 0 from ok0.owes_nothing (V0 m) c _]
    icases HO with ⟨%W, -, HO⟩; iexists W; iexact HO

set_option backward.isDefEq.respectTransparency.types false in
/-- Region 1 between the first host stretch's contents and its exit contents. -/
def reg1 : Pipeline.RegionSeg (pcfgs (F := F)) adm (pdats m colsq aggr) () defs₀ 𝒱₀ L lv 1 where
  win := launch1.win.to₀
  block_pos := launch1.block_pos
  stage_whole := launch1.stage_whole
  K := PEmpty
  osem k := k.elim
  ho := Pipeline.OwnSemFacts.none _
  hbody c := (ok1.body (V2 m colsq) c).loose
  hwaits := Pipeline.hwaits_of_owed_zero _ _ _ _ L lv 1 fun c t => ok1.owes_nothing (V2 m colsq) c t
  pre c := iprop(StableHlo.held (c : Thread nD τ) (Pipeline.ucRefs τ sig) (W2 m colsq c) ∗ Beside c)
  post c := iprop(StableHlo.held (c : Thread nD τ) (Pipeline.ucRefs τ sig) (W3 m colsq aggr c) ∗ Beside c)
  X c := iprop(∃ r, prngReg c r)
  Y c := iprop(∃ r, prngReg c r)
  Z c := Pipeline.unscopedRest (Ix := Unit) (Name := ℕ) (U := UR sig nD τ) (Lvl := ℕ) spec1 c (V2 m colsq c)
  hentry c := by
    rw [Pipeline.ownSems0_none]
    have hsplit := Pipeline.arrays_of_unscopedBufs (p := 1) (pcfgs (F := F)) adm (pdats m colsq aggr) launch1.win launch1.arr_whole c
      ((pdats m colsq aggr 1 c).share_full fun w => ok1.full (V2 m colsq) c w) (V2 m colsq c) fun w => ok1.arrays (V2 m colsq) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m colsq aggr 1 c).owed 0 = 0 from ok1.owes_nothing (V2 m colsq) c 0]
      icases HO with ⟨%W, HO⟩; iexists W; isplitr
      · ipureintro
        exact fun _ _ => Or.inl (by
          rw [show (pdats m colsq aggr 1 c).recorded 0 = Set.univ from ok1.recorded_all (V2 m colsq) c 0]; exact Set.mem_univ _)
      iexact HO
    isplitl [Hp]; · iexact Hp
    iexact Hrest
  hin c := by
    have h := ok1.enter (V2 m colsq) c
    unfold Pipeline.ΦA at h
    rw [show (pdats m colsq aggr 1 c).Φ 0 = (aggr (V2 m colsq) c).Φ 0 from rfl]
    iintro ⟨Hp, -, Hr⟩
    iapply h
    isplitl [Hr]; · iexact Hr
    iexact Hp
  hout c := by
    rw [Pipeline.ownSems0_none]
    have h := ok1.leave (V2 m colsq) c
    unfold Pipeline.ΦA at h
    rw [show (pdats m colsq aggr 1 c).Φ (Fin.last (Pipeline.pin (pcfgs (F := F)) adm 1).N) = (aggr (V2 m colsq) c).Φ (Fin.last cfg1.N) from rfl]
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m colsq aggr) ((pdats m colsq aggr 1 c).share_full fun w => ok1.full (V2 m colsq) c w)
      (V2 m colsq c) (V3 m colsq aggr c) ((pdats m colsq aggr 1 c).arrAt · cfg1.N) (exit1 m colsq aggr c) (rest1 m colsq aggr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m colsq aggr 1 c).owed (Fin.last (Pipeline.pin (pcfgs (F := F)) adm 1).N) = 0 from ok1.owes_nothing (V2 m colsq) c _]
    icases HO with ⟨%W, -, HO⟩; iexists W; iexact HO

/-- @main's four segments in order. -/
abbrev segs : List (Pipeline.Seg (pcfgs (F := F)) adm (pdats m colsq aggr) () defs₀ 𝒱₀ L lv) :=
  [ .region (reg0 m colsq aggr ok0),
    .host (stretch hostOps1 hostOps1_sub hostOps1_fresh (W1 m colsq)),
    .region (reg1 m colsq aggr ok1),
    .host (stretch hostOps2 hostOps2_sub hostOps2_fresh (W3 m colsq aggr)) ]

theorem main_run (ok0 : HalfOk0 colsq) (ok1 : HalfOk1 aggr) (c : Dev nD) : main (F := F) c = Pipeline.Seg.run (segs m colsq aggr ok0 ok1) :=
  (main_chain c).trans (by chain_rfl)

set_option backward.isDefEq.respectTransparency.types false in
/-- THE RUN: from any memory with zero counters every weakly fair execution of @main terminates, nothing faulting, and
    every unscoped buffer of every core ends at the fold's last contents. -/
theorem run (ok0 : HalfOk0 colsq) (ok1 : HalfOk1 aggr) : θ_run defs (onTc (τ := τ) (main (F := F))) ⟨m, fun _ => 0, ρ⟩ (fun r => ∀ c : Dev nD,
      ∀ b ∈ Pipeline.ucRefs τ sig, r.2.mem (((c : Thread nD τ)).1, b) = W4 m colsq aggr c b) :=
  Pipeline.θ_run_regions_kit (pcfgs (F := F)) adm (pdats m colsq aggr) () cellOf_inj emb₁ defs₀ 𝒱₀ L lv m ρ main (segs m colsq aggr ok0 ok1)
    (fun c Q => by rw [main_run m colsq aggr ok0 ok1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Beside c))
    (Tₙ := fun c => iprop(StableHlo.held (c : Thread nD τ) (Pipeline.ucRefs τ sig) (W4 m colsq aggr c) ∗ ∃ r, prngReg c r))
    (hch := ⟨fun _ => .rfl, fun _ => .rfl, fun _ => .rfl, fun _ => .rfl, fun c => by
      show iprop(StableHlo.held (c : Thread nD τ) (Pipeline.ucRefs τ sig) (W4 m colsq aggr c) ∗ Beside c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m colsq aggr c b)
    (hfin := fun c s' => by
      iintro ⟨⟨Hh, -⟩, HSI⟩
      unfold StableHlo.held
      imodintro
      iapply (pointsTo_read_all (Pipeline.ucRefs τ sig) (fun b => (((c : Thread nD τ)).1, b)) (W4 m colsq aggr c) s')
      isplitl [Hh] <;> iassumption)
    (hQ := fun s h c => h c)

end Cert.Kernel.Whole

end
-- ==== Proof.WordWholeFrame.lean ====
/-
  The arguments end as launched, and the result buffer ends at the fold's last contents.

  No host operation writes an argument buffer, and a kernel region reads an argument only through an input window, whose
  array the pipeline leaves as it found it; so the fold's last contents at each argument walk back to the launch memory.
-/
import proofs.«111807_j45552423141540_2_alg».proof.Proof.WordWholeRun

set_option maxRecDepth 16384

noncomputable section

namespace Cert.Kernel.Whole

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)
variable (colsq : Half F cfg0) (aggr : Half F cfg1)

/-- The second host stretch leaves a buffer it does not write as it was. -/
theorem W4_of (c : Dev nD) (r : Ref sig .tc) (h : r ∉ hostOps2_W) :
    W4 m colsq aggr c (Proc.devRef .tc r) = W3 m colsq aggr c (Proc.devRef .tc r) :=
  StableHlo.after_of_writes_sub hostOps2 _ hostOps2_writes h
/-- The first host stretch leaves a buffer it does not write as it was. -/
theorem W2_of (c : Dev nD) (r : Ref sig .tc) (h : r ∉ hostOps1_W) :
    W2 m colsq c (Proc.devRef .tc r) = W1 m colsq c (Proc.devRef .tc r) :=
  StableHlo.after_of_writes_sub hostOps1 _ hostOps1_writes h

/-- Region 1 leaves the array of an input window as it found it. -/
theorem W3_in (ok1 : HalfOk1 aggr) (c : Dev nD) (w : Fin cfg1.W) (hw : (cfg1.win w).isOut = false) :
    W3 m colsq aggr c (Proc.devRef .tc (Pipeline.arrRef spec1 w)) = W2 m colsq c (Proc.devRef .tc (Pipeline.arrRef spec1 w)) :=
  (W3_arr m colsq aggr c w).trans (((aggr (V2 m colsq) c).arrAt_in w hw _).trans (ok1.arrays (V2 m colsq) c w))
/-- Region 0 leaves the array of an input window as it found it. -/
theorem W1_in (ok0 : HalfOk0 colsq) (c : Dev nD) (w : Fin cfg0.W) (hw : (cfg0.win w).isOut = false) :
    W1 m colsq c (Proc.devRef .tc (Pipeline.arrRef spec0 w)) = W0 m c (Proc.devRef .tc (Pipeline.arrRef spec0 w)) :=
  (W1_arr m colsq c w).trans (((colsq (V0 m) c).arrAt_in w hw _).trans (ok0.arrays (V0 m) c w))

/-- The points (argument 0) are read by both regions through their first window and written by nothing. -/
theorem W4_main_arg0 (ok0 : HalfOk0 colsq) (ok1 : HalfOk1 aggr) (c : Dev nD) :
    W4 m colsq aggr c (Proc.devRef .tc main_arg0) = m ((c : Thread nD τ).loc main_arg0) :=
  (W4_of m colsq aggr c main_arg0 (by decide)).trans <| (W3_in m colsq aggr ok1 c 0 rfl).trans <|
    (W2_of m colsq c main_arg0 (by decide)).trans <| (W1_in m colsq ok0 c 0 rfl).trans rfl
/-- The weights (argument 1) are read by the first host stretch only. -/
theorem W4_main_arg1 (c : Dev nD) :
    W4 m colsq aggr c (Proc.devRef .tc main_arg1) = m ((c : Thread nD τ).loc main_arg1) :=
  (W4_of m colsq aggr c main_arg1 (by decide)).trans <| (W3_of_ne m colsq aggr c main_arg1 (by decide)).trans <|
    (W2_of m colsq c main_arg1 (by decide)).trans <| (W1_of_ne m colsq c main_arg1 (by decide)).trans rfl
/-- The biases (argument 2) likewise. -/
theorem W4_main_arg2 (c : Dev nD) :
    W4 m colsq aggr c (Proc.devRef .tc main_arg2) = m ((c : Thread nD τ).loc main_arg2) :=
  (W4_of m colsq aggr c main_arg2 (by decide)).trans <| (W3_of_ne m colsq aggr c main_arg2 (by decide)).trans <|
    (W2_of m colsq c main_arg2 (by decide)).trans <| (W1_of_ne m colsq c main_arg2 (by decide)).trans rfl
/-- The centroids (argument 3) are an input window of region 1 and read by the second host stretch. -/
theorem W4_main_arg3 (ok1 : HalfOk1 aggr) (c : Dev nD) :
    W4 m colsq aggr c (Proc.devRef .tc main_arg3) = m ((c : Thread nD τ).loc main_arg3) :=
  (W4_of m colsq aggr c main_arg3 (by decide)).trans <| (W3_in m colsq aggr ok1 c 4 rfl).trans <|
    (W2_of m colsq c main_arg3 (by decide)).trans <| (W1_of_ne m colsq c main_arg3 (by decide)).trans rfl

/-- THE FRAME with the result: every weakly fair execution terminates without a fault, the result buffer ends at the
    fold's last contents and the four arguments end as launched. -/
theorem run_result (ok0 : HalfOk0 colsq) (ok1 : HalfOk1 aggr) :
    θ_run defs (onTc (τ := τ) (main (F := F))) ⟨m, fun _ => 0, ρ⟩ (fun r => ∀ c : Dev nD,
      r.2.mem ((c.tc : Thread nD τ).loc main_v32) = W4 m colsq aggr c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v32 (by decide)),
     (h c _ (mem_uc main_arg0 (by decide))).trans (W4_main_arg0 m colsq aggr ok0 ok1 c),
     (h c _ (mem_uc main_arg1 (by decide))).trans (W4_main_arg1 m colsq aggr c),
     (h c _ (mem_uc main_arg2 (by decide))).trans (W4_main_arg2 m colsq aggr c),
     (h c _ (mem_uc main_arg3 (by decide))).trans (W4_main_arg3 m colsq aggr ok1 c)⟩)
    (run m ρ colsq aggr ok0 ok1)

/-- THE FRAME: the four arguments end as launched. -/
theorem frame (ok0 : HalfOk0 colsq) (ok1 : HalfOk1 aggr) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ colsq aggr ok0 ok1)

end Cert.Kernel.Whole

end
-- ==== Proof.WordColSqShared.lean ====
/- The column-sum-of-squares kernel (region 0 of @main) as a pipeline body: what its three case runs share.
   The kernel accumulates, per column, the sum of squares of a 10000x128 tile of x into a 1x128 scratch; the
   scratch is zeroed where grid coordinate 1 is 0 and copied to the output block where it is 9. Everything here
   is stated at a parameter V: the contents of the TensorCore's buffers when the region is entered. -/
import proofs.«111807_j45552423141540_2_alg».proof.Proof.Gen.Kernel.Launch
import proofs.«111807_j45552423141540_2_alg».proof.Proof.Gen.Kernel.Skeleton
import proofs.«111807_j45552423141540_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.ColSq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's current staging buffer holds the tile's block at every point, fetched there or not, for any proof
    data whose array is the entry contents and whose body leaves the block in place: the window is an input, uncut
    and never idle. -/
theorem xTile_before_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, in closed form over the grid -/

/-- The body zeroes the scratch: grid coordinate 1 is 0 (the comparison chain the kernel computes). -/
abbrev atFirst (i : grid0.Coords) : Prop := (Scalar.cmpi .ne (Scalar.extui (Scalar.cmpi .eq (BitVec.ofNat 32 (i 1).val) 0#32)) 0#32) = 1#1
/-- It does so at the points ≡ 0 (mod 10): the first step of each of the two row halves. -/
theorem atFirst_iff : ∀ t : Fin cfg0.N, atFirst (grid0.coords t) ↔ t.val % 10 = 0 :=
  (by decide +kernel : ∀ t : Fin grid0.N, atFirst (grid0.coords t) ↔ t.val % 10 = 0)

/-- The body copies the scratch to the output block: grid coordinate 1 is 9. -/
abbrev atLast (i : grid0.Coords) : Prop := k0_cond2 i = 1#1
/-- It does so at the points ≡ 9 (mod 10): the last step of each half. -/
theorem atLast_iff : ∀ t : Fin cfg0.N, atLast (grid0.coords t) ↔ t.val % 10 = 9 :=
  (by decide +kernel : ∀ t : Fin grid0.N, atLast (grid0.coords t) ↔ t.val % 10 = 9)

/-! ## Where the windows are idle -/

/-- The x tile is never idle (an input). -/
theorem xTile_live : ∀ t : Fin cfg0.N, cfg0.idle 0 (grid0.coords t) = false := by decide +kernel
/-- Away from a half's last step the output block is idle: the body stores nothing into it, -/
theorem out_idle : ∀ t : Fin cfg0.N, ¬atLast (grid0.coords t) → cfg0.idle 1 (grid0.coords t) = true := by decide +kernel
/-- and the pipeline does not write it back there. -/
theorem out_noFlush : ∀ t : Fin cfg0.N, ¬atLast (grid0.coords t) → (cfg0.win 1).flush t = false := by decide +kernel
/-- At a half's last step the output block is live: the body stores the column sums into it. -/
theorem out_live : ∀ t : Fin cfg0.N, atLast (grid0.coords t) → cfg0.idle 1 (grid0.coords t) = false := by decide +kernel

/-! ## The memrefs the body is called with -/

/-- One staging buffer of the output block, through which its contents are stated (the choice does not matter). -/
abbrev outView : View sig .tc .vmem S1x1x128 .f32 := (Memref.whole cc0_stg1_0 : Memref sig .tc .vmem S1x1x128 .f32).view
/-- Each window's current staging memref at point `t`, as the pipeline passes it, and its wholeness. -/
abbrev xStage (t : Fin cfg0.N) : Memref sig .tc .vmem S10000x128 .f32 := win0_0.stage (cfg0.slots t 0)
abbrev xStage_whole (t : Fin cfg0.N) : (xStage t).IsWhole := hstage0_0 ((cfg0.slots t 0).cast nbuf0_0)
abbrev outStage (t : Fin cfg0.N) : Memref sig .tc .vmem S1x1x128 .f32 := win0_1.stage (cfg0.slots t 1)
abbrev outStage_whole (t : Fin cfg0.N) : (outStage t).IsWhole := hstage0_1 ((cfg0.slots t 1).cast nbuf0_1)
/-- The accumulator: the 1x128 scratch the kernel carries from point to point, a whole scoped buffer of its own. -/
abbrev accM : Memref sig .tc .vmem S1x128 .f32 := Memref.whole cc0_scratch0
/-- and the view through which its contents are stated. -/
abbrev accView : View sig .tc .vmem S1x128 .f32 := accM.view

/-! ## The region invariant the launch hands over -/

/-- The core's scoped buffers that are neither a staging buffer of this region nor its accumulator — the other
    region's staging buffers and scratches —, each whole at some contents: the body never touches them. -/
def bystanders (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the launch hands the region: the accumulator owned at some contents, the bystanders, and the generator
    register at some state. -/
theorem entry_eq (c : Dev nD) :
    (Pipeline.ΦA spec0 c : sProp 𝕄)
      = iprop(iprop((∃ d, owns (c : Thread nD τ) accM fullShare d) ∗ bystanders (F := F) c) ∗ (∃ r, prngReg c r)) := by
  unfold Pipeline.ΦA bystanders; rw [scopedRest0_eq]; simp only [accM, owns_whole]; try rfl

end Cert.Kernel.ColSq

end
-- ==== Proof.WordColSqRunMid.lean ====
/- The column-sum-of-squares kernel's body at a MIDDLE step of a half (grid coordinate 1 neither 0 nor 9):
   it adds the tile's column sums of squares to the accumulator and leaves the output block alone. -/
import proofs.«111807_j45552423141540_2_alg».proof.Proof.WordColSqShared

set_option maxRecDepth 16384

noncomputable section

namespace Cert.Kernel.ColSq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- MIDDLE STEP. On whole memrefs — the x tile's at contents `x0`, the output block's at contents `xi1` (handed back
    untouched: the step stores nothing into it), the accumulator at what the step before left, `xs0` — the body
    runs to a continuation holding the tile and the output block as they were and the accumulator with the pieces
    `LS` written: one store of the whole 1x128 row, `xs0` plus the column sums of `x0` squared. The pieces are the
    witness the symbolic run finds; the output block gets none. -/
noncomputable def runMid (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : ¬atLast i)
    (x0 : Vec F S10000x128 .f32) (xs0 : Vec F S1x128 .f32) :
    Σ' (L1 : List (View.Piece (Elt F) S1x1x128 .f32)), { LS : List (View.Piece (Elt F) S1x128 .f32) //
      ∀ (xi1 : Vec F S1x1x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0__colnorm_kernel i arg2 harg2 arg3 harg3 arg4 harg4) K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.ColSq

end
-- ==== Proof.WordColSqRunFirst.lean ====
/- The column-sum-of-squares kernel's body at the FIRST step of a half (grid coordinate 1 is 0): it zeroes the
   accumulator, then adds the tile's column sums of squares to it, and leaves the output block alone. -/
import proofs.«111807_j45552423141540_2_alg».proof.Proof.WordColSqRunMid

set_option maxRecDepth 16384

noncomputable section

namespace Cert.Kernel.ColSq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- FIRST STEP. On whole memrefs — the x tile's at contents `x0`, the output block's at contents `xi1` (handed back
    untouched), the accumulator at ANYTHING (the step overwrites it before reading it: at the second half's first
    step it still holds the first half's total) — the body runs to a continuation holding the tile and the output
    block as they were and the accumulator with the pieces `LS` written: two stores of the whole 1x128 row, the
    zeros and then the zeros read back plus the column sums of `x0` squared. The pieces are the witness the symbolic
    run finds; the output block gets none. -/
noncomputable def runFirst (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : atFirst i) (hL : ¬atLast i)
    (x0 : Vec F S10000x128 .f32) :
    Σ' (L1 : List (View.Piece (Elt F) S1x1x128 .f32)), { LS : List (View.Piece (Elt F) S1x128 .f32) //
      ∀ (xi1 : Vec F S1x1x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0__colnorm_kernel i arg2 harg2 arg3 harg3 arg4 harg4) K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.ColSq

end
-- ==== Proof.WordColSqRunLast.lean ====
/- The column-sum-of-squares kernel's body at the LAST step of a half (grid coordinate 1 is 9): it adds the tile's
   column sums of squares to the accumulator, then copies the accumulator into the output block. -/
import proofs.«111807_j45552423141540_2_alg».proof.Proof.WordColSqRunFirst

set_option maxRecDepth 16384

noncomputable section

namespace Cert.Kernel.ColSq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- LAST STEP. On whole memrefs — the x tile's at contents `x0`, the output block's at anything, the accumulator at
    what the step before left, `xs0` — the body runs to a continuation holding the tile as it was, the accumulator
    with the pieces `LS` written (one store of the whole row: `xs0` plus the column sums of `x0` squared) and the
    output block with the pieces `L1` written (one store of the whole 1x1x128 block: the accumulator read back,
    reshaped). The pieces are the witness the symbolic run finds. -/
noncomputable def runLast (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i)
    (x0 : Vec F S10000x128 .f32) (xs0 : Vec F S1x128 .f32) :
    Σ' (L1 : List (View.Piece (Elt F) S1x1x128 .f32)), { LS : List (View.Piece (Elt F) S1x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__colnorm_kernel i arg2 harg2 arg3 harg3 arg4 harg4) K } := by
  refine ⟨?_, ?_, fun E K => ?run⟩
  case run =>
    simp only [cc0__colnorm_kernel_eq_skeleton]; unfold cc0__colnorm_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hF | exact hL)
    sl_step
    iapply Hk
    isplitl [H0]
    · iexists _; isplitr; · ipureintro; exact harg2.read_unread _
      iexact H0
    isplitl [H1]; · iexists _; iexact H1
    iexists _; iexact HS0

end Cert.Kernel.ColSq

end
-- ==== Proof.WordColSq.lean ====
/- The column-sum-of-squares kernel (region 0 of @main) as a pipeline body: what each of its three steps leaves in
   the accumulator and the output block, the accumulation point by point over the 20 grid points, the pipeline's
   proof data at the entry contents V, and the body obligation. -/
import proofs.«111807_j45552423141540_2_alg».proof.Proof.WordColSqRunLast

set_option maxRecDepth 16384

noncomputable section

namespace Cert.Kernel.ColSq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each step leaves: its pieces read back -/

/-- A first step stores nothing into the output block: no pieces, a placeholder nothing consults (the block is
    idle there and not written back). -/
def outFirst (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : atFirst i) (hL : ¬atLast i) (x0 : Vec F S10000x128 .f32) : Vec F S1x1x128 .f32 :=
  outView.read (Elt F) (outView.writes (Elt F) outView.junk (runFirst c i arg2 harg2 arg3 harg3 arg4 harg4 hF hL x0).1)

/-- A first step's two stores each cover the accumulator row. -/
theorem accFirst_cover (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : atFirst i) (hL : ¬atLast i) (x0 : Vec F S10000x128 .f32) (y : S1x128.Idx) :
    ∃ pc ∈ (runFirst c i arg2 harg2 arg3 harg3 arg4 harg4 hF hL x0).2.1, y ∈ pc.1.set :=
  View.cover_of_tiledL (runFirst c i arg2 harg2 arg3 harg3 arg4 harg4 hF hL x0).2.1 S1x128.size (by sl_kernel_rfl) y

/-- What a first step leaves in the accumulator: zero plus the column sums of the tile squared. -/
def accFirst (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : atFirst i) (hL : ¬atLast i) (x0 : Vec F S10000x128 .f32) : Vec F S1x128 .f32 :=
  accView.read (Elt F) (accView.writes (Elt F) accView.junk (runFirst c i arg2 harg2 arg3 harg3 arg4 harg4 hF hL x0).2.1)

/-- A middle step stores nothing into the output block: a placeholder nothing consults. -/
def outMid (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : ¬atLast i) (x0 : Vec F S10000x128 .f32) (xs0 : Vec F S1x128 .f32) : Vec F S1x1x128 .f32 :=
  outView.read (Elt F) (outView.writes (Elt F) outView.junk (runMid c i arg2 harg2 arg3 harg3 arg4 harg4 hF hL x0 xs0).1)

/-- A middle step's store covers the accumulator row. -/
theorem accMid_cover (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : ¬atLast i) (x0 : Vec F S10000x128 .f32) (xs0 : Vec F S1x128 .f32) (y : S1x128.Idx) :
    ∃ pc ∈ (runMid c i arg2 harg2 arg3 harg3 arg4 harg4 hF hL x0 xs0).2.1, y ∈ pc.1.set :=
  View.cover_of_tiledL (runMid c i arg2 harg2 arg3 harg3 arg4 harg4 hF hL x0 xs0).2.1 S1x128.size (by sl_kernel_rfl) y

/-- What a middle step leaves in the accumulator: what it found plus the column sums of the tile squared. -/
def accMid (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : ¬atLast i) (x0 : Vec F S10000x128 .f32) (xs0 : Vec F S1x128 .f32) : Vec F S1x128 .f32 :=
  accView.read (Elt F) (accView.writes (Elt F) accView.junk (runMid c i arg2 harg2 arg3 harg3 arg4 harg4 hF hL x0 xs0).2.1)

/-- A last step's store covers the output block. -/
theorem outLast_cover (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec F S10000x128 .f32) (xs0 : Vec F S1x128 .f32) (y : S1x1x128.Idx) :
    ∃ pc ∈ (runLast c i arg2 harg2 arg3 harg3 arg4 harg4 hF hL x0 xs0).1, y ∈ pc.1.set :=
  View.cover_of_tiledL (runLast c i arg2 harg2 arg3 harg3 arg4 harg4 hF hL x0 xs0).1 S1x1x128.size (by sl_kernel_rfl) y

/-- What a last step leaves in the output block: the accumulator's final row, reshaped. -/
def outLast (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec F S10000x128 .f32) (xs0 : Vec F S1x128 .f32) : Vec F S1x1x128 .f32 :=
  outView.read (Elt F) (outView.writes (Elt F) outView.junk (runLast c i arg2 harg2 arg3 harg3 arg4 harg4 hF hL x0 xs0).1)

/-- A last step's store covers the accumulator row. -/
theorem accLast_cover (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec F S10000x128 .f32) (xs0 : Vec F S1x128 .f32) (y : S1x128.Idx) :
    ∃ pc ∈ (runLast c i arg2 harg2 arg3 harg3 arg4 harg4 hF hL x0 xs0).2.1, y ∈ pc.1.set :=
  View.cover_of_tiledL (runLast c i arg2 harg2 arg3 harg3 arg4 harg4 hF hL x0 xs0).2.1 S1x128.size (by sl_kernel_rfl) y

/-- What a last step leaves in the accumulator: what it found plus the column sums of the tile squared. -/
def accLast (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec F S10000x128 .f32) (xs0 : Vec F S1x128 .f32) : Vec F S1x128 .f32 :=
  accView.read (Elt F) (accView.writes (Elt F) accView.junk (runLast c i arg2 harg2 arg3 harg3 arg4 harg4 hF hL x0 xs0).2.1)

/-! ## The accumulation, point by point -/

/-- ONE STEP of the accumulation: what the output block's staging buffer and the accumulator hold after the body
    at point `t`, from what the accumulator held before it (`prev`): the step the closed forms select at `t`, run at
    the point's memrefs and the tile's block there. A first step does not read `prev`. -/
def stepAt (c : Dev nD) (t : Fin cfg0.N) (prev : Vec F S1x128 .f32) : Vec F S1x1x128 .f32 × Vec F S1x128 .f32 :=
  if h0 : t.val % 10 = 0 then
    (outFirst c (grid0.coords t) (xStage t) (xStage_whole t) (outStage t) (outStage_whole t) accM (Memref.isWhole_whole _) ((atFirst_iff t).mpr h0) (fun h => by have h9 := (atLast_iff t).mp h; omega) (iblk V c 0 t),
     accFirst c (grid0.coords t) (xStage t) (xStage_whole t) (outStage t) (outStage_whole t) accM (Memref.isWhole_whole _) ((atFirst_iff t).mpr h0) (fun h => by have h9 := (atLast_iff t).mp h; omega) (iblk V c 0 t))
  else if h9 : t.val % 10 = 9 then
    (outLast c (grid0.coords t) (xStage t) (xStage_whole t) (outStage t) (outStage_whole t) accM (Memref.isWhole_whole _) (fun h => h0 ((atFirst_iff t).mp h)) ((atLast_iff t).mpr h9) (iblk V c 0 t) prev,
     accLast c (grid0.coords t) (xStage t) (xStage_whole t) (outStage t) (outStage_whole t) accM (Memref.isWhole_whole _) (fun h => h0 ((atFirst_iff t).mp h)) ((atLast_iff t).mpr h9) (iblk V c 0 t) prev)
  else
    (outMid c (grid0.coords t) (xStage t) (xStage_whole t) (outStage t) (outStage_whole t) accM (Memref.isWhole_whole _) (fun h => h0 ((atFirst_iff t).mp h)) (fun h => h9 ((atLast_iff t).mp h)) (iblk V c 0 t) prev,
     accMid c (grid0.coords t) (xStage t) (xStage_whole t) (outStage t) (outStage_whole t) accM (Memref.isWhole_whole _) (fun h => h0 ((atFirst_iff t).mp h)) (fun h => h9 ((atLast_iff t).mp h)) (iblk V c 0 t) prev)

/-- THE ACCUMULATION: the pair (output block's staging buffer, accumulator) after the body at position `n`: the
    steps folded from point 0, each over the accumulator the one before left. Point 0 is a first step, which reads
    nothing of what was there before. -/
def stateAt (c : Dev nD) : (n : ℕ) → n < cfg0.N → Vec F S1x1x128 .f32 × Vec F S1x128 .f32
  | 0, hn => stepAt V c ⟨0, hn⟩ (accView.read (Elt F) accView.junk)
  | n + 1, hn => stepAt V c ⟨n + 1, hn⟩ (stateAt c n (Nat.lt_of_succ_lt hn)).2

/-- What the accumulator holds when point `t` starts, for a point that is not the region's first: what the point
    before left. -/
abbrev accBefore (c : Dev nD) (t : Fin cfg0.N) : Vec F S1x128 .f32 :=
  (stateAt V c (t.val - 1) (Nat.lt_of_le_of_lt (Nat.sub_le _ _) t.isLt)).2

/-- The accumulation at a first step (points 0 and 10): that step's contents, whatever came before. -/
theorem stateAt_first (c : Dev nD) (t : Fin cfg0.N) (h0 : t.val % 10 = 0) (hL : ¬atLast (grid0.coords t)) :
    stateAt V c t.val t.isLt
      = (outFirst c (grid0.coords t) (xStage t) (xStage_whole t) (outStage t) (outStage_whole t) accM (Memref.isWhole_whole _) ((atFirst_iff t).mpr h0) hL (iblk V c 0 t),
         accFirst c (grid0.coords t) (xStage t) (xStage_whole t) (outStage t) (outStage_whole t) accM (Memref.isWhole_whole _) ((atFirst_iff t).mpr h0) hL (iblk V c 0 t)) := by
  obtain ⟨n, hn⟩ := t
  cases n with
  | zero => show stepAt V c ⟨0, hn⟩ _ = _; unfold stepAt; rw [dif_pos h0]
  | succ n => show stepAt V c ⟨n + 1, hn⟩ _ = _; unfold stepAt; rw [dif_pos h0]

/-- The accumulation at a middle step: that step's contents over what the point before left. -/
theorem stateAt_mid (c : Dev nD) (t : Fin cfg0.N) (h0 : ¬t.val % 10 = 0) (h9 : ¬t.val % 10 = 9) :
    stateAt V c t.val t.isLt
      = (outMid c (grid0.coords t) (xStage t) (xStage_whole t) (outStage t) (outStage_whole t) accM (Memref.isWhole_whole _) (fun h => h0 ((atFirst_iff t).mp h)) (fun h => h9 ((atLast_iff t).mp h)) (iblk V c 0 t) (accBefore V c t),
         accMid c (grid0.coords t) (xStage t) (xStage_whole t) (outStage t) (outStage_whole t) accM (Memref.isWhole_whole _) (fun h => h0 ((atFirst_iff t).mp h)) (fun h => h9 ((atLast_iff t).mp h)) (iblk V c 0 t) (accBefore V c t)) := by
  obtain ⟨n, hn⟩ := t
  cases n with
  | zero => exact absurd (Nat.zero_mod _) h0
  | succ n => exact (dif_neg h0).trans ((dif_neg h9).trans rfl)

/-- The accumulation at a last step (points 9 and 19): that step's contents over what the point before left. -/
theorem stateAt_last (c : Dev nD) (t : Fin cfg0.N) (h0 : ¬t.val % 10 = 0) (h9 : t.val % 10 = 9) :
    stateAt V c t.val t.isLt
      = (outLast c (grid0.coords t) (xStage t) (xStage_whole t) (outStage t) (outStage_whole t) accM (Memref.isWhole_whole _) (fun h => h0 ((atFirst_iff t).mp h)) ((atLast_iff t).mpr h9) (iblk V c 0 t) (accBefore V c t),
         accLast c (grid0.coords t) (xStage t) (xStage_whole t) (outStage t) (outStage_whole t) accM (Memref.isWhole_whole _) (fun h => h0 ((atFirst_iff t).mp h)) ((atLast_iff t).mpr h9) (iblk V c 0 t) (accBefore V c t)) := by
  obtain ⟨n, hn⟩ := t
  cases n with
  | zero => exact absurd (Nat.zero_mod _) h0
  | succ n => exact (dif_neg h0).trans ((dif_pos h9).trans rfl)

/-! ## The region invariant: the accumulator carried between points -/

/-- The invariant before position `n`: before the first point what the launch hands over (the accumulator at
    anything); afterwards the accumulator at what the point before left, the bystanders, and the generator register
    at some state. -/
def inv (c : Dev nD) : (n : ℕ) → n ≤ cfg0.N → sProp 𝕄
  | 0, _ => Pipeline.ΦA spec0 c
  | n + 1, hn => iprop(iprop(owns (c : Thread nD τ) accM fullShare ((stateAt V c n hn).2) ∗ bystanders (F := F) c) ∗ (∃ r, prngReg c r))

theorem inv_zero (c : Dev nD) (n : ℕ) (h : n ≤ cfg0.N) (hz : n = 0) : inv V c n h = Pipeline.ΦA spec0 c := by
  subst hz; rfl

/-- After point `n`: the accumulator at that point's contents. -/
theorem inv_succ (c : Dev nD) (n : ℕ) (hn : n < cfg0.N) :
    inv V c (n + 1) hn = iprop(iprop(owns (c : Thread nD τ) accM fullShare ((stateAt V c n hn).2) ∗ bystanders (F := F) c) ∗ (∃ r, prngReg c r)) := rfl

/-- Before a point that is not the first: the accumulator at what the point before left. -/
theorem inv_pos (c : Dev nD) (n : ℕ) (h : n ≤ cfg0.N) (hz : n ≠ 0) :
    inv V c n h = iprop(iprop(owns (c : Thread nD τ) accM fullShare ((stateAt V c (n - 1) (by omega)).2) ∗ bystanders (F := F) c) ∗ (∃ r, prngReg c r)) := by
  cases n with
  | zero => exact absurd rfl hz
  | succ n => rfl

/-! ## The pipeline's proof data -/

/-- The proof data of the region's pipeline on core `c`: the arrays as the region finds them; after the body at
    point `t` the x tile's buffer at its block and the output block's at the accumulation's first component; the
    invariant `inv`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (stateAt V c t.val t.isLt).1
  Φ t := inv V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

/-- The invariant at a point's start, restated at the point's position. -/
theorem inv_castSucc (c : Dev nD) (t : Fin cfg0.N) :
    (dat V c).Φ t.castSucc = inv V c t.val (Nat.le_of_lt t.isLt) := by
  dsimp only [dat]; simp only [Fin.coe_castSucc]

/-- What the body leaves, window by window. -/
theorem after_x (c : Dev nD) (t : Fin cfg0.N) : (dat V c).after 0 t = iblk V c 0 t := by dsimp only [dat]
theorem after_out (c : Dev nD) (t : Fin cfg0.N) : (dat V c).after 1 t = (stateAt V c t.val t.isLt).1 := by dsimp only [dat]

/-- The same, for every window at once. -/
theorem after_w (c : Dev nD) (w : Fin cfg0.W) (t : Fin cfg0.N) :
    (dat V c).after w t = (match w with
      | ⟨0, _⟩ => iblk V c 0 t
      | ⟨1, _⟩ => (stateAt V c t.val t.isLt).1) := by dsimp only [dat]

/-- The x tile's current staging buffer holds its block at every point, fetched there or not. -/
theorem before_x (c : Dev nD) (t : Fin cfg0.N) (d) : (dat V c).before 0 t d = iblk V c 0 t :=
  xTile_before_of V (dat V c) (A_eq V c 0) (after_x V c) t d

/-! ## The body obligation, at a generic point -/

/-- What the body is called with at point `t` (the windows one by one), -/
def bodyPre (c : Dev nD) (t : Fin cfg0.N) : sProp 𝕄 :=
  iprop((dat V c).Φ t.castSucc ∗ (dat V c).owesAt () t.castSucc
    ∗ (∃ d, owns (c : Thread nD τ) (xStage t) fullShare ((dat V c).before 0 t d))
    ∗ (∃ d, owns (c : Thread nD τ) (outStage t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point. The x tile's memref holds its block; the closed forms say which step the point is.
    A first step takes the accumulator at anything — what the launch left (point 0) or the first half's total
    (point 10) — and overwrites it; a middle or last step takes it at what the point before left. Each hands the
    accumulator back at this point's contents (its stores cover the row), the bystanders and the generator register
    untouched, the core owing nothing throughout; the output block comes back untouched except at a last step,
    whose store covers it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x]
  rw [show (dat V c).owesAt () t.succ = (dat V c).owesAt () t.castSucc from rfl]
  rw [show (dat V c).Φ t.succ = inv V c (t.val + 1) t.isLt from rfl, inv_succ]
  have hN : t.val < 20 := lt_of_lt_of_eq t.isLt (show cfg0.N = 20 from N_0)
  rw [show (dat V c).leavesExact 0 t = owns (c : Thread nD τ) (xStage t) fullShare ((dat V c).after 0 t) from by
    unfold Dat.leavesExact; rw [xTile_live t], after_x]
  by_cases h0 : t.val % 10 = 0
  · have hF : atFirst (grid0.coords t) := (atFirst_iff t).mpr h0
    have hL : ¬atLast (grid0.coords t) := fun h => by have h9 := (atLast_iff t).mp h; omega
    rw [Dat.leavesExact_idle (dat V c) 1 t (out_idle t hL) (out_noFlush t hL)]
    rw [stateAt_first V c t h0 hL]
    unfold accFirst; (try dsimp only)
    by_cases hz : t.val = 0
    · rw [inv_castSucc V c t, inv_zero V c _ _ hz, entry_eq]
      iintro ⟨⟨⟨HS, Hb⟩, Hg⟩, Ho, ⟨%d0, H0⟩, ⟨%d1, H1⟩⟩
      iapply ((runFirst c (grid0.coords t) _ _ _ _ _ _ hF hL (iblk V c 0 t)).2.2 _ Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (accFirst_cover c _ _ _ _ _ _ _ _ _ _)
          iexact Hb
        iexact Hg
      isplitl [Ho]; · iexact Ho
      isplitl [H0]; · iexact H0
      iexists _; iexact H1
    · rw [inv_castSucc V c t, inv_pos V c _ _ hz]
      iintro ⟨⟨⟨HS, Hb⟩, Hg⟩, Ho, ⟨%d0, H0⟩, ⟨%d1, H1⟩⟩
      iapply ((runFirst c (grid0.coords t) _ _ _ _ _ _ hF hL (iblk V c 0 t)).2.2 _ Set.univ _)
      isplitl [H0]; · iexact H0
      isplitl [H1]; · iexact H1
      isplitl [HS]; · iexists _; iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (accFirst_cover c _ _ _ _ _ _ _ _ _ _)
          iexact Hb
        iexact Hg
      isplitl [Ho]; · iexact Ho
      isplitl [H0]; · iexact H0
      iexists _; iexact H1
  · have hF : ¬atFirst (grid0.coords t) := fun h => h0 ((atFirst_iff t).mp h)
    have hz : t.val ≠ 0 := by omega
    by_cases h9 : t.val % 10 = 9
    · have hL : atLast (grid0.coords t) := (atLast_iff t).mpr h9
      rw [show (dat V c).leavesExact 1 t = owns (c : Thread nD τ) (outStage t) fullShare ((dat V c).after 1 t) from by
        unfold Dat.leavesExact; rw [out_live t hL], after_out]
      rw [stateAt_last V c t h0 h9]
      unfold outLast accLast; (try dsimp only)
      rw [inv_castSucc V c t, inv_pos V c _ _ hz]
      iintro ⟨⟨⟨HS, Hb⟩, Hg⟩, Ho, ⟨%d0, H0⟩, ⟨%d1, H1⟩⟩
      iapply ((runLast c (grid0.coords t) _ _ _ _ _ _ hF hL (iblk V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hb Hg]
      · isplitl [HS Hb]
        · isplitl [HS]
          · unfold owns; iexists _; isplitr
            swap; · iexact HS
            ipureintro; exact View.read_writes_of_cover _ _ _ _ _ (accLast_cover c _ _ _ _ _ _ _ _ _ _ _)
          iexact Hb
        iexact Hg
      isplitl [Ho]; · iexact Ho
      isplitl [H0]; · iexact H0
      unfold owns; iexists _; isplitr
      swap; · iexact H1
      ipureintro; exact View.read_writes_of_cover _ _ _ _ _ (outLast_cover c _ _ _ _ _ _ _ _ _ _ _)
    · have hL : ¬atLast (grid0.coords t) := fun h => h9 ((atLast_iff t).mp h)
      rw [Dat.leavesExact_idle (dat V c) 1 t (out_idle t hL) (out_noFlush t hL)]
      rw [stateAt_mid V c t h0 h9]
      unfold accMid; (try dsimp only)
      rw [inv_castSucc V c t, inv_pos V c _ _ hz]
      iintro ⟨⟨⟨HS, Hb⟩, Hg⟩, Ho, ⟨%d0, H0⟩, ⟨%d1, H1⟩⟩
      iapply ((runMid c (grid0.coords t) _ _ _ _ _ _ hF hL (iblk V c 0 t) _).2.2 _ Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (accMid_cover c _ _ _ _ _ _ _ _ _ _ _)
          iexact Hb
        iexact Hg
      isplitl [Ho]; · iexact Ho
      isplitl [H0]; · iexact H0
      iexists _; iexact H1

/-- The library's body obligation, at every point. -/
theorem body_obligation (c : Dev nD) : BodyObligation (dat (F := F) V c) (defs₀ (F := F)) Variants.none () Set.univ := fun t => by
  rw [bigSep_W0, bigSep_W0]
  exact sound_body V c t

/-! ## Entering and leaving the region -/

/-- What the launch hands the region is the invariant before the first point. -/
theorem enter (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After any point the invariant gives back what the launch handed over: the accumulator's contents forgotten. -/
theorem inv_forget (c : Dev nD) (t : Fin (cfg0.N + 1)) (ht : t.val ≠ 0) : (dat V c).Φ t ⊢ Pipeline.ΦA spec0 c := by
  rw [show (dat V c).Φ t = inv V c t.val (Nat.le_of_lt_succ t.isLt) from rfl, inv_pos V c _ _ ht, entry_eq]
  iintro ⟨⟨HS, Hb⟩, Hg⟩
  isplitl [HS Hb]
  · isplitl [HS]
    · iexists _; iexact HS
    iexact Hb
  iexact Hg

/-- In particular after the last point. -/
theorem leave (c : Dev nD) : (dat V c).Φ (Fin.last cfg0.N) ⊢ Pipeline.ΦA spec0 c :=
  inv_forget V c _ (by rw [Fin.val_last]; have : cfg0.N = 20 := N_0; omega)

end Cert.Kernel.ColSq

end
-- ==== Proof.WordAggShared.lean ====
import proofs.«111807_j45552423141540_2_alg».proof.Proof.Gen.Kernel.Launch
import proofs.«111807_j45552423141540_2_alg».proof.Proof.Gen.Kernel.Skeleton
import proofs.«111807_j45552423141540_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The aggregation kernel as a pipeline body: what its three runs share

The second kernel of the program walks a 2 x 10 grid. Along the inner axis it keeps two running sums in
scratch memory: the 64 x 128 matrix of soft assignments times normalised rows, and the 1 x 64 row of
assignment masses. Both are zeroed where the inner coordinate is 0, added to at every point, and copied
to the two output blocks where the inner coordinate is 9. Everything here is stated at the contents `V`
the TensorCore's buffers hold when the region is entered. -/

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (unfetched, the block index has not moved), for any proof data whose array is the entry contents and whose
    body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved), for any proof data whose array is the entry contents and whose
    body leaves the block in place. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved), for any proof data whose array is the entry contents and whose
    body leaves the block in place. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved), for any proof data whose array is the entry contents and whose
    body leaves the block in place. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    not (unfetched, the block index has not moved), for any proof data whose array is the entry contents and whose
    body leaves the block in place. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body -/

/-- The inner coordinate is 0: the point opens a row of the grid and zeroes both running sums. -/
abbrev condFirst (i : grid1.Coords) : Prop := (Scalar.cmpi .ne (Scalar.extui (Scalar.cmpi .eq (BitVec.ofNat 32 (i 1).val) 0#32)) 0#32) = 1#1
/-- It holds at the points 0 and 10. -/
theorem hcondFirst : ∀ t : Fin cfg1.N, condFirst (grid1.coords t) ↔ t.val % 10 = 0 :=
  (by decide +kernel : ∀ t : Fin grid1.N, condFirst (grid1.coords t) ↔ t.val % 10 = 0)

/-- The inner coordinate is 9: the point closes a row of the grid and copies both running sums out. -/
abbrev condLast (i : grid1.Coords) : Prop := k1_cond2 i = 1#1
/-- It holds at the points 9 and 19. -/
theorem hcondLast : ∀ t : Fin cfg1.N, condLast (grid1.coords t) ↔ t.val % 10 = 9 :=
  (by decide +kernel : ∀ t : Fin grid1.N, condLast (grid1.coords t) ↔ t.val % 10 = 9)

/-! ## Where the windows are idle -/

/-- The five inputs are never idle. -/
theorem liveAt0 : ∀ t : Fin cfg1.N, cfg1.idle 0 (grid1.coords t) = false := by decide +kernel
theorem liveAt1 : ∀ t : Fin cfg1.N, cfg1.idle 1 (grid1.coords t) = false := by decide +kernel
theorem liveAt2 : ∀ t : Fin cfg1.N, cfg1.idle 2 (grid1.coords t) = false := by decide +kernel
theorem liveAt3 : ∀ t : Fin cfg1.N, cfg1.idle 3 (grid1.coords t) = false := by decide +kernel
theorem liveAt4 : ∀ t : Fin cfg1.N, cfg1.idle 4 (grid1.coords t) = false := by decide +kernel
/-- Away from a row's last point the two outputs are idle and not written back; at it they are live. -/
theorem idleAt5 : ∀ t : Fin cfg1.N, ¬condLast (grid1.coords t) → cfg1.idle 5 (grid1.coords t) = true := by decide +kernel
theorem idleAt6 : ∀ t : Fin cfg1.N, ¬condLast (grid1.coords t) → cfg1.idle 6 (grid1.coords t) = true := by decide +kernel
theorem noFlush5 : ∀ t : Fin cfg1.N, ¬condLast (grid1.coords t) → (cfg1.win 5).flush t = false := by decide +kernel
theorem noFlush6 : ∀ t : Fin cfg1.N, ¬condLast (grid1.coords t) → (cfg1.win 6).flush t = false := by decide +kernel
theorem liveAt5 : ∀ t : Fin cfg1.N, condLast (grid1.coords t) → cfg1.idle 5 (grid1.coords t) = false := by decide +kernel
theorem liveAt6 : ∀ t : Fin cfg1.N, condLast (grid1.coords t) → cfg1.idle 6 (grid1.coords t) = false := by decide +kernel

/-! ## The memrefs the body is called with -/

/-- Each window's current staging memref at point `t`, and its wholeness. -/
abbrev ms0 (t : Fin cfg1.N) : Memref sig .tc .vmem S10000x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x64 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S64x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x64x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x1x64 .f32 := win1_6.stage (cfg1.slots t 6)
abbrev hs6 (t : Fin cfg1.N) : (ms6 t).IsWhole := hstage1_6 ((cfg1.slots t 6).cast nbuf1_6)

/-- The two running sums: whole scoped buffers of the kernel's own, passed beside the windows. -/
abbrev scM0 : Memref sig .tc .vmem S64x128 .f32 := Memref.whole cc1_scratch0
abbrev scM1 : Memref sig .tc .vmem S1x64 .f32 := Memref.whole cc1_scratch1
/-- The views through which the contents of the running sums and of the outputs' buffers are stated (for a
    list of pieces that covers the buffer the choice of view does not matter). -/
abbrev VS0 : View sig .tc .vmem S64x128 .f32 := scM0.view
abbrev VS1 : View sig .tc .vmem S1x64 .f32 := scM1.view
abbrev VO5 : View sig .tc .vmem S1x64x128 .f32 := (Memref.whole cc1_stg5_0 : Memref sig .tc .vmem S1x64x128 .f32).view
abbrev VO6 : View sig .tc .vmem S1x1x64 .f32 := (Memref.whole cc1_stg6_0 : Memref sig .tc .vmem S1x1x64 .f32).view

/-! ## The invariant the region is entered with -/

/-- A scoped buffer of the core at some contents. -/
abbrev someAt (c : Dev nD) (b : Ref sig .tc) : sProp 𝕄 :=
  iprop(∃ f : Buf (Elt F) ((c : Thread nD τ).loc b), ((c : Thread nD τ).loc b) ↦{fullShare} f)

/-- What the launch hands the region: the first kernel's staging buffers and its scratch at some contents,
    the two running sums owned as memrefs at some contents, and the generator register at some state. -/
theorem PhiA_eq (c : Dev nD) :
    (Pipeline.ΦA spec1 c : sProp 𝕄)
      = iprop(iprop(someAt c cc0_stg0_0 ∗ someAt c cc0_stg0_1 ∗ someAt c cc0_stg1_0 ∗ someAt c cc0_stg1_1 ∗ someAt c cc0_scratch0
          ∗ (∃ d, owns (c : Thread nD τ) scM0 fullShare d) ∗ (∃ d, owns (c : Thread nD τ) scM1 fullShare d)) ∗ (∃ r, prngReg c r)) := by
  unfold Pipeline.ΦA; rw [scopedRest1_eq]; simp only [scM0, scM1, owns_whole]; try rfl

end Cert.Kernel.Agg

end
-- ==== Proof.WordAggRunMid.lean ====
import proofs.«111807_j45552423141540_2_alg».proof.Proof.WordAggShared

-- membership of an index in a rectangle of the tile's extents is decided structurally: one step per coordinate
set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The body at a point inside a row of the grid

Neither condition holds: the body reads the tile and the three small operands, adds the tile's
contribution to each running sum, and stores both sums back. The outputs' buffers are not touched. -/

set_option maxHeartbeats 1000000 in
/-- The pieces the body's stores leave in the two running sums (last store first) at a point where the
    inner coordinate is neither 0 nor 9, WITH the proof that on whole memrefs — the inputs' at contents
    `x0 … x3`, the running sums at what the point before left, `xs0` and `xs1` — the body runs to the
    continuation holding the inputs' as they were and each running sum with its pieces written. The
    pieces are the witness the symbolic run finds. -/
noncomputable def kernelRun_mid (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) :
    Σ' (LS0 : List (View.Piece (Elt F) S64x128 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10) K } := by
  refine ⟨?_, ?_, fun E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Agg

end
-- ==== Proof.WordAggRunFirst.lean ====
import proofs.«111807_j45552423141540_2_alg».proof.Proof.WordAggRunMid

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The body at the first point of a row of the grid

The inner coordinate is 0: the body first stores zeros into both running sums, whatever they held, then
proceeds as at any point — it reads the zeros back, adds the tile's contribution, and stores both sums.
The outputs' buffers are not touched. -/

set_option maxHeartbeats 1000000 in
/-- The pieces the body's stores leave in the two running sums (last store first) at a point where the
    inner coordinate is 0, WITH the proof that on whole memrefs — the inputs' at contents `x0 … x3`, the
    running sums at ANY contents — the body runs to the continuation holding the inputs' as they were and
    each running sum with its pieces written. The pieces are the witness the symbolic run finds. -/
noncomputable def kernelRun_first (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32) :
    Σ' (LS0 : List (View.Piece (Elt F) S64x128 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10) K } := by
  refine ⟨?_, ?_, fun E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Agg

end
-- ==== Proof.WordAggRunLast.lean ====
import proofs.«111807_j45552423141540_2_alg».proof.Proof.WordAggRunFirst

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The body at the last point of a row of the grid

The inner coordinate is 9: the body adds the tile's contribution to both running sums as at any point,
then reads each sum back and stores it, reshaped, over the whole of its output block. -/

set_option maxHeartbeats 1000000 in
/-- The pieces the body's stores leave in the two outputs' buffers and in the two running sums (last store
    first) at a point where the inner coordinate is 9, WITH the proof that on whole memrefs — the inputs' at
    contents `x0 … x3`, the outputs' at anything, the running sums at what the point before left, `xs0` and
    `xs1` — the body runs to the continuation holding the inputs' as they were and each output's buffer and
    each running sum with its pieces written. The pieces are the witness the symbolic run finds. -/
noncomputable def kernelRun_last (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) :
    Σ' (L5 : List (View.Piece (Elt F) S1x64x128 .f32)) (L6 : List (View.Piece (Elt F) S1x1x64 .f32)) (LS0 : List (View.Piece (Elt F) S64x128 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H5]; · iexists _; iexact H5
    isplitl [H6]; · iexists _; iexact H6
    isplitl [HS0]; · iexists _; iexact HS0
    iexists _; iexact HS1

end Cert.Kernel.Agg

end
-- ==== Proof.WordAgg.lean ====
import proofs.«111807_j45552423141540_2_alg».proof.Proof.WordAggRunLast

set_option maxRecDepth 16384

noncomputable section

namespace Cert.Kernel.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The aggregation kernel as a pipeline body: the proof data and the body obligation

From the three runs: what each case leaves in the two running sums and, at a row's last point, in the
two outputs' buffers; the accumulation point by point; the invariant that carries the running sums from
one point to the next; the proof data; the body obligation at every point; and how the invariant is
entered from, and gives back, what the launch hands the region. Everything is stated at the contents
`V` the TensorCore's buffers hold when the region is entered. -/

variable (V : (c : Dev nD) → (b : Ref sig .tc) → Buf (Elt F) ((c : Thread nD τ).loc b))

/-! ## What each case leaves -/

/-- At the first point of a row the pieces stored into the running sum of weighted rows tile it, so they cover it. -/
theorem scover_first_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32)  (y : S64x128.Idx) :
    ∃ pc ∈ (kernelRun_first c i arg2 harg2 arg3 harg3 arg4 harg4 arg5 harg5 arg6 harg6 arg7 harg7 arg8 harg8 arg9 harg9 arg10 harg10 hc0 hc2 x0 x1 x2 x3).1, y ∈ pc.1.set :=
  View.cover_of_tiledL (kernelRun_first c i arg2 harg2 arg3 harg3 arg4 harg4 arg5 harg5 arg6 harg6 arg7 harg7 arg8 harg8 arg9 harg9 arg10 harg10 hc0 hc2 x0 x1 x2 x3).1 S64x128.size (by sl_kernel_rfl) y

/-- What the body leaves in the running sum of weighted rows at the first point of a row: its pieces read back. -/
def sout_first_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32)  : Vec F S64x128 .f32 :=
  VS0.read (Elt F) (VS0.writes (Elt F) VS0.junk (kernelRun_first c i arg2 harg2 arg3 harg3 arg4 harg4 arg5 harg5 arg6 harg6 arg7 harg7 arg8 harg8 arg9 harg9 arg10 harg10 hc0 hc2 x0 x1 x2 x3).1)

/-- At the first point of a row the pieces stored into the running sum of assignment masses tile it, so they cover it. -/
theorem scover_first_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32)  (y : S1x64.Idx) :
    ∃ pc ∈ (kernelRun_first c i arg2 harg2 arg3 harg3 arg4 harg4 arg5 harg5 arg6 harg6 arg7 harg7 arg8 harg8 arg9 harg9 arg10 harg10 hc0 hc2 x0 x1 x2 x3).2.1, y ∈ pc.1.set :=
  View.cover_of_tiledL (kernelRun_first c i arg2 harg2 arg3 harg3 arg4 harg4 arg5 harg5 arg6 harg6 arg7 harg7 arg8 harg8 arg9 harg9 arg10 harg10 hc0 hc2 x0 x1 x2 x3).2.1 S1x64.size (by sl_kernel_rfl) y

/-- What the body leaves in the running sum of assignment masses at the first point of a row: its pieces read back. -/
def sout_first_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32)  : Vec F S1x64 .f32 :=
  VS1.read (Elt F) (VS1.writes (Elt F) VS1.junk (kernelRun_first c i arg2 harg2 arg3 harg3 arg4 harg4 arg5 harg5 arg6 harg6 arg7 harg7 arg8 harg8 arg9 harg9 arg10 harg10 hc0 hc2 x0 x1 x2 x3).2.1)

/-- At a point inside a row the pieces stored into the running sum of weighted rows tile it, so they cover it. -/
theorem scover_mid_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) (y : S64x128.Idx) :
    ∃ pc ∈ (kernelRun_mid c i arg2 harg2 arg3 harg3 arg4 harg4 arg5 harg5 arg6 harg6 arg7 harg7 arg8 harg8 arg9 harg9 arg10 harg10 hc0 hc2 x0 x1 x2 x3 xs0 xs1).1, y ∈ pc.1.set :=
  View.cover_of_tiledL (kernelRun_mid c i arg2 harg2 arg3 harg3 arg4 harg4 arg5 harg5 arg6 harg6 arg7 harg7 arg8 harg8 arg9 harg9 arg10 harg10 hc0 hc2 x0 x1 x2 x3 xs0 xs1).1 S64x128.size (by sl_kernel_rfl) y

/-- What the body leaves in the running sum of weighted rows at a point inside a row: its pieces read back. -/
def sout_mid_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) : Vec F S64x128 .f32 :=
  VS0.read (Elt F) (VS0.writes (Elt F) VS0.junk (kernelRun_mid c i arg2 harg2 arg3 harg3 arg4 harg4 arg5 harg5 arg6 harg6 arg7 harg7 arg8 harg8 arg9 harg9 arg10 harg10 hc0 hc2 x0 x1 x2 x3 xs0 xs1).1)

/-- At a point inside a row the pieces stored into the running sum of assignment masses tile it, so they cover it. -/
theorem scover_mid_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) (y : S1x64.Idx) :
    ∃ pc ∈ (kernelRun_mid c i arg2 harg2 arg3 harg3 arg4 harg4 arg5 harg5 arg6 harg6 arg7 harg7 arg8 harg8 arg9 harg9 arg10 harg10 hc0 hc2 x0 x1 x2 x3 xs0 xs1).2.1, y ∈ pc.1.set :=
  View.cover_of_tiledL (kernelRun_mid c i arg2 harg2 arg3 harg3 arg4 harg4 arg5 harg5 arg6 harg6 arg7 harg7 arg8 harg8 arg9 harg9 arg10 harg10 hc0 hc2 x0 x1 x2 x3 xs0 xs1).2.1 S1x64.size (by sl_kernel_rfl) y

/-- What the body leaves in the running sum of assignment masses at a point inside a row: its pieces read back. -/
def sout_mid_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) : Vec F S1x64 .f32 :=
  VS1.read (Elt F) (VS1.writes (Elt F) VS1.junk (kernelRun_mid c i arg2 harg2 arg3 harg3 arg4 harg4 arg5 harg5 arg6 harg6 arg7 harg7 arg8 harg8 arg9 harg9 arg10 harg10 hc0 hc2 x0 x1 x2 x3 xs0 xs1).2.1)

/-- At the last point of a row the pieces stored into the first output's buffer tile it, so they cover it. -/
theorem cover_last_5 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) (y : S1x64x128.Idx) :
    ∃ pc ∈ (kernelRun_last c i arg2 harg2 arg3 harg3 arg4 harg4 arg5 harg5 arg6 harg6 arg7 harg7 arg8 harg8 arg9 harg9 arg10 harg10 hc0 hc2 x0 x1 x2 x3 xs0 xs1).1, y ∈ pc.1.set :=
  View.cover_of_tiledL (kernelRun_last c i arg2 harg2 arg3 harg3 arg4 harg4 arg5 harg5 arg6 harg6 arg7 harg7 arg8 harg8 arg9 harg9 arg10 harg10 hc0 hc2 x0 x1 x2 x3 xs0 xs1).1 S1x64x128.size (by sl_kernel_rfl) y

/-- What the body leaves in the first output's buffer at the last point of a row: its pieces read back. -/
def out_last_5 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) : Vec F S1x64x128 .f32 :=
  VO5.read (Elt F) (VO5.writes (Elt F) VO5.junk (kernelRun_last c i arg2 harg2 arg3 harg3 arg4 harg4 arg5 harg5 arg6 harg6 arg7 harg7 arg8 harg8 arg9 harg9 arg10 harg10 hc0 hc2 x0 x1 x2 x3 xs0 xs1).1)

/-- At the last point of a row the pieces stored into the second output's buffer tile it, so they cover it. -/
theorem cover_last_6 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) (y : S1x1x64.Idx) :
    ∃ pc ∈ (kernelRun_last c i arg2 harg2 arg3 harg3 arg4 harg4 arg5 harg5 arg6 harg6 arg7 harg7 arg8 harg8 arg9 harg9 arg10 harg10 hc0 hc2 x0 x1 x2 x3 xs0 xs1).2.1, y ∈ pc.1.set :=
  View.cover_of_tiledL (kernelRun_last c i arg2 harg2 arg3 harg3 arg4 harg4 arg5 harg5 arg6 harg6 arg7 harg7 arg8 harg8 arg9 harg9 arg10 harg10 hc0 hc2 x0 x1 x2 x3 xs0 xs1).2.1 S1x1x64.size (by sl_kernel_rfl) y

/-- What the body leaves in the second output's buffer at the last point of a row: its pieces read back. -/
def out_last_6 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) : Vec F S1x1x64 .f32 :=
  VO6.read (Elt F) (VO6.writes (Elt F) VO6.junk (kernelRun_last c i arg2 harg2 arg3 harg3 arg4 harg4 arg5 harg5 arg6 harg6 arg7 harg7 arg8 harg8 arg9 harg9 arg10 harg10 hc0 hc2 x0 x1 x2 x3 xs0 xs1).2.1)

/-- At the last point of a row the pieces stored into the running sum of weighted rows tile it, so they cover it. -/
theorem scover_last_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) (y : S64x128.Idx) :
    ∃ pc ∈ (kernelRun_last c i arg2 harg2 arg3 harg3 arg4 harg4 arg5 harg5 arg6 harg6 arg7 harg7 arg8 harg8 arg9 harg9 arg10 harg10 hc0 hc2 x0 x1 x2 x3 xs0 xs1).2.2.1, y ∈ pc.1.set :=
  View.cover_of_tiledL (kernelRun_last c i arg2 harg2 arg3 harg3 arg4 harg4 arg5 harg5 arg6 harg6 arg7 harg7 arg8 harg8 arg9 harg9 arg10 harg10 hc0 hc2 x0 x1 x2 x3 xs0 xs1).2.2.1 S64x128.size (by sl_kernel_rfl) y

/-- What the body leaves in the running sum of weighted rows at the last point of a row: its pieces read back. -/
def sout_last_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) : Vec F S64x128 .f32 :=
  VS0.read (Elt F) (VS0.writes (Elt F) VS0.junk (kernelRun_last c i arg2 harg2 arg3 harg3 arg4 harg4 arg5 harg5 arg6 harg6 arg7 harg7 arg8 harg8 arg9 harg9 arg10 harg10 hc0 hc2 x0 x1 x2 x3 xs0 xs1).2.2.1)

/-- At the last point of a row the pieces stored into the running sum of assignment masses tile it, so they cover it. -/
theorem scover_last_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) (y : S1x64.Idx) :
    ∃ pc ∈ (kernelRun_last c i arg2 harg2 arg3 harg3 arg4 harg4 arg5 harg5 arg6 harg6 arg7 harg7 arg8 harg8 arg9 harg9 arg10 harg10 hc0 hc2 x0 x1 x2 x3 xs0 xs1).2.2.2.1, y ∈ pc.1.set :=
  View.cover_of_tiledL (kernelRun_last c i arg2 harg2 arg3 harg3 arg4 harg4 arg5 harg5 arg6 harg6 arg7 harg7 arg8 harg8 arg9 harg9 arg10 harg10 hc0 hc2 x0 x1 x2 x3 xs0 xs1).2.2.2.1 S1x64.size (by sl_kernel_rfl) y

/-- What the body leaves in the running sum of assignment masses at the last point of a row: its pieces read back. -/
def sout_last_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) : Vec F S1x64 .f32 :=
  VS1.read (Elt F) (VS1.writes (Elt F) VS1.junk (kernelRun_last c i arg2 harg2 arg3 harg3 arg4 harg4 arg5 harg5 arg6 harg6 arg7 harg7 arg8 harg8 arg9 harg9 arg10 harg10 hc0 hc2 x0 x1 x2 x3 xs0 xs1).2.2.2.1)

/-- Away from a row's last point the body stores nothing into the outputs' buffers, the pipeline does not
    write them back, and nothing reads them: the accumulation carries a placeholder there. -/
def idleOut5 : Vec F S1x64x128 .f32 := VO5.read (Elt F) VO5.junk
def idleOut6 : Vec F S1x1x64 .f32 := VO6.read (Elt F) VO6.junk

/-! ## The accumulation, point by point -/

/-- What the first point of a row leaves: both running sums restarted from zero plus the tile's contribution. -/
def firstAt (c : Dev nD) (t : Fin cfg1.N) (h0 : t.val % 10 = 0) : Vec F S1x64x128 .f32 × Vec F S1x1x64 .f32 × Vec F S64x128 .f32 × Vec F S1x64 .f32 :=
  (idleOut5, idleOut6,
   sout_first_0 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) ((hcondFirst t).mpr h0) (fun h => absurd ((hcondLast t).mp h) (by omega)) (iblk V c 0 t) (iblk V c 1 t) (iblk V c 2 t) (iblk V c 3 t),
   sout_first_1 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) ((hcondFirst t).mpr h0) (fun h => absurd ((hcondLast t).mp h) (by omega)) (iblk V c 0 t) (iblk V c 1 t) (iblk V c 2 t) (iblk V c 3 t))

/-- What a point inside a row leaves, over the running sums `xs0`, `xs1` the point before left. -/
def midAt (c : Dev nD) (t : Fin cfg1.N) (h0 : ¬t.val % 10 = 0) (h2 : ¬t.val % 10 = 9) (xs0 : Vec F S64x128 .f32) (xs1 : Vec F S1x64 .f32) : Vec F S1x64x128 .f32 × Vec F S1x1x64 .f32 × Vec F S64x128 .f32 × Vec F S1x64 .f32 :=
  (idleOut5, idleOut6,
   sout_mid_0 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcondFirst t).mp h)) (fun h => h2 ((hcondLast t).mp h)) (iblk V c 0 t) (iblk V c 1 t) (iblk V c 2 t) (iblk V c 3 t) xs0 xs1,
   sout_mid_1 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcondFirst t).mp h)) (fun h => h2 ((hcondLast t).mp h)) (iblk V c 0 t) (iblk V c 1 t) (iblk V c 2 t) (iblk V c 3 t) xs0 xs1)

/-- What the last point of a row leaves, over the running sums `xs0`, `xs1` the point before left: the
    sums once more added to, and each copied to its output's buffer. -/
def lastAt (c : Dev nD) (t : Fin cfg1.N) (h2 : t.val % 10 = 9) (xs0 : Vec F S64x128 .f32) (xs1 : Vec F S1x64 .f32) : Vec F S1x64x128 .f32 × Vec F S1x1x64 .f32 × Vec F S64x128 .f32 × Vec F S1x64 .f32 :=
  (out_last_5 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => absurd ((hcondFirst t).mp h) (by omega)) ((hcondLast t).mpr h2) (iblk V c 0 t) (iblk V c 1 t) (iblk V c 2 t) (iblk V c 3 t) xs0 xs1,
   out_last_6 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => absurd ((hcondFirst t).mp h) (by omega)) ((hcondLast t).mpr h2) (iblk V c 0 t) (iblk V c 1 t) (iblk V c 2 t) (iblk V c 3 t) xs0 xs1,
   sout_last_0 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => absurd ((hcondFirst t).mp h) (by omega)) ((hcondLast t).mpr h2) (iblk V c 0 t) (iblk V c 1 t) (iblk V c 2 t) (iblk V c 3 t) xs0 xs1,
   sout_last_1 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => absurd ((hcondFirst t).mp h) (by omega)) ((hcondLast t).mpr h2) (iblk V c 0 t) (iblk V c 1 t) (iblk V c 2 t) (iblk V c 3 t) xs0 xs1)

/-- THE ACCUMULATION. What the two outputs' buffers and the two running sums hold after the body at
    position `n` (the outputs in window order, then the sums): the case the point is in, run at the point's
    memrefs and input blocks, over the running sums position `n - 1` left. A row's first point takes nothing
    from the point before: the sums restart there. -/
def outsAt (c : Dev nD) : (n : ℕ) → n < cfg1.N → Vec F S1x64x128 .f32 × Vec F S1x1x64 .f32 × Vec F S64x128 .f32 × Vec F S1x64 .f32
  | 0, hn => firstAt V c ⟨0, hn⟩ (Nat.zero_mod _)
  | n + 1, hn =>
    if h0 : (n + 1) % 10 = 0 then firstAt V c ⟨n + 1, hn⟩ h0
    else if h2 : (n + 1) % 10 = 9 then
      lastAt V c ⟨n + 1, hn⟩ h2 (outsAt c n (Nat.lt_of_succ_lt hn)).2.2.1 (outsAt c n (Nat.lt_of_succ_lt hn)).2.2.2
    else
      midAt V c ⟨n + 1, hn⟩ h0 h2 (outsAt c n (Nat.lt_of_succ_lt hn)).2.2.1 (outsAt c n (Nat.lt_of_succ_lt hn)).2.2.2

/-- The accumulation at a row's first point. -/
theorem outsAt_first (c : Dev nD) (t : Fin cfg1.N) (h0 : t.val % 10 = 0) :
    outsAt V c t.val t.isLt = firstAt V c t h0 := by
  obtain ⟨n, hn⟩ := t
  cases n with
  | zero => exact rfl
  | succ n => exact (dif_pos h0).trans rfl

/-- The accumulation at a point inside a row: over what the point before left. -/
theorem outsAt_mid (c : Dev nD) (t : Fin cfg1.N) (h0 : ¬t.val % 10 = 0) (h2 : ¬t.val % 10 = 9) :
    outsAt V c t.val t.isLt = midAt V c t h0 h2 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h2).trans rfl)

/-- The accumulation at a row's last point: over what the point before left. -/
theorem outsAt_last (c : Dev nD) (t : Fin cfg1.N) (h2 : t.val % 10 = 9) :
    outsAt V c t.val t.isLt = lastAt V c t h2 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact absurd (show (0 : ℕ) % 10 = 9 from h2) (by decide)
  | succ n =>
    have h2' : (n + 1) % 10 = 9 := h2
    exact (dif_neg (by omega)).trans ((dif_pos h2').trans rfl)

/-! ## The invariant between points -/

/-- Before the first point: what the launch hands the region. Afterwards: the other scoped buffers at some
    contents, each running sum at what the point before left in it, and the generator register at some
    state. -/
def PhiS (c : Dev nD) : (n : ℕ) → n ≤ cfg1.N → sProp 𝕄
  | 0, _ => Pipeline.ΦA spec1 c
  | n + 1, hn => iprop(iprop(someAt c cc0_stg0_0 ∗ someAt c cc0_stg0_1 ∗ someAt c cc0_stg1_0 ∗ someAt c cc0_stg1_1 ∗ someAt c cc0_scratch0
      ∗ owns (c : Thread nD τ) scM0 fullShare ((outsAt V c n hn).2.2.1) ∗ owns (c : Thread nD τ) scM1 fullShare ((outsAt V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(someAt c cc0_stg0_0 ∗ someAt c cc0_stg0_1 ∗ someAt c cc0_stg1_0 ∗ someAt c cc0_stg1_1 ∗ someAt c cc0_scratch0
      ∗ owns (c : Thread nD τ) scM0 fullShare ((outsAt V c n hn).2.2.1) ∗ owns (c : Thread nD τ) scM1 fullShare ((outsAt V c n hn).2.2.2)) ∗ (∃ r, prngReg c r)) := rfl

theorem PhiS_pos (c : Dev nD) (n : ℕ) (h : n ≤ cfg1.N) (hz : n ≠ 0) :
    PhiS V c n h = iprop(iprop(someAt c cc0_stg0_0 ∗ someAt c cc0_stg0_1 ∗ someAt c cc0_stg1_0 ∗ someAt c cc0_stg1_1 ∗ someAt c cc0_scratch0
      ∗ owns (c : Thread nD τ) scM0 fullShare ((outsAt V c (n - 1) (by omega)).2.2.1) ∗ owns (c : Thread nD τ) scM1 fullShare ((outsAt V c (n - 1) (by omega)).2.2.2)) ∗ (∃ r, prngReg c r)) := by
  cases n with
  | zero => exact absurd rfl hz
  | succ n => rfl

/-! ## The proof data -/

/-- The proof data of the pipeline on core `c`: the arrays as the region finds them; after the body at point
    `t` each input's buffer at its block and the outputs' at the accumulation's components; the invariant
    `PhiS`; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
    | ⟨6, _⟩ => (outsAt V c t.val t.isLt).2.1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = (outsAt V c t.val t.isLt).1 := by dsimp only [dat]
theorem after6 (c : Dev nD) (t : Fin cfg1.N) : (dat V c).after 6 t = (outsAt V c t.val t.isLt).2.1 := by dsimp only [dat]

/-- Each input's current staging buffer holds its block at every point, fetched there or not. -/
theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
/-- The body at any point. The inputs' memrefs hold their blocks; the point's position modulo 10 says
    which case it is in, and that case's run applies. The invariant hands the body the running sums at what
    the point before left (at anything before the first point, and a row's first point overwrites them
    without reading them), and takes them back at this point's contents, the pieces covering each sum.
    Away from a row's last point the outputs' buffers go back as they came; at it each holds its pieces
    read back. The centroid window's buffer is never touched. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [liveAt0 t], after0]
  rw [show (dat V c).leavesExact 1 t = owns (c : Thread nD τ) (ms1 t) fullShare ((dat V c).after 1 t) from by
      unfold Dat.leavesExact; rw [liveAt1 t], after1]
  rw [show (dat V c).leavesExact 2 t = owns (c : Thread nD τ) (ms2 t) fullShare ((dat V c).after 2 t) from by
      unfold Dat.leavesExact; rw [liveAt2 t], after2]
  rw [show (dat V c).leavesExact 3 t = owns (c : Thread nD τ) (ms3 t) fullShare ((dat V c).after 3 t) from by
      unfold Dat.leavesExact; rw [liveAt3 t], after3]
  rw [show (dat V c).leavesExact 4 t = owns (c : Thread nD τ) (ms4 t) fullShare ((dat V c).after 4 t) from by
      unfold Dat.leavesExact; rw [liveAt4 t], after4]
  have hN : t.val < 20 := lt_of_lt_of_eq t.isLt (show cfg1.N = 20 from N_1)
  by_cases h0 : t.val % 10 = 0
  · have hF : condFirst (grid1.coords t) := (hcondFirst t).mpr h0
    have hL : ¬condLast (grid1.coords t) := fun h => absurd ((hcondLast t).mp h) (by omega)
    rw [Dat.leavesExact_idle (dat V c) 5 t (idleAt5 t hL) (noFlush5 t hL), Dat.leavesExact_idle (dat V c) 6 t (idleAt6 t hL) (noFlush6 t hL)]
    rw [outsAt_first V c t h0]
    unfold firstAt sout_first_0 sout_first_1; (try dsimp only)
    by_cases hz : t.val = 0
    · rw [PhiS_castSucc V c t, PhiS_zero V c _ _ hz, PhiA_eq]
      iintro ⟨⟨⟨R0, R1, R2, R3, R4, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_first c (grid1.coords t) _ _ _ _ _ _ _ _ _ _ _ _ _ _ _ _ _ _ hF hL (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [R0 R1 R2 R3 R4 HS0 HS1 Hg]
      · isplitl [R0 R1 R2 R3 R4 HS0 HS1]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover_first_0 c _ _ _ _ _ _ _ _ _ _ _ _ _ _ _ _ _ _ _ _ _ _ _ _ _)
          · unfold owns; iexists _; isplitr
            swap; · iexact HS1
            ipureintro; exact View.read_writes_of_cover _ _ _ _ _ (scover_first_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS_castSucc V c t, PhiS_pos V c _ _ hz]
      iintro ⟨⟨⟨R0, R1, R2, R3, R4, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_first c (grid1.coords t) _ _ _ _ _ _ _ _ _ _ _ _ _ _ _ _ _ _ hF hL (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [R0 R1 R2 R3 R4 HS0 HS1 Hg]
      · isplitl [R0 R1 R2 R3 R4 HS0 HS1]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover_first_0 c _ _ _ _ _ _ _ _ _ _ _ _ _ _ _ _ _ _ _ _ _ _ _ _ _)
          · unfold owns; iexists _; isplitr
            swap; · iexact HS1
            ipureintro; exact View.read_writes_of_cover _ _ _ _ _ (scover_first_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => h0 (by rw [h])
    by_cases h2 : t.val % 10 = 9
    · have hF : ¬condFirst (grid1.coords t) := fun h => h0 ((hcondFirst t).mp h)
      have hL : condLast (grid1.coords t) := (hcondLast t).mpr h2
      rw [show (dat V c).leavesExact 5 t = owns (c : Thread nD τ) (ms5 t) fullShare ((dat V c).after 5 t) from by
        unfold Dat.leavesExact; rw [liveAt5 t hL], after5]
      rw [show (dat V c).leavesExact 6 t = owns (c : Thread nD τ) (ms6 t) fullShare ((dat V c).after 6 t) from by
        unfold Dat.leavesExact; rw [liveAt6 t hL], after6]
      rw [outsAt_last V c t h2]
      unfold lastAt out_last_5 out_last_6 sout_last_0 sout_last_1; (try dsimp only)
      rw [PhiS_castSucc V c t, PhiS_pos V c _ _ hz]
      iintro ⟨⟨⟨R0, R1, R2, R3, R4, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_last c (grid1.coords t) _ _ _ _ _ _ _ _ _ _ _ _ _ _ _ _ _ _ hF hL (iblk V c 0 t) (iblk V c 1 t) (iblk V c 2 t) (iblk V c 3 t) _ _).2.2.2.2 Set.univ _)
      isplitl [H0]; · iexact H0
      isplitl [H1]; · iexact H1
      isplitl [H2]; · iexact H2
      isplitl [H3]; · iexact H3
      isplitl [H5]; · iexists _; iexact H5
      isplitl [H6]; · iexists _; iexact H6
      isplitl [HS0]; · iexact HS0
      isplitl [HS1]; · iexact HS1
      iintro ⟨H0, H1, H2, H3, ⟨%e5, H5⟩, ⟨%e6, H6⟩, ⟨%es0, HS0⟩, ⟨%es1, HS1⟩⟩
      isplitl [R0 R1 R2 R3 R4 HS0 HS1 Hg]
      · isplitl [R0 R1 R2 R3 R4 HS0 HS1]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover_last_0 c _ _ _ _ _ _ _ _ _ _ _ _ _ _ _ _ _ _ _ _ _ _ _ _ _ _ _)
          · unfold owns; iexists _; isplitr
            swap; · iexact HS1
            ipureintro; exact View.read_writes_of_cover _ _ _ _ _ (scover_last_1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_last_5 c _ _ _ _ _ _ _ _ _ _ _ _ _ _ _ _ _ _ _ _ _ _ _ _ _ _ _)
      unfold owns; iexists _; isplitr
      swap; · iexact H6
      ipureintro; exact View.read_writes_of_cover _ _ _ _ _ (cover_last_6 c _ _ _ _ _ _ _ _ _ _ _ _ _ _ _ _ _ _ _ _ _ _ _ _ _ _ _)
    · have hF : ¬condFirst (grid1.coords t) := fun h => h0 ((hcondFirst t).mp h)
      have hL : ¬condLast (grid1.coords t) := fun h => h2 ((hcondLast t).mp h)
      rw [Dat.leavesExact_idle (dat V c) 5 t (idleAt5 t hL) (noFlush5 t hL), Dat.leavesExact_idle (dat V c) 6 t (idleAt6 t hL) (noFlush6 t hL)]
      rw [outsAt_mid V c t h0 h2]
      unfold midAt sout_mid_0 sout_mid_1; (try dsimp only)
      rw [PhiS_castSucc V c t, PhiS_pos V c _ _ hz]
      iintro ⟨⟨⟨R0, R1, R2, R3, R4, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_mid c (grid1.coords t) _ _ _ _ _ _ _ _ _ _ _ _ _ _ _ _ _ _ hF hL (iblk V c 0 t) (iblk V c 1 t) (iblk V c 2 t) (iblk V c 3 t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [R0 R1 R2 R3 R4 HS0 HS1 Hg]
      · isplitl [R0 R1 R2 R3 R4 HS0 HS1]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover_mid_0 c _ _ _ _ _ _ _ _ _ _ _ _ _ _ _ _ _ _ _ _ _ _ _ _ _ _ _)
          · unfold owns; iexists _; isplitr
            swap; · iexact HS1
            ipureintro; exact View.read_writes_of_cover _ _ _ _ _ (scover_mid_1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dat (F := F) V c) (defs₀ (F := F)) Variants.none () Set.univ := fun t => by
  rw [bigSep_W1, bigSep_W1]
  exact sound_body V c t

/-! ## Entering and leaving the region -/

/-- What the launch hands the region is the invariant before the first point. -/
theorem enter (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives back what the launch handed the region: what the running sums hold is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R0, R1, R2, R3, R4, HS0, HS1⟩, Hg⟩
  isplitl [R0 R1 R2 R3 R4 HS0 HS1]
  · isplitl [R0]; · iexact R0
    isplitl [R1]; · iexact R1
    isplitl [R2]; · iexact R2
    isplitl [R3]; · iexact R3
    isplitl [R4]; · iexact R4
    isplitl [HS0]; · iexists _; iexact HS0
    iexists _; iexact HS1
  iexact Hg

/-- The same after the last point. -/
theorem leave (c : Dev nD) : (dat V c).Φ (Fin.last cfg1.N) ⊢ Pipeline.ΦA spec1 c :=
  Phi_out V c _ (by rw [Fin.val_last]; have : cfg1.N = 20 := N_1; omega)

end Cert.Kernel.Agg

end
-- ==== Proof.WordWholeProgram.lean ====
/-
  The two regions' halves put into the run: the idealized program's frame and its run to the fold's last contents.
-/
import proofs.«111807_j45552423141540_2_alg».proof.Proof.WordWholeFrame
import proofs.«111807_j45552423141540_2_alg».proof.Proof.WordColSq
import proofs.«111807_j45552423141540_2_alg».proof.Proof.WordAgg

noncomputable section

namespace Cert.Kernel.Whole

open Cert.Kernel Cert.Kernel.Gen
open Idealize.ShloMosaic Idealize.ShloMosaic.TcCoe
open Idealize.SL Idealize.SL.Sem

variable {F : FTy → Type} [FloatOps F]

/-- Region 0's proof data, for any entry contents. -/
def colsqHalf : Half F cfg0 := fun V c => Cert.Kernel.ColSq.dat V c
/-- Region 1's proof data, for any entry contents. -/
def aggHalf : Half F cfg1 := fun V c => Cert.Kernel.Agg.dat V c

theorem colsqOk : HalfOk0 (colsqHalf (F := F)) where
  arrays V c w := Cert.Kernel.ColSq.A_eq V c w
  full _ _ _ := rfl
  owes_nothing _ _ _ := rfl
  recorded_all _ _ _ := rfl
  body V c := Cert.Kernel.ColSq.body_obligation V c
  enter V c := Cert.Kernel.ColSq.enter V c
  leave V c := Cert.Kernel.ColSq.leave V c

theorem aggOk : HalfOk1 (aggHalf (F := F)) where
  arrays V c w := Cert.Kernel.Agg.A_eq V c w
  full _ _ _ := rfl
  owes_nothing _ _ _ := rfl
  recorded_all _ _ _ := rfl
  body V c := Cert.Kernel.Agg.body_obligation V c
  enter V c := Cert.Kernel.Agg.enter V c
  leave V c := Cert.Kernel.Agg.leave V c

variable (m : (ℓ : Loc nD τ sig) → Buf (Elt F) ℓ) (ρ : Dev nD → PrngReg)

/-- The program's frame, at any float instance. -/
theorem program_frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame m ρ colsqHalf aggHalf colsqOk aggOk

/-- The program's run with the result buffer at the fold's last contents. -/
theorem program_run :
    θ_run defs (onTc (τ := τ) (main (F := F))) ⟨m, fun _ => 0, ρ⟩ (fun r => ∀ c : Dev nD,
      r.2.mem ((c.tc : Thread nD τ).loc main_v32) = W4 m colsqHalf aggHalf c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_result m ρ colsqHalf aggHalf colsqOk aggOk

end Cert.Kernel.Whole

end
-- ==== Proof.WholeFold.lean ====
/-
  The whole run of the program from its two kernel regions.

  @main is: kernel region 0 (the per-half column sums of squares), eight host operations (the two halves added, the
  square root, the transposed weights, the bias as a row), kernel region 1 (the per-half aggregation), twenty-five host
  operations (the halves added, the centroids subtracted, the column norms over the clusters, the division). Given, for
  each region and for ANY contents V of the TensorCore's buffers at its entry, proof data for its pipeline — arrays at
  V, the body's obligation at every grid point, an invariant the class invariant enters and leaves, full shares, nothing
  owed — every weakly fair execution of @main terminates without a fault, and every unscoped buffer ends holding the
  fold below: the launch contents, then region 0's arrays at what its write-backs leave, then the first host stretch,
  then region 1's arrays, then the second host stretch. Both the frame (the arguments end as launched) and the value of
  the result buffer are read off that fold.
-/
import proofs.«111807_j45552423141540_2_alg».proof.Proof.Gen.KernelIdeal.Launch
import proofs.«111807_j45552423141540_2_alg».proof.Proof.Gen.KernelIdeal.Skeleton
import proofs.«111807_j45552423141540_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the TensorCore's buffers on each core, read at the TensorCore's references. -/
abbrev Contents (F : FTy → Type) : Type := (c : Dev nD) → (b : Ref sig .tc) → Buf (Elt F) ((c : Thread nD τ).loc b)

/-- What a region's half supplies for any entry contents: the proof data of its pipeline. -/
abbrev Half (F : FTy → Type) [FloatOps F] (cfg : Pipeline.Cfg sig Λ₀) : Type :=
  Contents F → (c : Dev nD) → Dat τ (Elt F) Unit ℕ (UR sig nD τ) ℕ cfg c

variable (m : (ℓ : Loc nD τ sig) → Buf (Elt F) ℓ) (ρ : Dev nD → PrngReg)
variable (colsq : Half F cfg0) (aggr : Half F cfg1)

/-! ## The buffers' contents at each boundary -/

/-- At launch. -/
abbrev W0 : Dev nD → Valuation τ sig (Elt F) := fun c b => m ((c : Dev nD), b)
abbrev V0 : Contents F := fun c b => W0 m c b
/-- After region 0: its arrays at what the pipeline leaves, every other buffer as launched. -/
def W1 (c : Dev nD) : Valuation τ sig (Elt F) :=
  Pipeline.withArrays spec0 c (W0 m c) fun w => (colsq (V0 m) c).arrAt w cfg0.N
abbrev V1 : Contents F := fun c b => W1 m colsq c b
/-- After the first host stretch (region 1's entry). -/
abbrev W2 : Dev nD → Valuation τ sig (Elt F) := fun c => StableHlo.after hostOps1 (W1 m colsq c)
abbrev V2 : Contents F := fun c b => W2 m colsq c b
/-- After region 1. -/
def W3 (c : Dev nD) : Valuation τ sig (Elt F) :=
  Pipeline.withArrays spec1 c (W2 m colsq c) fun w => (aggr (V2 m colsq) c).arrAt w cfg1.N
abbrev V3 : Contents F := fun c b => W3 m colsq aggr c b
/-- After the second host stretch: the end. -/
abbrev W4 : Dev nD → Valuation τ sig (Elt F) := fun c => StableHlo.after hostOps2 (W3 m colsq aggr c)

theorem W1_arr (c : Dev nD) (w : Fin cfg0.W) :
    W1 m colsq c (Proc.devRef .tc (Pipeline.arrRef spec0 w)) = (colsq (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m colsq c (Proc.devRef .tc b) = W0 m c (Proc.devRef .tc b) := by
  unfold W1; exact Pipeline.withArrays_of_ne spec0 c _ _ b hb
theorem W3_arr (c : Dev nD) (w : Fin cfg1.W) :
    W3 m colsq aggr c (Proc.devRef .tc (Pipeline.arrRef spec1 w)) = (aggr (V2 m colsq) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m colsq aggr c (Proc.devRef .tc b) = W2 m colsq c (Proc.devRef .tc b) := by
  unfold W3; exact Pipeline.withArrays_of_ne spec1 c _ _ b hb

theorem exit0 (c : Dev nD) (w : Fin cfg0.W) : (colsq (V0 m) c).arrAt w cfg0.N = V1 m colsq c (Pipeline.arrRef spec0 w) :=
  (W1_arr m colsq c w).symm
theorem rest0 (c : Dev nD) : ∀ b, b ∉ Finset.univ.image (Pipeline.arrRef spec0) → V1 m colsq c b = V0 m c b :=
  fun b hb => W1_of_ne m colsq c b fun w e => hb (Finset.mem_image.mpr ⟨w, Finset.mem_univ _, e⟩)
theorem exit1 (c : Dev nD) (w : Fin cfg1.W) : (aggr (V2 m colsq) c).arrAt w cfg1.N = V3 m colsq aggr c (Pipeline.arrRef spec1 w) :=
  (W3_arr m colsq aggr c w).symm
theorem rest1 (c : Dev nD) : ∀ b, b ∉ Finset.univ.image (Pipeline.arrRef spec1) → V3 m colsq aggr c b = V2 m colsq c b :=
  fun b hb => W3_of_ne m colsq aggr c b fun w e => hb (Finset.mem_image.mpr ⟨w, Finset.mem_univ _, e⟩)

/-! ## The proof data family and what rides beside the buffers -/

abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => colsq (V0 m) c
  | ⟨1, _⟩ => fun c => aggr (V2 m colsq) c

abbrev 𝒱₀ : Variants := Variants.none
abbrev L : GSem nD τ sig → Finset Unit := fun _ => ∅
abbrev lv : GSem nD τ sig → Unit → ℕ := fun _ _ => 0

/-- Beside the buffers: the generator register at some state, and the core owing nothing. -/
abbrev Beside (c : Dev nD) : sProp 𝕄 := iprop((∃ r, prngReg c r) ∗ ∃ W, owes (c : Thread nD τ) (0 : CellTallies nD τ sig Unit) W)

abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Whole

end
-- ==== Proof.WholeRun.lean ====
/-
  The two kernel regions as segments of @main, and the run.

  Each region is entered from "every unscoped buffer at the boundary's contents, the generator register at some state,
  nothing owed" and left in the same form at the next boundary's contents: its arrays are split out of the unscoped
  buffers and put back at what the pipeline's write-backs leave; the generator register and the scoped buffers no window
  stages enter the class invariant, from which the half's own invariant (the carried scratch at named contents) is
  entered and to which it returns.
-/
import proofs.«111807_j45552423141540_2_alg».proof.Proof.WholeFold
import proofs.«111807_j45552423141540_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (colsq : Half F cfg0) (aggr : Half F cfg1)

/-- What a region's half proves of its proof data, at every entry contents. -/
structure HalfOk0 (colsq : Half F cfg0) : Prop where
  arrays : ∀ (V : Contents F) c w, (colsq V c).A w = V c (Pipeline.arrRef spec0 w)
  full : ∀ (V : Contents F) c w, (colsq V c).q w = fullShare
  owes_nothing : ∀ (V : Contents F) c t, (colsq V c).owed t = 0
  recorded_all : ∀ (V : Contents F) c t, (colsq V c).recorded t = Set.univ
  body : ∀ (V : Contents F) c, BodyObligation (colsq V c) (defs₀ (F := F)) Variants.none () Set.univ
  enter : ∀ (V : Contents F) c, (Pipeline.ΦA spec0 c : sProp 𝕄) ⊢ (colsq V c).Φ 0
  leave : ∀ (V : Contents F) c, (colsq V c).Φ (Fin.last cfg0.N) ⊢ (Pipeline.ΦA spec0 c : sProp 𝕄)

structure HalfOk1 (aggr : Half F cfg1) : Prop where
  arrays : ∀ (V : Contents F) c w, (aggr V c).A w = V c (Pipeline.arrRef spec1 w)
  full : ∀ (V : Contents F) c w, (aggr V c).q w = fullShare
  owes_nothing : ∀ (V : Contents F) c t, (aggr V c).owed t = 0
  recorded_all : ∀ (V : Contents F) c t, (aggr V c).recorded t = Set.univ
  body : ∀ (V : Contents F) c, BodyObligation (aggr V c) (defs₀ (F := F)) Variants.none () Set.univ
  enter : ∀ (V : Contents F) c, (Pipeline.ΦA spec1 c : sProp 𝕄) ⊢ (aggr V c).Φ 0
  leave : ∀ (V : Contents F) c, (aggr V c).Φ (Fin.last cfg1.N) ⊢ (Pipeline.ΦA spec1 c : sProp 𝕄)

variable (ok0 : HalfOk0 colsq) (ok1 : HalfOk1 aggr)

set_option backward.isDefEq.respectTransparency.types false in
/-- Region 0 between the launch contents and its exit contents. -/
def reg0 : Pipeline.RegionSeg (pcfgs (F := F)) adm (pdats m colsq aggr) () defs₀ 𝒱₀ L lv 0 where
  win := launch0.win.to₀
  block_pos := launch0.block_pos
  stage_whole := launch0.stage_whole
  K := PEmpty
  osem k := k.elim
  ho := Pipeline.OwnSemFacts.none _
  hbody c := (ok0.body (V0 m) c).loose
  hwaits := Pipeline.hwaits_of_owed_zero _ _ _ _ L lv 0 fun c t => ok0.owes_nothing (V0 m) c t
  pre c := iprop(StableHlo.held (c : Thread nD τ) (Pipeline.ucRefs τ sig) (W0 m c) ∗ Beside c)
  post c := iprop(StableHlo.held (c : Thread nD τ) (Pipeline.ucRefs τ sig) (W1 m colsq c) ∗ Beside c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m colsq aggr) launch0.win launch0.arr_whole c
      ((pdats m colsq aggr 0 c).share_full fun w => ok0.full (V0 m) c w) (V0 m c) fun w => ok0.arrays (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m colsq aggr 0 c).owed 0 = 0 from ok0.owes_nothing (V0 m) c 0]
      icases HO with ⟨%W, HO⟩; iexists W; isplitr
      · ipureintro
        exact fun _ _ => Or.inl (by
          rw [show (pdats m colsq aggr 0 c).recorded 0 = Set.univ from ok0.recorded_all (V0 m) c 0]; exact Set.mem_univ _)
      iexact HO
    isplitl [Hp]; · iexact Hp
    iexact Hrest
  hin c := by
    have h := ok0.enter (V0 m) c
    unfold Pipeline.ΦA at h
    rw [show (pdats m colsq aggr 0 c).Φ 0 = (colsq (V0 m) c).Φ 0 from rfl]
    iintro ⟨Hp, -, Hr⟩
    iapply h
    isplitl [Hr]; · iexact Hr
    iexact Hp
  hout c := by
    rw [Pipeline.ownSems0_none]
    have h := ok0.leave (V0 m) c
    unfold Pipeline.ΦA at h
    rw [show (pdats m colsq aggr 0 c).Φ (Fin.last (Pipeline.pin (pcfgs (F := F)) adm 0).N) = (colsq (V0 m) c).Φ (Fin.last cfg0.N) from rfl]
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m colsq aggr) ((pdats m colsq aggr 0 c).share_full fun w => ok0.full (V0 m) c w)
      (V0 m c) (V1 m colsq c) ((pdats m colsq aggr 0 c).arrAt · cfg0.N) (exit0 m colsq c) (rest0 m colsq c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m colsq aggr 0 c).owed (Fin.last (Pipeline.pin (pcfgs (F := F)) adm 0).N) = 0 from ok0.owes_nothing (V0 m) c _]
    icases HO with ⟨%W, -, HO⟩; iexists W; iexact HO

set_option backward.isDefEq.respectTransparency.types false in
/-- Region 1 between the first host stretch's contents and its exit contents. -/
def reg1 : Pipeline.RegionSeg (pcfgs (F := F)) adm (pdats m colsq aggr) () defs₀ 𝒱₀ L lv 1 where
  win := launch1.win.to₀
  block_pos := launch1.block_pos
  stage_whole := launch1.stage_whole
  K := PEmpty
  osem k := k.elim
  ho := Pipeline.OwnSemFacts.none _
  hbody c := (ok1.body (V2 m colsq) c).loose
  hwaits := Pipeline.hwaits_of_owed_zero _ _ _ _ L lv 1 fun c t => ok1.owes_nothing (V2 m colsq) c t
  pre c := iprop(StableHlo.held (c : Thread nD τ) (Pipeline.ucRefs τ sig) (W2 m colsq c) ∗ Beside c)
  post c := iprop(StableHlo.held (c : Thread nD τ) (Pipeline.ucRefs τ sig) (W3 m colsq aggr c) ∗ Beside c)
  X c := iprop(∃ r, prngReg c r)
  Y c := iprop(∃ r, prngReg c r)
  Z c := Pipeline.unscopedRest (Ix := Unit) (Name := ℕ) (U := UR sig nD τ) (Lvl := ℕ) spec1 c (V2 m colsq c)
  hentry c := by
    rw [Pipeline.ownSems0_none]
    have hsplit := Pipeline.arrays_of_unscopedBufs (p := 1) (pcfgs (F := F)) adm (pdats m colsq aggr) launch1.win launch1.arr_whole c
      ((pdats m colsq aggr 1 c).share_full fun w => ok1.full (V2 m colsq) c w) (V2 m colsq c) fun w => ok1.arrays (V2 m colsq) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m colsq aggr 1 c).owed 0 = 0 from ok1.owes_nothing (V2 m colsq) c 0]
      icases HO with ⟨%W, HO⟩; iexists W; isplitr
      · ipureintro
        exact fun _ _ => Or.inl (by
          rw [show (pdats m colsq aggr 1 c).recorded 0 = Set.univ from ok1.recorded_all (V2 m colsq) c 0]; exact Set.mem_univ _)
      iexact HO
    isplitl [Hp]; · iexact Hp
    iexact Hrest
  hin c := by
    have h := ok1.enter (V2 m colsq) c
    unfold Pipeline.ΦA at h
    rw [show (pdats m colsq aggr 1 c).Φ 0 = (aggr (V2 m colsq) c).Φ 0 from rfl]
    iintro ⟨Hp, -, Hr⟩
    iapply h
    isplitl [Hr]; · iexact Hr
    iexact Hp
  hout c := by
    rw [Pipeline.ownSems0_none]
    have h := ok1.leave (V2 m colsq) c
    unfold Pipeline.ΦA at h
    rw [show (pdats m colsq aggr 1 c).Φ (Fin.last (Pipeline.pin (pcfgs (F := F)) adm 1).N) = (aggr (V2 m colsq) c).Φ (Fin.last cfg1.N) from rfl]
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m colsq aggr) ((pdats m colsq aggr 1 c).share_full fun w => ok1.full (V2 m colsq) c w)
      (V2 m colsq c) (V3 m colsq aggr c) ((pdats m colsq aggr 1 c).arrAt · cfg1.N) (exit1 m colsq aggr c) (rest1 m colsq aggr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m colsq aggr 1 c).owed (Fin.last (Pipeline.pin (pcfgs (F := F)) adm 1).N) = 0 from ok1.owes_nothing (V2 m colsq) c _]
    icases HO with ⟨%W, -, HO⟩; iexists W; iexact HO

/-- @main's four segments in order. -/
abbrev segs : List (Pipeline.Seg (pcfgs (F := F)) adm (pdats m colsq aggr) () defs₀ 𝒱₀ L lv) :=
  [ .region (reg0 m colsq aggr ok0),
    .host (stretch hostOps1 hostOps1_sub hostOps1_fresh (W1 m colsq)),
    .region (reg1 m colsq aggr ok1),
    .host (stretch hostOps2 hostOps2_sub hostOps2_fresh (W3 m colsq aggr)) ]

theorem main_run (ok0 : HalfOk0 colsq) (ok1 : HalfOk1 aggr) (c : Dev nD) : main (F := F) c = Pipeline.Seg.run (segs m colsq aggr ok0 ok1) :=
  (main_chain c).trans (by chain_rfl)

set_option backward.isDefEq.respectTransparency.types false in
/-- THE RUN: from any memory with zero counters every weakly fair execution of @main terminates, nothing faulting, and
    every unscoped buffer of every core ends at the fold's last contents. -/
theorem run (ok0 : HalfOk0 colsq) (ok1 : HalfOk1 aggr) : θ_run defs (onTc (τ := τ) (main (F := F))) ⟨m, fun _ => 0, ρ⟩ (fun r => ∀ c : Dev nD,
      ∀ b ∈ Pipeline.ucRefs τ sig, r.2.mem (((c : Thread nD τ)).1, b) = W4 m colsq aggr c b) :=
  Pipeline.θ_run_regions_kit (pcfgs (F := F)) adm (pdats m colsq aggr) () cellOf_inj emb₁ defs₀ 𝒱₀ L lv m ρ main (segs m colsq aggr ok0 ok1)
    (fun c Q => by rw [main_run m colsq aggr ok0 ok1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Beside c))
    (Tₙ := fun c => iprop(StableHlo.held (c : Thread nD τ) (Pipeline.ucRefs τ sig) (W4 m colsq aggr c) ∗ ∃ r, prngReg c r))
    (hch := ⟨fun _ => .rfl, fun _ => .rfl, fun _ => .rfl, fun _ => .rfl, fun c => by
      show iprop(StableHlo.held (c : Thread nD τ) (Pipeline.ucRefs τ sig) (W4 m colsq aggr c) ∗ Beside c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m colsq aggr c b)
    (hfin := fun c s' => by
      iintro ⟨⟨Hh, -⟩, HSI⟩
      unfold StableHlo.held
      imodintro
      iapply (pointsTo_read_all (Pipeline.ucRefs τ sig) (fun b => (((c : Thread nD τ)).1, b)) (W4 m colsq aggr c) s')
      isplitl [Hh] <;> iassumption)
    (hQ := fun s h c => h c)

end Cert.KernelIdeal.Whole

end
-- ==== Proof.WholeFrame.lean ====
/-
  The arguments end as launched, and the result buffer ends at the fold's last contents.

  No host operation writes an argument buffer, and a kernel region reads an argument only through an input window, whose
  array the pipeline leaves as it found it; so the fold's last contents at each argument walk back to the launch memory.
-/
import proofs.«111807_j45552423141540_2_alg».proof.Proof.WholeRun

set_option maxRecDepth 16384

noncomputable section

namespace Cert.KernelIdeal.Whole

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)
variable (colsq : Half F cfg0) (aggr : Half F cfg1)

/-- The second host stretch leaves a buffer it does not write as it was. -/
theorem W4_of (c : Dev nD) (r : Ref sig .tc) (h : r ∉ hostOps2_W) :
    W4 m colsq aggr c (Proc.devRef .tc r) = W3 m colsq aggr c (Proc.devRef .tc r) :=
  StableHlo.after_of_writes_sub hostOps2 _ hostOps2_writes h
/-- The first host stretch leaves a buffer it does not write as it was. -/
theorem W2_of (c : Dev nD) (r : Ref sig .tc) (h : r ∉ hostOps1_W) :
    W2 m colsq c (Proc.devRef .tc r) = W1 m colsq c (Proc.devRef .tc r) :=
  StableHlo.after_of_writes_sub hostOps1 _ hostOps1_writes h

/-- Region 1 leaves the array of an input window as it found it. -/
theorem W3_in (ok1 : HalfOk1 aggr) (c : Dev nD) (w : Fin cfg1.W) (hw : (cfg1.win w).isOut = false) :
    W3 m colsq aggr c (Proc.devRef .tc (Pipeline.arrRef spec1 w)) = W2 m colsq c (Proc.devRef .tc (Pipeline.arrRef spec1 w)) :=
  (W3_arr m colsq aggr c w).trans (((aggr (V2 m colsq) c).arrAt_in w hw _).trans (ok1.arrays (V2 m colsq) c w))
/-- Region 0 leaves the array of an input window as it found it. -/
theorem W1_in (ok0 : HalfOk0 colsq) (c : Dev nD) (w : Fin cfg0.W) (hw : (cfg0.win w).isOut = false) :
    W1 m colsq c (Proc.devRef .tc (Pipeline.arrRef spec0 w)) = W0 m c (Proc.devRef .tc (Pipeline.arrRef spec0 w)) :=
  (W1_arr m colsq c w).trans (((colsq (V0 m) c).arrAt_in w hw _).trans (ok0.arrays (V0 m) c w))

/-- The points (argument 0) are read by both regions through their first window and written by nothing. -/
theorem W4_main_arg0 (ok0 : HalfOk0 colsq) (ok1 : HalfOk1 aggr) (c : Dev nD) :
    W4 m colsq aggr c (Proc.devRef .tc main_arg0) = m ((c : Thread nD τ).loc main_arg0) :=
  (W4_of m colsq aggr c main_arg0 (by decide)).trans <| (W3_in m colsq aggr ok1 c 0 rfl).trans <|
    (W2_of m colsq c main_arg0 (by decide)).trans <| (W1_in m colsq ok0 c 0 rfl).trans rfl
/-- The weights (argument 1) are read by the first host stretch only. -/
theorem W4_main_arg1 (c : Dev nD) :
    W4 m colsq aggr c (Proc.devRef .tc main_arg1) = m ((c : Thread nD τ).loc main_arg1) :=
  (W4_of m colsq aggr c main_arg1 (by decide)).trans <| (W3_of_ne m colsq aggr c main_arg1 (by decide)).trans <|
    (W2_of m colsq c main_arg1 (by decide)).trans <| (W1_of_ne m colsq c main_arg1 (by decide)).trans rfl
/-- The biases (argument 2) likewise. -/
theorem W4_main_arg2 (c : Dev nD) :
    W4 m colsq aggr c (Proc.devRef .tc main_arg2) = m ((c : Thread nD τ).loc main_arg2) :=
  (W4_of m colsq aggr c main_arg2 (by decide)).trans <| (W3_of_ne m colsq aggr c main_arg2 (by decide)).trans <|
    (W2_of m colsq c main_arg2 (by decide)).trans <| (W1_of_ne m colsq c main_arg2 (by decide)).trans rfl
/-- The centroids (argument 3) are an input window of region 1 and read by the second host stretch. -/
theorem W4_main_arg3 (ok1 : HalfOk1 aggr) (c : Dev nD) :
    W4 m colsq aggr c (Proc.devRef .tc main_arg3) = m ((c : Thread nD τ).loc main_arg3) :=
  (W4_of m colsq aggr c main_arg3 (by decide)).trans <| (W3_in m colsq aggr ok1 c 4 rfl).trans <|
    (W2_of m colsq c main_arg3 (by decide)).trans <| (W1_of_ne m colsq c main_arg3 (by decide)).trans rfl

/-- THE FRAME with the result: every weakly fair execution terminates without a fault, the result buffer ends at the
    fold's last contents and the four arguments end as launched. -/
theorem run_result (ok0 : HalfOk0 colsq) (ok1 : HalfOk1 aggr) :
    θ_run defs (onTc (τ := τ) (main (F := F))) ⟨m, fun _ => 0, ρ⟩ (fun r => ∀ c : Dev nD,
      r.2.mem ((c.tc : Thread nD τ).loc main_v32) = W4 m colsq aggr c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v32 (by decide)),
     (h c _ (mem_uc main_arg0 (by decide))).trans (W4_main_arg0 m colsq aggr ok0 ok1 c),
     (h c _ (mem_uc main_arg1 (by decide))).trans (W4_main_arg1 m colsq aggr c),
     (h c _ (mem_uc main_arg2 (by decide))).trans (W4_main_arg2 m colsq aggr c),
     (h c _ (mem_uc main_arg3 (by decide))).trans (W4_main_arg3 m colsq aggr ok1 c)⟩)
    (run m ρ colsq aggr ok0 ok1)

/-- THE FRAME: the four arguments end as launched. -/
theorem frame (ok0 : HalfOk0 colsq) (ok1 : HalfOk1 aggr) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ colsq aggr ok0 ok1)

end Cert.KernelIdeal.Whole

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.VladSpec.lean ====
/-
  The pooled descriptor this certificate is about, as one function of the four argument arrays, over the extended reals.

  For points x[n, ·] (n < 200000, 128 features), cluster weights W[k, ·], biases b[k] and centroids c[k, ·] (k < 64):
  every feature column is scaled by its Euclidean norm over all points (floored at ε); each scaled point is softly
  assigned to the clusters by a softmax of its affine scores; the assignments weight the scaled points into a 64×128
  matrix, from which each centroid is subtracted with the total weight of its cluster; the result is scaled, column by
  column, by its norm over the clusters (floored at ε).

  What depends on one point only — its scaled row, its scores, its softmax — is stated for a single row and a given
  vector of column norms, so that a tile of rows and the whole array of rows are the same functions of their rows.
  The sums over the 200000 points are also stated tile by tile (20 tiles of 10000 rows, two halves of 10 tiles).
-/
import Mathlib
import Idealize.ShloMosaic.PureOps.Ideal
import Idealize.ShloMosaic.PureOps.Ideal.Laws
import Idealize.ShloMosaic.Lib.ValueIdx
import proofs.«111807_j45552423141540_2_alg».proof.Proof.LibRowReduce

noncomputable section

open scoped BigOperators

namespace Cert.Vlad

open Idealize.ShloMosaic

/-- The floor ε under both norms: the f32 word both programs carry, never evaluated. -/
abbrev eps : EReal := Ideal.ofBits .f32 0x2B8CBCCC#32

/-! ## One row -/

section Row

variable (W : Fin 64 → Fin 128 → EReal) (b : Fin 64 → EReal)

/-- A row divided, feature by feature, by the (floored) column norms ν. -/
def unitRow (ν : Fin 128 → EReal) (r : Fin 128 → EReal) (d : Fin 128) : EReal := Ideal.div (r d) (ν d)

/-- The affine score of the scaled row for cluster k. -/
def score (ν : Fin 128 → EReal) (r : Fin 128 → EReal) (k : Fin 64) : EReal :=
  (∑ j : Fin 128, unitRow ν r j * W k j) + b k

/-- The largest score of the row, as both programs take it: the maximum with -∞ of the fold from -∞. -/
def top (ν : Fin 128 → EReal) (r : Fin 128 → EReal) : EReal :=
  max (Ideal.ofBits .f32 0xFF800000#32) (Cert.LibRowReduce.rowMax (score W b ν r))

/-- The exponential of a score shifted by the row's largest. -/
def expo (ν : Fin 128 → EReal) (r : Fin 128 → EReal) (k : Fin 64) : EReal :=
  Ideal.exp (score W b ν r k - top W b ν r)

/-- The soft assignment of the row to cluster k: its softmax weight. -/
def assign (ν : Fin 128 → EReal) (r : Fin 128 → EReal) (k : Fin 64) : EReal :=
  Ideal.div (expo W b ν r k) (∑ k' : Fin 64, expo W b ν r k')

end Row

/-! ## The whole array -/

section Whole

variable (x : Fin 200000 → Fin 128 → EReal) (W : Fin 64 → Fin 128 → EReal) (b : Fin 64 → EReal) (cen : Fin 64 → Fin 128 → EReal)

/-- The sum of squares of feature column d over all points. -/
def colSq (d : Fin 128) : EReal := ∑ n : Fin 200000, x n d * x n d

/-- The column norm, floored at ε. -/
def colNorm (d : Fin 128) : EReal := max (Ideal.sqrt (colSq x d)) eps

/-- The assignment-weighted sum of the scaled points: entry (k, d). -/
def agg (k : Fin 64) (d : Fin 128) : EReal :=
  ∑ n : Fin 200000, assign W b (colNorm x) (x n) k * unitRow (colNorm x) (x n) d

/-- The total weight of cluster k. -/
def mass (k : Fin 64) : EReal := ∑ n : Fin 200000, assign W b (colNorm x) (x n) k

/-- The residual matrix: the weighted points minus the weighted centroid. -/
def vlad (k : Fin 64) (d : Fin 128) : EReal := agg x W b k d - mass x W b k * cen k d

/-- The norm of column d of the residual matrix over the clusters, floored at ε. -/
def clusterNorm (d : Fin 128) : EReal := max (Ideal.sqrt (∑ k : Fin 64, vlad x W b cen k d * vlad x W b cen k d)) eps

/-- The pooled descriptor, entry (k, d). -/
def out (k : Fin 64) (d : Fin 128) : EReal := Ideal.div (vlad x W b cen k d) (clusterNorm x W b cen d)

end Whole

/-- The result array [1, 64, 128] of both programs as one function of the argument arrays. -/
def G (x0 : (⟨2, ![200000, 128]⟩ : Shape).Idx → EReal) (x1 : (⟨2, ![64, 128]⟩ : Shape).Idx → EReal)
    (x2 : (⟨1, ![64]⟩ : Shape).Idx → EReal) (x3 : (⟨2, ![64, 128]⟩ : Shape).Idx → EReal) :
    (⟨3, ![1, 64, 128]⟩ : Shape).Idx → EReal :=
  fun i => out (fun n d => x0 (ValueIdx.ix2 n d)) (fun k d => x1 (ValueIdx.ix2 k d)) (fun k => x2 (ValueIdx.ix1 k))
    (fun k d => x3 (ValueIdx.ix2 k d)) ⟨(i 1).val, (i 1).isLt⟩ ⟨(i 2).val, (i 2).isLt⟩

/-! ## Sums over the points, tile by tile -/

/-- Point r of tile t (tiles of 10000 rows, 20 of them). -/
def row (t : Fin 20) (r : Fin 10000) : Fin 200000 := ⟨t.val * 10000 + r.val, by have := t.isLt; have := r.isLt; omega⟩

/-- A sum over the 200000 points is the sum over the 20 tiles of the sums over each tile's 10000 rows. -/
theorem sum_points_tiles {M : Type*} [AddCommMonoid M] (f : Fin 200000 → M) :
    ∑ n : Fin 200000, f n = ∑ t : Fin 20, ∑ r : Fin 10000, f (row t r) := by
  rw [← (finProdFinEquiv : Fin 20 × Fin 10000 ≃ Fin (20 * 10000)).sum_comp, Fintype.sum_prod_type]
  refine Finset.sum_congr rfl fun t _ => Finset.sum_congr rfl fun r _ => congrArg f (Fin.ext ?_)
  simp [finProdFinEquiv, row, Nat.mul_comm, Nat.add_comm]

/-- Tile i of half c (two halves of ten tiles each). -/
def tile (c : Fin 2) (i : Fin 10) : Fin 20 := ⟨c.val * 10 + i.val, by have := c.isLt; have := i.isLt; omega⟩

/-- A sum over the 20 tiles is the first half's plus the second half's. -/
theorem sum_tiles_halves {M : Type*} [AddCommMonoid M] (g : Fin 20 → M) :
    ∑ t : Fin 20, g t = (∑ i : Fin 10, g (tile 0 i)) + ∑ i : Fin 10, g (tile 1 i) := by
  rw [show (∑ t : Fin 20, g t) = ∑ t : Fin (10 + 10), g t from rfl, Fin.sum_univ_add]
  refine congrArg₂ (· + ·) (Finset.sum_congr rfl fun i _ => congrArg g (Fin.ext ?_))
    (Finset.sum_congr rfl fun i _ => congrArg g (Fin.ext ?_))
  · simp [tile]
  · simp [tile, Nat.add_comm]

end Cert.Vlad

end
-- ==== Proof.LibColReduce.lean ====
/-
  Sums down the columns of a two-axis array, and a row vector broadcast to every row, read at an index.

  For an array x : [R, C] reduced along its first axis, over the extended reals, the host's sum from zero at column q
  is the plain sum over the rows, Σ_k x (k, q). A vector r : [C] broadcast first to [1, C] and then to [R, C] reads
  r q at every (i, q); a scalar broadcast to any shape reads its one value everywhere.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.Lib.ColReduce

open Idealize.ShloMosaic Idealize.ShloMosaic.ValueIdx

variable {R C : Nat}

/-- The reduced index q with row k put back is (k, q). -/
theorem lift_col (h : (⟨2, ![R, C]⟩ : Shape).Reduces [0] (⟨1, ![C]⟩ : Shape)) (q : Fin C)
    (k : Fin ((⟨2, ![R, C]⟩ : Shape).size 0)) : h.lift (ix1 q) k = ix2 (⟨k.val, k.isLt⟩ : Fin R) q := by
  funext c; apply Fin.ext
  fin_cases c <;> rfl

/-- The host's sum along axis 0 from zero, at column q. -/
theorem hostReduceAdd_col (x : FVec Ideal ⟨2, ![R, C]⟩ .f32) (init : (⟨0, ![]⟩ : Shape).Idx → Ideal .f32)
    (hinit : ∀ i, init i = 0)
    (h' : (⟨2, ![R, C]⟩ : Shape).ReducesTo [0] (⟨1, ![C]⟩ : Shape)) (h : (⟨2, ![R, C]⟩ : Shape).Reduces [0] (⟨1, ![C]⟩ : Shape))
    (hu : 0 < (⟨0, ![]⟩ : Shape).numel) (q : Fin C) :
    Host.reduceAdd (F := Ideal) x init h' hu (ix1 q) = ∑ k : Fin R, x (ix2 k q) := by
  show Ideal.hostReduceAdd h' x (init (Shape.Idx.first hu)) (ix1 q) = _
  rw [Ideal.hostReduceAdd_single h' h, hinit, zero_add]
  refine Finset.sum_congr rfl fun k _ => ?_
  exact congrArg x (lift_col h q k)

/-- A scalar broadcast to any shape reads its one value. -/
theorem bcast_scalar_apply {α : Type} {s : Shape} (hb : (⟨0, ![]⟩ : Shape).BroadcastsInDim s (![] : Fin 0 → Fin s.rank))
    (x : (⟨0, ![]⟩ : Shape).Idx → α) (j : s.Idx) : broadcastInDim s ![] hb x j = x ix0 := by
  unfold broadcastInDim
  exact congrArg x (funext fun a => a.elim0)

/-- A vector broadcast to one row reads its entry. -/
theorem bcast_row1_apply {α : Type} (r : (⟨1, ![C]⟩ : Shape).Idx → α)
    (hb : (⟨1, ![C]⟩ : Shape).BroadcastsInDim (⟨2, ![1, C]⟩ : Shape) (![1] : Fin 1 → Fin 2)) (z : Fin 1) (q : Fin C) :
    broadcastInDim (⟨2, ![1, C]⟩ : Shape) ![1] hb r (ix2 z q) = r (ix1 q) := by
  refine broadcastInDim_apply _ hb r _ (ix1 q) fun a => ?_
  fin_cases a
  show q.val = if C = 1 then 0 else q.val
  split_ifs with hC
  · have := q.isLt; omega
  · rfl

/-- One row broadcast to R rows reads the row's entry. -/
theorem bcast_rows_apply {α : Type} (X : (⟨2, ![1, C]⟩ : Shape).Idx → α)
    (hb : (⟨2, ![1, C]⟩ : Shape).BroadcastsInDim (⟨2, ![R, C]⟩ : Shape) (![0, 1] : Fin 2 → Fin 2)) (i : Fin R) (q : Fin C) :
    broadcastInDim (⟨2, ![R, C]⟩ : Shape) ![0, 1] hb X (ix2 i q) = X (ix2 (0 : Fin 1) q) := by
  refine broadcastInDim_apply _ hb X _ (ix2 (0 : Fin 1) q) fun a => ?_
  fin_cases a
  · rfl
  · show q.val = if C = 1 then 0 else q.val
    split_ifs with hC
    · have := q.isLt; omega
    · rfl

/-- A vector as every row of an [R, C] array reads its entry at the column. -/
theorem rowBcast_apply {α : Type} (r : (⟨1, ![C]⟩ : Shape).Idx → α)
    (hb1 : (⟨1, ![C]⟩ : Shape).BroadcastsInDim (⟨2, ![1, C]⟩ : Shape) (![1] : Fin 1 → Fin 2))
    (hb2 : (⟨2, ![1, C]⟩ : Shape).BroadcastsInDim (⟨2, ![R, C]⟩ : Shape) (![0, 1] : Fin 2 → Fin 2)) (i : Fin R) (q : Fin C) :
    broadcastInDim (⟨2, ![R, C]⟩ : Shape) ![0, 1] hb2 (broadcastInDim (⟨2, ![1, C]⟩ : Shape) ![1] hb1 r) (ix2 i q)
      = r (ix1 q) := by
  rw [bcast_rows_apply _ hb2 i q, bcast_row1_apply r hb1 0 q]

end Cert.Lib.ColReduce

end
-- ==== Proof.LibStackSlabs.lean ====
/-
  Slabs of a stacked array, and a vector laid out as rows, read at an index.

  An array `[S, A, B]` is a stack of `S` slabs `[A, B]`. Its unit-stride cut of extent `[1, A, B]` at offset
  `(s, 0, 0)` reads the array at `(s, a, b)` in position `(0, a, b)`, so the cut viewed as `[A, B]` reads `(s, a, b)`
  at `(a, b)`. A matrix `[A, B]` given a leading unit axis by a broadcast that keeps its two axes second and third
  reads `(a, b)` at `(0, a, b)`. Two pieces `[1, A, B]` joined along the leading axis form `[2, A, B]`, which reads
  the first piece in slab 0 and the second in slab 1. A vector `[N]` placed as the one row of `[1, N]` by a broadcast
  reads `c` at `(0, c)`, and a row `[1, N]` broadcast down `R` rows reads `(0, c)` at every `(r, c)`.
  All extents are arbitrary; nothing here is arithmetic on the entries.
-/
import Idealize.ShloMosaic.Lib.Pipeline.Value
import Idealize.ShloMosaic.Lib.ValueIdx
import Idealize.ShloMosaic.Lib.ValueLayout

noncomputable section

namespace Cert.LibStackSlabs

open Idealize.ShloMosaic Idealize.ShloMosaic.ValueIdx

variable {α : Type}

/-- The cut `[1, A, B]` of `[S, A, B]` at offset `(s, 0, 0)` reads `(s, a, b)` at `(0, a, b)`. -/
theorem cut_slab_apply {S A B : Nat} (off : Fin 3 → Nat) (x : (⟨3, ![S, A, B]⟩ : Shape).Idx → α)
    (h : (⟨3, ![S, A, B]⟩ : Shape).Slices off ⟨3, ![1, A, B]⟩) (s : Fin S)
    (h0 : off 0 = s.val) (h1 : off 1 = 0) (h2 : off 2 = 0) (a : Fin A) (b : Fin B) :
    extractStridedSlice ⟨3, ![1, A, B]⟩ off x h (ix3 (0 : Fin 1) a b) = x (ix3 s a b) := by
  refine extractStridedSlice_apply off x h _ _ fun k => ?_
  match k with
  | ⟨0, _⟩ => show s.val = off 0 + 0; omega
  | ⟨1, _⟩ => show a.val = off 1 + a.val; omega
  | ⟨2, _⟩ => show b.val = off 2 + b.val; omega

/-- Slab `s` of `[S, A, B]`, cut out and viewed as `[A, B]`, reads `(s, a, b)` at `(a, b)`. -/
theorem slab_apply {S A B : Nat} (off : Fin 3 → Nat) (x : (⟨3, ![S, A, B]⟩ : Shape).Idx → α)
    (h : (⟨3, ![S, A, B]⟩ : Shape).Slices off ⟨3, ![1, A, B]⟩)
    (hc : (⟨3, ![1, A, B]⟩ : Shape).ShapeCasts ⟨2, ![A, B]⟩) (s : Fin S)
    (h0 : off 0 = s.val) (h1 : off 1 = 0) (h2 : off 2 = 0) (a : Fin A) (b : Fin B) :
    shapeCast ⟨2, ![A, B]⟩ (extractStridedSlice ⟨3, ![1, A, B]⟩ off x h) hc (ix2 a b) = x (ix3 s a b) :=
  (shapeCast_1ab_ab_apply _ hc a b).trans (cut_slab_apply off x h s h0 h1 h2 a b)

/-- A matrix `[A, B]` broadcast to `[1, A, B]` with its axes kept second and third reads `(a, b)` at `(0, a, b)`. -/
theorem lead_bcast_apply {A B : Nat} (v : (⟨2, ![A, B]⟩ : Shape).Idx → α)
    (h : (⟨2, ![A, B]⟩ : Shape).BroadcastsInDim ⟨3, ![1, A, B]⟩ ![1, 2]) (a : Fin A) (b : Fin B) :
    broadcastInDim ⟨3, ![1, A, B]⟩ ![1, 2] h v (ix3 (0 : Fin 1) a b) = v (ix2 a b) := by
  refine broadcastInDim_apply _ h v _ _ fun k => ?_
  match k with
  | ⟨0, _⟩ =>
    show a.val = if A = 1 then 0 else a.val
    split
    · have := a.isLt; omega
    · rfl
  | ⟨1, _⟩ =>
    show b.val = if B = 1 then 0 else b.val
    split
    · have := b.isLt; omega
    · rfl

/-- Two pieces `[1, A, B]` joined along the leading axis: slab 0 is the first piece. -/
theorem stack2_fst {A B : Nat} (x₁ x₂ : (⟨3, ![1, A, B]⟩ : Shape).Idx → α)
    (h : Shape.Concatenates [(⟨3, ![1, A, B]⟩ : Shape), ⟨3, ![1, A, B]⟩] ⟨3, ![2, A, B]⟩ 0) (a : Fin A) (b : Fin B) :
    concatenate ⟨3, ![2, A, B]⟩ 0 [⟨⟨3, ![1, A, B]⟩, x₁⟩, ⟨⟨3, ![1, A, B]⟩, x₂⟩] h (ix3 (0 : Fin 2) a b)
      = x₁ (ix3 (0 : Fin 1) a b) :=
  concatenate_pair_apply_left 0 x₁ x₂ h _ rfl _ fun k => by
    match k with
    | ⟨0, _⟩ => rfl
    | ⟨1, _⟩ => rfl
    | ⟨2, _⟩ => rfl

/-- … and slab 1 is the second piece. -/
theorem stack2_snd {A B : Nat} (x₁ x₂ : (⟨3, ![1, A, B]⟩ : Shape).Idx → α)
    (h : Shape.Concatenates [(⟨3, ![1, A, B]⟩ : Shape), ⟨3, ![1, A, B]⟩] ⟨3, ![2, A, B]⟩ 0) (a : Fin A) (b : Fin B) :
    concatenate ⟨3, ![2, A, B]⟩ 0 [⟨⟨3, ![1, A, B]⟩, x₁⟩, ⟨⟨3, ![1, A, B]⟩, x₂⟩] h (ix3 (1 : Fin 2) a b)
      = x₂ (ix3 (0 : Fin 1) a b) :=
  concatenate_pair_apply_right 0 x₁ x₂ h _ rfl rfl _
    (fun k hk => by
      match k with
      | ⟨0, _⟩ => exact absurd rfl hk
      | ⟨1, _⟩ => rfl
      | ⟨2, _⟩ => rfl)
    rfl

/-- A vector `[N]` placed as the row of `[1, N]` reads `c` at `(0, c)`. -/
theorem row_bcast_apply {N : Nat} (v : (⟨1, ![N]⟩ : Shape).Idx → α)
    (h : (⟨1, ![N]⟩ : Shape).BroadcastsInDim ⟨2, ![1, N]⟩ ![1]) (c : Fin N) :
    broadcastInDim ⟨2, ![1, N]⟩ ![1] h v (ix2 (0 : Fin 1) c) = v (ix1 c) := by
  refine broadcastInDim_apply _ h v _ _ fun k => ?_
  match k with
  | ⟨0, _⟩ =>
    show c.val = if N = 1 then 0 else c.val
    split
    · have := c.isLt; omega
    · rfl

/-- A row `[1, N]` broadcast down `R` rows reads `(0, c)` at every `(r, c)`. -/
theorem rows_bcast_apply {R N : Nat} (v : (⟨2, ![1, N]⟩ : Shape).Idx → α)
    (h : (⟨2, ![1, N]⟩ : Shape).BroadcastsInDim ⟨2, ![R, N]⟩ ![0, 1]) (r : Fin R) (c : Fin N) :
    broadcastInDim ⟨2, ![R, N]⟩ ![0, 1] h v (ix2 r c) = v (ix2 (0 : Fin 1) c) := by
  refine broadcastInDim_apply _ h v _ _ fun k => ?_
  match k with
  | ⟨0, _⟩ => show 0 = if (1 : Nat) = 1 then 0 else r.val; rw [if_pos rfl]
  | ⟨1, _⟩ =>
    show c.val = if N = 1 then 0 else c.val
    split
    · have := c.isLt; omega
    · rfl

end Cert.LibStackSlabs

end
-- ==== Proof.LibLeadAxis.lean ====
/-
  Layout steps around a leading axis, read at an index, and a sum along the leading axis.

  A block `[1, A, B]` viewed as `[A, B]` reads `(0, a, b)` at `(a, b)`, and a value `[A, B]` stored as a block
  `[1, A, B]` reads `(a, b)` at `(0, a, b)`. A value `[A, C]` recast as `[A, 1, C]` reads `(a, c)` at `(a, 0, c)`, and
  `[A, 1, C]` broadcast along its middle axis to `[A, R, C]` reads `(a, 0, c)` at every `(a, r, c)`. Over the extended
  reals the sum of an array `[E, R, C]` along its leading axis, from the zero word, is at `(r, c)` the plain sum over
  `e` of the entries `(e, r, c)`. All extents are arbitrary.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibLeadAxis

open Idealize.ShloMosaic Idealize.ShloMosaic.ValueIdx

/-- A block `[1, A, B]` viewed `[A, B]` reads `(0, a, b)` at `(a, b)`. -/
theorem cast_drop_apply {A B : Nat} {α : Type} (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 (0 : Fin 1) a b) := by
  refine shapeCast_apply v h _ _ ?_
  rw [Shape.rowMajor_val_three, Shape.rowMajor_val_two]
  show (0 * A + a.val) * B + b.val = a.val * B + b.val
  rw [Nat.zero_mul, Nat.zero_add]

/-- A value `[A, B]` stored as a block `[1, A, B]` reads `(a, b)` at `(0, a, b)`. -/
theorem cast_add_apply {A B : Nat} {α : Type} (v : (⟨2, ![A, B]⟩ : Shape).Idx → α)
    (h : (⟨2, ![A, B]⟩ : Shape).ShapeCasts ⟨3, ![1, A, B]⟩) (a : Fin A) (b : Fin B) :
    shapeCast ⟨3, ![1, A, B]⟩ v h (ix3 (0 : Fin 1) a b) = v (ix2 a b) := by
  refine shapeCast_apply v h _ _ ?_
  rw [Shape.rowMajor_val_three, Shape.rowMajor_val_two]
  show a.val * B + b.val = (0 * A + a.val) * B + b.val
  rw [Nat.zero_mul, Nat.zero_add]

/-- `[A, C]` recast as `[A, 1, C]` reads `(a, c)` at `(a, 0, c)`. -/
theorem cast_mid_apply {A C : Nat} {α : Type} (v : (⟨2, ![A, C]⟩ : Shape).Idx → α)
    (h : (⟨2, ![A, C]⟩ : Shape).ShapeCasts ⟨3, ![A, 1, C]⟩) (a : Fin A) (c : Fin C) :
    shapeCast ⟨3, ![A, 1, C]⟩ v h (ix3 a (0 : Fin 1) c) = v (ix2 a c) := by
  refine shapeCast_apply v h _ _ ?_
  rw [Shape.rowMajor_val_three, Shape.rowMajor_val_two]
  show a.val * C + c.val = (a.val * 1 + 0) * C + c.val
  rw [Nat.mul_one, Nat.add_zero]

/-- `[A, 1, C]` broadcast along the middle axis to `[A, R, C]` reads `(a, 0, c)` at every `(a, r, c)`. -/
theorem broadcast_mid_apply {A R C : Nat} {α : Type} (v : (⟨3, ![A, 1, C]⟩ : Shape).Idx → α)
    (h : (⟨3, ![A, 1, C]⟩ : Shape).Broadcasts ⟨3, ![A, R, C]⟩) (a : Fin A) (r : Fin R) (c : Fin C) :
    broadcastTo ⟨3, ![A, R, C]⟩ v h (ix3 a r c) = v (ix3 a (0 : Fin 1) c) := by
  refine broadcastTo_apply v h _ _ fun k => ?_
  match k with
  | ⟨0, _⟩ =>
    show a.val = if A = 1 then 0 else a.val
    split
    · have := a.isLt; omega
    · rfl
  | ⟨1, _⟩ =>
    show 0 = if (1 : Nat) = 1 then 0 else r.val
    rw [if_pos rfl]
  | ⟨2, _⟩ =>
    show c.val = if C = 1 then 0 else c.val
    split
    · have := c.isLt; omega
    · rfl

/-- The reduced index `(r, c)` with coordinate `e` put back on the leading axis is `(e, r, c)`. -/
theorem lift_lead {E R C : Nat} (h : (⟨3, ![E, R, C]⟩ : Shape).Reduces [0] (⟨2, ![R, C]⟩ : Shape)) (r : Fin R) (c : Fin C)
    (e : Fin ((⟨3, ![E, R, C]⟩ : Shape).size 0)) : h.lift (ix2 r c) e = ix3 (⟨e.val, e.isLt⟩ : Fin E) r c := by
  funext k; apply Fin.ext
  fin_cases k <;> rfl

/-- A sum along the leading axis of `[E, R, C]`, from the zero word, at `(r, c)`. -/
theorem sum_lead_apply {E R C : Nat} (src : FVec Ideal ⟨3, ![E, R, C]⟩ .f32)
    (h : (⟨3, ![E, R, C]⟩ : Shape).Reduces [0] (⟨2, ![R, C]⟩ : Shape)) (hφ : FKind.Formats .f32)
    (hacc : (0x00000000#32 : BitVec 32) = FKind.add.neutral .f32 hφ) (r : Fin R) (c : Fin C) :
    multiReduction .add [0] (⟨2, ![R, C]⟩ : Shape) src 0x00000000#32 h hφ hacc (ix2 r c) = ∑ e : Fin E, src (ix3 e r c) := by
  refine (Ideal.multiReduction_add_single src _ h hφ hacc (ix2 r c)).trans ?_
  exact Finset.sum_congr rfl fun e _ => congrArg src (lift_lead h r c e)

end Cert.LibLeadAxis

end
-- ==== Proof.HostParts.lean ====
/-
  The host operations between and after the two kernel regions, read at an index over the extended reals.

  Between the regions: the two halves' column sums of squares (an array [2, 1, 128]) are added and square-rooted into
  the row [1, 128] of column norms; the weights [64, 128] are transposed to [128, 64]; the bias [64] becomes a row
  [1, 64]. After the second region: the two halves of the aggregate [2, 64, 128] and of the masses [2, 1, 64] are added,
  the centroids weighted by the masses are subtracted, and each column is divided by its norm over the 64 clusters,
  floored at ε. Each is stated for ANY contents of the buffers the stretch starts from.
-/
import proofs.«111807_j45552423141540_2_alg».proof.Proof.Gen.KernelIdeal.Launch
import proofs.«111807_j45552423141540_2_alg».proof.Proof.VladSpec
import proofs.«111807_j45552423141540_2_alg».proof.Proof.LibColReduce
import proofs.«111807_j45552423141540_2_alg».proof.Proof.LibStackSlabs
import proofs.«111807_j45552423141540_2_alg».proof.Proof.LibLeadAxis
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostParts

open Cert.KernelIdeal Cert.KernelIdeal.Gen
open Idealize.ShloMosaic Idealize.ShloMosaic.TcCoe Idealize.ShloMosaic.StableHlo Idealize.ShloMosaic.ValueIdx Idealize.SL.Sem

/-! ## Two layout facts -/

/-- The two slabs of a stack `[2, A, B]`, each cut out and viewed as `[A, B]`, added entry by entry: at `(a, b)` the sum
    of the two slabs' entries there. -/
theorem halves_apply {A B : Nat} (X : FVec Ideal ⟨3, ![2, A, B]⟩ .f32)
    (h0 : (⟨3, ![2, A, B]⟩ : Shape).Slices ![0, 0, 0] ⟨3, ![1, A, B]⟩)
    (h1 : (⟨3, ![2, A, B]⟩ : Shape).Slices ![1, 0, 0] ⟨3, ![1, A, B]⟩)
    (hc : (⟨3, ![1, A, B]⟩ : Shape).ShapeCasts ⟨2, ![A, B]⟩) (a : Fin A) (b : Fin B) :
    addf (F := Ideal) (φ := .f32) (shapeCast ⟨2, ![A, B]⟩ (extractStridedSlice ⟨3, ![1, A, B]⟩ ![0, 0, 0] X h0) hc)
        (shapeCast ⟨2, ![A, B]⟩ (extractStridedSlice ⟨3, ![1, A, B]⟩ ![1, 0, 0] X h1) hc) (ix2 a b)
      = X (ix3 (0 : Fin 2) a b) + X (ix3 (1 : Fin 2) a b) :=
  (addf_apply _ _ _).trans (congrArg₂ (· + ·)
    (Cert.LibStackSlabs.slab_apply ![0, 0, 0] X h0 hc (0 : Fin 2) rfl rfl rfl a b)
    (Cert.LibStackSlabs.slab_apply ![1, 0, 0] X h1 hc (1 : Fin 2) rfl rfl rfl a b))

/-- A column `[R, 1]` broadcast across `C` columns reads `(r, 0)` at every `(r, c)`. -/
theorem bcast_col_apply {R C : Nat} {α : Type} (X : (⟨2, ![R, 1]⟩ : Shape).Idx → α)
    (hb : (⟨2, ![R, 1]⟩ : Shape).BroadcastsInDim (⟨2, ![R, C]⟩ : Shape) (![0, 1] : Fin 2 → Fin 2)) (r : Fin R) (c : Fin C) :
    broadcastInDim (⟨2, ![R, C]⟩ : Shape) ![0, 1] hb X (ix2 r c) = X (ix2 r (0 : Fin 1)) := by
  refine broadcastInDim_apply _ hb X _ (ix2 r (0 : Fin 1)) fun a => ?_
  fin_cases a
  · show r.val = if R = 1 then 0 else r.val
    split_ifs with hR
    · have := r.isLt; omega
    · rfl
  · rfl

/-- The host's quotient and square root of arrays of extended reals, read at an index. -/
theorem hostDivf_apply {s : Shape} (x y : FVec Ideal s .f32) (i : s.Idx) :
    Host.divf (F := Ideal) x y i = Ideal.div (x i) (y i) := rfl
theorem hostSqrt_apply {s : Shape} (x : FVec Ideal s .f32) (i : s.Idx) :
    Host.sqrt (F := Ideal) x i = Ideal.sqrt (x i) := rfl

/-! ## Between the regions -/

section Between

variable (Wv : Valuation τ sig (Elt Ideal))

/-- The row of column norms before flooring: the square root of the two halves' sums of squares added. -/
theorem norms_apply (S : S2x1x128.Idx → EReal) (hS : (Wv (Proc.devRef .tc main_v0) : S2x1x128.Idx → EReal) = S) (d : Fin 128) :
    (StableHlo.after (hostOps1 (F := Ideal)) Wv (Proc.devRef .tc main_v6) : S1x128.Idx → EReal) (ix2 (0 : Fin 1) d)
      = Ideal.sqrt (S (ix3 (0 : Fin 2) (0 : Fin 1) d) + S (ix3 (1 : Fin 2) (0 : Fin 1) d)) := by
  subst hS
  after_results
  exact congrArg Ideal.sqrt (halves_apply (A := 1) (B := 128) (Wv (Proc.devRef .tc main_v0))
    slices_S2x1x128_S1x1x128_0_0_0 slices_S2x1x128_S1x1x128_1_0_0 shapeCasts_S1x1x128_S1x128 (0 : Fin 1) d)

/-- The transposed weights read the weights with the coordinates exchanged. -/
theorem wt_apply (W : S64x128.Idx → EReal) (hW : (Wv (Proc.devRef .tc main_arg1) : S64x128.Idx → EReal) = W) (j : Fin 128) (k : Fin 64) :
    (StableHlo.after (hostOps1 (F := Ideal)) Wv (Proc.devRef .tc main_v7) : S128x64.Idx → EReal) (ix2 j k) = W (ix2 k j) := by
  subst hW
  after_results
  exact transpose_ix2_apply (a := 64) (b := 128) (Wv (Proc.devRef .tc main_arg1)) transposes_S64x128_S128x64_1_0 j k

/-- The bias laid out as a row reads the bias. -/
theorem bias_apply (b : S64.Idx → EReal) (hb : (Wv (Proc.devRef .tc main_arg2) : S64.Idx → EReal) = b) (k : Fin 64) :
    (StableHlo.after (hostOps1 (F := Ideal)) Wv (Proc.devRef .tc main_v8) : S1x64.Idx → EReal) (ix2 (0 : Fin 1) k) = b (ix1 k) := by
  subst hb
  after_results
  exact shapeCast_a_1a_apply (a := 64) (Wv (Proc.devRef .tc main_arg2)) shapeCasts_S64_S1x64 (0 : Fin 1) k

end Between

/-! ## After the second region -/

/-- The residual matrix from the two halves: the halves of the aggregate added, minus the halves of the masses added
    times the centroid. -/
def resid (A : S2x64x128.Idx → EReal) (s : S2x1x64.Idx → EReal) (cen : S64x128.Idx → EReal) (k : Fin 64) (d : Fin 128) : EReal :=
  (A (ix3 (0 : Fin 2) k d) + A (ix3 (1 : Fin 2) k d)) - (s (ix3 (0 : Fin 2) (0 : Fin 1) k) + s (ix3 (1 : Fin 2) (0 : Fin 1) k)) * cen (ix2 k d)

section After

variable (A : S2x64x128.Idx → EReal) (s : S2x1x64.Idx → EReal) (cen : S64x128.Idx → EReal)

/-- The residual matrix as the host operations build it: slabs cut out and added, the added masses turned into a column
    and broadcast across the features, multiplied by the centroids and subtracted. -/
def residArr : FVec Ideal S64x128 .f32 :=
  subf (F := Ideal) (φ := .f32)
    (addf (F := Ideal) (φ := .f32)
      (shapeCast S64x128 (extractStridedSlice S1x64x128 ![0, 0, 0] A slices_S2x64x128_S1x64x128_0_0_0) shapeCasts_S1x64x128_S64x128)
      (shapeCast S64x128 (extractStridedSlice S1x64x128 ![1, 0, 0] A slices_S2x64x128_S1x64x128_1_0_0) shapeCasts_S1x64x128_S64x128))
    (mulf (F := Ideal) (φ := .f32)
      (broadcastInDim S64x128 ![0, 1] bcast_S64x1_S64x128_0_1
        (transpose S64x1 [1, 0]
          (addf (F := Ideal) (φ := .f32)
            (shapeCast S1x64 (extractStridedSlice S1x1x64 ![0, 0, 0] s slices_S2x1x64_S1x1x64_0_0_0) shapeCasts_S1x1x64_S1x64)
            (shapeCast S1x64 (extractStridedSlice S1x1x64 ![1, 0, 0] s slices_S2x1x64_S1x1x64_1_0_0) shapeCasts_S1x1x64_S1x64))
          transposes_S1x64_S64x1_1_0))
      cen)

/-- Entry (k, d) of the residual matrix the host operations build. -/
theorem residArr_apply (k : Fin 64) (d : Fin 128) : residArr A s cen (ix2 k d) = resid A s cen k d := by
  unfold residArr resid
  refine (subf_apply _ _ _).trans ?_
  refine congrArg₂ (· - ·)
    (halves_apply (A := 64) (B := 128) A slices_S2x64x128_S1x64x128_0_0_0 slices_S2x64x128_S1x64x128_1_0_0
      shapeCasts_S1x64x128_S64x128 k d) ?_
  refine (mulf_apply _ _ _).trans ?_
  refine congrArg (· * cen (ix2 k d)) ?_
  refine (bcast_col_apply (R := 64) (C := 128) _ bcast_S64x1_S64x128_0_1 k d).trans ?_
  refine (transpose_ix2_apply (a := 1) (b := 64) _ transposes_S1x64_S64x1_1_0 k (0 : Fin 1)).trans ?_
  exact halves_apply (A := 1) (B := 64) s slices_S2x1x64_S1x1x64_0_0_0 slices_S2x1x64_S1x1x64_1_0_0
    shapeCasts_S1x1x64_S1x64 (0 : Fin 1) k

/-- The result array as the host operations build it from the residual matrix: the column sums of its squares from the
    zero word, their square roots floored at ε, broadcast down the clusters and divided into the matrix, stored under a
    leading unit axis. -/
def outArr : FVec Ideal S1x64x128 .f32 :=
  shapeCast S1x64x128
    (Host.divf (F := Ideal) (residArr A s cen)
      (broadcastInDim S64x128 ![0, 1] bcast_S1x128_S64x128_0_1
        (maximumf (F := Ideal) (φ := .f32)
          (Host.sqrt (F := Ideal)
            (broadcastInDim S1x128 ![1] bcast_S128_S1x128_1
              (Host.reduceAdd (F := Ideal) (mulf (F := Ideal) (φ := .f32) (residArr A s cen) (residArr A s cen))
                (constant (F := Ideal) S_ .f32 0x00000000#32) reducesTo_S64x128_S128_d0 h_S_)))
          (broadcastInDim S1x128 ![] bcast_S_S1x128 (constant (F := Ideal) S_ .f32 0x2B8CBCCC#32)))))
    shapeCasts_S64x128_S1x64x128

/-- Entry (0, k, d) of the result array the host operations build. -/
theorem outArr_apply (k : Fin 64) (d : Fin 128) :
    outArr A s cen (ix3 (0 : Fin 1) k d)
      = Ideal.div (resid A s cen k d) (max (Ideal.sqrt (∑ k' : Fin 64, resid A s cen k' d * resid A s cen k' d)) Cert.Vlad.eps) := by
  unfold outArr
  refine (Cert.LibLeadAxis.cast_add_apply (A := 64) (B := 128) _ shapeCasts_S64x128_S1x64x128 k d).trans ?_
  refine (hostDivf_apply _ _ _).trans ?_
  refine congrArg₂ Ideal.div (residArr_apply A s cen k d) ?_
  refine (Cert.Lib.ColReduce.bcast_rows_apply (R := 64) (C := 128) _ bcast_S1x128_S64x128_0_1 k d).trans ?_
  refine (maximumf_apply _ _ _).trans ?_
  refine congrArg₂ max ?_ ?_
  · refine (hostSqrt_apply _ _).trans (congrArg Ideal.sqrt ?_)
    refine (Cert.Lib.ColReduce.bcast_row1_apply (C := 128) _ bcast_S128_S1x128_1 (0 : Fin 1) d).trans ?_
    refine (Cert.Lib.ColReduce.hostReduceAdd_col (R := 64) (C := 128) _ _ (fun _ => Ideal.ofBits_zero_f32)
      reducesTo_S64x128_S128_d0 (by decide) h_S_ d).trans ?_
    refine Finset.sum_congr rfl fun k' _ => ?_
    refine (mulf_apply _ _ _).trans ?_
    rw [residArr_apply]
  · exact Cert.Lib.ColReduce.bcast_scalar_apply bcast_S_S1x128 _ _

end After

/-- The result buffer after the last host stretch, at (0, k, d): the residual matrix from the two halves divided by its
    column norm over the clusters, floored at ε. -/
theorem out_apply (Wv : Valuation τ sig (Elt Ideal)) (A : S2x64x128.Idx → EReal) (s : S2x1x64.Idx → EReal) (cen : S64x128.Idx → EReal)
    (hA : (Wv (Proc.devRef .tc main_v9_0) : S2x64x128.Idx → EReal) = A) (hs : (Wv (Proc.devRef .tc main_v9_1) : S2x1x64.Idx → EReal) = s)
    (hc : (Wv (Proc.devRef .tc main_arg3) : S64x128.Idx → EReal) = cen) (k : Fin 64) (d : Fin 128) :
    (StableHlo.after (hostOps2 (F := Ideal)) Wv (Proc.devRef .tc main_v32) : S1x64x128.Idx → EReal) (ix3 (0 : Fin 1) k d)
      = Ideal.div (resid A s cen k d) (max (Ideal.sqrt (∑ k' : Fin 64, resid A s cen k' d * resid A s cen k' d)) Cert.Vlad.eps) := by
  subst hA hs hc
  after_results_simp
  exact outArr_apply (Wv (Proc.devRef .tc main_v9_0)) (Wv (Proc.devRef .tc main_v9_1)) (Wv (Proc.devRef .tc main_arg3)) k d

end Cert.KernelIdeal.HostParts

end
-- ==== Proof.VladHalves.lean ====
/-
  From the two halves to the whole.

  The kernel program computes every sum over the 200000 points as two half sums (one per half of the grid), each the sum
  over the half's ten tiles of the tile's sum over its 10000 rows, and adds the halves afterwards. Addition of extended
  reals is commutative and associative, so the grouping does not matter: the two halves' column sums of squares add up to
  the column's sum of squares, hence the kernel's column norms are the specification's; with the same norms the two
  halves' aggregates and masses add up to the specification's, hence the residual matrix, its column norms over the
  clusters and the quotient are the specification's.
-/
import proofs.«111807_j45552423141540_2_alg».proof.Proof.VladSpec

noncomputable section

open scoped BigOperators

namespace Cert.Vlad

open Idealize.ShloMosaic

/-- A sum over the points as the first half's tiles plus the second half's. -/
theorem sum_points_halves {M : Type*} [AddCommMonoid M] (f : Fin 200000 → M) :
    ∑ n : Fin 200000, f n
      = (∑ i : Fin 10, ∑ r : Fin 10000, f (row (tile 0 i) r)) + ∑ i : Fin 10, ∑ r : Fin 10000, f (row (tile 1 i) r) := by
  rw [sum_points_tiles, sum_tiles_halves]

section

variable (x : Fin 200000 → Fin 128 → EReal) (W : Fin 64 → Fin 128 → EReal) (b : Fin 64 → EReal) (cen : Fin 64 → Fin 128 → EReal)

/-- The residual matrix from the halves' aggregates A and masses s. -/
def residOf (A : Fin 2 → Fin 64 → Fin 128 → EReal) (s : Fin 2 → Fin 64 → EReal) (k : Fin 64) (d : Fin 128) : EReal :=
  (A 0 k d + A 1 k d) - (s 0 k + s 1 k) * cen k d

/-- The column norms from the halves' column sums of squares are the specification's. -/
theorem colNorm_of_halves (S : Fin 2 → Fin 128 → EReal)
    (hS : ∀ h d, S h d = ∑ i : Fin 10, ∑ r : Fin 10000, x (row (tile h i) r) d * x (row (tile h i) r) d)
    (ν : Fin 128 → EReal) (hν : ∀ d, ν d = max (Ideal.sqrt (S 0 d + S 1 d)) eps) : ν = colNorm x := by
  funext d
  rw [hν, hS, hS]
  unfold colNorm colSq
  rw [sum_points_halves (fun n => x n d * x n d)]

/-- The quotient of the residual matrix from the halves by its floored column norms is the pooled descriptor. -/
theorem out_of_halves (S : Fin 2 → Fin 128 → EReal)
    (hS : ∀ h d, S h d = ∑ i : Fin 10, ∑ r : Fin 10000, x (row (tile h i) r) d * x (row (tile h i) r) d)
    (ν : Fin 128 → EReal) (hν : ∀ d, ν d = max (Ideal.sqrt (S 0 d + S 1 d)) eps)
    (A : Fin 2 → Fin 64 → Fin 128 → EReal)
    (hA : ∀ h k d, A h k d = ∑ i : Fin 10, ∑ r : Fin 10000,
      assign W b ν (x (row (tile h i) r)) k * unitRow ν (x (row (tile h i) r)) d)
    (s : Fin 2 → Fin 64 → EReal)
    (hs : ∀ h k, s h k = ∑ i : Fin 10, ∑ r : Fin 10000, assign W b ν (x (row (tile h i) r)) k)
    (k : Fin 64) (d : Fin 128) :
    Ideal.div (residOf cen A s k d) (max (Ideal.sqrt (∑ k' : Fin 64, residOf cen A s k' d * residOf cen A s k' d)) eps)
      = out x W b cen k d := by
  have hνx : ν = colNorm x := colNorm_of_halves x S hS ν hν
  subst hνx
  have hres : ∀ k d, residOf cen A s k d = vlad x W b cen k d := by
    intro k d
    unfold residOf vlad agg mass
    rw [hA, hA, hs, hs,
      sum_points_halves (fun n => assign W b (colNorm x) (x n) k * unitRow (colNorm x) (x n) d),
      sum_points_halves (fun n => assign W b (colNorm x) (x n) k)]
  unfold out clusterNorm
  rw [hres]
  simp only [hres]

end

end Cert.Vlad

end
-- ==== Proof.LibColMoments.lean ====
/-
  Sums down the columns of a kernel's arrays, read at an index, over the extended reals.

  A two-axis array x : [R, C] summed along its first axis from zero and viewed as one row [1, C] reads, at (0, c),
  the plain sum Σ_r x (r, c). A three-axis array y : [B, S, C] summed along its first axis from zero reads, at (s, c),
  the sum Σ_b y (b, s, c). Only the definition of the reduction as a sum over the reduced axis is used, so nothing here
  needs finiteness.
-/
import Mathlib
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Lib.ColMoments

open Idealize.ShloMosaic Idealize.ShloMosaic.ValueIdx

variable {R C B S : Nat}

/-- The reduced index c with row r put back is (r, c). -/
theorem lift_col (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext a; apply Fin.ext
  fin_cases a <;> rfl

/-- The reduced index (s, c) with the leading coordinate b put back is (b, s, c). -/
theorem lift_lead (h : (⟨3, ![B, S, C]⟩ : Shape).Reduces [0] (⟨2, ![S, C]⟩ : Shape)) (s : Fin S) (c : Fin C)
    (k : Fin ((⟨3, ![B, S, C]⟩ : Shape).size 0)) : h.lift (ix2 s c) k = ix3 (⟨k.val, k.isLt⟩ : Fin B) s c := by
  funext a; apply Fin.ext
  fin_cases a <;> rfl

/-- A kernel's sum along axis 0 of [R, C] from zero, at column c. -/
theorem colSum_apply (x : FVec Ideal ⟨2, ![R, C]⟩ .f32) (acc : BitVec 32)
    (h : (⟨2, ![R, C]⟩ : Shape).Reduces [0] (⟨1, ![C]⟩ : Shape)) (hφ : FKind.Formats .f32)
    (hacc : acc = FKind.add.neutral .f32 hφ) (c : Fin C) :
    multiReduction .add [0] (⟨1, ![C]⟩ : Shape) x acc h hφ hacc (ix1 c) = ∑ r : Fin R, x (ix2 r c) := by
  refine (Ideal.multiReduction_add_single x acc h hφ hacc (ix1 c)).trans ?_
  refine Finset.sum_congr rfl fun k _ => ?_
  exact congrArg x (lift_col h c k)

/-- The same sum viewed as one row [1, C], at (u, c). -/
theorem colSum_row_apply (x : FVec Ideal ⟨2, ![R, C]⟩ .f32) (acc : BitVec 32)
    (h : (⟨2, ![R, C]⟩ : Shape).Reduces [0] (⟨1, ![C]⟩ : Shape)) (hφ : FKind.Formats .f32)
    (hacc : acc = FKind.add.neutral .f32 hφ) (hc : (⟨1, ![C]⟩ : Shape).ShapeCasts ⟨2, ![1, C]⟩) (u : Fin 1) (c : Fin C) :
    shapeCast (⟨2, ![1, C]⟩ : Shape) (multiReduction .add [0] (⟨1, ![C]⟩ : Shape) x acc h hφ hacc) hc (ix2 u c)
      = ∑ r : Fin R, x (ix2 r c) :=
  (shapeCast_a_1a_apply _ hc u c).trans (colSum_apply x acc h hφ hacc c)

/-- A kernel's sum along axis 0 of [B, S, C] from zero, at (s, c). -/
theorem leadSum_apply (y : FVec Ideal ⟨3, ![B, S, C]⟩ .f32) (acc : BitVec 32)
    (h : (⟨3, ![B, S, C]⟩ : Shape).Reduces [0] (⟨2, ![S, C]⟩ : Shape)) (hφ : FKind.Formats .f32)
    (hacc : acc = FKind.add.neutral .f32 hφ) (s : Fin S) (c : Fin C) :
    multiReduction .add [0] (⟨2, ![S, C]⟩ : Shape) y acc h hφ hacc (ix2 s c) = ∑ b : Fin B, y (ix3 b s c) := by
  refine (Ideal.multiReduction_add_single y acc h hφ hacc (ix2 s c)).trans ?_
  refine Finset.sum_congr rfl fun k _ => ?_
  exact congrArg y (lift_lead h s c k)

end Cert.Lib.ColMoments

end
-- ==== Proof.TilePayloadsA.lean ====
/-
  The small payloads of the two kernels, read entry by entry over the extended reals.

  The column-sum kernel clears its accumulator row to zero, adds to it the column sums of the squares of a tile of
  10000 rows, and copies the row out. The aggregation kernel clears its two accumulators to zero, adds to the weight
  row the column sums of a tile's assignments, and copies both accumulators out. Each of these is a pointwise
  operation or a sum down a column from zero, wrapped in casts that do not move any entry.
-/
import proofs.«111807_j45552423141540_2_alg».proof.Proof.Gen.KernelIdeal.Skeleton
import proofs.«111807_j45552423141540_2_alg».proof.Proof.VladSpec
import proofs.«111807_j45552423141540_2_alg».proof.Proof.LibColMoments
import Idealize.ShloMosaic.Lib.ValueIdx
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx

/-! ## The column sums of squares -/

/-- The cleared accumulator row is zero everywhere. -/
theorem zeroRow_apply (d : Fin 128) : k0_pay1 (F := Ideal) (ix2 (0 : Fin 1) d) = 0 := by
  unfold k0_pay1
  rw [shapeCast_self]
  exact Ideal.ofBits_zero_f32

/-- One tile's step: the accumulator row plus, column by column, the sum of the squares of the tile's 10000 rows. -/
theorem colSq_tile (v3 : Vec Ideal S10000x128 .f32) (v4 : Vec Ideal S1x128 .f32) (d : Fin 128) :
    k0_pay2 (F := Ideal) v3 v4 (ix2 (0 : Fin 1) d)
      = v4 (ix2 (0 : Fin 1) d) + ∑ r : Fin 10000, v3 (ix2 r d) * v3 (ix2 r d) := by
  unfold k0_pay2
  rw [shapeCast_self]
  refine (addf_apply _ _ _).trans ?_
  refine congrArg (fun s => v4 (ix2 (0 : Fin 1) d) + s) ?_
  exact Cert.Lib.ColMoments.colSum_row_apply (mulf v3 v3) _ _ _ _ _ (0 : Fin 1) d

/-- The accumulator row copied out under a leading unit axis. -/
theorem colSq_out (v15 : Vec Ideal S1x128 .f32) (d : Fin 128) :
    k0_pay3 (F := Ideal) v15 (ix3 (0 : Fin 1) (0 : Fin 1) d) = v15 (ix2 (0 : Fin 1) d) := by
  unfold k0_pay3
  exact shapeCast_ab_1ab_apply v15 _ (0 : Fin 1) (0 : Fin 1) d

/-! ## The aggregation kernel's accumulators -/

/-- One tile's step on the weight row: the row plus, cluster by cluster, the sum of the tile's 10000 assignments. -/
theorem mass_tile (v29 : FVec Ideal S10000x64 .f32) (v37 : Vec Ideal S1x64 .f32) (k : Fin 64) :
    k1_pay1 (F := Ideal) v29 v37 (ix2 (0 : Fin 1) k) = v37 (ix2 (0 : Fin 1) k) + ∑ r : Fin 10000, v29 (ix2 r k) := by
  unfold k1_pay1
  rw [shapeCast_self]
  refine (addf_apply _ _ _).trans ?_
  refine congrArg (fun s => v37 (ix2 (0 : Fin 1) k) + s) ?_
  exact Cert.Lib.ColMoments.colSum_row_apply v29 _ _ _ _ _ (0 : Fin 1) k

/-- The cleared 64 × 128 accumulator is zero everywhere. -/
theorem zeroAgg_apply (k : Fin 64) (d : Fin 128) : k1_pay4 (F := Ideal) (ix2 k d) = 0 := by
  unfold k1_pay4
  rw [shapeCast_self]
  exact Ideal.ofBits_zero_f32

/-- The cleared weight row is zero everywhere. -/
theorem zeroMass_apply (k : Fin 64) : k1_pay5 (F := Ideal) (ix2 (0 : Fin 1) k) = 0 := by
  unfold k1_pay5
  rw [shapeCast_self]
  exact Ideal.ofBits_zero_f32

/-- The 64 × 128 accumulator copied out under a leading unit axis. -/
theorem agg_out (v47 : Vec Ideal S64x128 .f32) (k : Fin 64) (d : Fin 128) :
    k1_pay2 (F := Ideal) v47 (ix3 (0 : Fin 1) k d) = v47 (ix2 k d) := by
  unfold k1_pay2
  exact shapeCast_ab_1ab_apply v47 _ (0 : Fin 1) k d

/-- The weight row copied out under a leading unit axis. -/
theorem mass_out (v50 : Vec Ideal S1x64 .f32) (k : Fin 64) :
    k1_pay3 (F := Ideal) v50 (ix3 (0 : Fin 1) (0 : Fin 1) k) = v50 (ix2 (0 : Fin 1) k) := by
  unfold k1_pay3
  exact shapeCast_ab_1ab_apply v50 _ (0 : Fin 1) (0 : Fin 1) k

end Cert.KernelIdeal.Tile

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«111807_j45552423141540_2_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.TilePayloadsB.lean ====
/-
  The aggregation kernel's per-row payloads, read entry by entry over the extended reals.

  Each row of a tile is divided, feature by feature, by the floored column norms; its scores are the product of the
  scaled row with the loaded weights (held transposed, 128 × 64) plus the biases; the scores are turned into a softmax:
  the row's largest score is subtracted, the exponentials are taken and divided by their sum along the row. Every
  step is pointwise, a row reduction, or a broadcast of a row or a column, so the entry (r, k) depends on row r only
  and is the single-row formula of the specification.
-/
import proofs.«111807_j45552423141540_2_alg».proof.Proof.TilePayloadsA
import proofs.«111807_j45552423141540_2_alg».proof.Proof.LibRowReduce
import proofs.«111807_j45552423141540_2_alg».proof.Proof.LibColBroadcast
import proofs.«111807_j45552423141540_2_alg».proof.Proof.LibDotForms

noncomputable section

open scoped BigOperators

namespace Cert.KernelIdeal.Tile

open Cert.KernelIdeal Cert.KernelIdeal.Gen Idealize.ShloMosaic Idealize.ShloMosaic.ValueIdx

/-! ## A tile's loads as the specification's arguments -/

/-- The floored column norms from the loaded row of norms. -/
abbrev normOf (v4 : Vec Ideal S1x128 .f32) : Fin 128 → EReal := fun d => max (v4 (ix2 (0 : Fin 1) d)) Cert.Vlad.eps

/-- Row r of the loaded tile of points. -/
abbrev rowOf (v3 : Vec Ideal S10000x128 .f32) (r : Fin 10000) : Fin 128 → EReal := fun d => v3 (ix2 r d)

/-- The cluster weights from the loaded array, which holds them transposed. -/
abbrev wOf (v11 : Vec Ideal S128x64 .f32) : Fin 64 → Fin 128 → EReal := fun k j => v11 (ix2 j k)

/-- The biases from the loaded row. -/
abbrev bOf (v15 : Vec Ideal S1x64 .f32) : Fin 64 → EReal := fun k => v15 (ix2 (0 : Fin 1) k)

/-! ## The scaled rows -/

/-- Entry (r, d) of the scaled tile is row r's feature d over the floored norm of column d. -/
theorem unit_tile (v3 : Vec Ideal S10000x128 .f32) (v4 : Vec Ideal S1x128 .f32) (r : Fin 10000) (d : Fin 128) :
    k1_pay6 (F := Ideal) v3 v4 (ix2 r d) = Cert.Vlad.unitRow (normOf v4) (rowOf v3 r) d := by
  unfold k1_pay6
  rw [shapeCast_self]
  refine (truncf_apply (φ := .f32) (ψ := .bf16) _ bitsLt_bf16_f32 (ix2 r d)).trans ?_
  refine (divf_apply _ _ _).trans ?_
  refine congrArg (fun s => Ideal.div (v3 (ix2 r d)) s) ?_
  exact broadcastTo_1b_ab_apply _ _ r d

/-! ## The scores, the row maxima, the exponentials and their row sums as arrays -/

/-- The tile's scores: scaled rows times the weights, plus the biases along every row. -/
def scores (v3 : Vec Ideal S10000x128 .f32) (v4 : Vec Ideal S1x128 .f32) (v11 : Vec Ideal S128x64 .f32)
    (v15 : Vec Ideal S1x64 .f32) : FVec Ideal S10000x64 .f32 :=
  addf
    (matmul dot_S10000x128_S128x64_S10000x64_1_0_0_1_n_n none (k1_pay6 (F := Ideal) v3 v4)
      (truncf .bf16 (shapeCast S128x64 v11 shapeCasts_S128x64_S128x64) bitsLt_bf16_f32)
      (constant (F := Ideal) S10000x64 .f32 0x00000000#32))
    (broadcastTo S10000x64 (shapeCast S1x64 v15 shapeCasts_S1x64_S1x64) broadcasts_S1x64_S10000x64)

/-- Each row's largest entry (the maximum with -∞ of the fold from -∞), repeated along the row. -/
def rowTops (s : FVec Ideal S10000x64 .f32) : FVec Ideal S10000x64 .f32 :=
  broadcastTo S10000x64
    (shapeCast S10000x1
      (maximumf (broadcast S10000 (Scalar.ofBits (F := Ideal) .f32 0xFF800000#32))
        (multiReduction .maximumf [1] S10000 s 0xFF800000#32 reduces_S10000x64_S10000 (.inl rfl) rfl))
      shapeCasts_S10000_S10000x1)
    broadcasts_S10000x1_S10000x64

/-- The exponentials of the entries shifted by their row's largest. -/
def expos (s : FVec Ideal S10000x64 .f32) : FVec Ideal S10000x64 .f32 := exp (subf s (rowTops s))

/-- Each row's sum, repeated along the row. -/
def rowSums (e : FVec Ideal S10000x64 .f32) : FVec Ideal S10000x64 .f32 :=
  broadcastTo S10000x64
    (shapeCast S10000x1
      (multiReduction .add [1] S10000 e 0x00000000#32 reduces_S10000x64_S10000 (.inl rfl) rfl)
      shapeCasts_S10000_S10000x1)
    broadcasts_S10000x1_S10000x64

/-- The assignment payload is the exponentials over their row sums. -/
theorem k1_pay7_eq (v3 : Vec Ideal S10000x128 .f32) (v4 : Vec Ideal S1x128 .f32) (v11 : Vec Ideal S128x64 .f32)
    (v15 : Vec Ideal S1x64 .f32) :
    k1_pay7 (F := Ideal) v3 v4 v11 v15
      = divf (expos (scores v3 v4 v11 v15)) (rowSums (expos (scores v3 v4 v11 v15))) := rfl

/-- Entry (r, k) of the scores is row r's affine score for cluster k. -/
theorem scores_apply (v3 : Vec Ideal S10000x128 .f32) (v4 : Vec Ideal S1x128 .f32) (v11 : Vec Ideal S128x64 .f32)
    (v15 : Vec Ideal S1x64 .f32) (r : Fin 10000) (k : Fin 64) :
    scores v3 v4 v11 v15 (ix2 r k) = Cert.Vlad.score (wOf v11) (bOf v15) (normOf v4) (rowOf v3 r) k := by
  unfold scores Cert.Vlad.score
  rw [shapeCast_self, shapeCast_self]
  refine (addf_apply _ _ _).trans ?_
  refine congrArg₂ (fun a b => a + b) ?_ ?_
  · refine (Cert.LibDotForms.matmul_plain_prec (M := 10000) (K := 128) (N := 64) none (k1_pay6 (F := Ideal) v3 v4)
      (truncf .bf16 v11 bitsLt_bf16_f32) r k).trans ?_
    refine Finset.sum_congr rfl fun j _ => ?_
    exact congrArg (fun a => a * v11 (ix2 j k)) (unit_tile v3 v4 r j)
  · exact broadcastTo_1b_ab_apply v15 _ r k

/-- Entry (r, k) of the repeated row maxima is the largest entry of row r. -/
theorem rowTops_apply (s : FVec Ideal S10000x64 .f32) (r : Fin 10000) (k : Fin 64) :
    rowTops s (ix2 r k)
      = max (Ideal.ofBits .f32 0xFF800000#32) (Cert.LibRowReduce.rowMax fun k' : Fin 64 => s (ix2 r k')) := by
  unfold rowTops
  refine (Cert.LibColBroadcast.broadcastTo_a1_ab_apply _ _ r k).trans ?_
  refine (Cert.LibRowReduce.shapeCast_col_apply _ _ r).trans ?_
  refine (maximumf_apply _ _ _).trans ?_
  refine congrArg (fun a => max (Ideal.ofBits .f32 0xFF800000#32) a) ?_
  exact Cert.LibRowReduce.multiReduction_max_row s _ _ _ r

/-- Entry (r, k) of the repeated row sums is the sum of row r. -/
theorem rowSums_apply (e : FVec Ideal S10000x64 .f32) (r : Fin 10000) (k : Fin 64) :
    rowSums e (ix2 r k) = ∑ k' : Fin 64, e (ix2 r k') := by
  unfold rowSums
  refine (Cert.LibColBroadcast.broadcastTo_a1_ab_apply _ _ r k).trans ?_
  refine (Cert.LibRowReduce.shapeCast_col_apply _ _ r).trans ?_
  exact Cert.LibRowReduce.multiReduction_add_row e _ _ _ r

/-- Entry (r, k) of the exponentials of the scores is row r's shifted exponential for cluster k. -/
theorem expos_scores_apply (v3 : Vec Ideal S10000x128 .f32) (v4 : Vec Ideal S1x128 .f32) (v11 : Vec Ideal S128x64 .f32)
    (v15 : Vec Ideal S1x64 .f32) (r : Fin 10000) (k : Fin 64) :
    expos (scores v3 v4 v11 v15) (ix2 r k) = Cert.Vlad.expo (wOf v11) (bOf v15) (normOf v4) (rowOf v3 r) k := by
  unfold expos Cert.Vlad.expo Cert.Vlad.top
  show Ideal.exp (scores v3 v4 v11 v15 (ix2 r k) - rowTops (scores v3 v4 v11 v15) (ix2 r k)) = _
  rw [rowTops_apply, scores_apply]
  refine congrArg (fun t => Ideal.exp (Cert.Vlad.score (wOf v11) (bOf v15) (normOf v4) (rowOf v3 r) k
    - max (Ideal.ofBits .f32 0xFF800000#32) (Cert.LibRowReduce.rowMax t))) ?_
  exact funext fun k' => scores_apply v3 v4 v11 v15 r k'

/-! ## The assignments -/

/-- Entry (r, k) of the assignments is row r's softmax weight for cluster k. -/
theorem assign_tile (v3 : Vec Ideal S10000x128 .f32) (v4 : Vec Ideal S1x128 .f32) (v11 : Vec Ideal S128x64 .f32)
    (v15 : Vec Ideal S1x64 .f32) (r : Fin 10000) (k : Fin 64) :
    k1_pay7 (F := Ideal) v3 v4 v11 v15 (ix2 r k)
      = Cert.Vlad.assign (wOf v11) (bOf v15) (normOf v4) (rowOf v3 r) k := by
  rw [k1_pay7_eq]
  unfold Cert.Vlad.assign
  refine (divf_apply _ _ _).trans ?_
  refine congrArg₂ (fun a b => Ideal.div a b) (expos_scores_apply v3 v4 v11 v15 r k) ?_
  refine (rowSums_apply _ r k).trans ?_
  exact Finset.sum_congr rfl fun k' _ => expos_scores_apply v3 v4 v11 v15 r k'

end Cert.KernelIdeal.Tile

end
-- ==== Proof.TilePayloads.lean ====
/-
  The aggregation kernel's step on its 64 × 128 accumulator, read entry by entry over the extended reals.

  The tile's assignments (10000 × 64) and its scaled rows (10000 × 128) are multiplied with the row axis of both
  contracted, so entry (k, d) of the product is the sum over the tile's rows r of assignment (r, k) times scaled
  entry (r, d); the step adds this product to the accumulator. With the per-row payloads already identified with the
  specification's single-row formulas, this is the tile's share of the assignment-weighted sum.

  This module also gathers the other payload lemmas: importing it gives all of them.
-/
import proofs.«111807_j45552423141540_2_alg».proof.Proof.TilePayloadsA
import proofs.«111807_j45552423141540_2_alg».proof.Proof.TilePayloadsB

noncomputable section

open scoped BigOperators

namespace Cert.KernelIdeal.Tile

open Cert.KernelIdeal Cert.KernelIdeal.Gen Idealize.ShloMosaic Idealize.ShloMosaic.ValueIdx

/-! ## A product contracted over the rows of both operands -/

/-- The dimension numbers of the accumulating product: the row axis of the 10000 × 64 left operand against the row
    axis of the 10000 × 128 right operand. -/
abbrev rowsDot : DotDims S10000x64 S10000x128 S64x128 := dot_S10000x64_S10000x128_S64x128_0_0_1_1_n_n

/-- The left operand's second coordinate is the output's first. -/
theorem rowsDot_lhs_1 (i : S64x128.Idx) (q : rowsDot.contr.Idx) : (rowsDot.lhsIdx i q 1).val = (i 0).val := by
  unfold DotDims.lhsIdx
  rw [dif_neg (show ¬(1 : Fin S10000x64.rank) ∈ rowsDot.lhsBatch by decide),
    dif_pos (show (1 : Fin S10000x64.rank) ∈ rowsDot.lhsNonContracting by decide)]
  rfl

/-- The right operand's second coordinate is the output's second. -/
theorem rowsDot_rhs_1 (i : S64x128.Idx) (q : rowsDot.contr.Idx) : (rowsDot.rhsIdx i q 1).val = (i 1).val := by
  unfold DotDims.rhsIdx
  rw [dif_neg (show ¬(1 : Fin S10000x128.rank) ∈ rowsDot.rhsBatch by decide),
    dif_pos (show (1 : Fin S10000x128.rank) ∈ rowsDot.rhsNonContracting by decide)]
  rfl

/-- The left operand's index at output entry (k, d) and contraction position r is (r, k). -/
theorem rowsDot_lhsIdx (k : Fin 64) (d : Fin 128) (r : Fin 10000) :
    rowsDot.lhsIdx (ix2 k d) ((contrEquiv1 rowsDot 10000 rfl rfl).symm r) = ix2 r k := by
  have hr := contrEquiv1_symm_val rowsDot 10000 rfl rfl r
  funext a; apply Fin.ext
  match a with
  | ⟨0, _⟩ => exact (rowsDot.lhsIdx_val_of_single rfl _ _).trans hr
  | ⟨1, _⟩ => exact rowsDot_lhs_1 _ _

/-- The right operand's index at output entry (k, d) and contraction position r is (r, d). -/
theorem rowsDot_rhsIdx (k : Fin 64) (d : Fin 128) (r : Fin 10000) :
    rowsDot.rhsIdx (ix2 k d) ((contrEquiv1 rowsDot 10000 rfl rfl).symm r) = ix2 r d := by
  have hr := contrEquiv1_symm_val rowsDot 10000 rfl rfl r
  funext a; apply Fin.ext
  match a with
  | ⟨0, _⟩ => exact (rowsDot.rhsIdx_val_of_single rfl _ _).trans hr
  | ⟨1, _⟩ => exact rowsDot_rhs_1 _ _

/-- Entry (k, d) of the product into the zero splat is the sum over the rows r of x (r, k) · y (r, d). -/
theorem rowsDot_apply {φ₁ φ₂ : FTy} (x : FVec Ideal S10000x64 φ₁) (y : FVec Ideal S10000x128 φ₂) (k : Fin 64) (d : Fin 128) :
    matmul (F := Ideal) rowsDot none x y (constant (F := Ideal) S64x128 .f32 0x00000000#32) (ix2 k d)
      = ∑ r : Fin 10000, x (ix2 r k) * y (ix2 r d) := by
  simp only [matmul]
  rw [Ideal.matmul_constant_zero_apply, ← Equiv.sum_comp (contrEquiv1 rowsDot 10000 rfl rfl).symm]
  exact Finset.sum_congr rfl fun r _ => by rw [rowsDot_lhsIdx, rowsDot_rhsIdx]

/-! ## The accumulator's step -/

/-- One tile's step: the accumulator plus, entry by entry, the sum over the tile's 10000 rows of the row's assignment
    to cluster k times the row's scaled feature d. -/
theorem agg_tile (v3 : Vec Ideal S10000x128 .f32) (v4 : Vec Ideal S1x128 .f32) (v11 : Vec Ideal S128x64 .f32)
    (v15 : Vec Ideal S1x64 .f32) (v32 : Vec Ideal S64x128 .f32) (k : Fin 64) (d : Fin 128) :
    k1_pay8 (F := Ideal) v3 v4 v11 v15 v32 (ix2 k d)
      = v32 (ix2 k d) + ∑ r : Fin 10000, Cert.Vlad.assign (wOf v11) (bOf v15) (normOf v4) (rowOf v3 r) k
          * Cert.Vlad.unitRow (normOf v4) (rowOf v3 r) d := by
  unfold k1_pay8
  rw [shapeCast_self]
  refine (addf_apply _ _ _).trans ?_
  refine congrArg (fun s => v32 (ix2 k d) + s) ?_
  refine (rowsDot_apply (truncf .bf16 (k1_pay7 (F := Ideal) v3 v4 v11 v15) bitsLt_bf16_f32) (k1_pay6 (F := Ideal) v3 v4) k d).trans ?_
  refine Finset.sum_congr rfl fun r _ => ?_
  exact congrArg₂ (fun a b => a * b) (assign_tile v3 v4 v11 v15 r k) (unit_tile v3 v4 r d)

end Cert.KernelIdeal.Tile

end
-- ==== Proof.ResultIsVlad.lean ====
/-
  The kernel program's result is the pooled descriptor.

  The fold's last contents at the result buffer, read through the two host stretches and the two regions' exit values:
  region 0 leaves in each half h the column sums of squares over the half's ten tiles; the first host stretch adds the
  halves and takes the square root, transposes the weights and lays the bias out as a row; region 1, reading those, leaves
  in each half the aggregate and the masses over the half's ten tiles at the floored column norms; the second host stretch
  adds the halves, subtracts the weighted centroids and divides by the floored column norms over the clusters. With the
  halves added up (the sums regrouped: VladHalves) this is the specification, entry by entry.
-/
import proofs.«111807_j45552423141540_2_alg».proof.Proof.WholeFrame
import proofs.«111807_j45552423141540_2_alg».proof.Proof.HostParts
import proofs.«111807_j45552423141540_2_alg».proof.Proof.VladHalves
import proofs.«111807_j45552423141540_2_alg».proof.Proof.TilePayloads

noncomputable section

namespace Cert.KernelIdeal.Whole

open Cert.KernelIdeal Cert.KernelIdeal.Gen Cert.KernelIdeal.Tile
open Idealize.ShloMosaic Idealize.ShloMosaic.TcCoe Idealize.ShloMosaic.ValueIdx
open Idealize.SL Idealize.SL.Sem
open Cert.Vlad (row tile)

variable (m : (ℓ : Loc nD τ sig) → Buf (Elt Ideal) ℓ)
variable (colsq : Half Ideal cfg0) (aggr : Half Ideal cfg1)

/-- Region 0's exit value: half h of its output array holds the half's column sums of squares. -/
def ExitColSq (colsq : Half Ideal cfg0) (c : Dev nD) : Prop :=
  ∀ (V : Contents Ideal) (X : S200000x128.Idx → EReal), (V c main_arg0 : S200000x128.Idx → EReal) = X →
    ∀ (h : Fin 2) (d : Fin 128),
      ((colsq V c).arrAt 1 cfg0.N : S2x1x128.Idx → EReal) (ix3 h (0 : Fin 1) d)
        = ∑ i : Fin 10, ∑ r : Fin 10000, X (ix2 (row (tile h i) r) d) * X (ix2 (row (tile h i) r) d)

/-- Region 1's exit value at the aggregate: half h holds the half's assignment-weighted sum of the scaled points. -/
def ExitAgg (aggr : Half Ideal cfg1) (c : Dev nD) : Prop :=
  ∀ (V : Contents Ideal) (X : S200000x128.Idx → EReal), (V c main_arg0 : S200000x128.Idx → EReal) = X →
    ∀ (ν : S1x128.Idx → EReal), (V c main_v6 : S1x128.Idx → EReal) = ν →
    ∀ (Wt : S128x64.Idx → EReal), (V c main_v7 : S128x64.Idx → EReal) = Wt →
    ∀ (bb : S1x64.Idx → EReal), (V c main_v8 : S1x64.Idx → EReal) = bb →
    ∀ (h : Fin 2) (k : Fin 64) (d : Fin 128),
      ((aggr V c).arrAt 5 cfg1.N : S2x64x128.Idx → EReal) (ix3 h k d)
        = ∑ i : Fin 10, ∑ r : Fin 10000, Cert.Vlad.assign (wOf Wt) (bOf bb) (normOf ν) (fun d' => X (ix2 (row (tile h i) r) d')) k
            * Cert.Vlad.unitRow (normOf ν) (fun d' => X (ix2 (row (tile h i) r) d')) d

/-- Region 1's exit value at the masses. -/
def ExitMass (aggr : Half Ideal cfg1) (c : Dev nD) : Prop :=
  ∀ (V : Contents Ideal) (X : S200000x128.Idx → EReal), (V c main_arg0 : S200000x128.Idx → EReal) = X →
    ∀ (ν : S1x128.Idx → EReal), (V c main_v6 : S1x128.Idx → EReal) = ν →
    ∀ (Wt : S128x64.Idx → EReal), (V c main_v7 : S128x64.Idx → EReal) = Wt →
    ∀ (bb : S1x64.Idx → EReal), (V c main_v8 : S1x64.Idx → EReal) = bb →
    ∀ (h : Fin 2) (k : Fin 64),
      ((aggr V c).arrAt 6 cfg1.N : S2x1x64.Idx → EReal) (ix3 h (0 : Fin 1) k)
        = ∑ i : Fin 10, ∑ r : Fin 10000, Cert.Vlad.assign (wOf Wt) (bOf bb) (normOf ν) (fun d' => X (ix2 (row (tile h i) r) d')) k

variable (ok0 : HalfOk0 colsq) (ok1 : HalfOk1 aggr)

/-- The fold's last contents at the result buffer are the pooled descriptor of the launch arguments. -/
theorem result_is_vlad (ok0 : HalfOk0 colsq) (ok1 : HalfOk1 aggr) (c : Dev nD)
    (e0 : ExitColSq colsq c) (e5 : ExitAgg aggr c) (e6 : ExitMass aggr c) :
    (W4 m colsq aggr c (Proc.devRef .tc main_v32) : S1x64x128.Idx → EReal)
      = Cert.Vlad.G (m ((c.tc : Thread nD τ).loc main_arg0)) (m ((c.tc : Thread nD τ).loc main_arg1))
          (m ((c.tc : Thread nD τ).loc main_arg2)) (m ((c.tc : Thread nD τ).loc main_arg3)) := by
  funext i
  obtain ⟨z, k, d, rfl⟩ : ∃ (z : Fin 1) (k : Fin 64) (d : Fin 128), i = ix3 z k d := ⟨i 0, i 1, i 2, eq_ix3 i⟩
  obtain rfl : z = 0 := Subsingleton.elim _ _
  -- the launch arguments as plain functions
  obtain ⟨X, hX⟩ : ∃ X : S200000x128.Idx → EReal, (m ((c.tc : Thread nD τ).loc main_arg0) : S200000x128.Idx → EReal) = X := ⟨_, rfl⟩
  obtain ⟨Wm, hWm⟩ : ∃ Wm : S64x128.Idx → EReal, (m ((c.tc : Thread nD τ).loc main_arg1) : S64x128.Idx → EReal) = Wm := ⟨_, rfl⟩
  obtain ⟨bv, hbv⟩ : ∃ bv : S64.Idx → EReal, (m ((c.tc : Thread nD τ).loc main_arg2) : S64.Idx → EReal) = bv := ⟨_, rfl⟩
  obtain ⟨cen, hcen⟩ : ∃ cen : S64x128.Idx → EReal, (m ((c.tc : Thread nD τ).loc main_arg3) : S64x128.Idx → EReal) = cen := ⟨_, rfl⟩
  -- what the buffers hold at the boundaries
  have a0_1 : (W1 m colsq c (Proc.devRef .tc main_arg0) : S200000x128.Idx → EReal) = X :=
    (W1_in m colsq ok0 c 0 rfl).trans hX
  have a0_2 : (V2 m colsq c main_arg0 : S200000x128.Idx → EReal) = X :=
    (W2_of m colsq c main_arg0 (by decide)).trans a0_1
  have a1_1 : (W1 m colsq c (Proc.devRef .tc main_arg1) : S64x128.Idx → EReal) = Wm :=
    (W1_of_ne m colsq c main_arg1 (by decide)).trans hWm
  have a2_1 : (W1 m colsq c (Proc.devRef .tc main_arg2) : S64.Idx → EReal) = bv :=
    (W1_of_ne m colsq c main_arg2 (by decide)).trans hbv
  have a3_3 : (W3 m colsq aggr c (Proc.devRef .tc main_arg3) : S64x128.Idx → EReal) = cen :=
    (W3_in m colsq aggr ok1 c 4 rfl).trans <| (W2_of m colsq c main_arg3 (by decide)).trans <|
      (W1_of_ne m colsq c main_arg3 (by decide)).trans hcen
  -- region 0's output array
  obtain ⟨S, hS⟩ : ∃ S : S2x1x128.Idx → EReal, (W1 m colsq c (Proc.devRef .tc main_v0) : S2x1x128.Idx → EReal) = S := ⟨_, rfl⟩
  have hSval : ∀ (h : Fin 2) (d : Fin 128), S (ix3 h (0 : Fin 1) d)
      = ∑ i : Fin 10, ∑ r : Fin 10000, X (ix2 (row (tile h i) r) d) * X (ix2 (row (tile h i) r) d) := by
    intro h d
    rw [← hS, show (W1 m colsq c (Proc.devRef .tc main_v0) : S2x1x128.Idx → EReal) = (colsq (V0 m) c).arrAt 1 cfg0.N from W1_arr m colsq c 1]
    exact e0 (V0 m) X hX h d
  -- the first host stretch
  obtain ⟨ν, hν⟩ : ∃ ν : S1x128.Idx → EReal, (V2 m colsq c main_v6 : S1x128.Idx → EReal) = ν := ⟨_, rfl⟩
  obtain ⟨Wt, hWt⟩ : ∃ Wt : S128x64.Idx → EReal, (V2 m colsq c main_v7 : S128x64.Idx → EReal) = Wt := ⟨_, rfl⟩
  obtain ⟨bb, hbb⟩ : ∃ bb : S1x64.Idx → EReal, (V2 m colsq c main_v8 : S1x64.Idx → EReal) = bb := ⟨_, rfl⟩
  have hνval : ∀ d : Fin 128, ν (ix2 (0 : Fin 1) d) = Ideal.sqrt (S (ix3 (0 : Fin 2) (0 : Fin 1) d) + S (ix3 (1 : Fin 2) (0 : Fin 1) d)) := by
    intro d; rw [← hν]; exact Cert.KernelIdeal.HostParts.norms_apply (W1 m colsq c) S hS d
  have hWtval : ∀ (j : Fin 128) (k : Fin 64), Wt (ix2 j k) = Wm (ix2 k j) := by
    intro j k; rw [← hWt]; exact Cert.KernelIdeal.HostParts.wt_apply (W1 m colsq c) Wm a1_1 j k
  have hbbval : ∀ k : Fin 64, bb (ix2 (0 : Fin 1) k) = bv (ix1 k) := by
    intro k; rw [← hbb]; exact Cert.KernelIdeal.HostParts.bias_apply (W1 m colsq c) bv a2_1 k
  -- region 1's output arrays
  obtain ⟨A, hA⟩ : ∃ A : S2x64x128.Idx → EReal, (W3 m colsq aggr c (Proc.devRef .tc main_v9_0) : S2x64x128.Idx → EReal) = A := ⟨_, rfl⟩
  obtain ⟨s, hs⟩ : ∃ s : S2x1x64.Idx → EReal, (W3 m colsq aggr c (Proc.devRef .tc main_v9_1) : S2x1x64.Idx → EReal) = s := ⟨_, rfl⟩
  have hAval : ∀ (h : Fin 2) (k : Fin 64) (d : Fin 128), A (ix3 h k d)
      = ∑ i : Fin 10, ∑ r : Fin 10000, Cert.Vlad.assign (wOf Wt) (bOf bb) (normOf ν) (fun d' => X (ix2 (row (tile h i) r) d')) k
          * Cert.Vlad.unitRow (normOf ν) (fun d' => X (ix2 (row (tile h i) r) d')) d := by
    intro h k d
    rw [← hA, show (W3 m colsq aggr c (Proc.devRef .tc main_v9_0) : S2x64x128.Idx → EReal) = (aggr (V2 m colsq) c).arrAt 5 cfg1.N from W3_arr m colsq aggr c 5]
    exact e5 (V2 m colsq) X a0_2 ν hν Wt hWt bb hbb h k d
  have hsval : ∀ (h : Fin 2) (k : Fin 64), s (ix3 h (0 : Fin 1) k)
      = ∑ i : Fin 10, ∑ r : Fin 10000, Cert.Vlad.assign (wOf Wt) (bOf bb) (normOf ν) (fun d' => X (ix2 (row (tile h i) r) d')) k := by
    intro h k
    rw [← hs, show (W3 m colsq aggr c (Proc.devRef .tc main_v9_1) : S2x1x64.Idx → EReal) = (aggr (V2 m colsq) c).arrAt 6 cfg1.N from W3_arr m colsq aggr c 6]
    exact e6 (V2 m colsq) X a0_2 ν hν Wt hWt bb hbb h k
  -- the specification, from the halves
  have hw : wOf Wt = fun k j => Wm (ix2 k j) := funext fun k => funext fun j => hWtval j k
  have hb : bOf bb = fun k => bv (ix1 k) := funext fun k => hbbval k
  have key := Cert.Vlad.out_of_halves (fun n d => X (ix2 n d)) (fun k j => Wm (ix2 k j)) (fun k => bv (ix1 k)) (fun k d => cen (ix2 k d))
    (fun h d => S (ix3 h (0 : Fin 1) d)) (fun h d => hSval h d)
    (normOf ν) (fun d => congrArg (max · Cert.Vlad.eps) (hνval d))
    (fun h k d => A (ix3 h k d)) (fun h k d => by rw [hAval h k d, hw, hb])
    (fun h k => s (ix3 h (0 : Fin 1) k)) (fun h k => by rw [hsval h k, hw, hb]) k d
  -- the second host stretch, then the specification
  refine (Cert.KernelIdeal.HostParts.out_apply (W3 m colsq aggr c) A s cen hA hs a3_3 k d).trans ?_
  refine key.trans ?_
  rw [← hX, ← hWm, ← hbv, ← hcen]
  rfl

end Cert.KernelIdeal.Whole

end
-- ==== Proof.ColSqShared.lean ====
/- The column-sum-of-squares kernel (region 0 of @main) as a pipeline body: what its three case runs share.
   The kernel accumulates, per column, the sum of squares of a 10000x128 tile of x into a 1x128 scratch; the
   scratch is zeroed where grid coordinate 1 is 0 and copied to the output block where it is 9. Everything here
   is stated at a parameter V: the contents of the TensorCore's buffers when the region is entered. -/
import proofs.«111807_j45552423141540_2_alg».proof.Proof.Gen.KernelIdeal.Launch
import proofs.«111807_j45552423141540_2_alg».proof.Proof.Gen.KernelIdeal.Skeleton
import proofs.«111807_j45552423141540_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.ColSq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's current staging buffer holds the tile's block at every point, fetched there or not, for any proof
    data whose array is the entry contents and whose body leaves the block in place: the window is an input, uncut
    and never idle. -/
theorem xTile_before_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, in closed form over the grid -/

/-- The body zeroes the scratch: grid coordinate 1 is 0 (the comparison chain the kernel computes). -/
abbrev atFirst (i : grid0.Coords) : Prop := (Scalar.cmpi .ne (Scalar.extui (Scalar.cmpi .eq (BitVec.ofNat 32 (i 1).val) 0#32)) 0#32) = 1#1
/-- It does so at the points ≡ 0 (mod 10): the first step of each of the two row halves. -/
theorem atFirst_iff : ∀ t : Fin cfg0.N, atFirst (grid0.coords t) ↔ t.val % 10 = 0 :=
  (by decide +kernel : ∀ t : Fin grid0.N, atFirst (grid0.coords t) ↔ t.val % 10 = 0)

/-- The body copies the scratch to the output block: grid coordinate 1 is 9. -/
abbrev atLast (i : grid0.Coords) : Prop := k0_cond2 i = 1#1
/-- It does so at the points ≡ 9 (mod 10): the last step of each half. -/
theorem atLast_iff : ∀ t : Fin cfg0.N, atLast (grid0.coords t) ↔ t.val % 10 = 9 :=
  (by decide +kernel : ∀ t : Fin grid0.N, atLast (grid0.coords t) ↔ t.val % 10 = 9)

/-! ## Where the windows are idle -/

/-- The x tile is never idle (an input). -/
theorem xTile_live : ∀ t : Fin cfg0.N, cfg0.idle 0 (grid0.coords t) = false := by decide +kernel
/-- Away from a half's last step the output block is idle: the body stores nothing into it, -/
theorem out_idle : ∀ t : Fin cfg0.N, ¬atLast (grid0.coords t) → cfg0.idle 1 (grid0.coords t) = true := by decide +kernel
/-- and the pipeline does not write it back there. -/
theorem out_noFlush : ∀ t : Fin cfg0.N, ¬atLast (grid0.coords t) → (cfg0.win 1).flush t = false := by decide +kernel
/-- At a half's last step the output block is live: the body stores the column sums into it. -/
theorem out_live : ∀ t : Fin cfg0.N, atLast (grid0.coords t) → cfg0.idle 1 (grid0.coords t) = false := by decide +kernel

/-! ## The memrefs the body is called with -/

/-- One staging buffer of the output block, through which its contents are stated (the choice does not matter). -/
abbrev outView : View sig .tc .vmem S1x1x128 .f32 := (Memref.whole cc0_stg1_0 : Memref sig .tc .vmem S1x1x128 .f32).view
/-- Each window's current staging memref at point `t`, as the pipeline passes it, and its wholeness. -/
abbrev xStage (t : Fin cfg0.N) : Memref sig .tc .vmem S10000x128 .f32 := win0_0.stage (cfg0.slots t 0)
abbrev xStage_whole (t : Fin cfg0.N) : (xStage t).IsWhole := hstage0_0 ((cfg0.slots t 0).cast nbuf0_0)
abbrev outStage (t : Fin cfg0.N) : Memref sig .tc .vmem S1x1x128 .f32 := win0_1.stage (cfg0.slots t 1)
abbrev outStage_whole (t : Fin cfg0.N) : (outStage t).IsWhole := hstage0_1 ((cfg0.slots t 1).cast nbuf0_1)
/-- The accumulator: the 1x128 scratch the kernel carries from point to point, a whole scoped buffer of its own. -/
abbrev accM : Memref sig .tc .vmem S1x128 .f32 := Memref.whole cc0_scratch0
/-- and the view through which its contents are stated. -/
abbrev accView : View sig .tc .vmem S1x128 .f32 := accM.view

/-! ## The region invariant the launch hands over -/

/-- The core's scoped buffers that are neither a staging buffer of this region nor its accumulator — the other
    region's staging buffers and scratches —, each whole at some contents: the body never touches them. -/
def bystanders (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- What the launch hands the region: the accumulator owned at some contents, the bystanders, and the generator
    register at some state. -/
theorem entry_eq (c : Dev nD) :
    (Pipeline.ΦA spec0 c : sProp 𝕄)
      = iprop(iprop((∃ d, owns (c : Thread nD τ) accM fullShare d) ∗ bystanders (F := F) c) ∗ (∃ r, prngReg c r)) := by
  unfold Pipeline.ΦA bystanders; rw [scopedRest0_eq]; simp only [accM, owns_whole]; try rfl

end Cert.KernelIdeal.ColSq

end
-- ==== Proof.ColSqRunMid.lean ====
/- The column-sum-of-squares kernel's body at a MIDDLE step of a half (grid coordinate 1 neither 0 nor 9):
   it adds the tile's column sums of squares to the accumulator and leaves the output block alone. -/
import proofs.«111807_j45552423141540_2_alg».proof.Proof.ColSqShared

set_option maxRecDepth 16384

noncomputable section

namespace Cert.KernelIdeal.ColSq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- MIDDLE STEP. On whole memrefs — the x tile's at contents `x0`, the output block's at contents `xi1` (handed back
    untouched: the step stores nothing into it), the accumulator at what the step before left, `xs0` — the body
    runs to a continuation holding the tile and the output block as they were and the accumulator with the pieces
    `LS` written: one store of the whole 1x128 row, `xs0` plus the column sums of `x0` squared. The pieces are the
    witness the symbolic run finds; the output block gets none. -/
noncomputable def runMid (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : ¬atLast i)
    (x0 : Vec F S10000x128 .f32) (xs0 : Vec F S1x128 .f32) :
    Σ' (L1 : List (View.Piece (Elt F) S1x1x128 .f32)), { LS : List (View.Piece (Elt F) S1x128 .f32) //
      ∀ (xi1 : Vec F S1x1x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0__colnorm_kernel i arg2 harg2 arg3 harg3 arg4 harg4) K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.ColSq

end
-- ==== Proof.ColSqRunFirst.lean ====
/- The column-sum-of-squares kernel's body at the FIRST step of a half (grid coordinate 1 is 0): it zeroes the
   accumulator, then adds the tile's column sums of squares to it, and leaves the output block alone. -/
import proofs.«111807_j45552423141540_2_alg».proof.Proof.ColSqRunMid

set_option maxRecDepth 16384

noncomputable section

namespace Cert.KernelIdeal.ColSq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- FIRST STEP. On whole memrefs — the x tile's at contents `x0`, the output block's at contents `xi1` (handed back
    untouched), the accumulator at ANYTHING (the step overwrites it before reading it: at the second half's first
    step it still holds the first half's total) — the body runs to a continuation holding the tile and the output
    block as they were and the accumulator with the pieces `LS` written: two stores of the whole 1x128 row, the
    zeros and then the zeros read back plus the column sums of `x0` squared. The pieces are the witness the symbolic
    run finds; the output block gets none. -/
noncomputable def runFirst (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : atFirst i) (hL : ¬atLast i)
    (x0 : Vec F S10000x128 .f32) :
    Σ' (L1 : List (View.Piece (Elt F) S1x1x128 .f32)), { LS : List (View.Piece (Elt F) S1x128 .f32) //
      ∀ (xi1 : Vec F S1x1x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0__colnorm_kernel i arg2 harg2 arg3 harg3 arg4 harg4) K } := by
  refine ⟨[], ?_, fun xi1 E K => ?run⟩
  case run =>
    simp only [cc0__colnorm_kernel_eq_skeleton]; unfold cc0__colnorm_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.ColSq

end
-- ==== Proof.ColSqRunLast.lean ====
/- The column-sum-of-squares kernel's body at the LAST step of a half (grid coordinate 1 is 9): it adds the tile's
   column sums of squares to the accumulator, then copies the accumulator into the output block. -/
import proofs.«111807_j45552423141540_2_alg».proof.Proof.ColSqRunFirst

set_option maxRecDepth 16384

noncomputable section

namespace Cert.KernelIdeal.ColSq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- LAST STEP. On whole memrefs — the x tile's at contents `x0`, the output block's at anything, the accumulator at
    what the step before left, `xs0` — the body runs to a continuation holding the tile as it was, the accumulator
    with the pieces `LS` written (one store of the whole row: `xs0` plus the column sums of `x0` squared) and the
    output block with the pieces `L1` written (one store of the whole 1x1x128 block: the accumulator read back,
    reshaped). The pieces are the witness the symbolic run finds. -/
noncomputable def runLast (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i)
    (x0 : Vec F S10000x128 .f32) (xs0 : Vec F S1x128 .f32) :
    Σ' (L1 : List (View.Piece (Elt F) S1x1x128 .f32)), { LS : List (View.Piece (Elt F) S1x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__colnorm_kernel i arg2 harg2 arg3 harg3 arg4 harg4) K } := by
  refine ⟨?_, ?_, fun E K => ?run⟩
  case run =>
    simp only [cc0__colnorm_kernel_eq_skeleton]; unfold cc0__colnorm_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hF | exact hL)
    sl_step
    iapply Hk
    isplitl [H0]
    · iexists _; isplitr; · ipureintro; exact harg2.read_unread _
      iexact H0
    isplitl [H1]; · iexists _; iexact H1
    iexists _; iexact HS0

end Cert.KernelIdeal.ColSq

end
-- ==== Proof.ColSq.lean ====
/- The column-sum-of-squares kernel (region 0 of @main) as a pipeline body: what each of its three steps leaves in
   the accumulator and the output block, the accumulation point by point over the 20 grid points, the pipeline's
   proof data at the entry contents V, and the body obligation. -/
import proofs.«111807_j45552423141540_2_alg».proof.Proof.ColSqRunLast

set_option maxRecDepth 16384

noncomputable section

namespace Cert.KernelIdeal.ColSq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each step leaves: its pieces read back -/

/-- A first step stores nothing into the output block: no pieces, a placeholder nothing consults (the block is
    idle there and not written back). -/
def outFirst (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : atFirst i) (hL : ¬atLast i) (x0 : Vec F S10000x128 .f32) : Vec F S1x1x128 .f32 :=
  outView.read (Elt F) (outView.writes (Elt F) outView.junk (runFirst c i arg2 harg2 arg3 harg3 arg4 harg4 hF hL x0).1)

/-- A first step's two stores each cover the accumulator row. -/
theorem accFirst_cover (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : atFirst i) (hL : ¬atLast i) (x0 : Vec F S10000x128 .f32) (y : S1x128.Idx) :
    ∃ pc ∈ (runFirst c i arg2 harg2 arg3 harg3 arg4 harg4 hF hL x0).2.1, y ∈ pc.1.set :=
  View.cover_of_tiledL (runFirst c i arg2 harg2 arg3 harg3 arg4 harg4 hF hL x0).2.1 S1x128.size (by sl_kernel_rfl) y

/-- What a first step leaves in the accumulator: zero plus the column sums of the tile squared. -/
def accFirst (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : atFirst i) (hL : ¬atLast i) (x0 : Vec F S10000x128 .f32) : Vec F S1x128 .f32 :=
  accView.read (Elt F) (accView.writes (Elt F) accView.junk (runFirst c i arg2 harg2 arg3 harg3 arg4 harg4 hF hL x0).2.1)

/-- A middle step stores nothing into the output block: a placeholder nothing consults. -/
def outMid (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : ¬atLast i) (x0 : Vec F S10000x128 .f32) (xs0 : Vec F S1x128 .f32) : Vec F S1x1x128 .f32 :=
  outView.read (Elt F) (outView.writes (Elt F) outView.junk (runMid c i arg2 harg2 arg3 harg3 arg4 harg4 hF hL x0 xs0).1)

/-- A middle step's store covers the accumulator row. -/
theorem accMid_cover (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : ¬atLast i) (x0 : Vec F S10000x128 .f32) (xs0 : Vec F S1x128 .f32) (y : S1x128.Idx) :
    ∃ pc ∈ (runMid c i arg2 harg2 arg3 harg3 arg4 harg4 hF hL x0 xs0).2.1, y ∈ pc.1.set :=
  View.cover_of_tiledL (runMid c i arg2 harg2 arg3 harg3 arg4 harg4 hF hL x0 xs0).2.1 S1x128.size (by sl_kernel_rfl) y

/-- What a middle step leaves in the accumulator: what it found plus the column sums of the tile squared. -/
def accMid (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : ¬atLast i) (x0 : Vec F S10000x128 .f32) (xs0 : Vec F S1x128 .f32) : Vec F S1x128 .f32 :=
  accView.read (Elt F) (accView.writes (Elt F) accView.junk (runMid c i arg2 harg2 arg3 harg3 arg4 harg4 hF hL x0 xs0).2.1)

/-- A last step's store covers the output block. -/
theorem outLast_cover (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec F S10000x128 .f32) (xs0 : Vec F S1x128 .f32) (y : S1x1x128.Idx) :
    ∃ pc ∈ (runLast c i arg2 harg2 arg3 harg3 arg4 harg4 hF hL x0 xs0).1, y ∈ pc.1.set :=
  View.cover_of_tiledL (runLast c i arg2 harg2 arg3 harg3 arg4 harg4 hF hL x0 xs0).1 S1x1x128.size (by sl_kernel_rfl) y

/-- What a last step leaves in the output block: the accumulator's final row, reshaped. -/
def outLast (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec F S10000x128 .f32) (xs0 : Vec F S1x128 .f32) : Vec F S1x1x128 .f32 :=
  outView.read (Elt F) (outView.writes (Elt F) outView.junk (runLast c i arg2 harg2 arg3 harg3 arg4 harg4 hF hL x0 xs0).1)

/-- A last step's store covers the accumulator row. -/
theorem accLast_cover (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec F S10000x128 .f32) (xs0 : Vec F S1x128 .f32) (y : S1x128.Idx) :
    ∃ pc ∈ (runLast c i arg2 harg2 arg3 harg3 arg4 harg4 hF hL x0 xs0).2.1, y ∈ pc.1.set :=
  View.cover_of_tiledL (runLast c i arg2 harg2 arg3 harg3 arg4 harg4 hF hL x0 xs0).2.1 S1x128.size (by sl_kernel_rfl) y

/-- What a last step leaves in the accumulator: what it found plus the column sums of the tile squared. -/
def accLast (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec F S10000x128 .f32) (xs0 : Vec F S1x128 .f32) : Vec F S1x128 .f32 :=
  accView.read (Elt F) (accView.writes (Elt F) accView.junk (runLast c i arg2 harg2 arg3 harg3 arg4 harg4 hF hL x0 xs0).2.1)

/-! ## The accumulation, point by point -/

/-- ONE STEP of the accumulation: what the output block's staging buffer and the accumulator hold after the body
    at point `t`, from what the accumulator held before it (`prev`): the step the closed forms select at `t`, run at
    the point's memrefs and the tile's block there. A first step does not read `prev`. -/
def stepAt (c : Dev nD) (t : Fin cfg0.N) (prev : Vec F S1x128 .f32) : Vec F S1x1x128 .f32 × Vec F S1x128 .f32 :=
  if h0 : t.val % 10 = 0 then
    (outFirst c (grid0.coords t) (xStage t) (xStage_whole t) (outStage t) (outStage_whole t) accM (Memref.isWhole_whole _) ((atFirst_iff t).mpr h0) (fun h => by have h9 := (atLast_iff t).mp h; omega) (iblk V c 0 t),
     accFirst c (grid0.coords t) (xStage t) (xStage_whole t) (outStage t) (outStage_whole t) accM (Memref.isWhole_whole _) ((atFirst_iff t).mpr h0) (fun h => by have h9 := (atLast_iff t).mp h; omega) (iblk V c 0 t))
  else if h9 : t.val % 10 = 9 then
    (outLast c (grid0.coords t) (xStage t) (xStage_whole t) (outStage t) (outStage_whole t) accM (Memref.isWhole_whole _) (fun h => h0 ((atFirst_iff t).mp h)) ((atLast_iff t).mpr h9) (iblk V c 0 t) prev,
     accLast c (grid0.coords t) (xStage t) (xStage_whole t) (outStage t) (outStage_whole t) accM (Memref.isWhole_whole _) (fun h => h0 ((atFirst_iff t).mp h)) ((atLast_iff t).mpr h9) (iblk V c 0 t) prev)
  else
    (outMid c (grid0.coords t) (xStage t) (xStage_whole t) (outStage t) (outStage_whole t) accM (Memref.isWhole_whole _) (fun h => h0 ((atFirst_iff t).mp h)) (fun h => h9 ((atLast_iff t).mp h)) (iblk V c 0 t) prev,
     accMid c (grid0.coords t) (xStage t) (xStage_whole t) (outStage t) (outStage_whole t) accM (Memref.isWhole_whole _) (fun h => h0 ((atFirst_iff t).mp h)) (fun h => h9 ((atLast_iff t).mp h)) (iblk V c 0 t) prev)

/-- THE ACCUMULATION: the pair (output block's staging buffer, accumulator) after the body at position `n`: the
    steps folded from point 0, each over the accumulator the one before left. Point 0 is a first step, which reads
    nothing of what was there before. -/
def stateAt (c : Dev nD) : (n : ℕ) → n < cfg0.N → Vec F S1x1x128 .f32 × Vec F S1x128 .f32
  | 0, hn => stepAt V c ⟨0, hn⟩ (accView.read (Elt F) accView.junk)
  | n + 1, hn => stepAt V c ⟨n + 1, hn⟩ (stateAt c n (Nat.lt_of_succ_lt hn)).2

/-- What the accumulator holds when point `t` starts, for a point that is not the region's first: what the point
    before left. -/
abbrev accBefore (c : Dev nD) (t : Fin cfg0.N) : Vec F S1x128 .f32 :=
  (stateAt V c (t.val - 1) (Nat.lt_of_le_of_lt (Nat.sub_le _ _) t.isLt)).2

/-- The accumulation at a first step (points 0 and 10): that step's contents, whatever came before. -/
theorem stateAt_first (c : Dev nD) (t : Fin cfg0.N) (h0 : t.val % 10 = 0) (hL : ¬atLast (grid0.coords t)) :
    stateAt V c t.val t.isLt
      = (outFirst c (grid0.coords t) (xStage t) (xStage_whole t) (outStage t) (outStage_whole t) accM (Memref.isWhole_whole _) ((atFirst_iff t).mpr h0) hL (iblk V c 0 t),
         accFirst c (grid0.coords t) (xStage t) (xStage_whole t) (outStage t) (outStage_whole t) accM (Memref.isWhole_whole _) ((atFirst_iff t).mpr h0) hL (iblk V c 0 t)) := by
  obtain ⟨n, hn⟩ := t
  cases n with
  | zero => show stepAt V c ⟨0, hn⟩ _ = _; unfold stepAt; rw [dif_pos h0]
  | succ n => show stepAt V c ⟨n + 1, hn⟩ _ = _; unfold stepAt; rw [dif_pos h0]

/-- The accumulation at a middle step: that step's contents over what the point before left. -/
theorem stateAt_mid (c : Dev nD) (t : Fin cfg0.N) (h0 : ¬t.val % 10 = 0) (h9 : ¬t.val % 10 = 9) :
    stateAt V c t.val t.isLt
      = (outMid c (grid0.coords t) (xStage t) (xStage_whole t) (outStage t) (outStage_whole t) accM (Memref.isWhole_whole _) (fun h => h0 ((atFirst_iff t).mp h)) (fun h => h9 ((atLast_iff t).mp h)) (iblk V c 0 t) (accBefore V c t),
         accMid c (grid0.coords t) (xStage t) (xStage_whole t) (outStage t) (outStage_whole t) accM (Memref.isWhole_whole _) (fun h => h0 ((atFirst_iff t).mp h)) (fun h => h9 ((atLast_iff t).mp h)) (iblk V c 0 t) (accBefore V c t)) := by
  obtain ⟨n, hn⟩ := t
  cases n with
  | zero => exact absurd (Nat.zero_mod _) h0
  | succ n => exact (dif_neg h0).trans ((dif_neg h9).trans rfl)

/-- The accumulation at a last step (points 9 and 19): that step's contents over what the point before left. -/
theorem stateAt_last (c : Dev nD) (t : Fin cfg0.N) (h0 : ¬t.val % 10 = 0) (h9 : t.val % 10 = 9) :
    stateAt V c t.val t.isLt
      = (outLast c (grid0.coords t) (xStage t) (xStage_whole t) (outStage t) (outStage_whole t) accM (Memref.isWhole_whole _) (fun h => h0 ((atFirst_iff t).mp h)) ((atLast_iff t).mpr h9) (iblk V c 0 t) (accBefore V c t),
         accLast c (grid0.coords t) (xStage t) (xStage_whole t) (outStage t) (outStage_whole t) accM (Memref.isWhole_whole _) (fun h => h0 ((atFirst_iff t).mp h)) ((atLast_iff t).mpr h9) (iblk V c 0 t) (accBefore V c t)) := by
  obtain ⟨n, hn⟩ := t
  cases n with
  | zero => exact absurd (Nat.zero_mod _) h0
  | succ n => exact (dif_neg h0).trans ((dif_pos h9).trans rfl)

/-! ## The region invariant: the accumulator carried between points -/

/-- The invariant before position `n`: before the first point what the launch hands over (the accumulator at
    anything); afterwards the accumulator at what the point before left, the bystanders, and the generator register
    at some state. -/
def inv (c : Dev nD) : (n : ℕ) → n ≤ cfg0.N → sProp 𝕄
  | 0, _ => Pipeline.ΦA spec0 c
  | n + 1, hn => iprop(iprop(owns (c : Thread nD τ) accM fullShare ((stateAt V c n hn).2) ∗ bystanders (F := F) c) ∗ (∃ r, prngReg c r))

theorem inv_zero (c : Dev nD) (n : ℕ) (h : n ≤ cfg0.N) (hz : n = 0) : inv V c n h = Pipeline.ΦA spec0 c := by
  subst hz; rfl

/-- After point `n`: the accumulator at that point's contents. -/
theorem inv_succ (c : Dev nD) (n : ℕ) (hn : n < cfg0.N) :
    inv V c (n + 1) hn = iprop(iprop(owns (c : Thread nD τ) accM fullShare ((stateAt V c n hn).2) ∗ bystanders (F := F) c) ∗ (∃ r, prngReg c r)) := rfl

/-- Before a point that is not the first: the accumulator at what the point before left. -/
theorem inv_pos (c : Dev nD) (n : ℕ) (h : n ≤ cfg0.N) (hz : n ≠ 0) :
    inv V c n h = iprop(iprop(owns (c : Thread nD τ) accM fullShare ((stateAt V c (n - 1) (by omega)).2) ∗ bystanders (F := F) c) ∗ (∃ r, prngReg c r)) := by
  cases n with
  | zero => exact absurd rfl hz
  | succ n => rfl

/-! ## The pipeline's proof data -/

/-- The proof data of the region's pipeline on core `c`: the arrays as the region finds them; after the body at
    point `t` the x tile's buffer at its block and the output block's at the accumulation's first component; the
    invariant `inv`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (stateAt V c t.val t.isLt).1
  Φ t := inv V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

/-- The invariant at a point's start, restated at the point's position. -/
theorem inv_castSucc (c : Dev nD) (t : Fin cfg0.N) :
    (dat V c).Φ t.castSucc = inv V c t.val (Nat.le_of_lt t.isLt) := by
  dsimp only [dat]; simp only [Fin.coe_castSucc]

/-- What the body leaves, window by window. -/
theorem after_x (c : Dev nD) (t : Fin cfg0.N) : (dat V c).after 0 t = iblk V c 0 t := by dsimp only [dat]
theorem after_out (c : Dev nD) (t : Fin cfg0.N) : (dat V c).after 1 t = (stateAt V c t.val t.isLt).1 := by dsimp only [dat]

/-- The same, for every window at once. -/
theorem after_w (c : Dev nD) (w : Fin cfg0.W) (t : Fin cfg0.N) :
    (dat V c).after w t = (match w with
      | ⟨0, _⟩ => iblk V c 0 t
      | ⟨1, _⟩ => (stateAt V c t.val t.isLt).1) := by dsimp only [dat]

/-- The x tile's current staging buffer holds its block at every point, fetched there or not. -/
theorem before_x (c : Dev nD) (t : Fin cfg0.N) (d) : (dat V c).before 0 t d = iblk V c 0 t :=
  xTile_before_of V (dat V c) (A_eq V c 0) (after_x V c) t d

/-! ## The body obligation, at a generic point -/

/-- What the body is called with at point `t` (the windows one by one), -/
def bodyPre (c : Dev nD) (t : Fin cfg0.N) : sProp 𝕄 :=
  iprop((dat V c).Φ t.castSucc ∗ (dat V c).owesAt () t.castSucc
    ∗ (∃ d, owns (c : Thread nD τ) (xStage t) fullShare ((dat V c).before 0 t d))
    ∗ (∃ d, owns (c : Thread nD τ) (outStage t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point. The x tile's memref holds its block; the closed forms say which step the point is.
    A first step takes the accumulator at anything — what the launch left (point 0) or the first half's total
    (point 10) — and overwrites it; a middle or last step takes it at what the point before left. Each hands the
    accumulator back at this point's contents (its stores cover the row), the bystanders and the generator register
    untouched, the core owing nothing throughout; the output block comes back untouched except at a last step,
    whose store covers it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x]
  rw [show (dat V c).owesAt () t.succ = (dat V c).owesAt () t.castSucc from rfl]
  rw [show (dat V c).Φ t.succ = inv V c (t.val + 1) t.isLt from rfl, inv_succ]
  have hN : t.val < 20 := lt_of_lt_of_eq t.isLt (show cfg0.N = 20 from N_0)
  rw [show (dat V c).leavesExact 0 t = owns (c : Thread nD τ) (xStage t) fullShare ((dat V c).after 0 t) from by
    unfold Dat.leavesExact; rw [xTile_live t], after_x]
  by_cases h0 : t.val % 10 = 0
  · have hF : atFirst (grid0.coords t) := (atFirst_iff t).mpr h0
    have hL : ¬atLast (grid0.coords t) := fun h => by have h9 := (atLast_iff t).mp h; omega
    rw [Dat.leavesExact_idle (dat V c) 1 t (out_idle t hL) (out_noFlush t hL)]
    rw [stateAt_first V c t h0 hL]
    unfold accFirst; (try dsimp only)
    by_cases hz : t.val = 0
    · rw [inv_castSucc V c t, inv_zero V c _ _ hz, entry_eq]
      iintro ⟨⟨⟨HS, Hb⟩, Hg⟩, Ho, ⟨%d0, H0⟩, ⟨%d1, H1⟩⟩
      iapply ((runFirst c (grid0.coords t) _ _ _ _ _ _ hF hL (iblk V c 0 t)).2.2 _ Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (accFirst_cover c _ _ _ _ _ _ _ _ _ _)
          iexact Hb
        iexact Hg
      isplitl [Ho]; · iexact Ho
      isplitl [H0]; · iexact H0
      iexists _; iexact H1
    · rw [inv_castSucc V c t, inv_pos V c _ _ hz]
      iintro ⟨⟨⟨HS, Hb⟩, Hg⟩, Ho, ⟨%d0, H0⟩, ⟨%d1, H1⟩⟩
      iapply ((runFirst c (grid0.coords t) _ _ _ _ _ _ hF hL (iblk V c 0 t)).2.2 _ Set.univ _)
      isplitl [H0]; · iexact H0
      isplitl [H1]; · iexact H1
      isplitl [HS]; · iexists _; iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (accFirst_cover c _ _ _ _ _ _ _ _ _ _)
          iexact Hb
        iexact Hg
      isplitl [Ho]; · iexact Ho
      isplitl [H0]; · iexact H0
      iexists _; iexact H1
  · have hF : ¬atFirst (grid0.coords t) := fun h => h0 ((atFirst_iff t).mp h)
    have hz : t.val ≠ 0 := by omega
    by_cases h9 : t.val % 10 = 9
    · have hL : atLast (grid0.coords t) := (atLast_iff t).mpr h9
      rw [show (dat V c).leavesExact 1 t = owns (c : Thread nD τ) (outStage t) fullShare ((dat V c).after 1 t) from by
        unfold Dat.leavesExact; rw [out_live t hL], after_out]
      rw [stateAt_last V c t h0 h9]
      unfold outLast accLast; (try dsimp only)
      rw [inv_castSucc V c t, inv_pos V c _ _ hz]
      iintro ⟨⟨⟨HS, Hb⟩, Hg⟩, Ho, ⟨%d0, H0⟩, ⟨%d1, H1⟩⟩
      iapply ((runLast c (grid0.coords t) _ _ _ _ _ _ hF hL (iblk V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hb Hg]
      · isplitl [HS Hb]
        · isplitl [HS]
          · unfold owns; iexists _; isplitr
            swap; · iexact HS
            ipureintro; exact View.read_writes_of_cover _ _ _ _ _ (accLast_cover c _ _ _ _ _ _ _ _ _ _ _)
          iexact Hb
        iexact Hg
      isplitl [Ho]; · iexact Ho
      isplitl [H0]; · iexact H0
      unfold owns; iexists _; isplitr
      swap; · iexact H1
      ipureintro; exact View.read_writes_of_cover _ _ _ _ _ (outLast_cover c _ _ _ _ _ _ _ _ _ _ _)
    · have hL : ¬atLast (grid0.coords t) := fun h => h9 ((atLast_iff t).mp h)
      rw [Dat.leavesExact_idle (dat V c) 1 t (out_idle t hL) (out_noFlush t hL)]
      rw [stateAt_mid V c t h0 h9]
      unfold accMid; (try dsimp only)
      rw [inv_castSucc V c t, inv_pos V c _ _ hz]
      iintro ⟨⟨⟨HS, Hb⟩, Hg⟩, Ho, ⟨%d0, H0⟩, ⟨%d1, H1⟩⟩
      iapply ((runMid c (grid0.coords t) _ _ _ _ _ _ hF hL (iblk V c 0 t) _).2.2 _ Set.univ _)
      isplitl [H0]; · iexact H0
      isplitl [H1]; · iexact H1
      isplitl [HS]; · iexact HS
      iintro ⟨H0, H1, ⟨%es, HS⟩⟩
      isplitl [HS Hb Hg]
      · isplitl [HS Hb]
        · isplitl [HS]
          · unfold owns; iexists _; isplitr
            swap; · iexact HS
            ipureintro; exact View.read_writes_of_cover _ _ _ _ _ (accMid_cover c _ _ _ _ _ _ _ _ _ _ _)
          iexact Hb
        iexact Hg
      isplitl [Ho]; · iexact Ho
      isplitl [H0]; · iexact H0
      iexists _; iexact H1

/-- The library's body obligation, at every point. -/
theorem body_obligation (c : Dev nD) : BodyObligation (dat (F := F) V c) (defs₀ (F := F)) Variants.none () Set.univ := fun t => by
  rw [bigSep_W0, bigSep_W0]
  exact sound_body V c t

/-! ## Entering and leaving the region -/

/-- What the launch hands the region is the invariant before the first point. -/
theorem enter (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After any point the invariant gives back what the launch handed over: the accumulator's contents forgotten. -/
theorem inv_forget (c : Dev nD) (t : Fin (cfg0.N + 1)) (ht : t.val ≠ 0) : (dat V c).Φ t ⊢ Pipeline.ΦA spec0 c := by
  rw [show (dat V c).Φ t = inv V c t.val (Nat.le_of_lt_succ t.isLt) from rfl, inv_pos V c _ _ ht, entry_eq]
  iintro ⟨⟨HS, Hb⟩, Hg⟩
  isplitl [HS Hb]
  · isplitl [HS]
    · iexists _; iexact HS
    iexact Hb
  iexact Hg

/-- In particular after the last point. -/
theorem leave (c : Dev nD) : (dat V c).Φ (Fin.last cfg0.N) ⊢ Pipeline.ΦA spec0 c :=
  inv_forget V c _ (by rw [Fin.val_last]; have : cfg0.N = 20 := N_0; omega)

end Cert.KernelIdeal.ColSq

end
-- ==== Proof.AggShared.lean ====
import proofs.«111807_j45552423141540_2_alg».proof.Proof.Gen.KernelIdeal.Launch
import proofs.«111807_j45552423141540_2_alg».proof.Proof.Gen.KernelIdeal.Skeleton
import proofs.«111807_j45552423141540_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The aggregation kernel as a pipeline body: what its three runs share

The second kernel of the program walks a 2 x 10 grid. Along the inner axis it keeps two running sums in
scratch memory: the 64 x 128 matrix of soft assignments times normalised rows, and the 1 x 64 row of
assignment masses. Both are zeroed where the inner coordinate is 0, added to at every point, and copied
to the two output blocks where the inner coordinate is 9. Everything here is stated at the contents `V`
the TensorCore's buffers hold when the region is entered. -/

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (unfetched, the block index has not moved), for any proof data whose array is the entry contents and whose
    body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not (unfetched, the block index has not moved), for any proof data whose array is the entry contents and whose
    body leaves the block in place. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not (unfetched, the block index has not moved), for any proof data whose array is the entry contents and whose
    body leaves the block in place. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not (unfetched, the block index has not moved), for any proof data whose array is the entry contents and whose
    body leaves the block in place. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    not (unfetched, the block index has not moved), for any proof data whose array is the entry contents and whose
    body leaves the block in place. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body -/

/-- The inner coordinate is 0: the point opens a row of the grid and zeroes both running sums. -/
abbrev condFirst (i : grid1.Coords) : Prop := (Scalar.cmpi .ne (Scalar.extui (Scalar.cmpi .eq (BitVec.ofNat 32 (i 1).val) 0#32)) 0#32) = 1#1
/-- It holds at the points 0 and 10. -/
theorem hcondFirst : ∀ t : Fin cfg1.N, condFirst (grid1.coords t) ↔ t.val % 10 = 0 :=
  (by decide +kernel : ∀ t : Fin grid1.N, condFirst (grid1.coords t) ↔ t.val % 10 = 0)

/-- The inner coordinate is 9: the point closes a row of the grid and copies both running sums out. -/
abbrev condLast (i : grid1.Coords) : Prop := k1_cond2 i = 1#1
/-- It holds at the points 9 and 19. -/
theorem hcondLast : ∀ t : Fin cfg1.N, condLast (grid1.coords t) ↔ t.val % 10 = 9 :=
  (by decide +kernel : ∀ t : Fin grid1.N, condLast (grid1.coords t) ↔ t.val % 10 = 9)

/-! ## Where the windows are idle -/

/-- The five inputs are never idle. -/
theorem liveAt0 : ∀ t : Fin cfg1.N, cfg1.idle 0 (grid1.coords t) = false := by decide +kernel
theorem liveAt1 : ∀ t : Fin cfg1.N, cfg1.idle 1 (grid1.coords t) = false := by decide +kernel
theorem liveAt2 : ∀ t : Fin cfg1.N, cfg1.idle 2 (grid1.coords t) = false := by decide +kernel
theorem liveAt3 : ∀ t : Fin cfg1.N, cfg1.idle 3 (grid1.coords t) = false := by decide +kernel
theorem liveAt4 : ∀ t : Fin cfg1.N, cfg1.idle 4 (grid1.coords t) = false := by decide +kernel
/-- Away from a row's last point the two outputs are idle and not written back; at it they are live. -/
theorem idleAt5 : ∀ t : Fin cfg1.N, ¬condLast (grid1.coords t) → cfg1.idle 5 (grid1.coords t) = true := by decide +kernel
theorem idleAt6 : ∀ t : Fin cfg1.N, ¬condLast (grid1.coords t) → cfg1.idle 6 (grid1.coords t) = true := by decide +kernel
theorem noFlush5 : ∀ t : Fin cfg1.N, ¬condLast (grid1.coords t) → (cfg1.win 5).flush t = false := by decide +kernel
theorem noFlush6 : ∀ t : Fin cfg1.N, ¬condLast (grid1.coords t) → (cfg1.win 6).flush t = false := by decide +kernel
theorem liveAt5 : ∀ t : Fin cfg1.N, condLast (grid1.coords t) → cfg1.idle 5 (grid1.coords t) = false := by decide +kernel
theorem liveAt6 : ∀ t : Fin cfg1.N, condLast (grid1.coords t) → cfg1.idle 6 (grid1.coords t) = false := by decide +kernel

/-! ## The memrefs the body is called with -/

/-- Each window's current staging memref at point `t`, and its wholeness. -/
abbrev ms0 (t : Fin cfg1.N) : Memref sig .tc .vmem S10000x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x64 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S64x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x64x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x1x64 .f32 := win1_6.stage (cfg1.slots t 6)
abbrev hs6 (t : Fin cfg1.N) : (ms6 t).IsWhole := hstage1_6 ((cfg1.slots t 6).cast nbuf1_6)

/-- The two running sums: whole scoped buffers of the kernel's own, passed beside the windows. -/
abbrev scM0 : Memref sig .tc .vmem S64x128 .f32 := Memref.whole cc1_scratch0
abbrev scM1 : Memref sig .tc .vmem S1x64 .f32 := Memref.whole cc1_scratch1
/-- The views through which the contents of the running sums and of the outputs' buffers are stated (for a
    list of pieces that covers the buffer the choice of view does not matter). -/
abbrev VS0 : View sig .tc .vmem S64x128 .f32 := scM0.view
abbrev VS1 : View sig .tc .vmem S1x64 .f32 := scM1.view
abbrev VO5 : View sig .tc .vmem S1x64x128 .f32 := (Memref.whole cc1_stg5_0 : Memref sig .tc .vmem S1x64x128 .f32).view
abbrev VO6 : View sig .tc .vmem S1x1x64 .f32 := (Memref.whole cc1_stg6_0 : Memref sig .tc .vmem S1x1x64 .f32).view

/-! ## The invariant the region is entered with -/

/-- A scoped buffer of the core at some contents. -/
abbrev someAt (c : Dev nD) (b : Ref sig .tc) : sProp 𝕄 :=
  iprop(∃ f : Buf (Elt F) ((c : Thread nD τ).loc b), ((c : Thread nD τ).loc b) ↦{fullShare} f)

/-- What the launch hands the region: the first kernel's staging buffers and its scratch at some contents,
    the two running sums owned as memrefs at some contents, and the generator register at some state. -/
theorem PhiA_eq (c : Dev nD) :
    (Pipeline.ΦA spec1 c : sProp 𝕄)
      = iprop(iprop(someAt c cc0_stg0_0 ∗ someAt c cc0_stg0_1 ∗ someAt c cc0_stg1_0 ∗ someAt c cc0_stg1_1 ∗ someAt c cc0_scratch0
          ∗ (∃ d, owns (c : Thread nD τ) scM0 fullShare d) ∗ (∃ d, owns (c : Thread nD τ) scM1 fullShare d)) ∗ (∃ r, prngReg c r)) := by
  unfold Pipeline.ΦA; rw [scopedRest1_eq]; simp only [scM0, scM1, owns_whole]; try rfl

end Cert.KernelIdeal.Agg

end
-- ==== Proof.AggRunMid.lean ====
import proofs.«111807_j45552423141540_2_alg».proof.Proof.AggShared

-- membership of an index in a rectangle of the tile's extents is decided structurally: one step per coordinate
set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The body at a point inside a row of the grid

Neither condition holds: the body reads the tile and the three small operands, adds the tile's
contribution to each running sum, and stores both sums back. The outputs' buffers are not touched. -/

set_option maxHeartbeats 1000000 in
/-- The pieces the body's stores leave in the two running sums (last store first) at a point where the
    inner coordinate is neither 0 nor 9, WITH the proof that on whole memrefs — the inputs' at contents
    `x0 … x3`, the running sums at what the point before left, `xs0` and `xs1` — the body runs to the
    continuation holding the inputs' as they were and each running sum with its pieces written. The
    pieces are the witness the symbolic run finds. -/
noncomputable def kernelRun_mid (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) :
    Σ' (LS0 : List (View.Piece (Elt F) S64x128 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10) K } := by
  refine ⟨?_, ?_, fun E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Agg

end
-- ==== Proof.AggRunFirst.lean ====
import proofs.«111807_j45552423141540_2_alg».proof.Proof.AggRunMid

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The body at the first point of a row of the grid

The inner coordinate is 0: the body first stores zeros into both running sums, whatever they held, then
proceeds as at any point — it reads the zeros back, adds the tile's contribution, and stores both sums.
The outputs' buffers are not touched. -/

set_option maxHeartbeats 1000000 in
/-- The pieces the body's stores leave in the two running sums (last store first) at a point where the
    inner coordinate is 0, WITH the proof that on whole memrefs — the inputs' at contents `x0 … x3`, the
    running sums at ANY contents — the body runs to the continuation holding the inputs' as they were and
    each running sum with its pieces written. The pieces are the witness the symbolic run finds. -/
noncomputable def kernelRun_first (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32) :
    Σ' (LS0 : List (View.Piece (Elt F) S64x128 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10) K } := by
  refine ⟨?_, ?_, fun E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Agg

end
-- ==== Proof.AggRunLast.lean ====
import proofs.«111807_j45552423141540_2_alg».proof.Proof.AggRunFirst

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The body at the last point of a row of the grid

The inner coordinate is 9: the body adds the tile's contribution to both running sums as at any point,
then reads each sum back and stores it, reshaped, over the whole of its output block. -/

set_option maxHeartbeats 1000000 in
/-- The pieces the body's stores leave in the two outputs' buffers and in the two running sums (last store
    first) at a point where the inner coordinate is 9, WITH the proof that on whole memrefs — the inputs' at
    contents `x0 … x3`, the outputs' at anything, the running sums at what the point before left, `xs0` and
    `xs1` — the body runs to the continuation holding the inputs' as they were and each output's buffer and
    each running sum with its pieces written. The pieces are the witness the symbolic run finds. -/
noncomputable def kernelRun_last (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) :
    Σ' (L5 : List (View.Piece (Elt F) S1x64x128 .f32)) (L6 : List (View.Piece (Elt F) S1x1x64 .f32)) (LS0 : List (View.Piece (Elt F) S64x128 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__agg_kernel_eq_skeleton]; unfold cc1__agg_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H5]; · iexists _; iexact H5
    isplitl [H6]; · iexists _; iexact H6
    isplitl [HS0]; · iexists _; iexact HS0
    iexists _; iexact HS1

end Cert.KernelIdeal.Agg

end
-- ==== Proof.Agg.lean ====
import proofs.«111807_j45552423141540_2_alg».proof.Proof.AggRunLast

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The aggregation kernel as a pipeline body: the proof data and the body obligation

From the three runs: what each case leaves in the two running sums and, at a row's last point, in the
two outputs' buffers; the accumulation point by point; the invariant that carries the running sums from
one point to the next; the proof data; the body obligation at every point; and how the invariant is
entered from, and gives back, what the launch hands the region. Everything is stated at the contents
`V` the TensorCore's buffers hold when the region is entered. -/

variable (V : (c : Dev nD) → (b : Ref sig .tc) → Buf (Elt F) ((c : Thread nD τ).loc b))

/-! ## What each case leaves -/

/-- At the first point of a row the pieces stored into the running sum of weighted rows tile it, so they cover it. -/
theorem scover_first_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32)  (y : S64x128.Idx) :
    ∃ pc ∈ (kernelRun_first c i arg2 harg2 arg3 harg3 arg4 harg4 arg5 harg5 arg6 harg6 arg7 harg7 arg8 harg8 arg9 harg9 arg10 harg10 hc0 hc2 x0 x1 x2 x3).1, y ∈ pc.1.set :=
  View.cover_of_tiledL (kernelRun_first c i arg2 harg2 arg3 harg3 arg4 harg4 arg5 harg5 arg6 harg6 arg7 harg7 arg8 harg8 arg9 harg9 arg10 harg10 hc0 hc2 x0 x1 x2 x3).1 S64x128.size (by sl_kernel_rfl) y

/-- What the body leaves in the running sum of weighted rows at the first point of a row: its pieces read back. -/
def sout_first_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32)  : Vec F S64x128 .f32 :=
  VS0.read (Elt F) (VS0.writes (Elt F) VS0.junk (kernelRun_first c i arg2 harg2 arg3 harg3 arg4 harg4 arg5 harg5 arg6 harg6 arg7 harg7 arg8 harg8 arg9 harg9 arg10 harg10 hc0 hc2 x0 x1 x2 x3).1)

/-- At the first point of a row the pieces stored into the running sum of assignment masses tile it, so they cover it. -/
theorem scover_first_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32)  (y : S1x64.Idx) :
    ∃ pc ∈ (kernelRun_first c i arg2 harg2 arg3 harg3 arg4 harg4 arg5 harg5 arg6 harg6 arg7 harg7 arg8 harg8 arg9 harg9 arg10 harg10 hc0 hc2 x0 x1 x2 x3).2.1, y ∈ pc.1.set :=
  View.cover_of_tiledL (kernelRun_first c i arg2 harg2 arg3 harg3 arg4 harg4 arg5 harg5 arg6 harg6 arg7 harg7 arg8 harg8 arg9 harg9 arg10 harg10 hc0 hc2 x0 x1 x2 x3).2.1 S1x64.size (by sl_kernel_rfl) y

/-- What the body leaves in the running sum of assignment masses at the first point of a row: its pieces read back. -/
def sout_first_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32)  : Vec F S1x64 .f32 :=
  VS1.read (Elt F) (VS1.writes (Elt F) VS1.junk (kernelRun_first c i arg2 harg2 arg3 harg3 arg4 harg4 arg5 harg5 arg6 harg6 arg7 harg7 arg8 harg8 arg9 harg9 arg10 harg10 hc0 hc2 x0 x1 x2 x3).2.1)

/-- At a point inside a row the pieces stored into the running sum of weighted rows tile it, so they cover it. -/
theorem scover_mid_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) (y : S64x128.Idx) :
    ∃ pc ∈ (kernelRun_mid c i arg2 harg2 arg3 harg3 arg4 harg4 arg5 harg5 arg6 harg6 arg7 harg7 arg8 harg8 arg9 harg9 arg10 harg10 hc0 hc2 x0 x1 x2 x3 xs0 xs1).1, y ∈ pc.1.set :=
  View.cover_of_tiledL (kernelRun_mid c i arg2 harg2 arg3 harg3 arg4 harg4 arg5 harg5 arg6 harg6 arg7 harg7 arg8 harg8 arg9 harg9 arg10 harg10 hc0 hc2 x0 x1 x2 x3 xs0 xs1).1 S64x128.size (by sl_kernel_rfl) y

/-- What the body leaves in the running sum of weighted rows at a point inside a row: its pieces read back. -/
def sout_mid_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) : Vec F S64x128 .f32 :=
  VS0.read (Elt F) (VS0.writes (Elt F) VS0.junk (kernelRun_mid c i arg2 harg2 arg3 harg3 arg4 harg4 arg5 harg5 arg6 harg6 arg7 harg7 arg8 harg8 arg9 harg9 arg10 harg10 hc0 hc2 x0 x1 x2 x3 xs0 xs1).1)

/-- At a point inside a row the pieces stored into the running sum of assignment masses tile it, so they cover it. -/
theorem scover_mid_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) (y : S1x64.Idx) :
    ∃ pc ∈ (kernelRun_mid c i arg2 harg2 arg3 harg3 arg4 harg4 arg5 harg5 arg6 harg6 arg7 harg7 arg8 harg8 arg9 harg9 arg10 harg10 hc0 hc2 x0 x1 x2 x3 xs0 xs1).2.1, y ∈ pc.1.set :=
  View.cover_of_tiledL (kernelRun_mid c i arg2 harg2 arg3 harg3 arg4 harg4 arg5 harg5 arg6 harg6 arg7 harg7 arg8 harg8 arg9 harg9 arg10 harg10 hc0 hc2 x0 x1 x2 x3 xs0 xs1).2.1 S1x64.size (by sl_kernel_rfl) y

/-- What the body leaves in the running sum of assignment masses at a point inside a row: its pieces read back. -/
def sout_mid_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) : Vec F S1x64 .f32 :=
  VS1.read (Elt F) (VS1.writes (Elt F) VS1.junk (kernelRun_mid c i arg2 harg2 arg3 harg3 arg4 harg4 arg5 harg5 arg6 harg6 arg7 harg7 arg8 harg8 arg9 harg9 arg10 harg10 hc0 hc2 x0 x1 x2 x3 xs0 xs1).2.1)

/-- At the last point of a row the pieces stored into the first output's buffer tile it, so they cover it. -/
theorem cover_last_5 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) (y : S1x64x128.Idx) :
    ∃ pc ∈ (kernelRun_last c i arg2 harg2 arg3 harg3 arg4 harg4 arg5 harg5 arg6 harg6 arg7 harg7 arg8 harg8 arg9 harg9 arg10 harg10 hc0 hc2 x0 x1 x2 x3 xs0 xs1).1, y ∈ pc.1.set :=
  View.cover_of_tiledL (kernelRun_last c i arg2 harg2 arg3 harg3 arg4 harg4 arg5 harg5 arg6 harg6 arg7 harg7 arg8 harg8 arg9 harg9 arg10 harg10 hc0 hc2 x0 x1 x2 x3 xs0 xs1).1 S1x64x128.size (by sl_kernel_rfl) y

/-- What the body leaves in the first output's buffer at the last point of a row: its pieces read back. -/
def out_last_5 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) : Vec F S1x64x128 .f32 :=
  VO5.read (Elt F) (VO5.writes (Elt F) VO5.junk (kernelRun_last c i arg2 harg2 arg3 harg3 arg4 harg4 arg5 harg5 arg6 harg6 arg7 harg7 arg8 harg8 arg9 harg9 arg10 harg10 hc0 hc2 x0 x1 x2 x3 xs0 xs1).1)

/-- At the last point of a row the pieces stored into the second output's buffer tile it, so they cover it. -/
theorem cover_last_6 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) (y : S1x1x64.Idx) :
    ∃ pc ∈ (kernelRun_last c i arg2 harg2 arg3 harg3 arg4 harg4 arg5 harg5 arg6 harg6 arg7 harg7 arg8 harg8 arg9 harg9 arg10 harg10 hc0 hc2 x0 x1 x2 x3 xs0 xs1).2.1, y ∈ pc.1.set :=
  View.cover_of_tiledL (kernelRun_last c i arg2 harg2 arg3 harg3 arg4 harg4 arg5 harg5 arg6 harg6 arg7 harg7 arg8 harg8 arg9 harg9 arg10 harg10 hc0 hc2 x0 x1 x2 x3 xs0 xs1).2.1 S1x1x64.size (by sl_kernel_rfl) y

/-- What the body leaves in the second output's buffer at the last point of a row: its pieces read back. -/
def out_last_6 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) : Vec F S1x1x64 .f32 :=
  VO6.read (Elt F) (VO6.writes (Elt F) VO6.junk (kernelRun_last c i arg2 harg2 arg3 harg3 arg4 harg4 arg5 harg5 arg6 harg6 arg7 harg7 arg8 harg8 arg9 harg9 arg10 harg10 hc0 hc2 x0 x1 x2 x3 xs0 xs1).2.1)

/-- At the last point of a row the pieces stored into the running sum of weighted rows tile it, so they cover it. -/
theorem scover_last_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) (y : S64x128.Idx) :
    ∃ pc ∈ (kernelRun_last c i arg2 harg2 arg3 harg3 arg4 harg4 arg5 harg5 arg6 harg6 arg7 harg7 arg8 harg8 arg9 harg9 arg10 harg10 hc0 hc2 x0 x1 x2 x3 xs0 xs1).2.2.1, y ∈ pc.1.set :=
  View.cover_of_tiledL (kernelRun_last c i arg2 harg2 arg3 harg3 arg4 harg4 arg5 harg5 arg6 harg6 arg7 harg7 arg8 harg8 arg9 harg9 arg10 harg10 hc0 hc2 x0 x1 x2 x3 xs0 xs1).2.2.1 S64x128.size (by sl_kernel_rfl) y

/-- What the body leaves in the running sum of weighted rows at the last point of a row: its pieces read back. -/
def sout_last_0 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) : Vec F S64x128 .f32 :=
  VS0.read (Elt F) (VS0.writes (Elt F) VS0.junk (kernelRun_last c i arg2 harg2 arg3 harg3 arg4 harg4 arg5 harg5 arg6 harg6 arg7 harg7 arg8 harg8 arg9 harg9 arg10 harg10 hc0 hc2 x0 x1 x2 x3 xs0 xs1).2.2.1)

/-- At the last point of a row the pieces stored into the running sum of assignment masses tile it, so they cover it. -/
theorem scover_last_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) (y : S1x64.Idx) :
    ∃ pc ∈ (kernelRun_last c i arg2 harg2 arg3 harg3 arg4 harg4 arg5 harg5 arg6 harg6 arg7 harg7 arg8 harg8 arg9 harg9 arg10 harg10 hc0 hc2 x0 x1 x2 x3 xs0 xs1).2.2.2.1, y ∈ pc.1.set :=
  View.cover_of_tiledL (kernelRun_last c i arg2 harg2 arg3 harg3 arg4 harg4 arg5 harg5 arg6 harg6 arg7 harg7 arg8 harg8 arg9 harg9 arg10 harg10 hc0 hc2 x0 x1 x2 x3 xs0 xs1).2.2.2.1 S1x64.size (by sl_kernel_rfl) y

/-- What the body leaves in the running sum of assignment masses at the last point of a row: its pieces read back. -/
def sout_last_1 (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) : Vec F S1x64 .f32 :=
  VS1.read (Elt F) (VS1.writes (Elt F) VS1.junk (kernelRun_last c i arg2 harg2 arg3 harg3 arg4 harg4 arg5 harg5 arg6 harg6 arg7 harg7 arg8 harg8 arg9 harg9 arg10 harg10 hc0 hc2 x0 x1 x2 x3 xs0 xs1).2.2.2.1)

/-- Away from a row's last point the body stores nothing into the outputs' buffers, the pipeline does not
    write them back, and nothing reads them: the accumulation carries a placeholder there. -/
def idleOut5 : Vec F S1x64x128 .f32 := VO5.read (Elt F) VO5.junk
def idleOut6 : Vec F S1x1x64 .f32 := VO6.read (Elt F) VO6.junk

/-! ## The accumulation, point by point -/

/-- What the first point of a row leaves: both running sums restarted from zero plus the tile's contribution. -/
def firstAt (c : Dev nD) (t : Fin cfg1.N) (h0 : t.val % 10 = 0) : Vec F S1x64x128 .f32 × Vec F S1x1x64 .f32 × Vec F S64x128 .f32 × Vec F S1x64 .f32 :=
  (idleOut5, idleOut6,
   sout_first_0 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) ((hcondFirst t).mpr h0) (fun h => absurd ((hcondLast t).mp h) (by omega)) (iblk V c 0 t) (iblk V c 1 t) (iblk V c 2 t) (iblk V c 3 t),
   sout_first_1 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) ((hcondFirst t).mpr h0) (fun h => absurd ((hcondLast t).mp h) (by omega)) (iblk V c 0 t) (iblk V c 1 t) (iblk V c 2 t) (iblk V c 3 t))

/-- What a point inside a row leaves, over the running sums `xs0`, `xs1` the point before left. -/
def midAt (c : Dev nD) (t : Fin cfg1.N) (h0 : ¬t.val % 10 = 0) (h2 : ¬t.val % 10 = 9) (xs0 : Vec F S64x128 .f32) (xs1 : Vec F S1x64 .f32) : Vec F S1x64x128 .f32 × Vec F S1x1x64 .f32 × Vec F S64x128 .f32 × Vec F S1x64 .f32 :=
  (idleOut5, idleOut6,
   sout_mid_0 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcondFirst t).mp h)) (fun h => h2 ((hcondLast t).mp h)) (iblk V c 0 t) (iblk V c 1 t) (iblk V c 2 t) (iblk V c 3 t) xs0 xs1,
   sout_mid_1 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => h0 ((hcondFirst t).mp h)) (fun h => h2 ((hcondLast t).mp h)) (iblk V c 0 t) (iblk V c 1 t) (iblk V c 2 t) (iblk V c 3 t) xs0 xs1)

/-- What the last point of a row leaves, over the running sums `xs0`, `xs1` the point before left: the
    sums once more added to, and each copied to its output's buffer. -/
def lastAt (c : Dev nD) (t : Fin cfg1.N) (h2 : t.val % 10 = 9) (xs0 : Vec F S64x128 .f32) (xs1 : Vec F S1x64 .f32) : Vec F S1x64x128 .f32 × Vec F S1x1x64 .f32 × Vec F S64x128 .f32 × Vec F S1x64 .f32 :=
  (out_last_5 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => absurd ((hcondFirst t).mp h) (by omega)) ((hcondLast t).mpr h2) (iblk V c 0 t) (iblk V c 1 t) (iblk V c 2 t) (iblk V c 3 t) xs0 xs1,
   out_last_6 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => absurd ((hcondFirst t).mp h) (by omega)) ((hcondLast t).mpr h2) (iblk V c 0 t) (iblk V c 1 t) (iblk V c 2 t) (iblk V c 3 t) xs0 xs1,
   sout_last_0 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => absurd ((hcondFirst t).mp h) (by omega)) ((hcondLast t).mpr h2) (iblk V c 0 t) (iblk V c 1 t) (iblk V c 2 t) (iblk V c 3 t) xs0 xs1,
   sout_last_1 c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => absurd ((hcondFirst t).mp h) (by omega)) ((hcondLast t).mpr h2) (iblk V c 0 t) (iblk V c 1 t) (iblk V c 2 t) (iblk V c 3 t) xs0 xs1)

/-- THE ACCUMULATION. What the two outputs' buffers and the two running sums hold after the body at
    position `n` (the outputs in window order, then the sums): the case the point is in, run at the point's
    memrefs and input blocks, over the running sums position `n - 1` left. A row's first point takes nothing
    from the point before: the sums restart there. -/
def outsAt (c : Dev nD) : (n : ℕ) → n < cfg1.N → Vec F S1x64x128 .f32 × Vec F S1x1x64 .f32 × Vec F S64x128 .f32 × Vec F S1x64 .f32
  | 0, hn => firstAt V c ⟨0, hn⟩ (Nat.zero_mod _)
  | n + 1, hn =>
    if h0 : (n + 1) % 10 = 0 then firstAt V c ⟨n + 1, hn⟩ h0
    else if h2 : (n + 1) % 10 = 9 then
      lastAt V c ⟨n + 1, hn⟩ h2 (outsAt c n (Nat.lt_of_succ_lt hn)).2.2.1 (outsAt c n (Nat.lt_of_succ_lt hn)).2.2.2
    else
      midAt V c ⟨n + 1, hn⟩ h0 h2 (outsAt c n (Nat.lt_of_succ_lt hn)).2.2.1 (outsAt c n (Nat.lt_of_succ_lt hn)).2.2.2

/-- The accumulation at a row's first point. -/
theorem outsAt_first (c : Dev nD) (t : Fin cfg1.N) (h0 : t.val % 10 = 0) :
    outsAt V c t.val t.isLt = firstAt V c t h0 := by
  obtain ⟨n, hn⟩ := t
  cases n with
  | zero => exact rfl
  | succ n => exact (dif_pos h0).trans rfl

/-- The accumulation at a point inside a row: over what the point before left. -/
theorem outsAt_mid (c : Dev nD) (t : Fin cfg1.N) (h0 : ¬t.val % 10 = 0) (h2 : ¬t.val % 10 = 9) :
    outsAt V c t.val t.isLt = midAt V c t h0 h2 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h2).trans rfl)

/-- The accumulation at a row's last point: over what the point before left. -/
theorem outsAt_last (c : Dev nD) (t : Fin cfg1.N) (h2 : t.val % 10 = 9) :
    outsAt V c t.val t.isLt = lastAt V c t h2 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact absurd (show (0 : ℕ) % 10 = 9 from h2) (by decide)
  | succ n =>
    have h2' : (n + 1) % 10 = 9 := h2
    exact (dif_neg (by omega)).trans ((dif_pos h2').trans rfl)

/-! ## The invariant between points -/

/-- Before the first point: what the launch hands the region. Afterwards: the other scoped buffers at some
    contents, each running sum at what the point before left in it, and the generator register at some
    state. -/
def PhiS (c : Dev nD) : (n : ℕ) → n ≤ cfg1.N → sProp 𝕄
  | 0, _ => Pipeline.ΦA spec1 c
  | n + 1, hn => iprop(iprop(someAt c cc0_stg0_0 ∗ someAt c cc0_stg0_1 ∗ someAt c cc0_stg1_0 ∗ someAt c cc0_stg1_1 ∗ someAt c cc0_scratch0
      ∗ owns (c : Thread nD τ) scM0 fullShare ((outsAt V c n hn).2.2.1) ∗ owns (c : Thread nD τ) scM1 fullShare ((outsAt V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(someAt c cc0_stg0_0 ∗ someAt c cc0_stg0_1 ∗ someAt c cc0_stg1_0 ∗ someAt c cc0_stg1_1 ∗ someAt c cc0_scratch0
      ∗ owns (c : Thread nD τ) scM0 fullShare ((outsAt V c n hn).2.2.1) ∗ owns (c : Thread nD τ) scM1 fullShare ((outsAt V c n hn).2.2.2)) ∗ (∃ r, prngReg c r)) := rfl

theorem PhiS_pos (c : Dev nD) (n : ℕ) (h : n ≤ cfg1.N) (hz : n ≠ 0) :
    PhiS V c n h = iprop(iprop(someAt c cc0_stg0_0 ∗ someAt c cc0_stg0_1 ∗ someAt c cc0_stg1_0 ∗ someAt c cc0_stg1_1 ∗ someAt c cc0_scratch0
      ∗ owns (c : Thread nD τ) scM0 fullShare ((outsAt V c (n - 1) (by omega)).2.2.1) ∗ owns (c : Thread nD τ) scM1 fullShare ((outsAt V c (n - 1) (by omega)).2.2.2)) ∗ (∃ r, prngReg c r)) := by
  cases n with
  | zero => exact absurd rfl hz
  | succ n => rfl

/-! ## The proof data -/

/-- The proof data of the pipeline on core `c`: the arrays as the region finds them; after the body at point
    `t` each input's buffer at its block and the outputs' at the accumulation's components; the invariant
    `PhiS`; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
    | ⟨6, _⟩ => (outsAt V c t.val t.isLt).2.1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = (outsAt V c t.val t.isLt).1 := by dsimp only [dat]
theorem after6 (c : Dev nD) (t : Fin cfg1.N) : (dat V c).after 6 t = (outsAt V c t.val t.isLt).2.1 := by dsimp only [dat]

/-- Each input's current staging buffer holds its block at every point, fetched there or not. -/
theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
/-- The body at any point. The inputs' memrefs hold their blocks; the point's position modulo 10 says
    which case it is in, and that case's run applies. The invariant hands the body the running sums at what
    the point before left (at anything before the first point, and a row's first point overwrites them
    without reading them), and takes them back at this point's contents, the pieces covering each sum.
    Away from a row's last point the outputs' buffers go back as they came; at it each holds its pieces
    read back. The centroid window's buffer is never touched. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [liveAt0 t], after0]
  rw [show (dat V c).leavesExact 1 t = owns (c : Thread nD τ) (ms1 t) fullShare ((dat V c).after 1 t) from by
      unfold Dat.leavesExact; rw [liveAt1 t], after1]
  rw [show (dat V c).leavesExact 2 t = owns (c : Thread nD τ) (ms2 t) fullShare ((dat V c).after 2 t) from by
      unfold Dat.leavesExact; rw [liveAt2 t], after2]
  rw [show (dat V c).leavesExact 3 t = owns (c : Thread nD τ) (ms3 t) fullShare ((dat V c).after 3 t) from by
      unfold Dat.leavesExact; rw [liveAt3 t], after3]
  rw [show (dat V c).leavesExact 4 t = owns (c : Thread nD τ) (ms4 t) fullShare ((dat V c).after 4 t) from by
      unfold Dat.leavesExact; rw [liveAt4 t], after4]
  have hN : t.val < 20 := lt_of_lt_of_eq t.isLt (show cfg1.N = 20 from N_1)
  by_cases h0 : t.val % 10 = 0
  · have hF : condFirst (grid1.coords t) := (hcondFirst t).mpr h0
    have hL : ¬condLast (grid1.coords t) := fun h => absurd ((hcondLast t).mp h) (by omega)
    rw [Dat.leavesExact_idle (dat V c) 5 t (idleAt5 t hL) (noFlush5 t hL), Dat.leavesExact_idle (dat V c) 6 t (idleAt6 t hL) (noFlush6 t hL)]
    rw [outsAt_first V c t h0]
    unfold firstAt sout_first_0 sout_first_1; (try dsimp only)
    by_cases hz : t.val = 0
    · rw [PhiS_castSucc V c t, PhiS_zero V c _ _ hz, PhiA_eq]
      iintro ⟨⟨⟨R0, R1, R2, R3, R4, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_first c (grid1.coords t) _ _ _ _ _ _ _ _ _ _ _ _ _ _ _ _ _ _ hF hL (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [R0 R1 R2 R3 R4 HS0 HS1 Hg]
      · isplitl [R0 R1 R2 R3 R4 HS0 HS1]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover_first_0 c _ _ _ _ _ _ _ _ _ _ _ _ _ _ _ _ _ _ _ _ _ _ _ _ _)
          · unfold owns; iexists _; isplitr
            swap; · iexact HS1
            ipureintro; exact View.read_writes_of_cover _ _ _ _ _ (scover_first_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS_castSucc V c t, PhiS_pos V c _ _ hz]
      iintro ⟨⟨⟨R0, R1, R2, R3, R4, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_first c (grid1.coords t) _ _ _ _ _ _ _ _ _ _ _ _ _ _ _ _ _ _ hF hL (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [R0 R1 R2 R3 R4 HS0 HS1 Hg]
      · isplitl [R0 R1 R2 R3 R4 HS0 HS1]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover_first_0 c _ _ _ _ _ _ _ _ _ _ _ _ _ _ _ _ _ _ _ _ _ _ _ _ _)
          · unfold owns; iexists _; isplitr
            swap; · iexact HS1
            ipureintro; exact View.read_writes_of_cover _ _ _ _ _ (scover_first_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => h0 (by rw [h])
    by_cases h2 : t.val % 10 = 9
    · have hF : ¬condFirst (grid1.coords t) := fun h => h0 ((hcondFirst t).mp h)
      have hL : condLast (grid1.coords t) := (hcondLast t).mpr h2
      rw [show (dat V c).leavesExact 5 t = owns (c : Thread nD τ) (ms5 t) fullShare ((dat V c).after 5 t) from by
        unfold Dat.leavesExact; rw [liveAt5 t hL], after5]
      rw [show (dat V c).leavesExact 6 t = owns (c : Thread nD τ) (ms6 t) fullShare ((dat V c).after 6 t) from by
        unfold Dat.leavesExact; rw [liveAt6 t hL], after6]
      rw [outsAt_last V c t h2]
      unfold lastAt out_last_5 out_last_6 sout_last_0 sout_last_1; (try dsimp only)
      rw [PhiS_castSucc V c t, PhiS_pos V c _ _ hz]
      iintro ⟨⟨⟨R0, R1, R2, R3, R4, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_last c (grid1.coords t) _ _ _ _ _ _ _ _ _ _ _ _ _ _ _ _ _ _ hF hL (iblk V c 0 t) (iblk V c 1 t) (iblk V c 2 t) (iblk V c 3 t) _ _).2.2.2.2 Set.univ _)
      isplitl [H0]; · iexact H0
      isplitl [H1]; · iexact H1
      isplitl [H2]; · iexact H2
      isplitl [H3]; · iexact H3
      isplitl [H5]; · iexists _; iexact H5
      isplitl [H6]; · iexists _; iexact H6
      isplitl [HS0]; · iexact HS0
      isplitl [HS1]; · iexact HS1
      iintro ⟨H0, H1, H2, H3, ⟨%e5, H5⟩, ⟨%e6, H6⟩, ⟨%es0, HS0⟩, ⟨%es1, HS1⟩⟩
      isplitl [R0 R1 R2 R3 R4 HS0 HS1 Hg]
      · isplitl [R0 R1 R2 R3 R4 HS0 HS1]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover_last_0 c _ _ _ _ _ _ _ _ _ _ _ _ _ _ _ _ _ _ _ _ _ _ _ _ _ _ _)
          · unfold owns; iexists _; isplitr
            swap; · iexact HS1
            ipureintro; exact View.read_writes_of_cover _ _ _ _ _ (scover_last_1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_last_5 c _ _ _ _ _ _ _ _ _ _ _ _ _ _ _ _ _ _ _ _ _ _ _ _ _ _ _)
      unfold owns; iexists _; isplitr
      swap; · iexact H6
      ipureintro; exact View.read_writes_of_cover _ _ _ _ _ (cover_last_6 c _ _ _ _ _ _ _ _ _ _ _ _ _ _ _ _ _ _ _ _ _ _ _ _ _ _ _)
    · have hF : ¬condFirst (grid1.coords t) := fun h => h0 ((hcondFirst t).mp h)
      have hL : ¬condLast (grid1.coords t) := fun h => h2 ((hcondLast t).mp h)
      rw [Dat.leavesExact_idle (dat V c) 5 t (idleAt5 t hL) (noFlush5 t hL), Dat.leavesExact_idle (dat V c) 6 t (idleAt6 t hL) (noFlush6 t hL)]
      rw [outsAt_mid V c t h0 h2]
      unfold midAt sout_mid_0 sout_mid_1; (try dsimp only)
      rw [PhiS_castSucc V c t, PhiS_pos V c _ _ hz]
      iintro ⟨⟨⟨R0, R1, R2, R3, R4, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun_mid c (grid1.coords t) _ _ _ _ _ _ _ _ _ _ _ _ _ _ _ _ _ _ hF hL (iblk V c 0 t) (iblk V c 1 t) (iblk V c 2 t) (iblk V c 3 t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [R0 R1 R2 R3 R4 HS0 HS1 Hg]
      · isplitl [R0 R1 R2 R3 R4 HS0 HS1]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover_mid_0 c _ _ _ _ _ _ _ _ _ _ _ _ _ _ _ _ _ _ _ _ _ _ _ _ _ _ _)
          · unfold owns; iexists _; isplitr
            swap; · iexact HS1
            ipureintro; exact View.read_writes_of_cover _ _ _ _ _ (scover_mid_1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dat (F := F) V c) (defs₀ (F := F)) Variants.none () Set.univ := fun t => by
  rw [bigSep_W1, bigSep_W1]
  exact sound_body V c t

/-! ## Entering and leaving the region -/

/-- What the launch hands the region is the invariant before the first point. -/
theorem enter (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives back what the launch handed the region: what the running sums hold is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R0, R1, R2, R3, R4, HS0, HS1⟩, Hg⟩
  isplitl [R0 R1 R2 R3 R4 HS0 HS1]
  · isplitl [R0]; · iexact R0
    isplitl [R1]; · iexact R1
    isplitl [R2]; · iexact R2
    isplitl [R3]; · iexact R3
    isplitl [R4]; · iexact R4
    isplitl [HS0]; · iexists _; iexact HS0
    iexists _; iexact HS1
  iexact Hg

/-- The same after the last point. -/
theorem leave (c : Dev nD) : (dat V c).Φ (Fin.last cfg1.N) ⊢ Pipeline.ΦA spec1 c :=
  Phi_out V c _ (by rw [Fin.val_last]; have : cfg1.N = 20 := N_1; omega)

end Cert.KernelIdeal.Agg

end
-- ==== Proof.WholeProgram.lean ====
/-
  The two regions' halves put into the run: the idealized program's frame and its run to the fold's last contents.
-/
import proofs.«111807_j45552423141540_2_alg».proof.Proof.WholeFrame
import proofs.«111807_j45552423141540_2_alg».proof.Proof.ColSq
import proofs.«111807_j45552423141540_2_alg».proof.Proof.Agg

noncomputable section

namespace Cert.KernelIdeal.Whole

open Cert.KernelIdeal Cert.KernelIdeal.Gen
open Idealize.ShloMosaic Idealize.ShloMosaic.TcCoe
open Idealize.SL Idealize.SL.Sem

variable {F : FTy → Type} [FloatOps F]

/-- Region 0's proof data, for any entry contents. -/
def colsqHalf : Half F cfg0 := fun V c => Cert.KernelIdeal.ColSq.dat V c
/-- Region 1's proof data, for any entry contents. -/
def aggHalf : Half F cfg1 := fun V c => Cert.KernelIdeal.Agg.dat V c

theorem colsqOk : HalfOk0 (colsqHalf (F := F)) where
  arrays V c w := Cert.KernelIdeal.ColSq.A_eq V c w
  full _ _ _ := rfl
  owes_nothing _ _ _ := rfl
  recorded_all _ _ _ := rfl
  body V c := Cert.KernelIdeal.ColSq.body_obligation V c
  enter V c := Cert.KernelIdeal.ColSq.enter V c
  leave V c := Cert.KernelIdeal.ColSq.leave V c

theorem aggOk : HalfOk1 (aggHalf (F := F)) where
  arrays V c w := Cert.KernelIdeal.Agg.A_eq V c w
  full _ _ _ := rfl
  owes_nothing _ _ _ := rfl
  recorded_all _ _ _ := rfl
  body V c := Cert.KernelIdeal.Agg.body_obligation V c
  enter V c := Cert.KernelIdeal.Agg.enter V c
  leave V c := Cert.KernelIdeal.Agg.leave V c

variable (m : (ℓ : Loc nD τ sig) → Buf (Elt F) ℓ) (ρ : Dev nD → PrngReg)

/-- The program's frame, at any float instance. -/
theorem program_frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame m ρ colsqHalf aggHalf colsqOk aggOk

/-- The program's run with the result buffer at the fold's last contents. -/
theorem program_run :
    θ_run defs (onTc (τ := τ) (main (F := F))) ⟨m, fun _ => 0, ρ⟩ (fun r => ∀ c : Dev nD,
      r.2.mem ((c.tc : Thread nD τ).loc main_v32) = W4 m colsqHalf aggHalf c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_result m ρ colsqHalf aggHalf colsqOk aggOk

end Cert.KernelIdeal.Whole

end
-- ==== Proof.ColSqPieces.lean ====
/- The column-sum-of-squares kernel's three steps in closed form: what each leaves in the accumulator and in the
   output block, as the kernel's own arithmetic of the tile and of the accumulator it found. A step's last store to a
   buffer covers it, so what the buffer holds afterwards is that store's payload; a load the step makes after a store
   reads that store's payload back. -/
import proofs.«111807_j45552423141540_2_alg».proof.Proof.ColSq
import Idealize.ShloMosaic.Lib.Pipeline.Value

set_option maxRecDepth 16384

noncomputable section

namespace Cert.KernelIdeal.ColSq

open Idealize.ShloMosaic Idealize.ShloMosaic.TcCoe Idealize.ShloMosaic.Tactic
open Idealize.SL Idealize.SL.Sem
open Idealize.ShloMosaic.Pipeline (Dat)
open Cert.KernelIdeal.Gen

variable {F : FTy → Type} [FloatOps F]

/-- Every store and load of the body is at offset zero of its buffer: rank 2, -/
theorem origin2 : (![0, 0] : Fin 2 → Nat) = fun _ => 0 := funext fun a => by fin_cases a <;> rfl
/-- and rank 3. -/
theorem origin3 : (![0, 0, 0] : Fin 3 → Nat) = fun _ => 0 := funext fun a => by fin_cases a <;> rfl

/-- A MIDDLE step leaves in the accumulator what it found plus the tile's column sums of squares. -/
theorem accMid_eq (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : ¬atLast i) (x0 : Vec F S10000x128 .f32) (xs0 : Vec F S1x128 .f32) :
    accMid c i arg2 harg2 arg3 harg3 arg4 harg4 hF hL x0 xs0 = k0_pay2 x0 xs0 := by
  unfold accMid
  rw [View.read_writes_eq_canon _ _ _ (accMid_cover c i arg2 harg2 arg3 harg3 arg4 harg4 hF hL x0 xs0)]
  unfold runMid
  dsimp only
  rw [View.canon_unit_zero origin2]
  simp only [View.readAt_eq_ld, harg2.read_unread, harg4.read_unread, View.ld_unit_zero (S := S10000x128) origin2, View.ld_unit_zero (S := S1x128) origin2]

/-- A LAST step leaves the same in the accumulator, -/
theorem accLast_eq (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec F S10000x128 .f32) (xs0 : Vec F S1x128 .f32) :
    accLast c i arg2 harg2 arg3 harg3 arg4 harg4 hF hL x0 xs0 = k0_pay2 x0 xs0 := by
  unfold accLast
  rw [View.read_writes_eq_canon _ _ _ (accLast_cover c i arg2 harg2 arg3 harg3 arg4 harg4 hF hL x0 xs0)]
  unfold runLast
  dsimp only
  sl_unfold_words
  rw [View.canon_unit_zero origin2]
  simp only [View.readAt_eq_ld, harg2.read_unread, harg4.read_unread, View.ld_unit_zero (S := S10000x128) origin2, View.ld_unit_zero (S := S1x128) origin2]

/-- and in the output block that row, read back and given a leading unit axis. -/
theorem outLast_eq (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec F S10000x128 .f32) (xs0 : Vec F S1x128 .f32) :
    outLast c i arg2 harg2 arg3 harg3 arg4 harg4 hF hL x0 xs0 = k0_pay3 (k0_pay2 x0 xs0) := by
  unfold outLast
  rw [View.read_writes_eq_canon _ _ _ (outLast_cover c i arg2 harg2 arg3 harg3 arg4 harg4 hF hL x0 xs0)]
  unfold runLast
  dsimp only
  sl_unfold_words
  rw [View.canon_unit_zero origin3, View.readCov_unit_zero (S := S1x128) _ origin2]
  simp only [View.readAt_eq_ld, harg2.read_unread, harg4.read_unread, View.ld_unit_zero (S := S10000x128) origin2, View.ld_unit_zero (S := S1x128) origin2]

/-- A FIRST step leaves in the accumulator the zero row plus the tile's column sums of squares, whatever it found. -/
theorem accFirst_eq (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : atFirst i) (hL : ¬atLast i) (x0 : Vec F S10000x128 .f32) :
    accFirst c i arg2 harg2 arg3 harg3 arg4 harg4 hF hL x0 = k0_pay2 x0 (k0_pay1 (F := F)) := by
  unfold accFirst
  rw [View.read_writes_eq_canon _ _ _ (accFirst_cover c i arg2 harg2 arg3 harg3 arg4 harg4 hF hL x0)]
  unfold runFirst
  dsimp only
  sl_unfold_words
  rw [View.canon_cons_unit_zero (S := S1x128) origin2, View.readCov_unit_zero (S := S1x128) _ origin2]
  simp only [View.readAt_eq_ld, harg2.read_unread, View.ld_unit_zero (S := S10000x128) origin2, View.ld_unit_zero (S := S1x128) origin2]

end Cert.KernelIdeal.ColSq

end
-- ==== Proof.ColSqValue.lean ====
/- The value of region 0's output array at the ideal instance. The column-sum-of-squares kernel visits the 20 tiles
   of x in order, ten per half; the accumulator after a point holds, column by column, the sum of squares of the rows of
   the half's tiles seen so far, and the last point of each half copies it to row h of the [2,1,128] output array. So
   the array ends holding, at (h, 0, d), the sum over the half's ten tiles of the sum over each tile's 10000 rows of
   x[row, d] squared. -/
import proofs.«111807_j45552423141540_2_alg».proof.Proof.ColSqPieces
import proofs.«111807_j45552423141540_2_alg».proof.Proof.TilePayloadsA
import proofs.«111807_j45552423141540_2_alg».proof.Proof.VladSpec
import Idealize.ShloMosaic.Lib.Pipeline.Value

set_option maxRecDepth 16384

noncomputable section

open scoped BigOperators

namespace Cert.KernelIdeal.ColSq

open Idealize.ShloMosaic Idealize.ShloMosaic.TcCoe Idealize.ShloMosaic.ValueIdx
open Idealize.SL Idealize.SL.Sem
open Idealize.ShloMosaic.Pipeline (Dat)
open Cert.KernelIdeal.Gen

variable (V : (c : Dev nD) → (b : Ref sig .tc) → Buf (Elt Ideal) ((c : Thread nD τ).loc b))

/-! ## Where the windows' blocks sit -/

/-- The x tile at point `t` is block (t, 0) of x: rows 10000·t … 10000·t + 9999, all 128 columns. -/
theorem xTile_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The output block at point `t` is block (t / 10, 0, 0) of the [2,1,128] array: the row of the point's half. -/
theorem out_index : ∀ t : Fin cfg0.N, win0_1.index t (0 : Fin 3) = t.val / 10 ∧ win0_1.index t (1 : Fin 3) = 0 ∧ win0_1.index t (2 : Fin 3) = 0 :=
  (by decide +kernel : ∀ t : Fin grid0.N, win0_1.index t (0 : Fin 3) = t.val / 10 ∧ win0_1.index t (1 : Fin 3) = 0 ∧ win0_1.index t (2 : Fin 3) = 0)

/-- A grid point as a tile number. -/
def tileOf (t : Fin cfg0.N) : Fin 20 := ⟨t.val, lt_of_lt_of_eq t.isLt N_0⟩

/-- THE TILE READ: entry (r, d) of the x tile at point `t` is x at row 10000·t + r, column d. -/
theorem tile_read (c : Dev nD) (t : Fin cfg0.N) (r : Fin 10000) (d : Fin 128) :
    (iblk V c 0 t : Vec Ideal S10000x128 .f32) (ix2 r d)
      = (V c main_arg0 : S200000x128.Idx → EReal) (ix2 (Cert.Vlad.row (tileOf t) r) d) := by
  obtain ⟨e0, e1⟩ := xTile_index t
  unfold iblk
  rw [View.read_apply]
  show V c main_arg0 _ = V c main_arg0 _
  congr 1
  funext a
  apply Fin.ext
  match a with
  | ⟨0, _⟩ => show win0_0.index t (0 : Fin 2) * 10000 + 1 * r.val = t.val * 10000 + r.val; omega
  | ⟨1, _⟩ => show win0_0.index t (1 : Fin 2) * 128 + 1 * d.val = d.val; omega

/-! ## One step, entry by entry -/

/-- The sum of the squares of column d of a 10000-row tile. -/
def sqCol (x0 : Vec Ideal S10000x128 .f32) (d : Fin 128) : EReal := ∑ r : Fin 10000, x0 (ix2 r d) * x0 (ix2 r d)

/-- A first step leaves the tile's column sums of squares (zero plus them). -/
theorem accFirst_at (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : atFirst i) (hL : ¬atLast i) (x0 : Vec Ideal S10000x128 .f32) (d : Fin 128) :
    (accFirst (F := Ideal) c i arg2 harg2 arg3 harg3 arg4 harg4 hF hL x0 : Vec Ideal S1x128 .f32) (ix2 (0 : Fin 1) d) = sqCol x0 d := by
  rw [accFirst_eq]
  refine (Tile.colSq_tile x0 (k0_pay1 (F := Ideal)) d).trans ?_
  rw [Tile.zeroRow_apply d, zero_add]
  rfl

/-- A middle step adds them to what the accumulator held. -/
theorem accMid_at (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : ¬atLast i) (x0 : Vec Ideal S10000x128 .f32) (xs0 : Vec Ideal S1x128 .f32) (d : Fin 128) :
    (accMid (F := Ideal) c i arg2 harg2 arg3 harg3 arg4 harg4 hF hL x0 xs0 : Vec Ideal S1x128 .f32) (ix2 (0 : Fin 1) d) = xs0 (ix2 (0 : Fin 1) d) + sqCol x0 d := by
  rw [accMid_eq]
  exact Tile.colSq_tile x0 xs0 d

/-- So does a last step, -/
theorem accLast_at (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec Ideal S10000x128 .f32) (xs0 : Vec Ideal S1x128 .f32) (d : Fin 128) :
    (accLast (F := Ideal) c i arg2 harg2 arg3 harg3 arg4 harg4 hF hL x0 xs0 : Vec Ideal S1x128 .f32) (ix2 (0 : Fin 1) d) = xs0 (ix2 (0 : Fin 1) d) + sqCol x0 d := by
  rw [accLast_eq]
  exact Tile.colSq_tile x0 xs0 d

/-- which also copies the new row to the output block. -/
theorem outLast_at (c : Dev nD) (i : grid0.Coords) (arg2 : Memref sig .tc .vmem S10000x128 .f32) (harg2 : arg2.IsWhole) (arg3 : Memref sig .tc .vmem S1x1x128 .f32) (harg3 : arg3.IsWhole) (arg4 : Memref sig .tc .vmem S1x128 .f32) (harg4 : arg4.IsWhole) (hF : ¬atFirst i) (hL : atLast i) (x0 : Vec Ideal S10000x128 .f32) (xs0 : Vec Ideal S1x128 .f32) (d : Fin 128) :
    (outLast (F := Ideal) c i arg2 harg2 arg3 harg3 arg4 harg4 hF hL x0 xs0 : Vec Ideal S1x1x128 .f32) (ix3 (0 : Fin 1) (0 : Fin 1) d) = xs0 (ix2 (0 : Fin 1) d) + sqCol x0 d := by
  rw [outLast_eq]
  refine (Tile.colSq_out (k0_pay2 (F := Ideal) x0 xs0) d).trans ?_
  exact Tile.colSq_tile x0 xs0 d

/-! ## The accumulator after every point -/

/-- Column d's sum of squares over the rows of tile k of x (zero past the 20 tiles: never consulted). -/
def tileSq (X : S200000x128.Idx → EReal) (d : Fin 128) (k : ℕ) : EReal :=
  if h : k < 20 then ∑ r : Fin 10000, X (ix2 (Cert.Vlad.row ⟨k, h⟩ r) d) * X (ix2 (Cert.Vlad.row ⟨k, h⟩ r) d) else 0

/-- The x tile at point `t` contributes tile t's column sums of squares. -/
theorem sqCol_tile (c : Dev nD) (X : S200000x128.Idx → EReal) (hX : (V c main_arg0 : S200000x128.Idx → EReal) = X)
    (t : Fin cfg0.N) (d : Fin 128) : sqCol (iblk V c 0 t) d = tileSq X d t.val := by
  have ht : t.val < 20 := lt_of_lt_of_eq t.isLt N_0
  unfold sqCol tileSq
  rw [dif_pos ht]
  refine Finset.sum_congr rfl fun r _ => ?_
  rw [tile_read V c t r d, hX]
  rfl

/-- THE ACCUMULATOR'S CLOSED FORM: after point n it holds, in column d, the sum of squares over the tiles of the
    point's half seen so far — tiles 10·(n / 10) … n. By induction on the point: a half's first point starts from
    the zero row, every other point adds its tile to what the point before left. -/
theorem acc_closed (c : Dev nD) (X : S200000x128.Idx → EReal) (hX : (V c main_arg0 : S200000x128.Idx → EReal) = X) (d : Fin 128) :
    ∀ (n : ℕ) (hn : n < cfg0.N), ((stateAt V c n hn).2 : Vec Ideal S1x128 .f32) (ix2 (0 : Fin 1) d)
      = ∑ j ∈ Finset.range (n % 10 + 1), tileSq X d (10 * (n / 10) + j)
  | 0, hn => by
    have h0 : (⟨0, hn⟩ : Fin cfg0.N).val % 10 = 0 := rfl
    have hL : ¬atLast (grid0.coords (⟨0, hn⟩ : Fin cfg0.N)) := fun h => by have h9 := (atLast_iff _).mp h; omega
    rw [stateAt_first V c ⟨0, hn⟩ h0 hL]
    dsimp only
    refine (accFirst_at c (grid0.coords (⟨0, hn⟩ : Fin cfg0.N)) (xStage (⟨0, hn⟩ : Fin cfg0.N)) (xStage_whole (⟨0, hn⟩ : Fin cfg0.N)) (outStage (⟨0, hn⟩ : Fin cfg0.N)) (outStage_whole (⟨0, hn⟩ : Fin cfg0.N)) accM (Memref.isWhole_whole _) ((atFirst_iff (⟨0, hn⟩ : Fin cfg0.N)).mpr h0) hL (iblk V c 0 (⟨0, hn⟩ : Fin cfg0.N)) d).trans ?_
    rw [sqCol_tile V c X hX (⟨0, hn⟩ : Fin cfg0.N) d]
    simp
  | n + 1, hn => by
    have hN : n + 1 < 20 := lt_of_lt_of_eq hn N_0
    by_cases h0 : (⟨n + 1, hn⟩ : Fin cfg0.N).val % 10 = 0
    · have hL : ¬atLast (grid0.coords (⟨n + 1, hn⟩ : Fin cfg0.N)) := fun h => by have h9 := (atLast_iff _).mp h; omega
      rw [stateAt_first V c ⟨n + 1, hn⟩ h0 hL]
      dsimp only
      refine (accFirst_at c (grid0.coords (⟨n + 1, hn⟩ : Fin cfg0.N)) (xStage (⟨n + 1, hn⟩ : Fin cfg0.N)) (xStage_whole (⟨n + 1, hn⟩ : Fin cfg0.N)) (outStage (⟨n + 1, hn⟩ : Fin cfg0.N)) (outStage_whole (⟨n + 1, hn⟩ : Fin cfg0.N)) accM (Memref.isWhole_whole _) ((atFirst_iff (⟨n + 1, hn⟩ : Fin cfg0.N)).mpr h0) hL (iblk V c 0 (⟨n + 1, hn⟩ : Fin cfg0.N)) d).trans ?_
      rw [sqCol_tile V c X hX (⟨n + 1, hn⟩ : Fin cfg0.N) d]
      have h0' : (n + 1) % 10 = 0 := h0
      have e : 10 * ((n + 1) / 10) + 0 = n + 1 := by omega
      rw [h0', Finset.sum_range_one, e]
    · have h0' : ¬(n + 1) % 10 = 0 := h0
      have ih := acc_closed c X hX d n (Nat.lt_of_succ_lt hn)
      have e1 : n % 10 + 1 = (n + 1) % 10 := by omega
      have e2 : n / 10 = (n + 1) / 10 := by omega
      have e3 : 10 * ((n + 1) / 10) + (n + 1) % 10 = n + 1 := by omega
      have hprev : (accBefore V c (⟨n + 1, hn⟩ : Fin cfg0.N) : Vec Ideal S1x128 .f32) (ix2 (0 : Fin 1) d)
          = ∑ j ∈ Finset.range ((n + 1) % 10), tileSq X d (10 * ((n + 1) / 10) + j) := by
        show ((stateAt V c n _).2 : Vec Ideal S1x128 .f32) (ix2 (0 : Fin 1) d) = _
        rw [ih, e1, e2]
      by_cases h9 : (⟨n + 1, hn⟩ : Fin cfg0.N).val % 10 = 9
      · rw [stateAt_last V c ⟨n + 1, hn⟩ h0 h9]
        dsimp only
        refine (accLast_at c (grid0.coords (⟨n + 1, hn⟩ : Fin cfg0.N)) (xStage (⟨n + 1, hn⟩ : Fin cfg0.N)) (xStage_whole (⟨n + 1, hn⟩ : Fin cfg0.N)) (outStage (⟨n + 1, hn⟩ : Fin cfg0.N)) (outStage_whole (⟨n + 1, hn⟩ : Fin cfg0.N)) accM (Memref.isWhole_whole _) (fun h => h0 ((atFirst_iff (⟨n + 1, hn⟩ : Fin cfg0.N)).mp h)) ((atLast_iff (⟨n + 1, hn⟩ : Fin cfg0.N)).mpr h9) (iblk V c 0 (⟨n + 1, hn⟩ : Fin cfg0.N)) (accBefore V c (⟨n + 1, hn⟩ : Fin cfg0.N)) d).trans ?_
        rw [sqCol_tile V c X hX (⟨n + 1, hn⟩ : Fin cfg0.N) d, hprev, Finset.sum_range_succ, e3]
      · rw [stateAt_mid V c ⟨n + 1, hn⟩ h0 h9]
        dsimp only
        refine (accMid_at c (grid0.coords (⟨n + 1, hn⟩ : Fin cfg0.N)) (xStage (⟨n + 1, hn⟩ : Fin cfg0.N)) (xStage_whole (⟨n + 1, hn⟩ : Fin cfg0.N)) (outStage (⟨n + 1, hn⟩ : Fin cfg0.N)) (outStage_whole (⟨n + 1, hn⟩ : Fin cfg0.N)) accM (Memref.isWhole_whole _) (fun h => h0 ((atFirst_iff (⟨n + 1, hn⟩ : Fin cfg0.N)).mp h)) (fun h => h9 ((atLast_iff (⟨n + 1, hn⟩ : Fin cfg0.N)).mp h)) (iblk V c 0 (⟨n + 1, hn⟩ : Fin cfg0.N)) (accBefore V c (⟨n + 1, hn⟩ : Fin cfg0.N)) d).trans ?_
        rw [sqCol_tile V c X hX (⟨n + 1, hn⟩ : Fin cfg0.N) d, hprev, Finset.sum_range_succ, e3]

/-- At the last point of a half the output block's staging buffer holds the accumulator's new row: the half's total. -/
theorem out_closed (c : Dev nD) (X : S200000x128.Idx → EReal) (hX : (V c main_arg0 : S200000x128.Idx → EReal) = X) (d : Fin 128)
    (t : Fin cfg0.N) (h9 : t.val % 10 = 9) :
    ((stateAt V c t.val t.isLt).1 : Vec Ideal S1x1x128 .f32) (ix3 (0 : Fin 1) (0 : Fin 1) d)
      = ∑ j ∈ Finset.range 10, tileSq X d (10 * (t.val / 10) + j) := by
  have h0 : ¬t.val % 10 = 0 := by omega
  have hacc := acc_closed V c X hX d t.val t.isLt
  rw [stateAt_last V c t h0 h9] at hacc ⊢
  dsimp only at hacc ⊢
  rw [show t.val % 10 + 1 = 10 from by omega] at hacc
  refine Eq.trans ?_ hacc
  refine (outLast_at c (grid0.coords t) (xStage t) (xStage_whole t) (outStage t) (outStage_whole t) accM (Memref.isWhole_whole _) (fun h => h0 ((atFirst_iff t).mp h)) ((atLast_iff t).mpr h9) (iblk V c 0 t) (accBefore V c t) d).trans ?_
  exact (accLast_at c (grid0.coords t) (xStage t) (xStage_whole t) (outStage t) (outStage_whole t) accM (Memref.isWhole_whole _) (fun h => h0 ((atFirst_iff t).mp h)) ((atLast_iff t).mpr h9) (iblk V c 0 t) (accBefore V c t) d).symm

/-! ## The output array after the region -/

/-- The sum of the squares of column d over the rows of half h's ten tiles. -/
def halfSqAt (X : S200000x128.Idx → EReal) (h : Fin 2) (d : Fin 128) : EReal :=
  ∑ i : Fin 10, ∑ r : Fin 10000, X (ix2 (Cert.Vlad.row (Cert.Vlad.tile h i) r) d) * X (ix2 (Cert.Vlad.row (Cert.Vlad.tile h i) r) d)

/-- What the [2,1,128] array ends holding: at (h, 0, d), half h's sum of squares of column d. -/
def halfSq (X : S200000x128.Idx → EReal) : S2x1x128.Idx → EReal :=
  fun j => halfSqAt X ⟨(j 0).val, (j 0).isLt⟩ ⟨(j 2).val, (j 2).isLt⟩

/-- A half's ten tiles, counted from the half's first tile, are tiles (h, 0) … (h, 9). -/
theorem half_sum (X : S200000x128.Idx → EReal) (d : Fin 128) (h : Fin 2) :
    ∑ j ∈ Finset.range 10, tileSq X d (10 * h.val + j) = halfSqAt X h d := by
  rw [Finset.sum_range]
  unfold halfSqAt
  refine Finset.sum_congr rfl fun i _ => ?_
  have hk : 10 * h.val + i.val < 20 := by have := h.isLt; have := i.isLt; omega
  unfold tileSq
  rw [dif_pos hk]
  have e : (⟨10 * h.val + i.val, hk⟩ : Fin 20) = Cert.Vlad.tile h i :=
    Fin.ext (by show 10 * h.val + i.val = h.val * 10 + i.val; omega)
  rw [e]

/-- WHAT A HALF'S LAST POINT WRITES BACK is its block of `halfSq`: row t / 10 of the array, all 128 columns. -/
theorem flushed_eq (c : Dev nD) (X : S200000x128.Idx → EReal) (hX : (V c main_arg0 : S200000x128.Idx → EReal) = X)
    (t : Fin cfg0.N) (hf : (cfg0.win 1).flush t = true) :
    (dat (F := Ideal) V c).flushed 1 t = ((cfg0.win 1).blk t).view.read (Elt Ideal) (halfSq X) := by
  have h9 : t.val % 10 = 9 := (flush0_1 t).mp hf
  have ht : t.val < 20 := lt_of_lt_of_eq t.isLt N_0
  have hh : t.val / 10 < 2 := by omega
  obtain ⟨e0, e1, e2⟩ := out_index t
  show (cfg0.win 1).cut (grid0.coords t) ((dat (F := Ideal) V c).after 1 t) = _
  rw [after_out]
  funext y
  rw [View.read_apply]
  have hy : (y : S1x1x128.Idx) = ix3 (0 : Fin 1) (0 : Fin 1) (y 2) := by
    funext a
    match a with
    | ⟨0, _⟩ => exact Subsingleton.elim (α := Fin 1) _ _
    | ⟨1, _⟩ => exact Subsingleton.elim (α := Fin 1) _ _
    | ⟨2, _⟩ => rfl
  have a0 : ((((cfg0.win 1).blk t).view.emb y) 0).val = t.val / 10 := by
    show win0_1.index t (0 : Fin 3) * 1 + 1 * (y 0).val = t.val / 10
    have hy0 : (y 0).val < 1 := (y 0).isLt
    omega
  have a2 : ((((cfg0.win 1).blk t).view.emb y) 2).val = (y 2).val := by
    show win0_1.index t (2 : Fin 3) * 128 + 1 * (y 2).val = (y 2).val
    omega
  show ((stateAt V c t.val t.isLt).1 : Vec Ideal S1x1x128 .f32) y = halfSq X (((cfg0.win 1).blk t).view.emb y)
  refine (congrArg ((stateAt V c t.val t.isLt).1 : Vec Ideal S1x1x128 .f32) hy).trans ?_
  refine (out_closed V c X hX (y 2) t h9).trans ?_
  refine (half_sum X (y 2) ⟨t.val / 10, hh⟩).trans ?_
  exact (congrArg₂ (halfSqAt X) (Fin.ext a0) (Fin.ext a2)).symm

/-- THE COVER: entry (h, 0, d) of the array lies in the block the last point of half h — point 10·h + 9 — writes back. -/
theorem covered (i : S2x1x128.Idx) :
    ∃ t : Fin cfg0.N, (cfg0.win 1).flush t = true ∧ i ∈ ((cfg0.win 1).blk t).view.set := by
  have hi0 : (i 0).val < 2 := (i 0).isLt
  have hi1 : (i 1).val < 1 := (i 1).isLt
  have hi2 : (i 2).val < 128 := (i 2).isLt
  have ht : 10 * (i 0).val + 9 < cfg0.N := by rw [show cfg0.N = 20 from N_0]; omega
  obtain ⟨e0, e1, e2⟩ := out_index ⟨10 * (i 0).val + 9, ht⟩
  have e0' : win0_1.index ⟨10 * (i 0).val + 9, ht⟩ (0 : Fin 3) = (10 * (i 0).val + 9) / 10 := e0
  refine ⟨⟨10 * (i 0).val + 9, ht⟩, (flush0_1 _).mpr (by show (10 * (i 0).val + 9) % 10 = 9; omega), ?_⟩
  show i ∈ ((View.whole main_v0).slice (win0_1.rect ⟨10 * (i 0).val + 9, ht⟩)).set
  rw [View.set_slice_whole, Rect.mem_set_unit]
  intro a
  match a with
  | ⟨0, _⟩ =>
    show win0_1.index ⟨10 * (i 0).val + 9, ht⟩ (0 : Fin 3) * 1 ≤ (i 0).val ∧ (i 0).val < win0_1.index ⟨10 * (i 0).val + 9, ht⟩ (0 : Fin 3) * 1 + 1
    omega
  | ⟨1, _⟩ =>
    show win0_1.index ⟨10 * (i 0).val + 9, ht⟩ (1 : Fin 3) * 1 ≤ (i 1).val ∧ (i 1).val < win0_1.index ⟨10 * (i 0).val + 9, ht⟩ (1 : Fin 3) * 1 + 1
    omega
  | ⟨2, _⟩ =>
    show win0_1.index ⟨10 * (i 0).val + 9, ht⟩ (2 : Fin 3) * 128 ≤ (i 2).val ∧ (i 2).val < win0_1.index ⟨10 * (i 0).val + 9, ht⟩ (2 : Fin 3) * 128 + 128
    omega

/-- THE ARRAY AFTER THE REGION: the two written-back blocks cover it, so it ends holding `halfSq` of x. -/
theorem exit_array (c : Dev nD) (X : S200000x128.Idx → EReal) (hX : (V c main_arg0 : S200000x128.Idx → EReal) = X) :
    (dat (F := Ideal) V c).arrAt 1 cfg0.N = halfSq X :=
  (dat (F := Ideal) V c).arrAt_eq_of_cover 1 (halfSq X) (fun t hf => flushed_eq V c X hX t hf) covered

/-- THE VALUE of region 0's output: entry (h, 0, d) is the sum, over the ten tiles of half h and each tile's 10000
    rows, of x[row, d] squared. -/
theorem exit_value (V : (c : Dev nD) → (b : Ref sig .tc) → Buf (Elt Ideal) ((c : Thread nD τ).loc b)) (c : Dev nD)
    (X : S200000x128.Idx → EReal) (hX : (V c main_arg0 : S200000x128.Idx → EReal) = X) (h : Fin 2) (d : Fin 128) :
    ((dat (F := Ideal) V c).arrAt 1 cfg0.N : S2x1x128.Idx → EReal) (ix3 h (0 : Fin 1) d)
      = ∑ i : Fin 10, ∑ r : Fin 10000, X (ix2 (Cert.Vlad.row (Cert.Vlad.tile h i) r) d) * X (ix2 (Cert.Vlad.row (Cert.Vlad.tile h i) r) d) :=
  (congrFun (exit_array V c X hX) (ix3 h (0 : Fin 1) d)).trans rfl

end Cert.KernelIdeal.ColSq

end
-- ==== Proof.AggPieces.lean ====
import proofs.«111807_j45552423141540_2_alg».proof.Proof.Agg
import Idealize.ShloMosaic.Lib.Pipeline.Value

set_option maxRecDepth 16384

noncomputable section

namespace Cert.KernelIdeal.Agg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # What the three cases leave, as the body's own arithmetic

Every store of the body writes a whole buffer and every load reads one, so what a case leaves in a
buffer is the payload of the last store into it, and each load feeding that payload reads the whole
contents of its buffer: the operands' blocks, the running sums the point before left, or — at a row's
first point — the zeros just stored. -/

/-- Zero offsets, however they are spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## Inside a row -/

/-- The weighted-row sum gains the tile's contribution. -/
theorem sout_mid_0_eq (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) :
    sout_mid_0 c i arg2 harg2 arg3 harg3 arg4 harg4 arg5 harg5 arg6 harg6 arg7 harg7 arg8 harg8 arg9 harg9 arg10 harg10 hc0 hc2 x0 x1 x2 x3 xs0 xs1 = k1_pay8 x0 x1 x2 x3 xs0 := by
  unfold sout_mid_0
  rw [View.read_writes_eq_canon _ _ _ (scover_mid_0 c i arg2 harg2 arg3 harg3 arg4 harg4 arg5 harg5 arg6 harg6 arg7 harg7 arg8 harg8 arg9 harg9 arg10 harg10 hc0 hc2 x0 x1 x2 x3 xs0 xs1)]
  unfold kernelRun_mid
  dsimp only
  rw [View.canon_unit_zero (S := S64x128) hz2]
  simp only [View.readAt_eq_ld, harg2.read_unread, harg3.read_unread, harg4.read_unread, harg5.read_unread, harg9.read_unread, harg10.read_unread, View.ld_unit_zero (S := S10000x128) hz2, View.ld_unit_zero (S := S1x128) hz2, View.ld_unit_zero (S := S128x64) hz2, View.ld_unit_zero (S := S1x64) hz2, View.ld_unit_zero (S := S64x128) hz2]

/-- The mass sum gains the tile's assignment masses. -/
theorem sout_mid_1_eq (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec F S10000x128 .f32) (x1 : Vec F S1x128 .f32) (x2 : Vec F S128x64 .f32) (x3 : Vec F S1x64 .f32) (xs0 : Vec F S64x128 .f32) (xs1 : Vec F S1x64 .f32) :
    sout_mid_1 c i arg2 harg2 arg3 harg3 arg4 harg4 arg5 harg5 arg6 harg6 arg7 harg7 arg8 harg8 arg9 harg9 arg10 harg10 hc0 hc2 x0 x1 x2 x3 xs0 xs1 = k1_pay1 (k1_pay7 x0 x1 x2 x3) xs1 := by
  unfold sout_mid_1
  rw [View.read_writes_eq_canon _ _ _ (scover_mid_1 c i arg2 harg2 arg3 harg3 arg4 harg4 arg5 harg5 arg6 harg6 arg7 harg7 arg8 harg8 arg9 harg9 arg10 harg10 hc0 hc2 x0 x1 x2 x3 xs0 xs1)]
  unfold kernelRun_mid
  dsimp only
  rw [View.canon_unit_zero (S := S1x64) hz2]
  simp only [View.readAt_eq_ld, harg2.read_unread, harg3.read_unread, harg4.read_unread, harg5.read_unread, harg9.read_unread, harg10.read_unread, View.ld_unit_zero (S := S10000x128) hz2, View.ld_unit_zero (S := S1x128) hz2, View.ld_unit_zero (S := S128x64) hz2, View.ld_unit_zero (S := S1x64) hz2, View.ld_unit_zero (S := S64x128) hz2]

/-! ## At a row's first point -/

/-- The weighted-row sum restarts: the tile's contribution over the zeros just stored. -/
theorem sout_first_0_eq (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32)  :
    sout_first_0 c i arg2 harg2 arg3 harg3 arg4 harg4 arg5 harg5 arg6 harg6 arg7 harg7 arg8 harg8 arg9 harg9 arg10 harg10 hc0 hc2 x0 x1 x2 x3 = k1_pay8 x0 x1 x2 x3 k1_pay4 := by
  unfold sout_first_0
  rw [View.read_writes_eq_canon _ _ _ (scover_first_0 c i arg2 harg2 arg3 harg3 arg4 harg4 arg5 harg5 arg6 harg6 arg7 harg7 arg8 harg8 arg9 harg9 arg10 harg10 hc0 hc2 x0 x1 x2 x3)]
  unfold kernelRun_first
  dsimp only
  sl_unfold_words
  rw [View.canon_cons_unit_zero (S := S64x128) hz2, View.readCov_unit_zero (S := S64x128) _ hz2]
  simp only [View.readAt_eq_ld, harg2.read_unread, harg3.read_unread, harg4.read_unread, harg5.read_unread, harg9.read_unread, harg10.read_unread, View.ld_unit_zero (S := S10000x128) hz2, View.ld_unit_zero (S := S1x128) hz2, View.ld_unit_zero (S := S128x64) hz2, View.ld_unit_zero (S := S1x64) hz2, View.ld_unit_zero (S := S64x128) hz2]

/-- The mass sum restarts: the tile's assignment masses over the zeros just stored. -/
theorem sout_first_1_eq (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec F S10000x128 .f32) (x1 : Vec F S1x128 .f32) (x2 : Vec F S128x64 .f32) (x3 : Vec F S1x64 .f32)  :
    sout_first_1 c i arg2 harg2 arg3 harg3 arg4 harg4 arg5 harg5 arg6 harg6 arg7 harg7 arg8 harg8 arg9 harg9 arg10 harg10 hc0 hc2 x0 x1 x2 x3 = k1_pay1 (k1_pay7 x0 x1 x2 x3) k1_pay5 := by
  unfold sout_first_1
  rw [View.read_writes_eq_canon _ _ _ (scover_first_1 c i arg2 harg2 arg3 harg3 arg4 harg4 arg5 harg5 arg6 harg6 arg7 harg7 arg8 harg8 arg9 harg9 arg10 harg10 hc0 hc2 x0 x1 x2 x3)]
  unfold kernelRun_first
  dsimp only
  sl_unfold_words
  rw [View.canon_cons_unit_zero (S := S1x64) hz2, View.readCov_unit_zero (S := S1x64) _ hz2]
  simp only [View.readAt_eq_ld, harg2.read_unread, harg3.read_unread, harg4.read_unread, harg5.read_unread, harg9.read_unread, harg10.read_unread, View.ld_unit_zero (S := S10000x128) hz2, View.ld_unit_zero (S := S1x128) hz2, View.ld_unit_zero (S := S128x64) hz2, View.ld_unit_zero (S := S1x64) hz2, View.ld_unit_zero (S := S64x128) hz2]

/-! ## At a row's last point -/

/-- The weighted-row sum gains the tile's contribution, as inside a row. -/
theorem sout_last_0_eq (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) :
    sout_last_0 c i arg2 harg2 arg3 harg3 arg4 harg4 arg5 harg5 arg6 harg6 arg7 harg7 arg8 harg8 arg9 harg9 arg10 harg10 hc0 hc2 x0 x1 x2 x3 xs0 xs1 = k1_pay8 x0 x1 x2 x3 xs0 := by
  unfold sout_last_0
  rw [View.read_writes_eq_canon _ _ _ (scover_last_0 c i arg2 harg2 arg3 harg3 arg4 harg4 arg5 harg5 arg6 harg6 arg7 harg7 arg8 harg8 arg9 harg9 arg10 harg10 hc0 hc2 x0 x1 x2 x3 xs0 xs1)]
  unfold kernelRun_last
  dsimp only
  sl_unfold_words
  rw [View.canon_unit_zero (S := S64x128) hz2]
  simp only [View.readAt_eq_ld, harg2.read_unread, harg3.read_unread, harg4.read_unread, harg5.read_unread, harg9.read_unread, harg10.read_unread, View.ld_unit_zero (S := S10000x128) hz2, View.ld_unit_zero (S := S1x128) hz2, View.ld_unit_zero (S := S128x64) hz2, View.ld_unit_zero (S := S1x64) hz2, View.ld_unit_zero (S := S64x128) hz2]

/-- The mass sum gains the tile's assignment masses, as inside a row. -/
theorem sout_last_1_eq (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) :
    sout_last_1 c i arg2 harg2 arg3 harg3 arg4 harg4 arg5 harg5 arg6 harg6 arg7 harg7 arg8 harg8 arg9 harg9 arg10 harg10 hc0 hc2 x0 x1 x2 x3 xs0 xs1 = k1_pay1 (k1_pay7 x0 x1 x2 x3) xs1 := by
  unfold sout_last_1
  rw [View.read_writes_eq_canon _ _ _ (scover_last_1 c i arg2 harg2 arg3 harg3 arg4 harg4 arg5 harg5 arg6 harg6 arg7 harg7 arg8 harg8 arg9 harg9 arg10 harg10 hc0 hc2 x0 x1 x2 x3 xs0 xs1)]
  unfold kernelRun_last
  dsimp only
  sl_unfold_words
  rw [View.canon_unit_zero (S := S1x64) hz2]
  simp only [View.readAt_eq_ld, harg2.read_unread, harg3.read_unread, harg4.read_unread, harg5.read_unread, harg9.read_unread, harg10.read_unread, View.ld_unit_zero (S := S10000x128) hz2, View.ld_unit_zero (S := S1x128) hz2, View.ld_unit_zero (S := S128x64) hz2, View.ld_unit_zero (S := S1x64) hz2, View.ld_unit_zero (S := S64x128) hz2]

/-- The first output's block is the finished weighted-row sum, given a leading axis of length one. -/
theorem out_last_5_eq (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) :
    out_last_5 c i arg2 harg2 arg3 harg3 arg4 harg4 arg5 harg5 arg6 harg6 arg7 harg7 arg8 harg8 arg9 harg9 arg10 harg10 hc0 hc2 x0 x1 x2 x3 xs0 xs1 = k1_pay2 (k1_pay8 x0 x1 x2 x3 xs0) := by
  unfold out_last_5
  rw [View.read_writes_eq_canon _ _ _ (cover_last_5 c i arg2 harg2 arg3 harg3 arg4 harg4 arg5 harg5 arg6 harg6 arg7 harg7 arg8 harg8 arg9 harg9 arg10 harg10 hc0 hc2 x0 x1 x2 x3 xs0 xs1)]
  unfold kernelRun_last
  dsimp only
  sl_unfold_words
  rw [View.canon_unit_zero (S := S1x64x128) hz3, View.readCov_unit_zero (S := S64x128) _ hz2]
  simp only [View.readAt_eq_ld, harg2.read_unread, harg3.read_unread, harg4.read_unread, harg5.read_unread, harg9.read_unread, harg10.read_unread, View.ld_unit_zero (S := S10000x128) hz2, View.ld_unit_zero (S := S1x128) hz2, View.ld_unit_zero (S := S128x64) hz2, View.ld_unit_zero (S := S1x64) hz2, View.ld_unit_zero (S := S64x128) hz2]

/-- The second output's block is the finished mass sum, given a leading axis of length one. -/
theorem out_last_6_eq (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec F S10000x128 .f32) (x1 : Vec F S1x128 .f32) (x2 : Vec F S128x64 .f32) (x3 : Vec F S1x64 .f32) (xs0 : Vec F S64x128 .f32) (xs1 : Vec F S1x64 .f32) :
    out_last_6 c i arg2 harg2 arg3 harg3 arg4 harg4 arg5 harg5 arg6 harg6 arg7 harg7 arg8 harg8 arg9 harg9 arg10 harg10 hc0 hc2 x0 x1 x2 x3 xs0 xs1 = k1_pay3 (k1_pay1 (k1_pay7 x0 x1 x2 x3) xs1) := by
  unfold out_last_6
  rw [View.read_writes_eq_canon _ _ _ (cover_last_6 c i arg2 harg2 arg3 harg3 arg4 harg4 arg5 harg5 arg6 harg6 arg7 harg7 arg8 harg8 arg9 harg9 arg10 harg10 hc0 hc2 x0 x1 x2 x3 xs0 xs1)]
  unfold kernelRun_last
  dsimp only
  sl_unfold_words
  rw [View.canon_unit_zero (S := S1x1x64) hz3, View.readCov_unit_zero (S := S1x64) _ hz2]
  simp only [View.readAt_eq_ld, harg2.read_unread, harg3.read_unread, harg4.read_unread, harg5.read_unread, harg9.read_unread, harg10.read_unread, View.ld_unit_zero (S := S10000x128) hz2, View.ld_unit_zero (S := S1x128) hz2, View.ld_unit_zero (S := S128x64) hz2, View.ld_unit_zero (S := S1x64) hz2, View.ld_unit_zero (S := S64x128) hz2]

end Cert.KernelIdeal.Agg

end
-- ==== Proof.AggBlocks.lean ====
/-
  The blocks the aggregation kernel's windows hold at a grid point, read entry by entry, and where its two output
  blocks sit in their arrays.

  The kernel walks a 2 × 10 grid of 20 points t = 10·h + i. At point t the first window holds rows
  10000·t … 10000·t + 9999 of the points array; the windows of the column norms, the weights, the biases and the
  centroids hold their whole arrays at every point; the two output windows hold slab h = t / 10 of their
  arrays [2, 64, 128] and [2, 1, 64], and are written back at the points with i = 9. A block's element sits in
  its array, on every axis, at the block index times the block's extent plus its coordinate inside the block.
-/
import proofs.«111807_j45552423141540_2_alg».proof.Proof.AggShared
import proofs.«111807_j45552423141540_2_alg».proof.Proof.VladSpec
import Idealize.ShloMosaic.Lib.Pipeline.Value
import Idealize.ShloMosaic.Lib.ValueIdx

set_option maxRecDepth 16384

noncomputable section

namespace Cert.KernelIdeal.Agg

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

-- the TensorCore's buffer contents when the region is entered
variable (V : (c : Dev nD) → (b : Ref sig .tc) → Buf (Elt F) ((c : Thread nD τ).loc b))

/-! ## The block indices, decided once over the grid -/

/-- The points window moves one tile of 10000 rows per point and stays on the one column block. -/
theorem xIndex : ∀ t : Fin cfg1.N, win1_0.index t (0 : Fin 2) = t.val ∧ win1_0.index t (1 : Fin 2) = 0 :=
  (by decide +kernel : ∀ t : Fin grid1.N, _)

/-- The column norms' window never moves. -/
theorem normIndex : ∀ t : Fin cfg1.N, win1_1.index t (0 : Fin 2) = 0 ∧ win1_1.index t (1 : Fin 2) = 0 :=
  (by decide +kernel : ∀ t : Fin grid1.N, _)

/-- The weights' window never moves. -/
theorem wtIndex : ∀ t : Fin cfg1.N, win1_2.index t (0 : Fin 2) = 0 ∧ win1_2.index t (1 : Fin 2) = 0 :=
  (by decide +kernel : ∀ t : Fin grid1.N, _)

/-- The biases' window never moves. -/
theorem biasIndex : ∀ t : Fin cfg1.N, win1_3.index t (0 : Fin 2) = 0 ∧ win1_3.index t (1 : Fin 2) = 0 :=
  (by decide +kernel : ∀ t : Fin grid1.N, _)

/-- The centroids' window never moves. -/
theorem cenIndex : ∀ t : Fin cfg1.N, win1_4.index t (0 : Fin 2) = 0 ∧ win1_4.index t (1 : Fin 2) = 0 :=
  (by decide +kernel : ∀ t : Fin grid1.N, _)

/-- The weighted-sum output's window holds slab t / 10 of its array. -/
theorem aggIndex : ∀ t : Fin cfg1.N, win1_5.index t (0 : Fin 3) = t.val / 10 ∧ win1_5.index t (1 : Fin 3) = 0
    ∧ win1_5.index t (2 : Fin 3) = 0 :=
  (by decide +kernel : ∀ t : Fin grid1.N, _)

/-- The weight output's window holds slab t / 10 of its array. -/
theorem massIndex : ∀ t : Fin cfg1.N, win1_6.index t (0 : Fin 3) = t.val / 10 ∧ win1_6.index t (1 : Fin 3) = 0
    ∧ win1_6.index t (2 : Fin 3) = 0 :=
  (by decide +kernel : ∀ t : Fin grid1.N, _)

/-! ## The input blocks -/

/-- Entry (r, d) of the points block at point t is entry (row r of tile t, d) of the points array. -/
theorem xTile_read (c : Dev nD) (t : Fin cfg1.N) (X : S200000x128.Idx → Elt F .f32)
    (hX : (V c main_arg0 : S200000x128.Idx → Elt F .f32) = X) (r : Fin 10000) (d : Fin 128) :
    (iblk V c 0 t : S10000x128.Idx → Elt F .f32) (ix2 r d)
      = X (ix2 (Cert.Vlad.row ⟨t.val, lt_of_lt_of_eq t.isLt N_1⟩ r) d) := by
  subst hX
  obtain ⟨e0, e1⟩ := xIndex t
  unfold iblk
  rw [View.read_apply]
  show V c main_arg0 _ = V c main_arg0 _
  congr 1
  funext a; apply Fin.ext
  match a with
  | ⟨0, _⟩ => show win1_0.index t (0 : Fin 2) * 10000 + 1 * r.val = t.val * 10000 + r.val; rw [e0]; omega
  | ⟨1, _⟩ => show win1_0.index t (1 : Fin 2) * 128 + 1 * d.val = d.val; rw [e1]; omega

/-- The column norms' block is the whole row of norms at every point. -/
theorem norm_read (c : Dev nD) (t : Fin cfg1.N) (ν : S1x128.Idx → Elt F .f32)
    (hν : (V c main_v6 : S1x128.Idx → Elt F .f32) = ν) : (iblk V c 1 t : S1x128.Idx → Elt F .f32) = ν := by
  subst hν
  obtain ⟨e0, e1⟩ := normIndex t
  funext y
  unfold iblk
  rw [View.read_apply]
  show V c main_v6 _ = V c main_v6 y
  congr 1
  funext a; apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The weights' block is the whole (transposed) weight array at every point. -/
theorem wt_read (c : Dev nD) (t : Fin cfg1.N) (Wt : S128x64.Idx → Elt F .f32)
    (hW : (V c main_v7 : S128x64.Idx → Elt F .f32) = Wt) : (iblk V c 2 t : S128x64.Idx → Elt F .f32) = Wt := by
  subst hW
  obtain ⟨e0, e1⟩ := wtIndex t
  funext y
  unfold iblk
  rw [View.read_apply]
  show V c main_v7 _ = V c main_v7 y
  congr 1
  funext a; apply Fin.ext
  match a with
  | ⟨0, _⟩ => show win1_2.index t (0 : Fin 2) * 128 + 1 * (y 0).val = (y 0).val; rw [e0]; omega
  | ⟨1, _⟩ => show win1_2.index t (1 : Fin 2) * 64 + 1 * (y 1).val = (y 1).val; rw [e1]; omega

/-- The biases' block is the whole row of biases at every point. -/
theorem bias_read (c : Dev nD) (t : Fin cfg1.N) (bb : S1x64.Idx → Elt F .f32)
    (hb : (V c main_v8 : S1x64.Idx → Elt F .f32) = bb) : (iblk V c 3 t : S1x64.Idx → Elt F .f32) = bb := by
  subst hb
  obtain ⟨e0, e1⟩ := biasIndex t
  funext y
  unfold iblk
  rw [View.read_apply]
  show V c main_v8 _ = V c main_v8 y
  congr 1
  funext a; apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The centroids' block is the whole centroid array at every point. -/
theorem cen_read (c : Dev nD) (t : Fin cfg1.N) (cen : S64x128.Idx → Elt F .f32)
    (hc : (V c main_arg3 : S64x128.Idx → Elt F .f32) = cen) : (iblk V c 4 t : S64x128.Idx → Elt F .f32) = cen := by
  subst hc
  obtain ⟨e0, e1⟩ := cenIndex t
  funext y
  unfold iblk
  rw [View.read_apply]
  show V c main_arg3 _ = V c main_arg3 y
  congr 1
  funext a; apply Fin.ext
  match a with
  | ⟨0, _⟩ => show win1_4.index t (0 : Fin 2) * 64 + 1 * (y 0).val = (y 0).val; rw [e0]; omega
  | ⟨1, _⟩ => show win1_4.index t (1 : Fin 2) * 128 + 1 * (y 1).val = (y 1).val; rw [e1]; omega

/-! ## The weighted-sum output: where its blocks sit and which points cover the array -/

/-- An index of the [2, 64, 128] array is in point t's block iff each coordinate is in the block's range on its axis. -/
theorem aggBlk_mem (t : Fin cfg1.N) (i : S2x64x128.Idx) :
    i ∈ ((cfg1.win 5).blk t).view.set ↔ ∀ a : Fin 3, win1_5.index t a * S1x64x128.size a ≤ (i a).val
      ∧ (i a).val < win1_5.index t a * S1x64x128.size a + S1x64x128.size a := by
  show i ∈ ((View.whole main_v9_0).slice (win1_5.rect t)).set ↔ _
  rw [View.set_slice_whole, Rect.mem_set_unit]
  exact Iff.rfl

/-- An index of the array is in point t's block iff its slab is t / 10. -/
theorem aggBlk_mem_iff (t : Fin cfg1.N) (i : S2x64x128.Idx) :
    i ∈ ((cfg1.win 5).blk t).view.set ↔ (i 0).val = t.val / 10 := by
  rw [aggBlk_mem]
  obtain ⟨e0, e1, e2⟩ := aggIndex t
  constructor
  · intro h
    have b0 : win1_5.index t (0 : Fin 3) * 1 ≤ (i 0).val ∧ (i 0).val < win1_5.index t (0 : Fin 3) * 1 + 1 := h 0
    omega
  · intro h a
    have h1 : (i 1).val < 64 := (i 1).isLt
    have h2 : (i 2).val < 128 := (i 2).isLt
    match a with
    | ⟨0, _⟩ => show win1_5.index t (0 : Fin 3) * 1 ≤ (i 0).val ∧ (i 0).val < win1_5.index t (0 : Fin 3) * 1 + 1; omega
    | ⟨1, _⟩ => show win1_5.index t (1 : Fin 3) * 64 ≤ (i 1).val ∧ (i 1).val < win1_5.index t (1 : Fin 3) * 64 + 64; omega
    | ⟨2, _⟩ => show win1_5.index t (2 : Fin 3) * 128 ≤ (i 2).val ∧ (i 2).val < win1_5.index t (2 : Fin 3) * 128 + 128; omega

/-- Index (h, k, d) is in point t's block iff h = t / 10. -/
theorem aggBlk_mem_ix3 (t : Fin cfg1.N) (h : Fin 2) (k : Fin 64) (d : Fin 128) :
    ix3 h k d ∈ ((cfg1.win 5).blk t).view.set ↔ h.val = t.val / 10 :=
  aggBlk_mem_iff t (ix3 h k d)

/-- The slab of point t is one of the two. -/
theorem slab_lt (t : Fin cfg1.N) : t.val / 10 < 2 := by
  have hN : cfg1.N = 20 := N_1
  have := t.isLt
  omega

/-- Element y of point t's block sits in the array at slab t / 10, at y's own row and column. -/
theorem aggBlk_emb_val (t : Fin cfg1.N) (y : S1x64x128.Idx) :
    ((((cfg1.win 5).blk t).view.emb y : S2x64x128.Idx) 0).val = t.val / 10
      ∧ ((((cfg1.win 5).blk t).view.emb y : S2x64x128.Idx) 1).val = (y 1).val
      ∧ ((((cfg1.win 5).blk t).view.emb y : S2x64x128.Idx) 2).val = (y 2).val := by
  obtain ⟨e0, e1, e2⟩ := aggIndex t
  have hy : (y 0).val < 1 := (y 0).isLt
  refine ⟨?_, ?_, ?_⟩
  · show win1_5.index t (0 : Fin 3) * 1 + 1 * (y 0).val = t.val / 10; omega
  · show win1_5.index t (1 : Fin 3) * 64 + 1 * (y 1).val = (y 1).val; omega
  · show win1_5.index t (2 : Fin 3) * 128 + 1 * (y 2).val = (y 2).val; omega

/-- Element (u, k, d) of point t's block sits in the array at (t / 10, k, d). -/
theorem aggBlk_emb (t : Fin cfg1.N) (u : Fin 1) (k : Fin 64) (d : Fin 128) :
    (((cfg1.win 5).blk t).view.emb (ix3 u k d) : S2x64x128.Idx) = ix3 (⟨t.val / 10, slab_lt t⟩ : Fin 2) k d := by
  obtain ⟨h0, h1, h2⟩ := aggBlk_emb_val t (ix3 u k d)
  funext a; apply Fin.ext
  match a with
  | ⟨0, _⟩ => exact h0
  | ⟨1, _⟩ => exact h1
  | ⟨2, _⟩ => exact h2

/-- Every index of the array is in the block of the point that closes its slab's row of the grid, which is written
    back. -/
theorem aggCover (i : S2x64x128.Idx) :
    ∃ t : Fin cfg1.N, (cfg1.win 5).flush t = true ∧ i ∈ ((cfg1.win 5).blk t).view.set := by
  have hN : cfg1.N = 20 := N_1
  have hi : (i 0).val < 2 := (i 0).isLt
  refine ⟨⟨10 * (i 0).val + 9, by omega⟩, (flush1_5 _).mpr ?_, ?_⟩
  · show (10 * (i 0).val + 9) % 10 = 9; omega
  · rw [aggBlk_mem_iff]
    show (i 0).val = (10 * (i 0).val + 9) / 10; omega

/-! ## The weight output: where its blocks sit and which points cover the array -/

/-- An index of the [2, 1, 64] array is in point t's block iff each coordinate is in the block's range on its axis. -/
theorem massBlk_mem (t : Fin cfg1.N) (i : S2x1x64.Idx) :
    i ∈ ((cfg1.win 6).blk t).view.set ↔ ∀ a : Fin 3, win1_6.index t a * S1x1x64.size a ≤ (i a).val
      ∧ (i a).val < win1_6.index t a * S1x1x64.size a + S1x1x64.size a := by
  show i ∈ ((View.whole main_v9_1).slice (win1_6.rect t)).set ↔ _
  rw [View.set_slice_whole, Rect.mem_set_unit]
  exact Iff.rfl

/-- An index of the array is in point t's block iff its slab is t / 10. -/
theorem massBlk_mem_iff (t : Fin cfg1.N) (i : S2x1x64.Idx) :
    i ∈ ((cfg1.win 6).blk t).view.set ↔ (i 0).val = t.val / 10 := by
  rw [massBlk_mem]
  obtain ⟨e0, e1, e2⟩ := massIndex t
  constructor
  · intro h
    have b0 : win1_6.index t (0 : Fin 3) * 1 ≤ (i 0).val ∧ (i 0).val < win1_6.index t (0 : Fin 3) * 1 + 1 := h 0
    omega
  · intro h a
    have h1 : (i 1).val < 1 := (i 1).isLt
    have h2 : (i 2).val < 64 := (i 2).isLt
    match a with
    | ⟨0, _⟩ => show win1_6.index t (0 : Fin 3) * 1 ≤ (i 0).val ∧ (i 0).val < win1_6.index t (0 : Fin 3) * 1 + 1; omega
    | ⟨1, _⟩ => show win1_6.index t (1 : Fin 3) * 1 ≤ (i 1).val ∧ (i 1).val < win1_6.index t (1 : Fin 3) * 1 + 1; omega
    | ⟨2, _⟩ => show win1_6.index t (2 : Fin 3) * 64 ≤ (i 2).val ∧ (i 2).val < win1_6.index t (2 : Fin 3) * 64 + 64; omega

/-- Index (h, u, k) is in point t's block iff h = t / 10. -/
theorem massBlk_mem_ix3 (t : Fin cfg1.N) (h : Fin 2) (u : Fin 1) (k : Fin 64) :
    ix3 h u k ∈ ((cfg1.win 6).blk t).view.set ↔ h.val = t.val / 10 :=
  massBlk_mem_iff t (ix3 h u k)

/-- Element y of point t's block sits in the array at slab t / 10, at y's own column. -/
theorem massBlk_emb_val (t : Fin cfg1.N) (y : S1x1x64.Idx) :
    ((((cfg1.win 6).blk t).view.emb y : S2x1x64.Idx) 0).val = t.val / 10
      ∧ ((((cfg1.win 6).blk t).view.emb y : S2x1x64.Idx) 1).val = (y 1).val
      ∧ ((((cfg1.win 6).blk t).view.emb y : S2x1x64.Idx) 2).val = (y 2).val := by
  obtain ⟨e0, e1, e2⟩ := massIndex t
  have hy : (y 0).val < 1 := (y 0).isLt
  refine ⟨?_, ?_, ?_⟩
  · show win1_6.index t (0 : Fin 3) * 1 + 1 * (y 0).val = t.val / 10; omega
  · show win1_6.index t (1 : Fin 3) * 1 + 1 * (y 1).val = (y 1).val; omega
  · show win1_6.index t (2 : Fin 3) * 64 + 1 * (y 2).val = (y 2).val; omega

/-- Element (u, v, k) of point t's block sits in the array at (t / 10, v, k). -/
theorem massBlk_emb (t : Fin cfg1.N) (u : Fin 1) (v : Fin 1) (k : Fin 64) :
    (((cfg1.win 6).blk t).view.emb (ix3 u v k) : S2x1x64.Idx) = ix3 (⟨t.val / 10, slab_lt t⟩ : Fin 2) v k := by
  obtain ⟨h0, h1, h2⟩ := massBlk_emb_val t (ix3 u v k)
  funext a; apply Fin.ext
  match a with
  | ⟨0, _⟩ => exact h0
  | ⟨1, _⟩ => exact h1
  | ⟨2, _⟩ => exact h2

/-- Every index of the array is in the block of the point that closes its slab's row of the grid, which is written
    back. -/
theorem massCover (i : S2x1x64.Idx) :
    ∃ t : Fin cfg1.N, (cfg1.win 6).flush t = true ∧ i ∈ ((cfg1.win 6).blk t).view.set := by
  have hN : cfg1.N = 20 := N_1
  have hi : (i 0).val < 2 := (i 0).isLt
  refine ⟨⟨10 * (i 0).val + 9, by omega⟩, (flush1_6 _).mpr ?_, ?_⟩
  · show (10 * (i 0).val + 9) % 10 = 9; omega
  · rw [massBlk_mem_iff]
    show (i 0).val = (10 * (i 0).val + 9) / 10; omega

end Cert.KernelIdeal.Agg

end
-- ==== Proof.AggValue.lean ====
/- The value of region 1's first output array at the ideal instance. The aggregation kernel visits the 20 tiles of
   the points in order, ten per half of the grid. After a point its 64 × 128 running sum holds, at (k, d), the sum
   over the tiles of the point's half seen so far, and over each tile's 10000 rows, of the row's soft assignment to
   cluster k times the row's feature d divided by the column norm; the last point of each half copies the sum to
   slab h of the [2, 64, 128] output array. So the array ends holding, at (h, k, d), that sum over the ten tiles of
   half h. -/
import proofs.«111807_j45552423141540_2_alg».proof.Proof.AggPieces
import proofs.«111807_j45552423141540_2_alg».proof.Proof.AggBlocks
import proofs.«111807_j45552423141540_2_alg».proof.Proof.TilePayloads
import proofs.«111807_j45552423141540_2_alg».proof.Proof.VladSpec
import Idealize.ShloMosaic.Lib.Pipeline.Value

set_option maxRecDepth 16384

noncomputable section

open scoped BigOperators

namespace Cert.KernelIdeal.Agg

open Idealize.ShloMosaic Idealize.ShloMosaic.TcCoe Idealize.ShloMosaic.ValueIdx
open Idealize.SL Idealize.SL.Sem
open Idealize.ShloMosaic.Pipeline (Dat)
open Cert.KernelIdeal.Gen Cert.KernelIdeal.Tile

variable (V : (c : Dev nD) → (b : Ref sig .tc) → Buf (Elt Ideal) ((c : Thread nD τ).loc b))

/-! ## One step, entry by entry -/

/-- One tile's contribution to entry (k, d): the sum over the tile's rows of the row's assignment to cluster k
    times the row's feature d over the column norm. -/
def aggCol (x0 : Vec Ideal S10000x128 .f32) (x1 : Vec Ideal S1x128 .f32) (x2 : Vec Ideal S128x64 .f32) (x3 : Vec Ideal S1x64 .f32) (k : Fin 64) (d : Fin 128) : EReal :=
  ∑ r : Fin 10000, Cert.Vlad.assign (wOf x2) (bOf x3) (normOf x1) (rowOf x0 r) k * Cert.Vlad.unitRow (normOf x1) (rowOf x0 r) d

/-- A half's first step leaves the tile's contribution (zero plus it). -/
theorem aggFirst_at (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i)
    (x0 : Vec Ideal S10000x128 .f32) (x1 : Vec Ideal S1x128 .f32) (x2 : Vec Ideal S128x64 .f32) (x3 : Vec Ideal S1x64 .f32)  (k : Fin 64) (d : Fin 128) :
    (sout_first_0 (F := Ideal) c i arg2 harg2 arg3 harg3 arg4 harg4 arg5 harg5 arg6 harg6 arg7 harg7 arg8 harg8 arg9 harg9 arg10 harg10 hc0 hc2 x0 x1 x2 x3 : Vec Ideal S64x128 .f32) (ix2 k d) = aggCol x0 x1 x2 x3 k d := by
  rw [sout_first_0_eq]
  refine (agg_tile x0 x1 x2 x3 (k1_pay4 (F := Ideal)) k d).trans ?_
  rw [zeroAgg_apply k d, zero_add]
  rfl

/-- A step inside a half adds it to what the running sum held. -/
theorem aggMid_at (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i)
    (x0 : Vec Ideal S10000x128 .f32) (x1 : Vec Ideal S1x128 .f32) (x2 : Vec Ideal S128x64 .f32) (x3 : Vec Ideal S1x64 .f32) (xs0 : Vec Ideal S64x128 .f32) (xs1 : Vec Ideal S1x64 .f32) (k : Fin 64) (d : Fin 128) :
    (sout_mid_0 (F := Ideal) c i arg2 harg2 arg3 harg3 arg4 harg4 arg5 harg5 arg6 harg6 arg7 harg7 arg8 harg8 arg9 harg9 arg10 harg10 hc0 hc2 x0 x1 x2 x3 xs0 xs1 : Vec Ideal S64x128 .f32) (ix2 k d) = xs0 (ix2 k d) + aggCol x0 x1 x2 x3 k d := by
  rw [sout_mid_0_eq]
  exact agg_tile x0 x1 x2 x3 xs0 k d

/-- So does a half's last step, -/
theorem aggLast_at (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec Ideal S10000x128 .f32) (x1 : Vec Ideal S1x128 .f32) (x2 : Vec Ideal S128x64 .f32) (x3 : Vec Ideal S1x64 .f32) (xs0 : Vec Ideal S64x128 .f32) (xs1 : Vec Ideal S1x64 .f32) (k : Fin 64) (d : Fin 128) :
    (sout_last_0 (F := Ideal) c i arg2 harg2 arg3 harg3 arg4 harg4 arg5 harg5 arg6 harg6 arg7 harg7 arg8 harg8 arg9 harg9 arg10 harg10 hc0 hc2 x0 x1 x2 x3 xs0 xs1 : Vec Ideal S64x128 .f32) (ix2 k d) = xs0 (ix2 k d) + aggCol x0 x1 x2 x3 k d := by
  rw [sout_last_0_eq]
  exact agg_tile x0 x1 x2 x3 xs0 k d

/-- which also copies the new sum to the output block. -/
theorem aggOut_at (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i)
    (x0 : Vec Ideal S10000x128 .f32) (x1 : Vec Ideal S1x128 .f32) (x2 : Vec Ideal S128x64 .f32) (x3 : Vec Ideal S1x64 .f32) (xs0 : Vec Ideal S64x128 .f32) (xs1 : Vec Ideal S1x64 .f32) (k : Fin 64) (d : Fin 128) :
    (out_last_5 (F := Ideal) c i arg2 harg2 arg3 harg3 arg4 harg4 arg5 harg5 arg6 harg6 arg7 harg7 arg8 harg8 arg9 harg9 arg10 harg10 hc0 hc2 x0 x1 x2 x3 xs0 xs1 : Vec Ideal S1x64x128 .f32) (ix3 (0 : Fin 1) k d) = xs0 (ix2 k d) + aggCol x0 x1 x2 x3 k d := by
  rw [out_last_5_eq]
  refine (agg_out (k1_pay8 (F := Ideal) x0 x1 x2 x3 xs0) k d).trans ?_
  exact agg_tile x0 x1 x2 x3 xs0 k d

/-! ## The running sum after every point -/

/-- Tile n's contribution to entry (k, d), from the arrays (zero past the 20 tiles: never consulted). -/
def aggTile (X : S200000x128.Idx → EReal) (ν : S1x128.Idx → EReal) (Wt : S128x64.Idx → EReal) (bb : S1x64.Idx → EReal)
    (k : Fin 64) (d : Fin 128) (n : ℕ) : EReal :=
  if h : n < 20 then ∑ r : Fin 10000, Cert.Vlad.assign (wOf Wt) (bOf bb) (normOf ν) (fun d' => X (ix2 (Cert.Vlad.row ⟨n, h⟩ r) d')) k
            * Cert.Vlad.unitRow (normOf ν) (fun d' => X (ix2 (Cert.Vlad.row ⟨n, h⟩ r) d')) d else 0

/-- Blocks that read the arrays — the points block tile n's rows, the others their whole arrays — contribute tile n's term. -/
theorem aggCol_of (x0 : Vec Ideal S10000x128 .f32) (x1 : Vec Ideal S1x128 .f32) (x2 : Vec Ideal S128x64 .f32) (x3 : Vec Ideal S1x64 .f32) (X : S200000x128.Idx → EReal) (ν : S1x128.Idx → EReal) (Wt : S128x64.Idx → EReal) (bb : S1x64.Idx → EReal)
    (n : ℕ) (hn : n < 20) (h0 : ∀ (r : Fin 10000) (d : Fin 128), x0 (ix2 r d) = X (ix2 (Cert.Vlad.row ⟨n, hn⟩ r) d))
    (h1 : x1 = ν) (h2 : x2 = Wt) (h3 : x3 = bb) (k : Fin 64) (d : Fin 128) :
    aggCol x0 x1 x2 x3 k d = aggTile X ν Wt bb k d n := by
  subst h1 h2 h3
  unfold aggCol aggTile
  rw [dif_pos hn]
  refine Finset.sum_congr rfl fun r _ => ?_
  have hr : rowOf x0 r = fun d' => X (ix2 (Cert.Vlad.row ⟨n, hn⟩ r) d') := funext fun d' => h0 r d'
  rw [hr]

/-- The blocks at point `t` contribute tile t's term. -/
theorem aggCol_tile (c : Dev nD) (X : S200000x128.Idx → EReal) (hX : (V c main_arg0 : S200000x128.Idx → EReal) = X) (ν : S1x128.Idx → EReal) (hν : (V c main_v6 : S1x128.Idx → EReal) = ν)
    (Wt : S128x64.Idx → EReal) (hW : (V c main_v7 : S128x64.Idx → EReal) = Wt) (bb : S1x64.Idx → EReal) (hb : (V c main_v8 : S1x64.Idx → EReal) = bb) (t : Fin cfg1.N) (k : Fin 64) (d : Fin 128) :
    aggCol (iblk V c 0 t) (iblk V c 1 t) (iblk V c 2 t) (iblk V c 3 t) k d = aggTile X ν Wt bb k d t.val :=
  aggCol_of (iblk V c 0 t) (iblk V c 1 t) (iblk V c 2 t) (iblk V c 3 t) X ν Wt bb t.val (lt_of_lt_of_eq t.isLt N_1)
    (fun r d => xTile_read V c t X hX r d) (norm_read V c t ν hν) (wt_read V c t Wt hW) (bias_read V c t bb hb) k d

/-- THE RUNNING SUM'S CLOSED FORM: after point n it holds, at (k, d), the contributions of the tiles of the point's
    half seen so far — tiles 10·(n / 10) … n. By induction on the point: a half's first point starts from zero, every
    other point adds its tile to what the point before left. -/
theorem agg_closed (c : Dev nD) (X : S200000x128.Idx → EReal) (hX : (V c main_arg0 : S200000x128.Idx → EReal) = X) (ν : S1x128.Idx → EReal) (hν : (V c main_v6 : S1x128.Idx → EReal) = ν)
    (Wt : S128x64.Idx → EReal) (hW : (V c main_v7 : S128x64.Idx → EReal) = Wt) (bb : S1x64.Idx → EReal) (hb : (V c main_v8 : S1x64.Idx → EReal) = bb) (k : Fin 64) (d : Fin 128) :
    ∀ (n : ℕ) (hn : n < cfg1.N), ((outsAt V c n hn).2.2.1 : Vec Ideal S64x128 .f32) (ix2 k d)
      = ∑ j ∈ Finset.range (n % 10 + 1), aggTile X ν Wt bb k d (10 * (n / 10) + j)
  | 0, hn => by
    have h0 : (⟨0, hn⟩ : Fin cfg1.N).val % 10 = 0 := rfl
    have hL : ¬condLast (grid1.coords (⟨0, hn⟩ : Fin cfg1.N)) := fun h => by have h9 := (hcondLast _).mp h; omega
    rw [outsAt_first V c ⟨0, hn⟩ h0]
    unfold firstAt
    dsimp only
    refine (aggFirst_at c (grid1.coords (⟨0, hn⟩ : Fin cfg1.N)) (ms0 (⟨0, hn⟩ : Fin cfg1.N)) (hs0 (⟨0, hn⟩ : Fin cfg1.N)) (ms1 (⟨0, hn⟩ : Fin cfg1.N)) (hs1 (⟨0, hn⟩ : Fin cfg1.N)) (ms2 (⟨0, hn⟩ : Fin cfg1.N)) (hs2 (⟨0, hn⟩ : Fin cfg1.N)) (ms3 (⟨0, hn⟩ : Fin cfg1.N)) (hs3 (⟨0, hn⟩ : Fin cfg1.N)) (ms4 (⟨0, hn⟩ : Fin cfg1.N)) (hs4 (⟨0, hn⟩ : Fin cfg1.N)) (ms5 (⟨0, hn⟩ : Fin cfg1.N)) (hs5 (⟨0, hn⟩ : Fin cfg1.N)) (ms6 (⟨0, hn⟩ : Fin cfg1.N)) (hs6 (⟨0, hn⟩ : Fin cfg1.N)) scM0 (Memref.isWhole_whole _) scM1 (Memref.isWhole_whole _) ((hcondFirst (⟨0, hn⟩ : Fin cfg1.N)).mpr h0) hL (iblk V c 0 (⟨0, hn⟩ : Fin cfg1.N)) (iblk V c 1 (⟨0, hn⟩ : Fin cfg1.N)) (iblk V c 2 (⟨0, hn⟩ : Fin cfg1.N)) (iblk V c 3 (⟨0, hn⟩ : Fin cfg1.N)) k d).trans ?_
    rw [aggCol_tile V c X hX ν hν Wt hW bb hb (⟨0, hn⟩ : Fin cfg1.N) k d]
    simp
  | n + 1, hn => by
    have hN : n + 1 < 20 := lt_of_lt_of_eq hn N_1
    by_cases h0 : (⟨n + 1, hn⟩ : Fin cfg1.N).val % 10 = 0
    · have hL : ¬condLast (grid1.coords (⟨n + 1, hn⟩ : Fin cfg1.N)) := fun h => by have h9 := (hcondLast _).mp h; omega
      rw [outsAt_first V c ⟨n + 1, hn⟩ h0]
      unfold firstAt
      dsimp only
      refine (aggFirst_at c (grid1.coords (⟨n + 1, hn⟩ : Fin cfg1.N)) (ms0 (⟨n + 1, hn⟩ : Fin cfg1.N)) (hs0 (⟨n + 1, hn⟩ : Fin cfg1.N)) (ms1 (⟨n + 1, hn⟩ : Fin cfg1.N)) (hs1 (⟨n + 1, hn⟩ : Fin cfg1.N)) (ms2 (⟨n + 1, hn⟩ : Fin cfg1.N)) (hs2 (⟨n + 1, hn⟩ : Fin cfg1.N)) (ms3 (⟨n + 1, hn⟩ : Fin cfg1.N)) (hs3 (⟨n + 1, hn⟩ : Fin cfg1.N)) (ms4 (⟨n + 1, hn⟩ : Fin cfg1.N)) (hs4 (⟨n + 1, hn⟩ : Fin cfg1.N)) (ms5 (⟨n + 1, hn⟩ : Fin cfg1.N)) (hs5 (⟨n + 1, hn⟩ : Fin cfg1.N)) (ms6 (⟨n + 1, hn⟩ : Fin cfg1.N)) (hs6 (⟨n + 1, hn⟩ : Fin cfg1.N)) scM0 (Memref.isWhole_whole _) scM1 (Memref.isWhole_whole _) ((hcondFirst (⟨n + 1, hn⟩ : Fin cfg1.N)).mpr h0) hL (iblk V c 0 (⟨n + 1, hn⟩ : Fin cfg1.N)) (iblk V c 1 (⟨n + 1, hn⟩ : Fin cfg1.N)) (iblk V c 2 (⟨n + 1, hn⟩ : Fin cfg1.N)) (iblk V c 3 (⟨n + 1, hn⟩ : Fin cfg1.N)) k d).trans ?_
      rw [aggCol_tile V c X hX ν hν Wt hW bb hb (⟨n + 1, hn⟩ : Fin cfg1.N) k d]
      have h0' : (n + 1) % 10 = 0 := h0
      have e : 10 * ((n + 1) / 10) + 0 = n + 1 := by omega
      rw [h0', Finset.sum_range_one, e]
    · have h0' : ¬(n + 1) % 10 = 0 := h0
      have hF : ¬condFirst (grid1.coords (⟨n + 1, hn⟩ : Fin cfg1.N)) := fun h => h0 ((hcondFirst _).mp h)
      have ih := agg_closed c X hX ν hν Wt hW bb hb k d n (Nat.lt_of_succ_lt hn)
      have e1 : n % 10 + 1 = (n + 1) % 10 := by omega
      have e2 : n / 10 = (n + 1) / 10 := by omega
      have e3 : 10 * ((n + 1) / 10) + (n + 1) % 10 = n + 1 := by omega
      have hprev : ((outsAt V c ((⟨n + 1, hn⟩ : Fin cfg1.N).val - 1) (Nat.lt_of_le_of_lt (Nat.sub_le _ _) (⟨n + 1, hn⟩ : Fin cfg1.N).isLt)).2.2.1 : Vec Ideal S64x128 .f32) (ix2 k d)
          = ∑ j ∈ Finset.range ((n + 1) % 10), aggTile X ν Wt bb k d (10 * ((n + 1) / 10) + j) := by
        show ((outsAt V c n _).2.2.1 : Vec Ideal S64x128 .f32) (ix2 k d) = _
        rw [ih, e1, e2]
      by_cases h9 : (⟨n + 1, hn⟩ : Fin cfg1.N).val % 10 = 9
      · rw [outsAt_last V c ⟨n + 1, hn⟩ h9]
        unfold lastAt
        dsimp only
        refine (aggLast_at c (grid1.coords (⟨n + 1, hn⟩ : Fin cfg1.N)) (ms0 (⟨n + 1, hn⟩ : Fin cfg1.N)) (hs0 (⟨n + 1, hn⟩ : Fin cfg1.N)) (ms1 (⟨n + 1, hn⟩ : Fin cfg1.N)) (hs1 (⟨n + 1, hn⟩ : Fin cfg1.N)) (ms2 (⟨n + 1, hn⟩ : Fin cfg1.N)) (hs2 (⟨n + 1, hn⟩ : Fin cfg1.N)) (ms3 (⟨n + 1, hn⟩ : Fin cfg1.N)) (hs3 (⟨n + 1, hn⟩ : Fin cfg1.N)) (ms4 (⟨n + 1, hn⟩ : Fin cfg1.N)) (hs4 (⟨n + 1, hn⟩ : Fin cfg1.N)) (ms5 (⟨n + 1, hn⟩ : Fin cfg1.N)) (hs5 (⟨n + 1, hn⟩ : Fin cfg1.N)) (ms6 (⟨n + 1, hn⟩ : Fin cfg1.N)) (hs6 (⟨n + 1, hn⟩ : Fin cfg1.N)) scM0 (Memref.isWhole_whole _) scM1 (Memref.isWhole_whole _) hF ((hcondLast (⟨n + 1, hn⟩ : Fin cfg1.N)).mpr h9) (iblk V c 0 (⟨n + 1, hn⟩ : Fin cfg1.N)) (iblk V c 1 (⟨n + 1, hn⟩ : Fin cfg1.N)) (iblk V c 2 (⟨n + 1, hn⟩ : Fin cfg1.N)) (iblk V c 3 (⟨n + 1, hn⟩ : Fin cfg1.N)) (outsAt V c ((⟨n + 1, hn⟩ : Fin cfg1.N).val - 1) (Nat.lt_of_le_of_lt (Nat.sub_le _ _) (⟨n + 1, hn⟩ : Fin cfg1.N).isLt)).2.2.1 (outsAt V c ((⟨n + 1, hn⟩ : Fin cfg1.N).val - 1) (Nat.lt_of_le_of_lt (Nat.sub_le _ _) (⟨n + 1, hn⟩ : Fin cfg1.N).isLt)).2.2.2 k d).trans ?_
        rw [aggCol_tile V c X hX ν hν Wt hW bb hb (⟨n + 1, hn⟩ : Fin cfg1.N) k d, hprev, Finset.sum_range_succ, e3]
      · rw [outsAt_mid V c ⟨n + 1, hn⟩ h0 h9]
        unfold midAt
        dsimp only
        refine (aggMid_at c (grid1.coords (⟨n + 1, hn⟩ : Fin cfg1.N)) (ms0 (⟨n + 1, hn⟩ : Fin cfg1.N)) (hs0 (⟨n + 1, hn⟩ : Fin cfg1.N)) (ms1 (⟨n + 1, hn⟩ : Fin cfg1.N)) (hs1 (⟨n + 1, hn⟩ : Fin cfg1.N)) (ms2 (⟨n + 1, hn⟩ : Fin cfg1.N)) (hs2 (⟨n + 1, hn⟩ : Fin cfg1.N)) (ms3 (⟨n + 1, hn⟩ : Fin cfg1.N)) (hs3 (⟨n + 1, hn⟩ : Fin cfg1.N)) (ms4 (⟨n + 1, hn⟩ : Fin cfg1.N)) (hs4 (⟨n + 1, hn⟩ : Fin cfg1.N)) (ms5 (⟨n + 1, hn⟩ : Fin cfg1.N)) (hs5 (⟨n + 1, hn⟩ : Fin cfg1.N)) (ms6 (⟨n + 1, hn⟩ : Fin cfg1.N)) (hs6 (⟨n + 1, hn⟩ : Fin cfg1.N)) scM0 (Memref.isWhole_whole _) scM1 (Memref.isWhole_whole _) hF (fun h => h9 ((hcondLast (⟨n + 1, hn⟩ : Fin cfg1.N)).mp h)) (iblk V c 0 (⟨n + 1, hn⟩ : Fin cfg1.N)) (iblk V c 1 (⟨n + 1, hn⟩ : Fin cfg1.N)) (iblk V c 2 (⟨n + 1, hn⟩ : Fin cfg1.N)) (iblk V c 3 (⟨n + 1, hn⟩ : Fin cfg1.N)) (outsAt V c ((⟨n + 1, hn⟩ : Fin cfg1.N).val - 1) (Nat.lt_of_le_of_lt (Nat.sub_le _ _) (⟨n + 1, hn⟩ : Fin cfg1.N).isLt)).2.2.1 (outsAt V c ((⟨n + 1, hn⟩ : Fin cfg1.N).val - 1) (Nat.lt_of_le_of_lt (Nat.sub_le _ _) (⟨n + 1, hn⟩ : Fin cfg1.N).isLt)).2.2.2 k d).trans ?_
        rw [aggCol_tile V c X hX ν hν Wt hW bb hb (⟨n + 1, hn⟩ : Fin cfg1.N) k d, hprev, Finset.sum_range_succ, e3]

/-- At the last point of a half the output block's staging buffer holds the new running sum: the half's total. -/
theorem aggOut_closed (c : Dev nD) (X : S200000x128.Idx → EReal) (hX : (V c main_arg0 : S200000x128.Idx → EReal) = X) (ν : S1x128.Idx → EReal) (hν : (V c main_v6 : S1x128.Idx → EReal) = ν)
    (Wt : S128x64.Idx → EReal) (hW : (V c main_v7 : S128x64.Idx → EReal) = Wt) (bb : S1x64.Idx → EReal) (hb : (V c main_v8 : S1x64.Idx → EReal) = bb) (k : Fin 64) (d : Fin 128)
    (t : Fin cfg1.N) (h9 : t.val % 10 = 9) :
    ((outsAt V c t.val t.isLt).1 : Vec Ideal S1x64x128 .f32) (ix3 (0 : Fin 1) k d)
      = ∑ j ∈ Finset.range 10, aggTile X ν Wt bb k d (10 * (t.val / 10) + j) := by
  have h0 : ¬t.val % 10 = 0 := by omega
  have hF : ¬condFirst (grid1.coords t) := fun h => h0 ((hcondFirst t).mp h)
  have hacc := agg_closed V c X hX ν hν Wt hW bb hb k d t.val t.isLt
  rw [outsAt_last V c t h9] at hacc ⊢
  unfold lastAt at hacc ⊢
  dsimp only at hacc ⊢
  rw [show t.val % 10 + 1 = 10 from by omega] at hacc
  refine Eq.trans ?_ hacc
  refine (aggOut_at c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hF ((hcondLast t).mpr h9) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2 k d).trans ?_
  exact (aggLast_at c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hF ((hcondLast t).mpr h9) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2 k d).symm

/-! ## The output array after the region -/

/-- Entry (k, d) summed over the rows of half h's ten tiles. -/
def aggHalfAt (X : S200000x128.Idx → EReal) (ν : S1x128.Idx → EReal) (Wt : S128x64.Idx → EReal) (bb : S1x64.Idx → EReal)
    (h : Fin 2) (k : Fin 64) (d : Fin 128) : EReal :=
  ∑ i : Fin 10, ∑ r : Fin 10000, Cert.Vlad.assign (wOf Wt) (bOf bb) (normOf ν) (fun d' => X (ix2 (Cert.Vlad.row (Cert.Vlad.tile h i) r) d')) k
            * Cert.Vlad.unitRow (normOf ν) (fun d' => X (ix2 (Cert.Vlad.row (Cert.Vlad.tile h i) r) d')) d

/-- What the [2, 64, 128] array ends holding: at (h, k, d), half h's sum for entry (k, d). -/
def aggHalf (X : S200000x128.Idx → EReal) (ν : S1x128.Idx → EReal) (Wt : S128x64.Idx → EReal) (bb : S1x64.Idx → EReal) : S2x64x128.Idx → EReal :=
  fun j => aggHalfAt X ν Wt bb ⟨(j 0).val, (j 0).isLt⟩ ⟨(j 1).val, (j 1).isLt⟩ ⟨(j 2).val, (j 2).isLt⟩

/-- A half's ten tiles, counted from the half's first tile, are tiles (h, 0) … (h, 9). -/
theorem aggHalf_sum (X : S200000x128.Idx → EReal) (ν : S1x128.Idx → EReal) (Wt : S128x64.Idx → EReal) (bb : S1x64.Idx → EReal)
    (k : Fin 64) (d : Fin 128) (h : Fin 2) :
    ∑ j ∈ Finset.range 10, aggTile X ν Wt bb k d (10 * h.val + j) = aggHalfAt X ν Wt bb h k d := by
  rw [Finset.sum_range]
  unfold aggHalfAt
  refine Finset.sum_congr rfl fun i _ => ?_
  have hk : 10 * h.val + i.val < 20 := by have := h.isLt; have := i.isLt; omega
  unfold aggTile
  rw [dif_pos hk]
  have e : (⟨10 * h.val + i.val, hk⟩ : Fin 20) = Cert.Vlad.tile h i :=
    Fin.ext (by show 10 * h.val + i.val = h.val * 10 + i.val; omega)
  rw [e]

/-- WHAT A HALF'S LAST POINT WRITES BACK is its block of `aggHalf`: slab t / 10 of the array. -/
theorem aggOut_flushed (c : Dev nD) (X : S200000x128.Idx → EReal) (hX : (V c main_arg0 : S200000x128.Idx → EReal) = X) (ν : S1x128.Idx → EReal) (hν : (V c main_v6 : S1x128.Idx → EReal) = ν)
    (Wt : S128x64.Idx → EReal) (hW : (V c main_v7 : S128x64.Idx → EReal) = Wt) (bb : S1x64.Idx → EReal) (hb : (V c main_v8 : S1x64.Idx → EReal) = bb)
    (t : Fin cfg1.N) (hf : (cfg1.win 5).flush t = true) :
    (dat (F := Ideal) V c).flushed 5 t = ((cfg1.win 5).blk t).view.read (Elt Ideal) (aggHalf X ν Wt bb) := by
  have h9 : t.val % 10 = 9 := (flush1_5 t).mp hf
  have ht : t.val < 20 := lt_of_lt_of_eq t.isLt N_1
  have hh : t.val / 10 < 2 := by omega
  obtain ⟨e0, e1, e2⟩ := aggIndex t
  show (cfg1.win 5).cut (grid1.coords t) ((dat (F := Ideal) V c).after 5 t) = _
  rw [after5]
  funext y
  rw [View.read_apply]
  have hy : (y : S1x64x128.Idx) = ix3 (0 : Fin 1) (y 1) (y 2) := by
    funext a
    match a with
    | ⟨0, _⟩ => exact Subsingleton.elim (α := Fin 1) _ _
    | ⟨1, _⟩ => rfl
    | ⟨2, _⟩ => rfl
  have a0 : ((((cfg1.win 5).blk t).view.emb y) 0).val = t.val / 10 := by
    show win1_5.index t (0 : Fin 3) * 1 + 1 * (y 0).val = t.val / 10
    have hy0 : (y 0).val < 1 := (y 0).isLt
    omega
  have a1 : ((((cfg1.win 5).blk t).view.emb y) 1).val = (y 1).val := by
    show win1_5.index t (1 : Fin 3) * 64 + 1 * (y 1).val = (y 1).val
    omega
  have a2 : ((((cfg1.win 5).blk t).view.emb y) 2).val = (y 2).val := by
    show win1_5.index t (2 : Fin 3) * 128 + 1 * (y 2).val = (y 2).val
    omega
  have key : ∀ (p p' : Fin 2) (q q' : Fin 64) (s s' : Fin 128), p = p' → q = q' → s = s' →
      aggHalfAt X ν Wt bb p q s = aggHalfAt X ν Wt bb p' q' s' := by
    intro p p' q q' s s' hp hq hs; subst hp hq hs; rfl
  show ((outsAt V c t.val t.isLt).1 : Vec Ideal S1x64x128 .f32) y = aggHalf X ν Wt bb (((cfg1.win 5).blk t).view.emb y)
  refine (congrArg ((outsAt V c t.val t.isLt).1 : Vec Ideal S1x64x128 .f32) hy).trans ?_
  refine (aggOut_closed V c X hX ν hν Wt hW bb hb (y 1) (y 2) t h9).trans ?_
  refine (aggHalf_sum X ν Wt bb (y 1) (y 2) ⟨t.val / 10, hh⟩).trans ?_
  exact (key _ _ _ _ _ _ (Fin.ext a0) (Fin.ext a1) (Fin.ext a2)).symm

/-- THE COVER: entry (h, k, d) of the array lies in the block the last point of half h — point 10·h + 9 — writes back. -/
theorem aggOut_covered (i : S2x64x128.Idx) :
    ∃ t : Fin cfg1.N, (cfg1.win 5).flush t = true ∧ i ∈ ((cfg1.win 5).blk t).view.set := by
  have hi0 : (i 0).val < 2 := (i 0).isLt
  have hi1 : (i 1).val < 64 := (i 1).isLt
  have hi2 : (i 2).val < 128 := (i 2).isLt
  have ht : 10 * (i 0).val + 9 < cfg1.N := by rw [show cfg1.N = 20 from N_1]; omega
  obtain ⟨e0, e1, e2⟩ := aggIndex ⟨10 * (i 0).val + 9, ht⟩
  have e0' : win1_5.index ⟨10 * (i 0).val + 9, ht⟩ (0 : Fin 3) = (10 * (i 0).val + 9) / 10 := e0
  refine ⟨⟨10 * (i 0).val + 9, ht⟩, (flush1_5 _).mpr (by show (10 * (i 0).val + 9) % 10 = 9; omega), ?_⟩
  show i ∈ ((View.whole main_v9_0).slice (win1_5.rect ⟨10 * (i 0).val + 9, ht⟩)).set
  rw [View.set_slice_whole, Rect.mem_set_unit]
  intro a
  match a with
  | ⟨0, _⟩ =>
    show win1_5.index ⟨10 * (i 0).val + 9, ht⟩ (0 : Fin 3) * 1 ≤ (i 0).val ∧ (i 0).val < win1_5.index ⟨10 * (i 0).val + 9, ht⟩ (0 : Fin 3) * 1 + 1
    omega
  | ⟨1, _⟩ =>
    show win1_5.index ⟨10 * (i 0).val + 9, ht⟩ (1 : Fin 3) * 64 ≤ (i 1).val ∧ (i 1).val < win1_5.index ⟨10 * (i 0).val + 9, ht⟩ (1 : Fin 3) * 64 + 64
    omega
  | ⟨2, _⟩ =>
    show win1_5.index ⟨10 * (i 0).val + 9, ht⟩ (2 : Fin 3) * 128 ≤ (i 2).val ∧ (i 2).val < win1_5.index ⟨10 * (i 0).val + 9, ht⟩ (2 : Fin 3) * 128 + 128
    omega

/-- THE ARRAY AFTER THE REGION: the two written-back blocks cover it, so it ends holding `aggHalf`. -/
theorem aggOut_array (c : Dev nD) (X : S200000x128.Idx → EReal) (hX : (V c main_arg0 : S200000x128.Idx → EReal) = X) (ν : S1x128.Idx → EReal) (hν : (V c main_v6 : S1x128.Idx → EReal) = ν)
    (Wt : S128x64.Idx → EReal) (hW : (V c main_v7 : S128x64.Idx → EReal) = Wt) (bb : S1x64.Idx → EReal) (hb : (V c main_v8 : S1x64.Idx → EReal) = bb) :
    (dat (F := Ideal) V c).arrAt 5 cfg1.N = aggHalf X ν Wt bb :=
  (dat (F := Ideal) V c).arrAt_eq_of_cover 5 (aggHalf X ν Wt bb) (fun t hf => aggOut_flushed V c X hX ν hν Wt hW bb hb t hf) aggOut_covered

/-- THE VALUE of region 1's first output: entry (h, k, d) is the sum, over the ten tiles of half h and each tile's
    10000 rows, of the row's soft assignment to cluster k times the row's feature d over the column norm. -/
theorem exit_agg (V : (c : Dev nD) → (b : Ref sig .tc) → Buf (Elt Ideal) ((c : Thread nD τ).loc b)) (c : Dev nD)
    (X : S200000x128.Idx → EReal) (hX : (V c main_arg0 : S200000x128.Idx → EReal) = X) (ν : S1x128.Idx → EReal) (hν : (V c main_v6 : S1x128.Idx → EReal) = ν)
    (Wt : S128x64.Idx → EReal) (hW : (V c main_v7 : S128x64.Idx → EReal) = Wt) (bb : S1x64.Idx → EReal) (hb : (V c main_v8 : S1x64.Idx → EReal) = bb) (h : Fin 2) (k : Fin 64) (d : Fin 128) :
    ((dat (F := Ideal) V c).arrAt 5 cfg1.N : S2x64x128.Idx → EReal) (ix3 h k d)
      = ∑ i : Fin 10, ∑ r : Fin 10000, Cert.Vlad.assign (wOf Wt) (bOf bb) (normOf ν) (fun d' => X (ix2 (Cert.Vlad.row (Cert.Vlad.tile h i) r) d')) k
            * Cert.Vlad.unitRow (normOf ν) (fun d' => X (ix2 (Cert.Vlad.row (Cert.Vlad.tile h i) r) d')) d :=
  (congrFun (aggOut_array V c X hX ν hν Wt hW bb hb) (ix3 h k d)).trans rfl

end Cert.KernelIdeal.Agg

end
-- ==== Proof.AggValueMass.lean ====
/- The value of region 1's second output array at the ideal instance: the clusters' total weights, half by half.
   The aggregation kernel visits the 20 tiles of x in order, ten per half; its 1x64 weight accumulator after a point
   holds, cluster by cluster, the sum of the soft assignments of the rows of the half's tiles seen so far, and the last
   point of each half copies it to row h of the [2,1,64] array. So the array ends holding, at (h, 0, k), the sum over
   the half's ten tiles and each tile's 10000 rows of the row's assignment to cluster k. -/
import proofs.«111807_j45552423141540_2_alg».proof.Proof.AggPieces
import proofs.«111807_j45552423141540_2_alg».proof.Proof.AggBlocks
import proofs.«111807_j45552423141540_2_alg».proof.Proof.TilePayloads
import proofs.«111807_j45552423141540_2_alg».proof.Proof.VladSpec
import Idealize.ShloMosaic.Lib.Pipeline.Value

set_option maxRecDepth 16384

noncomputable section

open scoped BigOperators

namespace Cert.KernelIdeal.Agg

open Idealize.ShloMosaic Idealize.ShloMosaic.TcCoe Idealize.ShloMosaic.ValueIdx
open Idealize.SL Idealize.SL.Sem
open Idealize.ShloMosaic.Pipeline (Dat)
open Cert.KernelIdeal.Gen Cert.KernelIdeal.Tile

variable (V : (c : Dev nD) → (b : Ref sig .tc) → Buf (Elt Ideal) ((c : Thread nD τ).loc b))

/-! ## One step, entry by entry -/

/-- The total assignment to cluster k of the 10000 rows of a tile, given the norms, weights and biases. -/
def massCol (x0 : Vec Ideal S10000x128 .f32) (x1 : Vec Ideal S1x128 .f32) (x2 : Vec Ideal S128x64 .f32) (x3 : Vec Ideal S1x64 .f32) (k : Fin 64) : EReal :=
  ∑ r : Fin 10000, Cert.Vlad.assign (wOf x2) (bOf x3) (normOf x1) (rowOf x0 r) k

/-- The weight row's step: what it held plus the tile's total assignments. -/
theorem mass_step (x0 : Vec Ideal S10000x128 .f32) (x1 : Vec Ideal S1x128 .f32) (x2 : Vec Ideal S128x64 .f32) (x3 : Vec Ideal S1x64 .f32) (v37 : Vec Ideal S1x64 .f32) (k : Fin 64) :
    k1_pay1 (F := Ideal) (k1_pay7 (F := Ideal) x0 x1 x2 x3) v37 (ix2 (0 : Fin 1) k)
      = v37 (ix2 (0 : Fin 1) k) + massCol x0 x1 x2 x3 k := by
  refine (mass_tile (k1_pay7 (F := Ideal) x0 x1 x2 x3) v37 k).trans ?_
  refine congrArg (fun s => v37 (ix2 (0 : Fin 1) k) + s) ?_
  exact Finset.sum_congr rfl fun r _ => assign_tile x0 x1 x2 x3 r k

/-- A half's first point leaves the tile's total assignments (zero plus them). -/
theorem massFirst_at (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : condFirst i) (hc2 : ¬condLast i) (x0 : Vec Ideal S10000x128 .f32) (x1 : Vec Ideal S1x128 .f32) (x2 : Vec Ideal S128x64 .f32) (x3 : Vec Ideal S1x64 .f32) (k : Fin 64) :
    (sout_first_1 (F := Ideal) c i arg2 harg2 arg3 harg3 arg4 harg4 arg5 harg5 arg6 harg6 arg7 harg7 arg8 harg8 arg9 harg9 arg10 harg10 hc0 hc2 x0 x1 x2 x3 : Vec Ideal S1x64 .f32) (ix2 (0 : Fin 1) k) = massCol x0 x1 x2 x3 k := by
  rw [sout_first_1_eq]
  refine (mass_step x0 x1 x2 x3 (k1_pay5 (F := Ideal)) k).trans ?_
  rw [zeroMass_apply k, zero_add]

/-- A point inside a half adds them to what the weight row held. -/
theorem massMid_at (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : ¬condLast i) (x0 : Vec Ideal S10000x128 .f32) (x1 : Vec Ideal S1x128 .f32) (x2 : Vec Ideal S128x64 .f32) (x3 : Vec Ideal S1x64 .f32) (xs0 : Vec Ideal S64x128 .f32) (xs1 : Vec Ideal S1x64 .f32) (k : Fin 64) :
    (sout_mid_1 (F := Ideal) c i arg2 harg2 arg3 harg3 arg4 harg4 arg5 harg5 arg6 harg6 arg7 harg7 arg8 harg8 arg9 harg9 arg10 harg10 hc0 hc2 x0 x1 x2 x3 xs0 xs1 : Vec Ideal S1x64 .f32) (ix2 (0 : Fin 1) k)
      = xs1 (ix2 (0 : Fin 1) k) + massCol x0 x1 x2 x3 k := by
  rw [sout_mid_1_eq]
  exact mass_step x0 x1 x2 x3 xs1 k

/-- So does a half's last point, -/
theorem massLast_at (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i) (x0 : Vec Ideal S10000x128 .f32) (x1 : Vec Ideal S1x128 .f32) (x2 : Vec Ideal S128x64 .f32) (x3 : Vec Ideal S1x64 .f32) (xs0 : Vec Ideal S64x128 .f32) (xs1 : Vec Ideal S1x64 .f32) (k : Fin 64) :
    (sout_last_1 (F := Ideal) c i arg2 harg2 arg3 harg3 arg4 harg4 arg5 harg5 arg6 harg6 arg7 harg7 arg8 harg8 arg9 harg9 arg10 harg10 hc0 hc2 x0 x1 x2 x3 xs0 xs1 : Vec Ideal S1x64 .f32) (ix2 (0 : Fin 1) k)
      = xs1 (ix2 (0 : Fin 1) k) + massCol x0 x1 x2 x3 k := by
  rw [sout_last_1_eq]
  exact mass_step x0 x1 x2 x3 xs1 k

/-- which also copies the new row to the output block. -/
theorem massOut_at (c : Dev nD) (i : grid1.Coords) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64x128 .f32) (harg7 : arg7.IsWhole) (arg8 : Memref sig .tc .vmem S1x1x64 .f32) (harg8 : arg8.IsWhole) (arg9 : Memref sig .tc .vmem S64x128 .f32) (harg9 : arg9.IsWhole) (arg10 : Memref sig .tc .vmem S1x64 .f32) (harg10 : arg10.IsWhole) (hc0 : ¬condFirst i) (hc2 : condLast i) (x0 : Vec Ideal S10000x128 .f32) (x1 : Vec Ideal S1x128 .f32) (x2 : Vec Ideal S128x64 .f32) (x3 : Vec Ideal S1x64 .f32) (xs0 : Vec Ideal S64x128 .f32) (xs1 : Vec Ideal S1x64 .f32) (k : Fin 64) :
    (out_last_6 (F := Ideal) c i arg2 harg2 arg3 harg3 arg4 harg4 arg5 harg5 arg6 harg6 arg7 harg7 arg8 harg8 arg9 harg9 arg10 harg10 hc0 hc2 x0 x1 x2 x3 xs0 xs1 : Vec Ideal S1x1x64 .f32) (ix3 (0 : Fin 1) (0 : Fin 1) k)
      = xs1 (ix2 (0 : Fin 1) k) + massCol x0 x1 x2 x3 k := by
  rw [out_last_6_eq]
  refine (mass_out (k1_pay1 (F := Ideal) (k1_pay7 (F := Ideal) x0 x1 x2 x3) xs1) k).trans ?_
  exact mass_step x0 x1 x2 x3 xs1 k

/-! ## The weight row after every point -/

/-- The total assignment to cluster k of the rows of tile n of x (zero past the 20 tiles: never consulted). -/
def tileMass (X : S200000x128.Idx → EReal) (ν : S1x128.Idx → EReal) (Wt : S128x64.Idx → EReal) (bb : S1x64.Idx → EReal)
    (k : Fin 64) (n : ℕ) : EReal :=
  if h : n < 20 then ∑ r : Fin 10000, Cert.Vlad.assign (wOf Wt) (bOf bb) (normOf ν) (fun d' => X (ix2 (Cert.Vlad.row ⟨n, h⟩ r) d')) k else 0

/-- The blocks at point `t` contribute tile t's total assignments: the x tile is tile t, the other three windows hold
    their whole arrays. -/
theorem massCol_tile (c : Dev nD) (X : S200000x128.Idx → EReal) (hX : (V c main_arg0 : S200000x128.Idx → EReal) = X) (ν : S1x128.Idx → EReal) (hν : (V c main_v6 : S1x128.Idx → EReal) = ν) (Wt : S128x64.Idx → EReal) (hW : (V c main_v7 : S128x64.Idx → EReal) = Wt) (bb : S1x64.Idx → EReal) (hb : (V c main_v8 : S1x64.Idx → EReal) = bb) (t : Fin cfg1.N) (k : Fin 64) :
    massCol (iblk V c 0 t) (iblk V c 1 t) (iblk V c 2 t) (iblk V c 3 t) k = tileMass X ν Wt bb k t.val := by
  have ht : t.val < 20 := lt_of_lt_of_eq t.isLt N_1
  unfold massCol tileMass
  rw [dif_pos ht, norm_read V c t ν hν, wt_read V c t Wt hW, bias_read V c t bb hb]
  refine Finset.sum_congr rfl fun r _ => ?_
  refine congrArg (fun row => Cert.Vlad.assign (wOf Wt) (bOf bb) (normOf ν) row k) ?_
  funext d'
  exact xTile_read V c t X hX r d'

/-- THE WEIGHT ROW'S CLOSED FORM: after point n it holds, for cluster k, the total assignment over the tiles of the
    point's half seen so far — tiles 10·(n / 10) … n. By induction on the point: a half's first point starts from
    the zero row, every other point adds its tile to what the point before left. -/
theorem mass_closed (c : Dev nD) (X : S200000x128.Idx → EReal) (hX : (V c main_arg0 : S200000x128.Idx → EReal) = X) (ν : S1x128.Idx → EReal) (hν : (V c main_v6 : S1x128.Idx → EReal) = ν) (Wt : S128x64.Idx → EReal) (hW : (V c main_v7 : S128x64.Idx → EReal) = Wt) (bb : S1x64.Idx → EReal) (hb : (V c main_v8 : S1x64.Idx → EReal) = bb) (k : Fin 64) :
    ∀ (n : ℕ) (hn : n < cfg1.N), ((outsAt V c n hn).2.2.2 : Vec Ideal S1x64 .f32) (ix2 (0 : Fin 1) k)
      = ∑ j ∈ Finset.range (n % 10 + 1), tileMass X ν Wt bb k (10 * (n / 10) + j)
  | 0, hn => by
    have h0 : (⟨0, hn⟩ : Fin cfg1.N).val % 10 = 0 := rfl
    rw [outsAt_first V c (⟨0, hn⟩ : Fin cfg1.N) h0]
    unfold firstAt
    dsimp only
    refine (massFirst_at c (grid1.coords (⟨0, hn⟩ : Fin cfg1.N)) (ms0 (⟨0, hn⟩ : Fin cfg1.N)) (hs0 (⟨0, hn⟩ : Fin cfg1.N)) (ms1 (⟨0, hn⟩ : Fin cfg1.N)) (hs1 (⟨0, hn⟩ : Fin cfg1.N)) (ms2 (⟨0, hn⟩ : Fin cfg1.N)) (hs2 (⟨0, hn⟩ : Fin cfg1.N)) (ms3 (⟨0, hn⟩ : Fin cfg1.N)) (hs3 (⟨0, hn⟩ : Fin cfg1.N)) (ms4 (⟨0, hn⟩ : Fin cfg1.N)) (hs4 (⟨0, hn⟩ : Fin cfg1.N)) (ms5 (⟨0, hn⟩ : Fin cfg1.N)) (hs5 (⟨0, hn⟩ : Fin cfg1.N)) (ms6 (⟨0, hn⟩ : Fin cfg1.N)) (hs6 (⟨0, hn⟩ : Fin cfg1.N)) scM0 (Memref.isWhole_whole _) scM1 (Memref.isWhole_whole _) ((hcondFirst (⟨0, hn⟩ : Fin cfg1.N)).mpr h0) (fun h => absurd ((hcondLast (⟨0, hn⟩ : Fin cfg1.N)).mp h) (by omega)) (iblk V c 0 (⟨0, hn⟩ : Fin cfg1.N)) (iblk V c 1 (⟨0, hn⟩ : Fin cfg1.N)) (iblk V c 2 (⟨0, hn⟩ : Fin cfg1.N)) (iblk V c 3 (⟨0, hn⟩ : Fin cfg1.N)) k).trans ?_
    rw [massCol_tile V c X hX ν hν Wt hW bb hb (⟨0, hn⟩ : Fin cfg1.N) k]
    simp
  | n + 1, hn => by
    have hN : n + 1 < 20 := lt_of_lt_of_eq hn N_1
    by_cases h0 : (⟨n + 1, hn⟩ : Fin cfg1.N).val % 10 = 0
    · rw [outsAt_first V c (⟨n + 1, hn⟩ : Fin cfg1.N) h0]
      unfold firstAt
      dsimp only
      refine (massFirst_at c (grid1.coords (⟨n + 1, hn⟩ : Fin cfg1.N)) (ms0 (⟨n + 1, hn⟩ : Fin cfg1.N)) (hs0 (⟨n + 1, hn⟩ : Fin cfg1.N)) (ms1 (⟨n + 1, hn⟩ : Fin cfg1.N)) (hs1 (⟨n + 1, hn⟩ : Fin cfg1.N)) (ms2 (⟨n + 1, hn⟩ : Fin cfg1.N)) (hs2 (⟨n + 1, hn⟩ : Fin cfg1.N)) (ms3 (⟨n + 1, hn⟩ : Fin cfg1.N)) (hs3 (⟨n + 1, hn⟩ : Fin cfg1.N)) (ms4 (⟨n + 1, hn⟩ : Fin cfg1.N)) (hs4 (⟨n + 1, hn⟩ : Fin cfg1.N)) (ms5 (⟨n + 1, hn⟩ : Fin cfg1.N)) (hs5 (⟨n + 1, hn⟩ : Fin cfg1.N)) (ms6 (⟨n + 1, hn⟩ : Fin cfg1.N)) (hs6 (⟨n + 1, hn⟩ : Fin cfg1.N)) scM0 (Memref.isWhole_whole _) scM1 (Memref.isWhole_whole _) ((hcondFirst (⟨n + 1, hn⟩ : Fin cfg1.N)).mpr h0) (fun h => absurd ((hcondLast (⟨n + 1, hn⟩ : Fin cfg1.N)).mp h) (by omega)) (iblk V c 0 (⟨n + 1, hn⟩ : Fin cfg1.N)) (iblk V c 1 (⟨n + 1, hn⟩ : Fin cfg1.N)) (iblk V c 2 (⟨n + 1, hn⟩ : Fin cfg1.N)) (iblk V c 3 (⟨n + 1, hn⟩ : Fin cfg1.N)) k).trans ?_
      rw [massCol_tile V c X hX ν hν Wt hW bb hb (⟨n + 1, hn⟩ : Fin cfg1.N) k]
      have h0' : (n + 1) % 10 = 0 := h0
      have e : 10 * ((n + 1) / 10) + 0 = n + 1 := by omega
      rw [h0', Finset.sum_range_one, e]
    · have h0' : ¬(n + 1) % 10 = 0 := h0
      have ih := mass_closed c X hX ν hν Wt hW bb hb k n (Nat.lt_of_succ_lt hn)
      have e1 : n % 10 + 1 = (n + 1) % 10 := by omega
      have e2 : n / 10 = (n + 1) / 10 := by omega
      have e3 : 10 * ((n + 1) / 10) + (n + 1) % 10 = n + 1 := by omega
      by_cases h9 : (⟨n + 1, hn⟩ : Fin cfg1.N).val % 10 = 9
      · rw [outsAt_last V c (⟨n + 1, hn⟩ : Fin cfg1.N) h9]
        unfold lastAt
        dsimp only
        refine (massLast_at c (grid1.coords (⟨n + 1, hn⟩ : Fin cfg1.N)) (ms0 (⟨n + 1, hn⟩ : Fin cfg1.N)) (hs0 (⟨n + 1, hn⟩ : Fin cfg1.N)) (ms1 (⟨n + 1, hn⟩ : Fin cfg1.N)) (hs1 (⟨n + 1, hn⟩ : Fin cfg1.N)) (ms2 (⟨n + 1, hn⟩ : Fin cfg1.N)) (hs2 (⟨n + 1, hn⟩ : Fin cfg1.N)) (ms3 (⟨n + 1, hn⟩ : Fin cfg1.N)) (hs3 (⟨n + 1, hn⟩ : Fin cfg1.N)) (ms4 (⟨n + 1, hn⟩ : Fin cfg1.N)) (hs4 (⟨n + 1, hn⟩ : Fin cfg1.N)) (ms5 (⟨n + 1, hn⟩ : Fin cfg1.N)) (hs5 (⟨n + 1, hn⟩ : Fin cfg1.N)) (ms6 (⟨n + 1, hn⟩ : Fin cfg1.N)) (hs6 (⟨n + 1, hn⟩ : Fin cfg1.N)) scM0 (Memref.isWhole_whole _) scM1 (Memref.isWhole_whole _) (fun h => absurd ((hcondFirst (⟨n + 1, hn⟩ : Fin cfg1.N)).mp h) (by omega)) ((hcondLast (⟨n + 1, hn⟩ : Fin cfg1.N)).mpr h9) (iblk V c 0 (⟨n + 1, hn⟩ : Fin cfg1.N)) (iblk V c 1 (⟨n + 1, hn⟩ : Fin cfg1.N)) (iblk V c 2 (⟨n + 1, hn⟩ : Fin cfg1.N)) (iblk V c 3 (⟨n + 1, hn⟩ : Fin cfg1.N)) (outsAt V c n (Nat.lt_of_succ_lt hn)).2.2.1 (outsAt V c n (Nat.lt_of_succ_lt hn)).2.2.2 k).trans ?_
        rw [ih, massCol_tile V c X hX ν hν Wt hW bb hb (⟨n + 1, hn⟩ : Fin cfg1.N) k, e1, e2, Finset.sum_range_succ, e3]
      · rw [outsAt_mid V c (⟨n + 1, hn⟩ : Fin cfg1.N) h0 h9]
        unfold midAt
        dsimp only
        refine (massMid_at c (grid1.coords (⟨n + 1, hn⟩ : Fin cfg1.N)) (ms0 (⟨n + 1, hn⟩ : Fin cfg1.N)) (hs0 (⟨n + 1, hn⟩ : Fin cfg1.N)) (ms1 (⟨n + 1, hn⟩ : Fin cfg1.N)) (hs1 (⟨n + 1, hn⟩ : Fin cfg1.N)) (ms2 (⟨n + 1, hn⟩ : Fin cfg1.N)) (hs2 (⟨n + 1, hn⟩ : Fin cfg1.N)) (ms3 (⟨n + 1, hn⟩ : Fin cfg1.N)) (hs3 (⟨n + 1, hn⟩ : Fin cfg1.N)) (ms4 (⟨n + 1, hn⟩ : Fin cfg1.N)) (hs4 (⟨n + 1, hn⟩ : Fin cfg1.N)) (ms5 (⟨n + 1, hn⟩ : Fin cfg1.N)) (hs5 (⟨n + 1, hn⟩ : Fin cfg1.N)) (ms6 (⟨n + 1, hn⟩ : Fin cfg1.N)) (hs6 (⟨n + 1, hn⟩ : Fin cfg1.N)) scM0 (Memref.isWhole_whole _) scM1 (Memref.isWhole_whole _) (fun h => h0 ((hcondFirst (⟨n + 1, hn⟩ : Fin cfg1.N)).mp h)) (fun h => h9 ((hcondLast (⟨n + 1, hn⟩ : Fin cfg1.N)).mp h)) (iblk V c 0 (⟨n + 1, hn⟩ : Fin cfg1.N)) (iblk V c 1 (⟨n + 1, hn⟩ : Fin cfg1.N)) (iblk V c 2 (⟨n + 1, hn⟩ : Fin cfg1.N)) (iblk V c 3 (⟨n + 1, hn⟩ : Fin cfg1.N)) (outsAt V c n (Nat.lt_of_succ_lt hn)).2.2.1 (outsAt V c n (Nat.lt_of_succ_lt hn)).2.2.2 k).trans ?_
        rw [ih, massCol_tile V c X hX ν hν Wt hW bb hb (⟨n + 1, hn⟩ : Fin cfg1.N) k, e1, e2, Finset.sum_range_succ, e3]

/-- At the last point of a half the weight output's staging buffer holds the weight row's new contents: the half's total. -/
theorem massOut_closed (c : Dev nD) (X : S200000x128.Idx → EReal) (hX : (V c main_arg0 : S200000x128.Idx → EReal) = X) (ν : S1x128.Idx → EReal) (hν : (V c main_v6 : S1x128.Idx → EReal) = ν) (Wt : S128x64.Idx → EReal) (hW : (V c main_v7 : S128x64.Idx → EReal) = Wt) (bb : S1x64.Idx → EReal) (hb : (V c main_v8 : S1x64.Idx → EReal) = bb) (k : Fin 64) (t : Fin cfg1.N) (h9 : t.val % 10 = 9) :
    ((outsAt V c t.val t.isLt).2.1 : Vec Ideal S1x1x64 .f32) (ix3 (0 : Fin 1) (0 : Fin 1) k)
      = ∑ j ∈ Finset.range 10, tileMass X ν Wt bb k (10 * (t.val / 10) + j) := by
  have hacc := mass_closed V c X hX ν hν Wt hW bb hb k t.val t.isLt
  rw [outsAt_last V c t h9] at hacc ⊢
  unfold lastAt at hacc ⊢
  dsimp only at hacc ⊢
  rw [show t.val % 10 + 1 = 10 from by omega] at hacc
  refine Eq.trans ?_ hacc
  refine (massOut_at c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => absurd ((hcondFirst t).mp h) (by omega)) ((hcondLast t).mpr h9) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2 k).trans ?_
  exact (massLast_at c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) (fun h => absurd ((hcondFirst t).mp h) (by omega)) ((hcondLast t).mpr h9) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2 k).symm

/-! ## The weight output array after the region -/

/-- The total assignment to cluster k of the rows of half h's ten tiles. -/
def halfMassAt (X : S200000x128.Idx → EReal) (ν : S1x128.Idx → EReal) (Wt : S128x64.Idx → EReal) (bb : S1x64.Idx → EReal)
    (h : Fin 2) (k : Fin 64) : EReal :=
  ∑ i : Fin 10, ∑ r : Fin 10000, Cert.Vlad.assign (wOf Wt) (bOf bb) (normOf ν) (fun d' => X (ix2 (Cert.Vlad.row (Cert.Vlad.tile h i) r) d')) k

/-- What the [2,1,64] array ends holding: at (h, 0, k), half h's total assignment to cluster k. -/
def halfMass (X : S200000x128.Idx → EReal) (ν : S1x128.Idx → EReal) (Wt : S128x64.Idx → EReal) (bb : S1x64.Idx → EReal) :
    S2x1x64.Idx → EReal :=
  fun j => halfMassAt X ν Wt bb ⟨(j 0).val, (j 0).isLt⟩ ⟨(j 2).val, (j 2).isLt⟩

/-- A half's ten tiles, counted from the half's first tile, are tiles (h, 0) … (h, 9). -/
theorem halfMass_sum (X : S200000x128.Idx → EReal) (ν : S1x128.Idx → EReal) (Wt : S128x64.Idx → EReal) (bb : S1x64.Idx → EReal)
    (k : Fin 64) (h : Fin 2) :
    ∑ j ∈ Finset.range 10, tileMass X ν Wt bb k (10 * h.val + j) = halfMassAt X ν Wt bb h k := by
  rw [Finset.sum_range]
  unfold halfMassAt
  refine Finset.sum_congr rfl fun i _ => ?_
  have hk : 10 * h.val + i.val < 20 := by have := h.isLt; have := i.isLt; omega
  unfold tileMass
  rw [dif_pos hk]
  have e : (⟨10 * h.val + i.val, hk⟩ : Fin 20) = Cert.Vlad.tile h i :=
    Fin.ext (by show 10 * h.val + i.val = h.val * 10 + i.val; omega)
  rw [e]

/-- WHAT A HALF'S LAST POINT WRITES BACK is its block of `halfMass`: row t / 10 of the array, all 64 clusters. -/
theorem mass_flushed (c : Dev nD) (X : S200000x128.Idx → EReal) (hX : (V c main_arg0 : S200000x128.Idx → EReal) = X) (ν : S1x128.Idx → EReal) (hν : (V c main_v6 : S1x128.Idx → EReal) = ν) (Wt : S128x64.Idx → EReal) (hW : (V c main_v7 : S128x64.Idx → EReal) = Wt) (bb : S1x64.Idx → EReal) (hb : (V c main_v8 : S1x64.Idx → EReal) = bb) (t : Fin cfg1.N) (hf : (cfg1.win 6).flush t = true) :
    (dat (F := Ideal) V c).flushed 6 t = ((cfg1.win 6).blk t).view.read (Elt Ideal) (halfMass X ν Wt bb) := by
  have h9 : t.val % 10 = 9 := (flush1_6 t).mp hf
  show (cfg1.win 6).cut (grid1.coords t) ((dat (F := Ideal) V c).after 6 t) = _
  rw [after6]
  funext y
  rw [View.read_apply]
  have hy : (y : S1x1x64.Idx) = ix3 (0 : Fin 1) (0 : Fin 1) (y 2) := by
    funext a
    match a with
    | ⟨0, _⟩ => exact Subsingleton.elim (α := Fin 1) _ _
    | ⟨1, _⟩ => exact Subsingleton.elim (α := Fin 1) _ _
    | ⟨2, _⟩ => rfl
  obtain ⟨a0, a1, a2⟩ := massBlk_emb_val t y
  show ((outsAt V c t.val t.isLt).2.1 : Vec Ideal S1x1x64 .f32) y = halfMass X ν Wt bb (((cfg1.win 6).blk t).view.emb y)
  refine (congrArg ((outsAt V c t.val t.isLt).2.1 : Vec Ideal S1x1x64 .f32) hy).trans ?_
  refine (massOut_closed V c X hX ν hν Wt hW bb hb (y 2) t h9).trans ?_
  refine (halfMass_sum X ν Wt bb (y 2) ⟨t.val / 10, slab_lt t⟩).trans ?_
  exact (congrArg₂ (halfMassAt X ν Wt bb) (Fin.ext a0) (Fin.ext a2)).symm

/-- THE ARRAY AFTER THE REGION: the two written-back blocks cover it, so it ends holding `halfMass`. -/
theorem exit_mass_array (c : Dev nD) (X : S200000x128.Idx → EReal) (hX : (V c main_arg0 : S200000x128.Idx → EReal) = X) (ν : S1x128.Idx → EReal) (hν : (V c main_v6 : S1x128.Idx → EReal) = ν) (Wt : S128x64.Idx → EReal) (hW : (V c main_v7 : S128x64.Idx → EReal) = Wt) (bb : S1x64.Idx → EReal) (hb : (V c main_v8 : S1x64.Idx → EReal) = bb) :
    (dat (F := Ideal) V c).arrAt 6 cfg1.N = halfMass X ν Wt bb :=
  (dat (F := Ideal) V c).arrAt_eq_of_cover 6 (halfMass X ν Wt bb) (fun t hf => mass_flushed V c X hX ν hν Wt hW bb hb t hf) massCover

/-- THE VALUE of region 1's weight output: entry (h, 0, k) is the sum, over the ten tiles of half h and each tile's
    10000 rows, of the row's soft assignment to cluster k. -/
theorem exit_mass (V : (c : Dev nD) → (b : Ref sig .tc) → Buf (Elt Ideal) ((c : Thread nD τ).loc b)) (c : Dev nD)
    (X : S200000x128.Idx → EReal) (hX : (V c main_arg0 : S200000x128.Idx → EReal) = X) (ν : S1x128.Idx → EReal) (hν : (V c main_v6 : S1x128.Idx → EReal) = ν) (Wt : S128x64.Idx → EReal) (hW : (V c main_v7 : S128x64.Idx → EReal) = Wt) (bb : S1x64.Idx → EReal) (hb : (V c main_v8 : S1x64.Idx → EReal) = bb) (h : Fin 2) (k : Fin 64) :
    ((dat (F := Ideal) V c).arrAt 6 cfg1.N : S2x1x64.Idx → EReal) (ix3 h (0 : Fin 1) k)
      = ∑ i : Fin 10, ∑ r : Fin 10000, Cert.Vlad.assign (wOf Wt) (bOf bb) (normOf ν) (fun d' => X (ix2 (Cert.Vlad.row (Cert.Vlad.tile h i) r) d')) k :=
  (congrFun (exit_mass_array V c X hX ν hν Wt hW bb hb) (ix3 h (0 : Fin 1) k)).trans rfl

end Cert.KernelIdeal.Agg

end
-- ==== Proof.KernelIsVlad.lean ====
/-
  The kernel program's result buffer ends at the pooled descriptor of its arguments: the two regions' exit values
  (the halves' column sums of squares; the halves' aggregates and masses) put into the reading of the fold.
-/
import proofs.«111807_j45552423141540_2_alg».proof.Proof.ResultIsVlad
import proofs.«111807_j45552423141540_2_alg».proof.Proof.WholeProgram
import proofs.«111807_j45552423141540_2_alg».proof.Proof.ColSqValue
import proofs.«111807_j45552423141540_2_alg».proof.Proof.AggValue
import proofs.«111807_j45552423141540_2_alg».proof.Proof.AggValueMass

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- At the ideal instance the fold's last contents at the result buffer are the specification of the launch arguments. -/
theorem kernel_is_vlad (c : Dev nD) :
    (W4 m (colsqHalf (F := Ideal)) aggHalf c (Proc.devRef .tc main_v32) : S1x64x128.Idx → EReal)
      = Cert.Vlad.G (m ((c.tc : Thread nD τ).loc main_arg0)) (m ((c.tc : Thread nD τ).loc main_arg1))
          (m ((c.tc : Thread nD τ).loc main_arg2)) (m ((c.tc : Thread nD τ).loc main_arg3)) :=
  result_is_vlad m colsqHalf aggHalf colsqOk aggOk c
    (fun V X hX h d => Cert.KernelIdeal.ColSq.exit_value V c X hX h d)
    (fun V X hX ν hν Wt hW bb hb h k d => Cert.KernelIdeal.Agg.exit_agg V c X hX ν hν Wt hW bb hb h k d)
    (fun V X hX ν hν Wt hW bb hb h k => Cert.KernelIdeal.Agg.exit_mass V c X hX ν hν Wt hW bb hb h k)

end Cert.KernelIdeal.Whole

end
-- ==== Proof.RefIsVladUnit.lean ====
/-
  The reference's scaled points.

  The reference first takes, for each of the 128 feature columns, the sum of squares over the 200000 points (from the
  zero word, which is 0), its square root, and the maximum of that with ε: the floored column norm. It broadcasts the
  row of norms over the points and divides. This module reads those stages at an index: entry (n, d) of the scaled
  array is row n of the points divided by the floored column norms, at feature d.
-/
import proofs.«111807_j45552423141540_2_alg».proof.Proof.Gen.ReferenceIdeal.Read
import proofs.«111807_j45552423141540_2_alg».proof.Proof.VladSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The points, the cluster weights, the biases and the centroids read by coordinates. -/
abbrev pts (x0 : (⟨S200000x128, .f32⟩ : BufTy).Contents (Elt Ideal)) : Fin 200000 → Fin 128 → EReal := fun n d => x0 (ix2 n d)
abbrev wts (x1 : (⟨S64x128, .f32⟩ : BufTy).Contents (Elt Ideal)) : Fin 64 → Fin 128 → EReal := fun k d => x1 (ix2 k d)
abbrev bias (x2 : (⟨S64, .f32⟩ : BufTy).Contents (Elt Ideal)) : Fin 64 → EReal := fun k => x2 (ix1 k)

variable (x0 : (⟨S200000x128, .f32⟩ : BufTy).Contents (Elt Ideal))

/-- The column sum of squares: the reference's reduction over the points, from the zero word. -/
theorem colSq_ref (d : Fin 128) : val_main_v1 (F := Ideal) x0 (ix1 d) = Cert.Vlad.colSq (pts x0) d := by
  rw [val_main_v1_apply, val_main_cst_apply, Ideal.ofBits_def, Ideal.ofBits_zero_f32, zero_add]
  refine Finset.sum_congr rfl fun n _ => ?_
  have e : idx_main_v1 (ix1 d) n = ix2 n d :=
    funext fun a => Fin.ext (by match a with | ⟨0, _⟩ => rfl | ⟨1, _⟩ => rfl)
  rw [e, val_main_v0_apply, Ideal.mulf_def]

/-- The floored column norm: square root of the column sum of squares, then the maximum with ε. -/
theorem colNorm_ref (d : Fin 128) :
    val_main_v5 (F := Ideal) x0 (ix2 (0 : Fin 1) d) = Cert.Vlad.colNorm (pts x0) d := by
  have e2 : idx_main_v2 (ix2 (0 : Fin 1) d) = ix1 d :=
    funext fun a => Fin.ext (by match a with | ⟨0, _⟩ => rfl)
  rw [val_main_v5_apply, val_main_v3_apply, val_main_v2_apply, e2, colSq_ref, val_main_v4_apply, val_main_cst_0_apply,
    Ideal.maximumf_def, Ideal.hostUnary_sqrt_def, Ideal.ofBits_def]
  rfl

/-- Entry (n, d) of the scaled array: row n divided by the floored column norms, at feature d. -/
theorem unitRow_ref (n : Fin 200000) (d : Fin 128) :
    val_main_v7 (F := Ideal) x0 (ix2 n d) = Cert.Vlad.unitRow (Cert.Vlad.colNorm (pts x0)) (pts x0 n) d := by
  have e6 : idx_main_v6 (ix2 n d) = ix2 (0 : Fin 1) d :=
    funext fun a => Fin.ext (by match a with | ⟨0, _⟩ => rfl | ⟨1, _⟩ => rfl)
  rw [val_main_v7_apply, val_main_v6_apply, e6, colNorm_ref, Ideal.hostDivf_def]
  rfl

end Cert.ReferenceIdeal.RefValue

end
-- ==== Proof.RefIsVladAssign.lean ====
/-
  The reference's soft assignment, one point at a time.

  From the scaled points the reference forms the affine scores (a product with the transposed cluster weights, plus the
  broadcast biases), takes each row's largest score (a fold of the maximum from -∞, then the maximum with -∞), subtracts
  it, exponentiates, sums each row from the zero word and divides. This module reads those stages at an index: each is
  the corresponding single-row function of the specification at row n of the points.
-/
import proofs.«111807_j45552423141540_2_alg».proof.Proof.Gen.ReferenceIdeal.Read
import proofs.«111807_j45552423141540_2_alg».proof.Proof.VladSpec
import proofs.«111807_j45552423141540_2_alg».proof.Proof.RefIsVladUnit

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S200000x128, .f32⟩ : BufTy).Contents (Elt Ideal)) (x1 : (⟨S64x128, .f32⟩ : BufTy).Contents (Elt Ideal))
  (x2 : (⟨S64, .f32⟩ : BufTy).Contents (Elt Ideal))

/-- Entry (n, k) of the scores: the affine score of scaled row n for cluster k. -/
theorem score_ref (n : Fin 200000) (k : Fin 64) :
    val_main_v12 (F := Ideal) x0 x1 x2 (ix2 n k)
      = Cert.Vlad.score (wts x1) (bias x2) (Cert.Vlad.colNorm (pts x0)) (pts x0 n) k := by
  have e11 : idx_main_v11 (ix2 n k) = ix2 (0 : Fin 1) k :=
    funext fun a => Fin.ext (by match a with | ⟨0, _⟩ => rfl | ⟨1, _⟩ => rfl)
  have e10 : idx_main_v10 (ix2 (0 : Fin 1) k) = ix1 k :=
    funext fun a => Fin.ext (by match a with | ⟨0, _⟩ => rfl)
  rw [val_main_v12_apply, val_main_v9_apply, val_main_v11_apply, e11, val_main_v10_apply, e10, Ideal.addf_def]
  unfold Cert.Vlad.score
  refine congrArg (· + x2 (ix1 k)) (Finset.sum_congr rfl fun j _ => ?_)
  have el : lidx_main_v9 (ix2 n k) j = ix2 n j :=
    funext fun a => Fin.ext (by match a with | ⟨0, _⟩ => rfl | ⟨1, _⟩ => rfl)
  have er : ridx_main_v9 (ix2 n k) j = ix2 j k :=
    funext fun a => Fin.ext (by match a with | ⟨0, _⟩ => rfl | ⟨1, _⟩ => rfl)
  have e8 : idx_main_v8 (ix2 j k) = ix2 k j :=
    funext fun a => Fin.ext (by match a with | ⟨0, _⟩ => rfl | ⟨1, _⟩ => rfl)
  rw [el, er, unitRow_ref, val_main_v8_apply, e8]

/-- Entry n of the row maxima: the largest score of scaled row n. -/
theorem top_ref (n : Fin 200000) :
    val_main_v15 (F := Ideal) x0 x1 x2 (ix1 n)
      = Cert.Vlad.top (wts x1) (bias x2) (Cert.Vlad.colNorm (pts x0)) (pts x0 n) := by
  have e13 : val_main_v13 (F := Ideal) x0 x1 x2 (ix1 n)
      = Cert.LibRowReduce.rowMax fun k : Fin 64 => val_main_v12 (F := Ideal) x0 x1 x2 (ix2 n k) := by
    unfold val_main_v13
    exact Cert.LibRowReduce.hostReduce_max_row (val_main_v12 (F := Ideal) x0 x1 x2) (val_main_cst_1 (F := Ideal))
      (fun i => val_main_cst_1_apply i) reducesTo_S200000x64_S200000_d1 (by decide) h_S_ n
  have es : (fun k : Fin 64 => val_main_v12 (F := Ideal) x0 x1 x2 (ix2 n k))
      = Cert.Vlad.score (wts x1) (bias x2) (Cert.Vlad.colNorm (pts x0)) (pts x0 n) :=
    funext fun k => score_ref x0 x1 x2 n k
  rw [val_main_v15_apply, val_main_v14_apply, val_main_cst_2_apply, e13, es, Ideal.maximumf_def, Ideal.ofBits_def]
  rfl

/-- Entry (n, k) of the exponentials: the exponential of the score shifted by the row's largest. -/
theorem expo_ref (n : Fin 200000) (k : Fin 64) :
    val_main_v19 (F := Ideal) x0 x1 x2 (ix2 n k)
      = Cert.Vlad.expo (wts x1) (bias x2) (Cert.Vlad.colNorm (pts x0)) (pts x0 n) k := by
  have e17 : idx_main_v17 (ix2 n k) = ix2 n (0 : Fin 1) :=
    funext fun a => Fin.ext (by match a with | ⟨0, _⟩ => rfl | ⟨1, _⟩ => rfl)
  have e16 : idx_main_v16 (ix2 n (0 : Fin 1)) = ix1 n :=
    funext fun a => Fin.ext (by match a with | ⟨0, _⟩ => rfl)
  rw [val_main_v19_apply, val_main_v18_apply, val_main_v17_apply, e17, val_main_v16_apply, e16, score_ref, top_ref,
    Ideal.hostUnary_exp_def, Ideal.subf_def]
  rfl

/-- Entry (n, k) of the soft assignment: the softmax weight of row n for cluster k. -/
theorem assign_ref (n : Fin 200000) (k : Fin 64) :
    val_main_v23 (F := Ideal) x0 x1 x2 (ix2 n k)
      = Cert.Vlad.assign (wts x1) (bias x2) (Cert.Vlad.colNorm (pts x0)) (pts x0 n) k := by
  have e22 : idx_main_v22 (ix2 n k) = ix2 n (0 : Fin 1) :=
    funext fun a => Fin.ext (by match a with | ⟨0, _⟩ => rfl | ⟨1, _⟩ => rfl)
  have e21 : idx_main_v21 (ix2 n (0 : Fin 1)) = ix1 n :=
    funext fun a => Fin.ext (by match a with | ⟨0, _⟩ => rfl)
  rw [val_main_v23_apply, val_main_v22_apply, e22, val_main_v21_apply, e21, val_main_v20_apply, val_main_cst_3_apply,
    Ideal.ofBits_def, Ideal.ofBits_zero_f32, zero_add, expo_ref, Ideal.hostDivf_def]
  unfold Cert.Vlad.assign
  refine congrArg (Ideal.div _) (Finset.sum_congr rfl fun k' _ => ?_)
  have e20 : idx_main_v20 (ix1 n) k' = ix2 n k' :=
    funext fun a => Fin.ext (by match a with | ⟨0, _⟩ => rfl | ⟨1, _⟩ => rfl)
  rw [e20, expo_ref]

end Cert.ReferenceIdeal.RefValue

end
-- ==== Proof.RefIsVlad.lean ====
/-
  The reference computes the pooled descriptor of the specification.

  With the soft assignment and the scaled points read row by row, the reference's remaining stages are sums over the
  200000 points (the product of the transposed assignment with the scaled points; the column sums of the assignment,
  from the zero word), the subtraction of the weighted centroids, and a second floored norm, this time over the 64
  clusters, by which the residual matrix is divided. Read at an index each stage is the specification's function of the
  same name, so the reference's result is the specification's array.
-/
import proofs.«111807_j45552423141540_2_alg».proof.Proof.Gen.ReferenceIdeal.Read
import proofs.«111807_j45552423141540_2_alg».proof.Proof.VladSpec
import proofs.«111807_j45552423141540_2_alg».proof.Proof.RefIsVladAssign

noncomputable section

open scoped BigOperators

namespace Cert.ReferenceIdeal.RefValue

open Cert.ReferenceIdeal Cert.ReferenceIdeal.Gen Cert.ReferenceIdeal.Read Idealize.ShloMosaic Idealize.ShloMosaic.ValueIdx

abbrev cens (x3 : (⟨S64x128, .f32⟩ : BufTy).Contents (Elt Ideal)) : Fin 64 → Fin 128 → EReal := fun k d => x3 (ix2 k d)

variable (x0 : (⟨S200000x128, .f32⟩ : BufTy).Contents (Elt Ideal)) (x1 : (⟨S64x128, .f32⟩ : BufTy).Contents (Elt Ideal))
  (x2 : (⟨S64, .f32⟩ : BufTy).Contents (Elt Ideal)) (x3 : (⟨S64x128, .f32⟩ : BufTy).Contents (Elt Ideal))

/-- Entry (k, d) of the product of the transposed assignment with the scaled points. -/
theorem agg_ref (k : Fin 64) (d : Fin 128) :
    val_main_v25 (F := Ideal) x0 x1 x2 (ix2 k d) = Cert.Vlad.agg (pts x0) (wts x1) (bias x2) k d := by
  rw [val_main_v25_apply]
  unfold Cert.Vlad.agg
  refine Finset.sum_congr rfl fun n _ => ?_
  have el : lidx_main_v25 (ix2 k d) n = ix2 k n :=
    funext fun a => Fin.ext (by match a with | ⟨0, _⟩ => rfl | ⟨1, _⟩ => rfl)
  have er : ridx_main_v25 (ix2 k d) n = ix2 n d :=
    funext fun a => Fin.ext (by match a with | ⟨0, _⟩ => rfl | ⟨1, _⟩ => rfl)
  have e24 : idx_main_v24 (ix2 k n) = ix2 n k :=
    funext fun a => Fin.ext (by match a with | ⟨0, _⟩ => rfl | ⟨1, _⟩ => rfl)
  rw [el, er, val_main_v24_apply, e24, assign_ref, unitRow_ref]

/-- Entry k of the column sums of the assignment: the total weight of cluster k. -/
theorem mass_ref (k : Fin 64) :
    val_main_v26 (F := Ideal) x0 x1 x2 (ix1 k) = Cert.Vlad.mass (pts x0) (wts x1) (bias x2) k := by
  rw [val_main_v26_apply, val_main_cst_4_apply, Ideal.ofBits_def, Ideal.ofBits_zero_f32, zero_add]
  unfold Cert.Vlad.mass
  refine Finset.sum_congr rfl fun n _ => ?_
  have e26 : idx_main_v26 (ix1 k) n = ix2 n k :=
    funext fun a => Fin.ext (by match a with | ⟨0, _⟩ => rfl | ⟨1, _⟩ => rfl)
  rw [e26, assign_ref]

/-- Entry (k, d) of the residual matrix. -/
theorem vlad_ref (k : Fin 64) (d : Fin 128) :
    val_main_v30 (F := Ideal) x0 x1 x2 x3 (ix2 k d) = Cert.Vlad.vlad (pts x0) (wts x1) (bias x2) (cens x3) k d := by
  have e28 : idx_main_v28 (ix2 k d) = ix2 k (0 : Fin 1) :=
    funext fun a => Fin.ext (by match a with | ⟨0, _⟩ => rfl | ⟨1, _⟩ => rfl)
  have e27 : idx_main_v27 (ix2 k (0 : Fin 1)) = ix1 k :=
    funext fun a => Fin.ext (by match a with | ⟨0, _⟩ => rfl)
  rw [val_main_v30_apply, val_main_v29_apply, val_main_v28_apply, e28, val_main_v27_apply, e27, agg_ref, mass_ref,
    Ideal.subf_def, Ideal.mulf_def]
  rfl

/-- The residual matrix under its leading unit axis. -/
theorem vlad3_ref (k : Fin 64) (d : Fin 128) :
    val_main_v31 (F := Ideal) x0 x1 x2 x3 (ix3 (0 : Fin 1) k d)
      = Cert.Vlad.vlad (pts x0) (wts x1) (bias x2) (cens x3) k d := by
  have e31 : idx_main_v31 (ix3 (0 : Fin 1) k d) = ix2 k d :=
    funext fun a => Fin.ext (by match a with | ⟨0, _⟩ => rfl | ⟨1, _⟩ => rfl)
  rw [val_main_v31_apply, e31, vlad_ref]

/-- The floored norm of column d of the residual matrix over the clusters. -/
theorem clusterNorm_ref (d : Fin 128) :
    val_main_v37 (F := Ideal) x0 x1 x2 x3 (ix3 (0 : Fin 1) (0 : Fin 1) d)
      = Cert.Vlad.clusterNorm (pts x0) (wts x1) (bias x2) (cens x3) d := by
  have e34 : idx_main_v34 (ix3 (0 : Fin 1) (0 : Fin 1) d) = ix2 (0 : Fin 1) d :=
    funext fun a => Fin.ext (by match a with | ⟨0, _⟩ => rfl | ⟨1, _⟩ => rfl)
  have e33 : val_main_v33 (F := Ideal) x0 x1 x2 x3 (ix2 (0 : Fin 1) d)
      = ∑ k : Fin 64, Cert.Vlad.vlad (pts x0) (wts x1) (bias x2) (cens x3) k d
          * Cert.Vlad.vlad (pts x0) (wts x1) (bias x2) (cens x3) k d := by
    rw [val_main_v33_apply, val_main_cst_5_apply, Ideal.ofBits_def, Ideal.ofBits_zero_f32, zero_add]
    refine Finset.sum_congr rfl fun k _ => ?_
    have e : idx_main_v33 (ix2 (0 : Fin 1) d) k = ix3 (0 : Fin 1) k d :=
      funext fun a => Fin.ext (by match a with | ⟨0, _⟩ => rfl | ⟨1, _⟩ => rfl | ⟨2, _⟩ => rfl)
    rw [e, val_main_v32_apply, vlad3_ref, Ideal.mulf_def]
  rw [val_main_v37_apply, val_main_v35_apply, val_main_v34_apply, e34, e33, val_main_v36_apply, val_main_cst_6_apply,
    Ideal.maximumf_def, Ideal.hostUnary_sqrt_def, Ideal.ofBits_def]
  rfl

/-- Entry (0, k, d) of the reference's result: the pooled descriptor. -/
theorem out_ref (k : Fin 64) (d : Fin 128) :
    val_main_v39 (F := Ideal) x0 x1 x2 x3 (ix3 (0 : Fin 1) k d)
      = Cert.Vlad.out (pts x0) (wts x1) (bias x2) (cens x3) k d := by
  have e38 : idx_main_v38 (ix3 (0 : Fin 1) k d) = ix3 (0 : Fin 1) (0 : Fin 1) d :=
    funext fun a => Fin.ext (by match a with | ⟨0, _⟩ => rfl | ⟨1, _⟩ => rfl | ⟨2, _⟩ => rfl)
  rw [val_main_v39_apply, vlad3_ref, val_main_v38_apply, e38, clusterNorm_ref, Ideal.hostDivf_def]
  rfl

/-- THE REFERENCE IS THE SPECIFICATION: its result array is the pooled descriptor of its four arguments. -/
theorem ref_is_vlad (x0 : (⟨S200000x128, .f32⟩ : BufTy).Contents (Elt Ideal))
    (x1 : (⟨S64x128, .f32⟩ : BufTy).Contents (Elt Ideal)) (x2 : (⟨S64, .f32⟩ : BufTy).Contents (Elt Ideal))
    (x3 : (⟨S64x128, .f32⟩ : BufTy).Contents (Elt Ideal)) :
    val_main_v39 (F := Ideal) x0 x1 x2 x3 = Cert.Vlad.G x0 x1 x2 x3 := by
  funext i
  obtain ⟨a, k, d, rfl⟩ : ∃ (a : Fin 1) (k : Fin 64) (d : Fin 128), i = ix3 a k d := ⟨i 0, i 1, i 2, eq_ix3 i⟩
  obtain rfl : a = 0 := Subsingleton.elim _ _
  exact out_ref x0 x1 x2 x3 k d

end Cert.ReferenceIdeal.RefValue

end
-- ==== Proof.lean ====
/-
  The certificate of a NetVLAD pooling kernel against its jnp reference, over the extended reals.

  Both programs compute, from points x[n, ·] (200000 × 128), cluster weights, biases and centroids: the points with every
  feature column scaled by its Euclidean norm over all points (floored at ε); each scaled point's softmax assignment to
  the 64 clusters; the assignment-weighted sum of the scaled points minus each centroid weighted by its cluster's total
  assignment; and that 64 × 128 matrix with every column scaled by its norm over the clusters (floored at ε). The kernel
  program makes two passes over the points, each as a grid of two halves of ten tiles of 10000 rows accumulated in a
  scratch buffer, and combines the halves on the host; the reference sums over all points at once. The two agree entry
  by entry because addition of extended reals is commutative and associative (Proof/VladHalves.lean); no finiteness of
  the inputs is used.

  The frames of the two kernel programs — every weakly fair execution terminates, nothing faults, the arguments end as
  launched — are proved over the two kernel regions' body obligations (Proof/ColSq.lean, Proof/Agg.lean and their
  word-level copies) and the run of @main's four segments (Proof/WholeRun.lean); the reference's frame is its run with
  the result dropped. The idealization rewrote nothing, so what it preserves is trivial.
-/
import proofs.«111807_j45552423141540_2_alg».proof.Defs
import proofs.«111807_j45552423141540_2_alg».proof.Proof.Gen.Kernel
import proofs.«111807_j45552423141540_2_alg».proof.Proof.Gen.KernelIdeal
import proofs.«111807_j45552423141540_2_alg».proof.Proof.Gen.ReferenceIdeal
import proofs.«111807_j45552423141540_2_alg».proof.Proof.Gen.Pre_finite_inputs
import proofs.«111807_j45552423141540_2_alg».proof.Proof.Gen.ReferenceIdeal.Run
import proofs.«111807_j45552423141540_2_alg».proof.Proof.WordWholeProgram
import proofs.«111807_j45552423141540_2_alg».proof.Proof.KernelIsVlad
import proofs.«111807_j45552423141540_2_alg».proof.Proof.RefIsVlad
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m g _ => Cert.Kernel.Whole.program_frame m g

/-- The idealized kernel program likewise. -/
theorem frame_kernelIdeal : Cert.frame_KernelIdeal := fun m g _ => Cert.KernelIdeal.Whole.program_frame m g

/-- The reference's frame is its run with the result dropped. -/
theorem frame_reference : Cert.frame_ReferenceIdeal := fun m g _ =>
  (θ_run Cert.ReferenceIdeal.defs _ _).mono (fun _ h c => (h c).2) (Cert.ReferenceIdeal.Value.run (F := Ideal) m g)

/-- From memories agreeing on the arguments both programs end with the pooled descriptor of the arguments in their
    result buffers: the kernel program by its run and the reading of its two regions and two host stretches, the
    reference by its run and its operations read one at a time. -/
theorem algebraic : Cert.algebraic_KernelIdeal_ReferenceIdeal := by
  intro m g m' g' _ hagree
  refine ⟨fun c => Cert.Vlad.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Whole.kernel_is_vlad m c), (h c).2⟩)
      (Cert.KernelIdeal.Whole.program_run m g)
  · refine (θ_run Cert.ReferenceIdeal.defs _ _).mono (fun _ h c => ⟨(h c).1.trans ?_, (h c).2⟩)
      (Cert.ReferenceIdeal.Value.run (F := Ideal) m' g')
    rw [Cert.ReferenceIdeal.Read.val_main_v39_eq, Cert.ReferenceIdeal.RefValue.ref_is_vlad,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
